-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.named_const.Statement Cert.KernelIdeal.κ "inv_127" .f32 0x3C010204#32 ((1 / 127 : ℝ) : EReal)
  ∧ IdealRules.named_const.Statement Cert.KernelIdeal.κ "inv_127" .f32 0x3C010204#32 ((1 / 127 : ℝ) : EReal)
  ∧ IdealRules.named_const.Statement Cert.KernelIdeal.κ "inv_127" .f32 0x3C010204#32 ((1 / 127 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v50)) (v1 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_v51) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S1x1x2048 : Shape := ⟨3, ![1, 1, 2048]⟩
abbrev S8192x2048 : Shape := ⟨2, ![8192, 2048]⟩
abbrev S2048 : Shape := ⟨1, ![2048]⟩
abbrev S2048x2048 : Shape := ⟨2, ![2048, 2048]⟩
abbrev S2048x8192 : Shape := ⟨2, ![2048, 8192]⟩
abbrev S8192 : Shape := ⟨1, ![8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S1x1x2048 : S_.BroadcastsInDim S1x1x2048 (![] : Fin 0 → Fin S1x1x2048.rank)
  reducesTo_S1x1x2048_S_d0_1_2 : S1x1x2048.ReducesTo [0, 1, 2] S_
  bcast_S_S8192x2048 : S_.BroadcastsInDim S8192x2048 (![] : Fin 0 → Fin S8192x2048.rank)
  reducesTo_S8192x2048_S_d0_1 : S8192x2048.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part3 {F : FTy → Type} [FloatOps F] (main_arg11 : FVec F S8192 .f32) (main_v48 : IVec S_ 1) (main_v49 : FVec F S8192 .f32) (main_v50 : FVec F S8192 .f32) : IVec S_ 1 :=
  let main_v51 : IVec S8192 1 := cmpf .olt main_v49 main_v50
  let main_c_19 : IVec S_ 1 := constantI S_ 1 1#1
  let main_v52 : IVec S_ 1 := (fun x v => Host.reduce IntOp.andi x v reducesTo_S8192_S_d0 h_S_) main_v51 main_c_19
  let main_v53 : IVec S_ 1 := andi main_v48 main_v52
  let main_v54 : FVec F S8192 .f32 := Host.absf main_arg11
  let main_cst_20 : FVec F S_ .f32 := constant S_ .f32 0x7F800000#32
  let main_v55 : FVec F S8192 .f32 := broadcastInDim S8192 ![] bcast_S_S8192 main_cst_20
  let main_v56 : IVec S8192 1 := cmpf .olt main_v54 main_v55
  let main_c_21 : IVec S_ 1 := constantI S_ 1 1#1
  let main_v57 : IVec S_ 1 := (fun x v => Host.reduce IntOp.andi x v reducesTo_S8192_S_d0 h_S_) main_v56 main_c_21
  let main_v58 : IVec S_ 1 := andi main_v53 main_v57
  main_v58

def fn_part2 {F : FTy → Type} [FloatOps F] (main_arg7 : FVec F S2048 .f32) (main_arg8 : FVec F S2048 .f32) (main_arg9 : FVec F S2048x8192 .f32) (main_arg10 : FVec F S8192 .f32) (main_arg11 : FVec F S8192 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x8192 .f32 := Host.absf main_arg9
  let main_cst_16 : FVec F S_ .f32 := constant S_ .f32 0x7F800000#32
  let main_v45 : FVec F S2048x8192 .f32 := broadcastInDim S2048x8192 ![] bcast_S_S2048x8192 main_cst_16
  let main_v46 : IVec S2048x8192 1 := cmpf .olt main_v44 main_v45
  let main_c_17 : IVec S_ 1 := constantI S_ 1 1#1
  let main_v47 : IVec S_ 1 := (fun x v => Host.reduce IntOp.andi x v reducesTo_S2048x8192_S_d0_1 h_S_) main_v46 main_c_17
  let main_v48 : IVec S_ 1 := andi main_v43 main_v47
  let main_v49 : FVec F S8192 .f32 := Host.absf main_arg10
  let main_cst_18 : FVec F S_ .f32 := constant S_ .f32 0x7F800000#32
  let main_v50 : FVec F S8192 .f32 := broadcastInDim S8192 ![] bcast_S_S8192 main_cst_18
  fn_part3 (F := F) main_arg11 main_v48 main_v49 main_v50

def fn_part1 {F : FTy → Type} [FloatOps F] (main_arg4 : FVec F S2048 .f32) (main_arg5 : FVec F S2048 .f32) (main_arg6 : FVec F S2048x2048 .f32) (main_arg7 : FVec F S2048 .f32) (main_arg8 : FVec F S2048 .f32) (main_arg9 : FVec F S2048x8192 .f32) (main_arg10 : FVec F S8192 .f32) (main_arg11 : FVec F S8192 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4x2048x2048 .f32) (main_arg1 : FVec F S1x1x2048 .f32) (main_arg2 : FVec F S1x1x2048 .f32) (main_arg3 : FVec F S8192x2048 .f32) (main_arg4 : FVec F S2048 .f32) (main_arg5 : FVec F S2048 .f32) (main_arg6 : FVec F S2048x2048 .f32) (main_arg7 : FVec F S2048 .f32) (main_arg8 : FVec F S2048 .f32) (main_arg9 : FVec F S2048x8192 .f32) (main_arg10 : FVec F S8192 .f32) (main_arg11 : FVec F S8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S1x1x2048 .f32 := Host.absf main_arg1
  let main_cst_0 : FVec F S_ .f32 := constant S_ .f32 0x7F800000#32
  let main_v5 : FVec F S1x1x2048 .f32 := broadcastInDim S1x1x2048 ![] bcast_S_S1x1x2048 main_cst_0
  let main_v6 : IVec S1x1x2048 1 := cmpf .olt main_v4 main_v5
  let main_c_1 : IVec S_ 1 := constantI S_ 1 1#1
  let main_v7 : IVec S_ 1 := (fun x v => Host.reduce IntOp.andi x v reducesTo_S1x1x2048_S_d0_1_2 h_S_) main_v6 main_c_1
  let main_v8 : IVec S_ 1 := andi main_v3 main_v7
  let main_v9 : FVec F S1x1x2048 .f32 := Host.absf main_arg2
  let main_cst_2 : FVec F S_ .f32 := constant S_ .f32 0x7F800000#32
  let main_v10 : FVec F S1x1x2048 .f32 := broadcastInDim S1x1x2048 ![] bcast_S_S1x1x2048 main_cst_2
  let main_v11 : IVec S1x1x2048 1 := cmpf .olt main_v9 main_v10
  let main_c_3 : IVec S_ 1 := constantI S_ 1 1#1
  let main_v12 : IVec S_ 1 := (fun x v => Host.reduce IntOp.andi x v reducesTo_S1x1x2048_S_d0_1_2 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_arg7 main_arg8 main_arg9 main_arg10 main_arg11 main_v13 main_v16
-- ==== Kernel.lean ====
abbrev S4x2048x2048 : Shape := ⟨3, ![4, 2048, 2048]⟩
abbrev S1x1x2048 : Shape := ⟨3, ![1, 1, 2048]⟩
abbrev S8192x2048 : Shape := ⟨2, ![8192, 2048]⟩
abbrev S2048 : Shape := ⟨1, ![2048]⟩
abbrev S2048x2048 : Shape := ⟨2, ![2048, 2048]⟩
abbrev S2048x8192 : Shape := ⟨2, ![2048, 8192]⟩
abbrev S8192 : Shape := ⟨1, ![8192]⟩
abbrev S_ : Shape := ⟨0, ![]⟩
abbrev S4x1x2048 : Shape := ⟨3, ![4, 1, 2048]⟩
abbrev S4x2047x2048 : Shape := ⟨3, ![4, 2047, 2048]⟩
abbrev S1x2048 : Shape := ⟨2, ![1, 2048]⟩
abbrev S1x8192 : Shape := ⟨2, ![1, 8192]⟩
abbrev S8192x8192 : Shape := ⟨2, ![8192, 8192]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S256x2048 : Shape := ⟨2, ![256, 2048]⟩
abbrev S256 : Shape := ⟨1, ![256]⟩
abbrev S256x1 : Shape := ⟨2, ![256, 1]⟩
abbrev S64x8192 : Shape := ⟨2, ![64, 8192]⟩
abbrev S64x2048 : Shape := ⟨2, ![64, 2048]⟩
abbrev S64 : Shape := ⟨1, ![64]⟩
abbrev S64x1 : Shape := ⟨2, ![64, 1]⟩

abbrev nBuf : Space → Nat
  | .hbm => 98
  | .vmem => 31
  | .smem => 0
  | _ => 0

abbrev bufTy : (tb : Table) → Fin (tcTables nBuf tb) → BufTy
  | .hbm, ⟨0, _⟩ => ⟨S4x2048x2048, .f32⟩
  | .hbm, ⟨1, _⟩ => ⟨S1x1x2048, .f32⟩
  | .hbm, ⟨2, _⟩ => ⟨S1x1x2048, .f32⟩
  | .hbm, ⟨3, _⟩ => ⟨S8192x2048, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S2048x8192, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S4x1x2048, .f32⟩
  | .hbm, ⟨14, _⟩ => ⟨S4x2047x2048, .f32⟩
  | .hbm, ⟨15, _⟩ => ⟨S4x2048x2048, .f32⟩
  | .hbm, ⟨16, _⟩ => ⟨S4x2048x2048, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x8192, .f32⟩
  | .hbm, ⟨26, _⟩ => ⟨S1x8192, .f32⟩
  | .hbm, ⟨27, _⟩ => ⟨S8192x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .bf16⟩
  | .hbm, ⟨49, _⟩ => ⟨S2048x2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2048x2048, .f32⟩
  | .hbm, ⟨58, _⟩ => ⟨S2048x2048, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2048x2048, .f32⟩
  | .hbm, ⟨63, _⟩ => ⟨S2048x2048, .f32⟩
  | .hbm, ⟨64, _⟩ => ⟨S_, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .bf16⟩
  | .hbm, ⟨71, _⟩ => ⟨S2048x8192, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S2048x8192, .f32⟩
  | .hbm, ⟨80, _⟩ => ⟨S2048x8192, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S2048x8192, .f32⟩
  | .hbm, ⟨85, _⟩ => ⟨S2048x8192, .f32⟩
  | .hbm, ⟨86, _⟩ => ⟨S_, .f32⟩
  | .hbm, ⟨87, _⟩ => ⟨S2048x8192, .f32⟩
  | .hbm, ⟨88, _⟩ => ⟨S2048x8192, .f32⟩
  | .hbm, ⟨89, _⟩ => ⟨S2048x8192, .f32⟩
  | .hbm, ⟨90, _⟩ => ⟨S2048x8192, .f32⟩
  | .hbm, ⟨91, _⟩ => ⟨S2048x8192, .f32⟩
  | .hbm, ⟨92, _⟩ => ⟨S2048x8192, .bf16⟩
  | .hbm, ⟨93, _⟩ => ⟨S8192x8192, .bf16⟩
  | .hbm, ⟨94, _⟩ => ⟨S8192x2048, .bf16⟩
  | .hbm, ⟨95, _⟩ => ⟨S8192x2048, .f32⟩
  | .hbm, ⟨96, _⟩ => ⟨S4x2048x2048, .f32⟩
  | .hbm, ⟨97, _⟩ => ⟨S4x1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | .local _ .vmem, ⟨9, _⟩ => ⟨S512x512, .bf16⟩
  | .local _ .vmem, ⟨10, _⟩ => ⟨S512x512, .bf16⟩
  | .local _ .vmem, ⟨11, _⟩ => ⟨S512x2048, .bf16⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S2048x2048, .bf16⟩
  | .local _ .vmem, ⟨20, _⟩ => ⟨S256x2048, .bf16⟩
  | .local _ .vmem, ⟨21, _⟩ => ⟨S256x2048, .bf16⟩
  | .local _ .vmem, ⟨22, _⟩ => ⟨S64x8192, .bf16⟩
  | .local _ .vmem, ⟨23, _⟩ => ⟨S64x8192, .bf16⟩
  | .local _ .vmem, ⟨24, _⟩ => ⟨S1x8192, .f32⟩
  | .local _ .vmem, ⟨25, _⟩ => ⟨S1x8192, .f32⟩
  | .local _ .vmem, ⟨26, _⟩ => ⟨S2048x8192, .bf16⟩
  | .local _ .vmem, ⟨27, _⟩ => ⟨S64x2048, .bf16⟩
  | .local _ .vmem, ⟨28, _⟩ => ⟨S64x2048, .bf16⟩
  | .local _ .vmem, ⟨29, _⟩ => ⟨S64x2048, .f32⟩
  | .local _ .vmem, ⟨30, _⟩ => ⟨S64x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_cst_2 : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_3 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_cst_6 : Ref sig .tc := ⟨.hbm, 52, rfl⟩
abbrev main_v27 : Ref sig .tc := ⟨.hbm, 53, rfl⟩
abbrev main_cst_7 : Ref sig .tc := ⟨.hbm, 54, rfl⟩
abbrev main_call3_v0 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_8 : Ref sig .tc := ⟨.hbm, 59, rfl⟩
abbrev main_cst_9 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_cst_10 : Ref sig .tc := ⟨.hbm, 72, rfl⟩
abbrev main_v37 : Ref sig .tc := ⟨.hbm, 73, rfl⟩
abbrev main_cst_11 : Ref sig .tc := ⟨.hbm, 74, rfl⟩
abbrev main_v38 : Ref sig .tc := ⟨.hbm, 75, rfl⟩
abbrev main_cst_12 : Ref sig .tc := ⟨.hbm, 76, rfl⟩
abbrev main_call6_v0 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_cst_13 : Ref sig .tc := ⟨.hbm, 81, rfl⟩
abbrev main_cst_14 : Ref sig .tc := ⟨.hbm, 82, rfl⟩
abbrev main_call7_v0 : Ref sig .tc := ⟨.hbm, 83, rfl⟩
abbrev main_call7_v1 : Ref sig .tc := ⟨.hbm, 84, rfl⟩
abbrev main_call7_v2 : Ref sig .tc := ⟨.hbm, 85, rfl⟩
abbrev main_call7_v3 : Ref sig .tc := ⟨.hbm, 86, rfl⟩
abbrev main_call7_v4 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x8192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x8192 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x8192 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S64x2048 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S64x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S4x1x2048 : S_.BroadcastsInDim S4x1x2048 (![] : Fin 0 → Fin S4x1x2048.rank)
  slices_S4x2048x2048_S4x2047x2048_0_0_0 : S4x2048x2048.Slices ![0, 0, 0] S4x2047x2048
  concatenates_S4x1x2048_S4x2047x2048_S4x2048x2048_d1 : Shape.Concatenates [S4x1x2048, S4x2047x2048] S4x2048x2048 1
  shapeCasts_S4x2048x2048_S8192x2048 : S4x2048x2048.ShapeCasts S8192x2048
  shapeCasts_S1x1x2048_S1x2048 : S1x1x2048.ShapeCasts S1x2048
  shapeCasts_S2048_S1x2048 : S2048.ShapeCasts S1x2048
  shapeCasts_S8192_S1x8192 : S8192.ShapeCasts S1x8192
  reducesTo_S8192x2048_S_d0_1 : S8192x2048.ReducesTo [0, 1] S_
  h_S_ : 0 < S_.numel
  bcast_S_S8192x2048 : S_.BroadcastsInDim S8192x2048 (![] : Fin 0 → Fin S8192x2048.rank)
  bitsLt_bf16_f32 : FTy.bits .bf16 < FTy.bits .f32
  reducesTo_S2048x2048_S_d0_1 : S2048x2048.ReducesTo [0, 1] S_
  bcast_S_S2048x2048 : S_.BroadcastsInDim S2048x2048 (![] : Fin 0 → Fin S2048x2048.rank)
  reducesTo_S2048x8192_S_d0_1 : S2048x8192.ReducesTo [0, 1] S_
  bcast_S_S2048x8192 : S_.BroadcastsInDim S2048x8192 (![] : Fin 0 → Fin S2048x8192.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  packedbf16_S512x2048_S512x2048_0_0 : (Rect.unit (s := S512x2048) ![0, 0] S512x2048.size inb_S512x2048_S512x2048_0_0).PackedRows (EltTy.packing .bf16)
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  broadcasts_S1x2048_S256x2048 : S1x2048.Broadcasts S256x2048
  reduces_S256x2048_S256 : S256x2048.Reduces [1] S256
  shapeCasts_S256_S256x1 : S256.ShapeCasts S256x1
  broadcasts_S256x1_S256x2048 : S256x1.Broadcasts S256x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S256x2048_S256x2048_0_0 : (Rect.unit (s := S256x2048) ![0, 0] S256x2048.size inb_S256x2048_S256x2048_0_0).PackedRows (EltTy.packing .bf16)
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  reduces_S64x8192_S64 : S64x8192.Reduces [1] S64
  shapeCasts_S64_S64x1 : S64.ShapeCasts S64x1
  broadcasts_S64x1_S64x8192 : S64x1.Broadcasts S64x8192
  broadcasts_S1x8192_S64x8192 : S1x8192.Broadcasts S64x8192
  inb_S2048x8192_S2048x8192_0_0 : ∀ a, (![0, 0] : Fin 2 → Nat) a + S2048x8192.size a ≤ S2048x8192.size a
  h_S2048x8192 : 0 < S2048x8192.numel
  shapeCasts_S2048x8192_S2048x8192 : S2048x8192.ShapeCasts S2048x8192
  broadcasts_S64x1_S64x2048 : S64x1.Broadcasts S64x2048
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  shapeCasts_S8192x2048_S4x2048x2048 : S8192x2048.ShapeCasts S4x2048x2048
  slices_S4x2048x2048_S4x1x2048_0_2047_0 : S4x2048x2048.Slices ![0, 2047, 0] S4x1x2048
  dot_S512x2048_S512x2048_S512x512_1_1_0_0_n_n_wf : DotDims.WF S512x2048 S512x2048 S512x512 [1] [1] [0] [0] [] []
  dot_S256x2048_S2048x2048_S256x2048_1_1_0_0_n_n_wf : DotDims.WF S256x2048 S2048x2048 S256x2048 [1] [1] [0] [0] [] []
  dot_S64x8192_S2048x8192_S64x2048_1_1_0_0_n_n_wf : DotDims.WF S64x8192 S2048x8192 S64x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S8192x2048.size a
  hwx0_5 : ∀ i : grid0.Coords, EltTy.bits .bf16 = 32 ∨ (Rect.block (s := S8192x2048) S512x2048.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S8192x8192.size a
  hwx0_6 : ∀ i : grid0.Coords, EltTy.bits .bf16 = 32 ∨ (Rect.block (s := S8192x8192) S512x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S8192x2048.size a
  hwx1_0 : ∀ i : grid1.Coords, EltTy.bits .f32 = 32 ∨ (Rect.block (s := S8192x2048) S256x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S8192x2048.size a
  hwx1_1 : ∀ i : grid1.Coords, EltTy.bits .f32 = 32 ∨ (Rect.block (s := S8192x2048) S256x2048.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2048x2048.size a ≤ S2048x2048.size a
  hwx1_5 : ∀ i : grid1.Coords, EltTy.bits .bf16 = 32 ∨ (Rect.block (s := S2048x2048) S2048x2048.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256x2048.size a ≤ S8192x2048.size a
  hwx1_6 : ∀ i : grid1.Coords, EltTy.bits .bf16 = 32 ∨ (Rect.block (s := S8192x2048) S256x2048.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x8192.size a ≤ S8192x8192.size a
  hwx2_0 : ∀ i : grid2.Coords, EltTy.bits .bf16 = 32 ∨ (Rect.block (s := S8192x8192) S64x8192.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x8192.size a ≤ S1x8192.size a
  hwx2_1 : ∀ i : grid2.Coords, EltTy.bits .f32 = 32 ∨ (Rect.block (s := S1x8192) S1x8192.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x8192.size a ≤ S1x8192.size a
  hwx2_2 : ∀ i : grid2.Coords, EltTy.bits .f32 = 32 ∨ (Rect.block (s := S1x8192) S1x8192.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x8192.size a ≤ S2048x8192.size a
  hwx2_3 : ∀ i : grid2.Coords, EltTy.bits .bf16 = 32 ∨ (Rect.block (s := S2048x8192) S2048x8192.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S64x2048.size a ≤ S8192x2048.size a
  hwx2_4 : ∀ i : grid2.Coords, EltTy.bits .bf16 = 32 ∨ (Rect.block (s := S8192x2048) S64x2048.size (cc2_transform_4 i) (hinb2_4 i)).WholeWords (EltTy.packing .bf16)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S64x2048.size a ≤ S8192x2048.size a
  hwx2_5 : ∀ i : grid2.Coords, EltTy.bits .f32 = 32 ∨ (Rect.block (s := S8192x2048) S64x2048.size (cc2_transform_5 i) (hinb2_5 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf
def dot_S64x8192_S2048x8192_S64x2048_1_1_0_0_n_n : DotDims S64x8192 S2048x8192 S64x2048 where
  lhsContracting := [1]
  rhsContracting := [1]
  lhsNonContracting := [0]
  rhsNonContracting := [0]
  lhsBatch := []
  rhsBatch := []
  wf := dot_S64x8192_S2048x8192_S64x2048_1_1_0_0_n_n_wf

abbrev win0_0 : Pipeline.Window sig grid0 :=
  Pipeline.Window.ofSpec (Memref.whole main_v4) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S512x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v47) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v4) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2048x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v48) S256x2048.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v47) S64x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1x8192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x8192.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S2048x8192.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S64x2048.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v49) S64x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S4x2048x2048 : Shape := ⟨3, ![4, 2048, 2048]⟩
abbrev S1x1x2048 : Shape := ⟨3, ![1, 1, 2048]⟩
abbrev S8192x2048 : Shape := ⟨2, ![8192, 2048]⟩
abbrev S2048 : Shape := ⟨1, ![2048]⟩
abbrev S2048x2048 : Shape := ⟨2, ![2048, 2048]⟩
abbrev S2048x8192 : Shape := ⟨2, ![2048, 8192]⟩
abbrev S8192 : Shape := ⟨1, ![8192]⟩
abbrev S_ : Shape := ⟨0, ![]⟩
abbrev S4x1x2048 : Shape := ⟨3, ![4, 1, 2048]⟩
abbrev S4x2047x2048 : Shape := ⟨3, ![4, 2047, 2048]⟩
abbrev S4x2048 : Shape := ⟨2, ![4, 2048]⟩
abbrev S4x2048x1 : Shape := ⟨3, ![4, 2048, 1]⟩
abbrev S4x2048x8192 : Shape := ⟨3, ![4, 2048, 8192]⟩
abbrev S1x1x8192 : Shape := ⟨3, ![1, 1, 8192]⟩

abbrev nBuf : Space → Nat
  | .hbm => 292
  | .vmem => 0
  | .smem => 0
  | _ => 0

abbrev hbmTy0_0 (i : Nat) : BufTy := match i % 128 with
  | 0 => ⟨S4x2048x2048, .f32⟩
  | 1 => ⟨S1x1x2048, .f32⟩
  | 2 => ⟨S1x1x2048, .f32⟩
  | 3 => ⟨S8192x2048, .f32⟩
  | 4 => ⟨S2048, .f32⟩
  | 5 => ⟨S2048, .f32⟩
  | 6 => ⟨S2048x2048, .f32⟩
  | 7 => ⟨S2048, .f32⟩
  | 8 => ⟨S2048, .f32⟩
  | 9 => ⟨S2048x8192, .f32⟩
  | 10 => ⟨S8192, .f32⟩
  | 11 => ⟨S8192, .f32⟩
  | 12 => ⟨S_, .f32⟩
  | 13 => ⟨S4x1x2048, .f32⟩
  | 14 => ⟨S4x2047x2048, .f32⟩
  | 15 => ⟨S4x2048x2048, .f32⟩
  | 16 => ⟨S4x2048x2048, .f32⟩
  | 17 => ⟨S4x2048x2048, .f32⟩
  | 18 => ⟨S4x2048x2048, .f32⟩
  | 19 => ⟨S4x2048x2048, .f32⟩
  | 20 => ⟨S_, .f32⟩
  | 21 => ⟨S4x2048, .f32⟩
  | 22 => ⟨S4x2048x1, .f32⟩
  | 23 => ⟨S_, .f32⟩
  | 24 => ⟨S4x2048x1, .f32⟩
  | 25 => ⟨S4x2048x1, .f32⟩
  | 26 => ⟨S4x2048x2048, .f32⟩
  | 27 => ⟨S4x2048x2048, .f32⟩
  | 28 => ⟨S4x2048x2048, .f32⟩
  | 29 => ⟨S_, .f32⟩
  | 30 => ⟨S4x2048, .f32⟩
  | 31 => ⟨S4x2048x1, .f32⟩
  | 32 => ⟨S_, .f32⟩
  | 33 => ⟨S4x2048x1, .f32⟩
  | 34 => ⟨S4x2048x1, .f32⟩
  | 35 => ⟨S4x2048x2048, .f32⟩
  | 36 => ⟨S4x2048x2048, .f32⟩
  | 37 => ⟨S_, .f32⟩
  | 38 => ⟨S4x2048x1, .f32⟩
  | 39 => ⟨S4x2048x1, .f32⟩
  | 40 => ⟨S4x2048x1, .f32⟩
  | 41 => ⟨S4x2048x2048, .f32⟩
  | 42 => ⟨S4x2048x2048, .f32⟩
  | 43 => ⟨S1x1x2048, .f32⟩
  | 44 => ⟨S4x2048x2048, .f32⟩
  | 45 => ⟨S4x2048x2048, .f32⟩
  | 46 => ⟨S1x1x2048, .f32⟩
  | 47 => ⟨S4x2048x2048, .f32⟩
  | 48 => ⟨S4x2048x2048, .f32⟩
  | 49 => ⟨S4x2048x2048, .f32⟩
  | 50 => ⟨S_, .f32⟩
  | 51 => ⟨S4x2048, .f32⟩
  | 52 => ⟨S4x2048x1, .f32⟩
  | 53 => ⟨S_, .f32⟩
  | 54 => ⟨S4x2048x1, .f32⟩
  | 55 => ⟨S4x2048x1, .f32⟩
  | 56 => ⟨S_, .f32⟩
  | 57 => ⟨S_, .f32⟩
  | 58 => ⟨S4x2048x1, .f32⟩
  | 59 => ⟨S4x2048x1, .f32⟩
  | 60 => ⟨S_, .f32⟩
  | 61 => ⟨S4x2048x1, .f32⟩
  | 62 => ⟨S4x2048x1, .f32⟩
  | 63 => ⟨S_, .f32⟩
  | 64 => ⟨S4x2048x1, .f32⟩
  | 65 => ⟨S4x2048x1, .f32⟩
  | 66 => ⟨S4x2048x2048, .f32⟩
  | 67 => ⟨S4x2048x2048, .f32⟩
  | 68 => ⟨S_, .f32⟩
  | 69 => ⟨S_, .f32⟩
  | 70 => ⟨S_, .f32⟩
  | 71 => ⟨S4x2048x2048, .f32⟩
  | 72 => ⟨S4x2048x2048, .f32⟩
  | 73 => ⟨S_, .f32⟩
  | 74 => ⟨S4x2048x2048, .f32⟩
  | 75 => ⟨S4x2048x2048, .f32⟩
  | 76 => ⟨S4x2048x2048, .f32⟩
  | 77 => ⟨S4x2048x2048, .f32⟩
  | 78 => ⟨S4x2048x2048, .f32⟩
  | 79 => ⟨S4x2048x2048, .f32⟩
  | 80 => ⟨S4x2048x2048, .f32⟩
  | 81 => ⟨S8192x2048, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S8192x2048, .f32⟩
  | 90 => ⟨S8192x2048, .f32⟩
  | 91 => ⟨S_, .f32⟩
  | 92 => ⟨S_, .f32⟩
  | 93 => ⟨S_, .f32⟩
  | 94 => ⟨S8192x2048, .f32⟩
  | 95 => ⟨S8192x2048, .f32⟩
  | 96 => ⟨S_, .f32⟩
  | 97 => ⟨S8192x2048, .f32⟩
  | 98 => ⟨S8192x2048, .f32⟩
  | 99 => ⟨S8192x2048, .f32⟩
  | 100 => ⟨S8192x2048, .f32⟩
  | 101 => ⟨S8192x2048, .f32⟩
  | 102 => ⟨S8192x2048, .f32⟩
  | 103 => ⟨S8192x2048, .f32⟩
  | 104 => ⟨S4x2048x8192, .f32⟩
  | 105 => ⟨S_, .f32⟩
  | 106 => ⟨S4x2048x8192, .f32⟩
  | 107 => ⟨S4x2048x8192, .f32⟩
  | 108 => ⟨S4x2048x8192, .f32⟩
  | 109 => ⟨S4x2048x2048, .f32⟩
  | 110 => ⟨S4x2048x2048, .f32⟩
  | 111 => ⟨S4x2048x2048, .f32⟩
  | 112 => ⟨S_, .f32⟩
  | 113 => ⟨S4x2048, .f32⟩
  | 114 => ⟨S4x2048x1, .f32⟩
  | 115 => ⟨S_, .f32⟩
  | 116 => ⟨S4x2048x1, .f32⟩
  | 117 => ⟨S4x2048x1, .f32⟩
  | 118 => ⟨S4x2048x2048, .f32⟩
  | 119 => ⟨S4x2048x2048, .f32⟩
  | 120 => ⟨S4x2048x2048, .f32⟩
  | 121 => ⟨S_, .f32⟩
  | 122 => ⟨S4x2048, .f32⟩
  | 123 => ⟨S4x2048x1, .f32⟩
  | 124 => ⟨S_, .f32⟩
  | 125 => ⟨S4x2048x1, .f32⟩
  | 126 => ⟨S4x2048x1, .f32⟩
  | 127 => ⟨S4x2048x2048, .f32⟩
  | _ => ⟨S4x2048x2048, .f32⟩

abbrev hbmTy0_1 (i : Nat) : BufTy := match i % 128 with
  | 0 => ⟨S4x2048x2048, .f32⟩
  | 1 => ⟨S_, .f32⟩
  | 2 => ⟨S4x2048x1, .f32⟩
  | 3 => ⟨S4x2048x1, .f32⟩
  | 4 => ⟨S4x2048x1, .f32⟩
  | 5 => ⟨S4x2048x2048, .f32⟩
  | 6 => ⟨S4x2048x2048, .f32⟩
  | 7 => ⟨S1x1x2048, .f32⟩
  | 8 => ⟨S4x2048x2048, .f32⟩
  | 9 => ⟨S4x2048x2048, .f32⟩
  | 10 => ⟨S1x1x2048, .f32⟩
  | 11 => ⟨S4x2048x2048, .f32⟩
  | 12 => ⟨S4x2048x2048, .f32⟩
  | 13 => ⟨S4x2048x2048, .f32⟩
  | 14 => ⟨S_, .f32⟩
  | 15 => ⟨S4x2048, .f32⟩
  | 16 => ⟨S4x2048x1, .f32⟩
  | 17 => ⟨S_, .f32⟩
  | 18 => ⟨S4x2048x1, .f32⟩
  | 19 => ⟨S4x2048x1, .f32⟩
  | 20 => ⟨S_, .f32⟩
  | 21 => ⟨S_, .f32⟩
  | 22 => ⟨S4x2048x1, .f32⟩
  | 23 => ⟨S4x2048x1, .f32⟩
  | 24 => ⟨S_, .f32⟩
  | 25 => ⟨S4x2048x1, .f32⟩
  | 26 => ⟨S4x2048x1, .f32⟩
  | 27 => ⟨S_, .f32⟩
  | 28 => ⟨S4x2048x1, .f32⟩
  | 29 => ⟨S4x2048x1, .f32⟩
  | 30 => ⟨S4x2048x2048, .f32⟩
  | 31 => ⟨S4x2048x2048, .f32⟩
  | 32 => ⟨S_, .f32⟩
  | 33 => ⟨S_, .f32⟩
  | 34 => ⟨S_, .f32⟩
  | 35 => ⟨S4x2048x2048, .f32⟩
  | 36 => ⟨S4x2048x2048, .f32⟩
  | 37 => ⟨S_, .f32⟩
  | 38 => ⟨S4x2048x2048, .f32⟩
  | 39 => ⟨S4x2048x2048, .f32⟩
  | 40 => ⟨S4x2048x2048, .f32⟩
  | 41 => ⟨S4x2048x2048, .f32⟩
  | 42 => ⟨S4x2048x2048, .f32⟩
  | 43 => ⟨S4x2048x2048, .f32⟩
  | 44 => ⟨S4x2048x2048, .f32⟩
  | 45 => ⟨S2048x2048, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S2048x2048, .f32⟩
  | 54 => ⟨S2048x2048, .f32⟩
  | 55 => ⟨S_, .f32⟩
  | 56 => ⟨S_, .f32⟩
  | 57 => ⟨S_, .f32⟩
  | 58 => ⟨S2048x2048, .f32⟩
  | 59 => ⟨S2048x2048, .f32⟩
  | 60 => ⟨S_, .f32⟩
  | 61 => ⟨S2048x2048, .f32⟩
  | 62 => ⟨S2048x2048, .f32⟩
  | 63 => ⟨S2048x2048, .f32⟩
  | 64 => ⟨S2048x2048, .f32⟩
  | 65 => ⟨S2048x2048, .f32⟩
  | 66 => ⟨S2048x2048, .f32⟩
  | 67 => ⟨S2048x2048, .f32⟩
  | 68 => ⟨S4x2048x2048, .f32⟩
  | 69 => ⟨S4x2048x2048, .f32⟩
  | 70 => ⟨S4x2048x2048, .f32⟩
  | 71 => ⟨S_, .f32⟩
  | 72 => ⟨S4x2048x2048, .f32⟩
  | 73 => ⟨S4x2048x2048, .f32⟩
  | 74 => ⟨S_, .f32⟩
  | 75 => ⟨S4x2048x2048, .f32⟩
  | 76 => ⟨S4x2048x2048, .f32⟩
  | 77 => ⟨S_, .f32⟩
  | 78 => ⟨S4x2048, .f32⟩
  | 79 => ⟨S4x2048x1, .f32⟩
  | 80 => ⟨S_, .f32⟩
  | 81 => ⟨S4x2048x1, .f32⟩
  | 82 => ⟨S4x2048x1, .f32⟩
  | 83 => ⟨S4x2048x8192, .f32⟩
  | 84 => ⟨S4x2048x8192, .f32⟩
  | 85 => ⟨S4x2048x8192, .f32⟩
  | 86 => ⟨S_, .f32⟩
  | 87 => ⟨S4x2048, .f32⟩
  | 88 => ⟨S4x2048x1, .f32⟩
  | 89 => ⟨S_, .f32⟩
  | 90 => ⟨S4x2048x1, .f32⟩
  | 91 => ⟨S4x2048x1, .f32⟩
  | 92 => ⟨S4x2048x8192, .f32⟩
  | 93 => ⟨S4x2048x8192, .f32⟩
  | 94 => ⟨S_, .f32⟩
  | 95 => ⟨S4x2048x1, .f32⟩
  | 96 => ⟨S4x2048x1, .f32⟩
  | 97 => ⟨S4x2048x1, .f32⟩
  | 98 => ⟨S4x2048x8192, .f32⟩
  | 99 => ⟨S4x2048x8192, .f32⟩
  | 100 => ⟨S1x1x8192, .f32⟩
  | 101 => ⟨S4x2048x8192, .f32⟩
  | 102 => ⟨S4x2048x8192, .f32⟩
  | 103 => ⟨S1x1x8192, .f32⟩
  | 104 => ⟨S4x2048x8192, .f32⟩
  | 105 => ⟨S4x2048x8192, .f32⟩
  | 106 => ⟨S4x2048x8192, .f32⟩
  | 107 => ⟨S_, .f32⟩
  | 108 => ⟨S4x2048, .f32⟩
  | 109 => ⟨S4x2048x1, .f32⟩
  | 110 => ⟨S_, .f32⟩
  | 111 => ⟨S4x2048x1, .f32⟩
  | 112 => ⟨S4x2048x1, .f32⟩
  | 113 => ⟨S_, .f32⟩
  | 114 => ⟨S_, .f32⟩
  | 115 => ⟨S4x2048x1, .f32⟩
  | 116 => ⟨S4x2048x1, .f32⟩
  | 117 => ⟨S_, .f32⟩
  | 118 => ⟨S4x2048x1, .f32⟩
  | 119 => ⟨S4x2048x1, .f32⟩
  | 120 => ⟨S_, .f32⟩
  | 121 => ⟨S4x2048x1, .f32⟩
  | 122 => ⟨S4x2048x1, .f32⟩
  | 123 => ⟨S4x2048x8192, .f32⟩
  | 124 => ⟨S4x2048x8192, .f32⟩
  | 125 => ⟨S_, .f32⟩
  | 126 => ⟨S_, .f32⟩
  | 127 => ⟨S_, .f32⟩
  | _ => ⟨S4x2048x2048, .f32⟩

abbrev hbmTy0_2 (i : Nat) : BufTy := match i % 128 with
  | 0 => ⟨S4x2048x8192, .f32⟩
  | 1 => ⟨S4x2048x8192, .f32⟩
  | 2 => ⟨S_, .f32⟩
  | 3 => ⟨S4x2048x8192, .f32⟩
  | 4 => ⟨S4x2048x8192, .f32⟩
  | 5 => ⟨S4x2048x8192, .f32⟩
  | 6 => ⟨S4x2048x8192, .f32⟩
  | 7 => ⟨S4x2048x8192, .f32⟩
  | 8 => ⟨S4x2048x8192, .f32⟩
  | 9 => ⟨S4x2048x8192, .f32⟩
  | 10 => ⟨S2048x8192, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S2048x8192, .f32⟩
  | 19 => ⟨S2048x8192, .f32⟩
  | 20 => ⟨S_, .f32⟩
  | 21 => ⟨S_, .f32⟩
  | 22 => ⟨S_, .f32⟩
  | 23 => ⟨S2048x8192, .f32⟩
  | 24 => ⟨S2048x8192, .f32⟩
  | 25 => ⟨S_, .f32⟩
  | 26 => ⟨S2048x8192, .f32⟩
  | 27 => ⟨S2048x8192, .f32⟩
  | 28 => ⟨S2048x8192, .f32⟩
  | 29 => ⟨S2048x8192, .f32⟩
  | 30 => ⟨S2048x8192, .f32⟩
  | 31 => ⟨S2048x8192, .f32⟩
  | 32 => ⟨S2048x8192, .f32⟩
  | 33 => ⟨S4x2048x2048, .f32⟩
  | 34 => ⟨S4x2048x2048, .f32⟩
  | 35 => ⟨S4x1x2048, .f32⟩
  | _ => ⟨S4x2048x2048, .f32⟩

abbrev hbmTy (i : Nat) : BufTy := match i / 128 with
  | 0 => hbmTy0_0 i
  | 1 => hbmTy0_1 i
  | 2 => hbmTy0_2 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_0 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_call0_v0 : Ref sig .tc := ⟨.hbm, 57, rfl⟩
abbrev main_call0_v1 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_v38 : Ref sig .tc := ⟨.hbm, 62, rfl⟩
abbrev main_cst_9 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_10 : Ref sig .tc := ⟨.hbm, 68, rfl⟩
abbrev main_cst_11 : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_12 : Ref sig .tc := ⟨.hbm, 82, rfl⟩
abbrev main_v50 : Ref sig .tc := ⟨.hbm, 83, rfl⟩
abbrev main_cst_13 : Ref sig .tc := ⟨.hbm, 84, rfl⟩
abbrev main_v51 : Ref sig .tc := ⟨.hbm, 85, rfl⟩
abbrev main_cst_14 : Ref sig .tc := ⟨.hbm, 86, rfl⟩
abbrev main_call3_v0 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_15 : Ref sig .tc := ⟨.hbm, 91, rfl⟩
abbrev main_cst_16 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_call6_cst : Ref sig .tc := ⟨.hbm, 105, rfl⟩
abbrev main_call6_v0 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_17 : Ref sig .tc := ⟨.hbm, 112, rfl⟩
abbrev main_v67 : Ref sig .tc := ⟨.hbm, 113, rfl⟩
abbrev main_v68 : Ref sig .tc := ⟨.hbm, 114, rfl⟩
abbrev main_cst_18 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_19 : Ref sig .tc := ⟨.hbm, 121, rfl⟩
abbrev main_v74 : Ref sig .tc := ⟨.hbm, 122, rfl⟩
abbrev main_v75 : Ref sig .tc := ⟨.hbm, 123, rfl⟩
abbrev main_cst_20 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_21 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_22 : Ref sig .tc := ⟨.hbm, 142, rfl⟩
abbrev main_v92 : Ref sig .tc := ⟨.hbm, 143, rfl⟩
abbrev main_v93 : Ref sig .tc := ⟨.hbm, 144, rfl⟩
abbrev main_cst_23 : Ref sig .tc := ⟨.hbm, 145, rfl⟩
abbrev main_v94 : Ref sig .tc := ⟨.hbm, 146, rfl⟩
abbrev main_v95 : Ref sig .tc := ⟨.hbm, 147, rfl⟩
abbrev main_cst_24 : Ref sig .tc := ⟨.hbm, 148, rfl⟩
abbrev main_call7_v0 : Ref sig .tc := ⟨.hbm, 149, rfl⟩
abbrev main_call7_v1 : Ref sig .tc := ⟨.hbm, 150, rfl⟩
abbrev main_v96 : Ref sig .tc := ⟨.hbm, 151, rfl⟩
abbrev main_cst_25 : Ref sig .tc := ⟨.hbm, 152, rfl⟩
abbrev main_v97 : Ref sig .tc := ⟨.hbm, 153, rfl⟩
abbrev main_v98 : Ref sig .tc := ⟨.hbm, 154, rfl⟩
abbrev main_cst_26 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_cst_27 : Ref sig .tc := ⟨.hbm, 160, rfl⟩
abbrev main_cst_28 : Ref sig .tc := ⟨.hbm, 161, rfl⟩
abbrev main_call8_v0 : Ref sig .tc := ⟨.hbm, 162, rfl⟩
abbrev main_call8_v1 : Ref sig .tc := ⟨.hbm, 163, rfl⟩
abbrev main_call8_v2 : Ref sig .tc := ⟨.hbm, 164, rfl⟩
abbrev main_call8_v3 : Ref sig .tc := ⟨.hbm, 165, rfl⟩
abbrev main_call8_v4 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_cst_29 : Ref sig .tc := ⟨.hbm, 174, rfl⟩
abbrev main_v110 : Ref sig .tc := ⟨.hbm, 175, rfl⟩
abbrev main_cst_30 : Ref sig .tc := ⟨.hbm, 176, rfl⟩
abbrev main_v111 : Ref sig .tc := ⟨.hbm, 177, rfl⟩
abbrev main_cst_31 : Ref sig .tc := ⟨.hbm, 178, rfl⟩
abbrev main_call10_v0 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_cst_32 : Ref sig .tc := ⟨.hbm, 183, rfl⟩
abbrev main_cst_33 : Ref sig .tc := ⟨.hbm, 184, rfl⟩
abbrev main_call11_v0 : Ref sig .tc := ⟨.hbm, 185, rfl⟩
abbrev main_call11_v1 : Ref sig .tc := ⟨.hbm, 186, rfl⟩
abbrev main_call11_v2 : Ref sig .tc := ⟨.hbm, 187, rfl⟩
abbrev main_call11_v3 : Ref sig .tc := ⟨.hbm, 188, rfl⟩
abbrev main_call11_v4 : Ref sig .tc := ⟨.hbm, 189, rfl⟩
abbrev main_v115 : Ref sig .tc := ⟨.hbm, 190, rfl⟩
abbrev main_v116 : Ref sig .tc := ⟨.hbm, 191, rfl⟩
abbrev main_v117 : Ref sig .tc := ⟨.hbm, 192, rfl⟩
abbrev main_v118 : Ref sig .tc := ⟨.hbm, 193, rfl⟩
abbrev main_v119 : Ref sig .tc := ⟨.hbm, 194, rfl⟩
abbrev main_v120 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_cst_34 : Ref sig .tc := ⟨.hbm, 199, rfl⟩
abbrev main_v124 : Ref sig .tc := ⟨.hbm, 200, rfl⟩
abbrev main_v125 : Ref sig .tc := ⟨.hbm, 201, rfl⟩
abbrev main_cst_35 : Ref sig .tc := ⟨.hbm, 202, rfl⟩
abbrev main_v126 : Ref sig .tc := ⟨.hbm, 203, rfl⟩
abbrev main_v127 : Ref sig .tc := ⟨.hbm, 204, rfl⟩
abbrev main_cst_36 : Ref sig .tc := ⟨.hbm, 205, rfl⟩
abbrev main_v128 : Ref sig .tc := ⟨.hbm, 206, rfl⟩
abbrev main_v129 : Ref sig .tc := ⟨.hbm, 207, rfl⟩
abbrev main_cst_37 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_cst_38 : Ref sig .tc := ⟨.hbm, 214, rfl⟩
abbrev main_v135 : Ref sig .tc := ⟨.hbm, 215, rfl⟩
abbrev main_v136 : Ref sig .tc := ⟨.hbm, 216, rfl⟩
abbrev main_cst_39 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_cst_40 : Ref sig .tc := ⟨.hbm, 222, rfl⟩
abbrev main_v141 : Ref sig .tc := ⟨.hbm, 223, rfl⟩
abbrev main_v142 : Ref sig .tc := ⟨.hbm, 224, rfl⟩
abbrev main_v143 : Ref sig .tc := ⟨.hbm, 225, rfl⟩
abbrev main_v144 : Ref sig .tc := ⟨.hbm, 226, rfl⟩
abbrev main_v145 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_cst_41 : Ref sig .tc := ⟨.hbm, 235, rfl⟩
abbrev main_v153 : Ref sig .tc := ⟨.hbm, 236, rfl⟩
abbrev main_v154 : Ref sig .tc := ⟨.hbm, 237, rfl⟩
abbrev main_cst_42 : Ref sig .tc := ⟨.hbm, 238, rfl⟩
abbrev main_v155 : Ref sig .tc := ⟨.hbm, 239, rfl⟩
abbrev main_v156 : Ref sig .tc := ⟨.hbm, 240, rfl⟩
abbrev main_cst_43 : Ref sig .tc := ⟨.hbm, 241, rfl⟩
abbrev main_call13_v0 : Ref sig .tc := ⟨.hbm, 242, rfl⟩
abbrev main_call13_v1 : Ref sig .tc := ⟨.hbm, 243, rfl⟩
abbrev main_v157 : Ref sig .tc := ⟨.hbm, 244, rfl⟩
abbrev main_cst_44 : Ref sig .tc := ⟨.hbm, 245, rfl⟩
abbrev main_v158 : Ref sig .tc := ⟨.hbm, 246, rfl⟩
abbrev main_v159 : Ref sig .tc := ⟨.hbm, 247, rfl⟩
abbrev main_cst_45 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_cst_46 : Ref sig .tc := ⟨.hbm, 253, rfl⟩
abbrev main_cst_47 : Ref sig .tc := ⟨.hbm, 254, rfl⟩
abbrev main_call14_v0 : Ref sig .tc := ⟨.hbm, 255, rfl⟩
abbrev main_call14_v1 : Ref sig .tc := ⟨.hbm, 256, rfl⟩
abbrev main_call14_v2 : Ref sig .tc := ⟨.hbm, 257, rfl⟩
abbrev main_call14_v3 : Ref sig .tc := ⟨.hbm, 258, rfl⟩
abbrev main_call14_v4 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_v169 : Ref sig .tc := ⟨.hbm, 265, rfl⟩
abbrev main_v170 : Ref sig .tc := ⟨.hbm, 266, rfl⟩
abbrev main_cst_48 : Ref sig .tc := ⟨.hbm, 267, rfl⟩
abbrev main_v171 : Ref sig .tc := ⟨.hbm, 268, rfl⟩
abbrev main_cst_49 : Ref sig .tc := ⟨.hbm, 269, rfl⟩
abbrev main_v172 : Ref sig .tc := ⟨.hbm, 270, rfl⟩
abbrev main_cst_50 : Ref sig .tc := ⟨.hbm, 271, rfl⟩
abbrev main_call16_v0 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_cst_51 : Ref sig .tc := ⟨.hbm, 276, rfl⟩
abbrev main_cst_52 : Ref sig .tc := ⟨.hbm, 277, rfl⟩
abbrev main_call17_v0 : Ref sig .tc := ⟨.hbm, 278, rfl⟩
abbrev main_call17_v1 : Ref sig .tc := ⟨.hbm, 279, rfl⟩
abbrev main_call17_v2 : Ref sig .tc := ⟨.hbm, 280, rfl⟩
abbrev main_call17_v3 : Ref sig .tc := ⟨.hbm, 281, rfl⟩
abbrev main_call17_v4 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_v179 : Ref sig .tc := ⟨.hbm, 286, rfl⟩
abbrev main_v180 : Ref sig .tc := ⟨.hbm, 287, rfl⟩
abbrev main_v181 : Ref sig .tc := ⟨.hbm, 288, rfl⟩
abbrev main_v182 : Ref sig .tc := ⟨.hbm, 289, rfl⟩
abbrev main_v183 : Ref sig .tc := ⟨.hbm, 290, rfl⟩
abbrev main_v184 : Ref sig .tc := ⟨.hbm, 291, rfl⟩

abbrev nD : Nat := 1
abbrev τ : Topo := Topo.v7x

variable {F : FTy → Type} [FloatOps F]

class Facts₀ : Prop where
  bcast_S_S4x1x2048 : S_.BroadcastsInDim S4x1x2048 (![] : Fin 0 → Fin S4x1x2048.rank)
  slices_S4x2048x2048_S4x2047x2048_0_0_0 : S4x2048x2048.Slices ![0, 0, 0] S4x2047x2048
  concatenates_S4x1x2048_S4x2047x2048_S4x2048x2048_d1 : Shape.Concatenates [S4x1x2048, S4x2047x2048] S4x2048x2048 1
  bcast_S1x1x2048_S4x2048x2048_0_1_2 : S1x1x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x2048_0_1_2 : S4x2048x1.BroadcastsInDim S4x2048x2048 (![0, 1, 2] : Fin 3 → Fin S4x2048x2048.rank)
  bcast_S2048_S1x1x2048_2 : S2048.BroadcastsInDim S1x1x2048 (![2] : Fin 1 → Fin S1x1x2048.rank)
  bcast_S_S4x2048x2048 : S_.BroadcastsInDim S4x2048x2048 (![] : Fin 0 → Fin S4x2048x2048.rank)
  reducesTo_S8192x2048_S_d0_1 : S8192x2048.ReducesTo [0, 1] S_
  bcast_S_S8192x2048 : S_.BroadcastsInDim S8192x2048 (![] : Fin 0 → Fin S8192x2048.rank)
  bcast_S_S4x2048x8192 : S_.BroadcastsInDim S4x2048x8192 (![] : Fin 0 → Fin S4x2048x8192.rank)
  reducesTo_S2048x2048_S_d0_1 : S2048x2048.ReducesTo [0, 1] S_
  bcast_S_S2048x2048 : S_.BroadcastsInDim S2048x2048 (![] : Fin 0 → Fin S2048x2048.rank)
  reducesTo_S4x2048x8192_S4x2048_d2 : S4x2048x8192.ReducesTo [2] S4x2048
  bcast_S4x2048x1_S4x2048x8192_0_1_2 : S4x2048x1.BroadcastsInDim S4x2048x8192 (![0, 1, 2] : Fin 3 → Fin S4x2048x8192.rank)
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  reducesTo_S2048x8192_S_d0_1 : S2048x8192.ReducesTo [0, 1] S_
  bcast_S_S2048x8192 : S_.BroadcastsInDim S2048x8192 (![] : Fin 0 → Fin S2048x8192.rank)
  slices_S4x2048x2048_S4x1x2048_0_2047_0 : S4x2048x2048.Slices ![0, 2047, 0] S4x1x2048
  dot_S4x2048x2048_S8192x2048_S4x2048x8192_2_1_01_0_n_n_wf : DotDims.WF S4x2048x2048 S8192x2048 S4x2048x8192 [2] [1] [0, 1] [0] [] []
  dot_S4x2048x2048_S2048x2048_S4x2048x2048_2_1_01_0_n_n_wf : DotDims.WF S4x2048x2048 S2048x2048 S4x2048x2048 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.KRegion0.lean ====
import proofs.«156918_j26774826123920_2_alg».proof.Proof.Gen.Kernel.Launch
import proofs.«156918_j26774826123920_2_alg».proof.Proof.Gen.Kernel.Skeleton
import proofs.«156918_j26774826123920_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
/- The buffers' contents on each core when the region is entered: the parameter everything below is stated at. -/
variable (V : (c : Dev nD) → (b : Ref sig .tc) → Buf (Elt F) ((c : Thread nD τ).loc b))

/-! # The first kernel region (the key map): a 16 × 16 grid, 512 token rows by 512 output columns per point

The grid's inner coordinate `j` walks the output columns of one block of 512 rows. The normalised, quantised rows are
computed once, at `j = 0`, into a scratch buffer the kernel keeps, and read from it at every `j`. -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input's staging buffer holds its block at every point, fetched there or not: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0A : Rect S512x2048 := Rect.unit (s := S512x2048) ![0, 0] S512x2048.size inb_S512x2048_S512x2048_0_0
abbrev r0B : Rect S1x2048 := Rect.unit (s := S1x2048) ![0, 0] S1x2048.size inb_S1x2048_S1x2048_0_0
abbrev r0O : Rect S512x512 := Rect.unit (s := S512x512) ![0, 0] S512x512.size inb_S512x512_S512x512_0_0

/-- What the body writes to the scratch at `j = 0`, from the five input blocks it reads there (the rows, their shift
    differences, the mixing row, the gain and the bias): its one store, of the whole buffer. -/
def xq0 (x0 x1 : Vec F S512x2048 .f32) (x2 x3 x4 : Vec F S1x2048 .f32) : Vec F S512x2048 .bf16 :=
  View.canon [⟨r0A, k0_pay1 (k0_pay3 (View.ld x0 r0A) (View.ld x1 r0A) (View.ld x2 r0B) (View.ld x3 r0B) (View.ld x4 r0B))
    (k0_pay4 (View.ld x0 r0A) (View.ld x1 r0A) (View.ld x2 r0B) (View.ld x3 r0B) (View.ld x4 r0B)) (k0_pay5 (F := F))⟩]

/-- What the body leaves in the output's staging buffer, from the scratch's contents `s` and the weight block. -/
def out0_6 (s x5 : Vec F S512x2048 .bf16) : Vec F S512x512 .bf16 :=
  View.canon [⟨r0O, k0_pay2 (View.ld s r0A) (View.ld x5 r0A)⟩]

theorem cover0_s (p0 : Vec F S512x2048 .bf16) (y : S512x2048.Idx) :
    ∃ pc ∈ ([⟨r0A, p0⟩] : List (View.Piece (Elt F) S512x2048 .bf16)), y ∈ pc.1.set :=
  View.cover_of_tiled [⟨r0A, p0⟩] S512x2048.size (by rfl) y
theorem cover0_6 (p0 : Vec F S512x512 .bf16) (y : S512x512.Idx) :
    ∃ pc ∈ ([⟨r0O, p0⟩] : List (View.Piece (Elt F) S512x512 .bf16)), y ∈ pc.1.set :=
  View.cover_of_tiled [⟨r0O, p0⟩] S512x512.size (by rfl) y

/-- The body's one condition, "the inner grid coordinate is zero", as the printed scalar chain states it. -/
abbrev cond0 (i : grid0.Coords) : Prop := (Scalar.cmpi .ne (Scalar.extui (Scalar.cmpi .eq (BitVec.ofNat 32 (i 1).val) 0#32)) 0#32) = 1#1
/-- It holds exactly at the points whose position is a multiple of 16: decided over the grid's 256 points. -/
theorem hcond0 : ∀ t : Fin cfg0.N, cond0 (grid0.coords t) ↔ t.val % 16 = 0 :=
  (by decide +kernel : ∀ t : Fin grid0.N, cond0 (grid0.coords t) ↔ t.val % 16 = 0)

set_option maxHeartbeats 4000000 in
/-- AT `j = 0`: from the inputs' buffers at read contents, the output's and the scratch at anything, the body runs to the
    continuation holding the scratch at `xq0` of the five blocks and the output's buffer at `out0_6` of that and the weights. -/
theorem sound_kernel0_A (c : Dev nD) (E : Set ℕ) (i : grid0.Coords) (hc : cond0 i)
    (arg2 : Memref sig .tc .vmem S512x2048 .f32) (harg2 : arg2.IsWhole) (arg3 : Memref sig .tc .vmem S512x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S512x2048 .bf16) (harg7 : arg7.IsWhole)
    (arg8 : Memref sig .tc .vmem S512x512 .bf16) (harg8 : arg8.IsWhole) (arg9 : Memref sig .tc .vmem S512x2048 .bf16) (harg9 : arg9.IsWhole)
    (x0 x1 : Vec F S512x2048 .f32) (x2 x3 x4 : Vec F S1x2048 .f32) (x5 : Vec F S512x2048 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 (xq0 x0 x1 x2 x3 x4) x5) ∗ owns (c : Thread nD τ) arg9 fullShare (xq0 x0 x1 x2 x3 x4)) -∗ K ⟨⟩))
      ⊢ wp frame (wpE (defs₀ (F := F)) Variants.none c none) E (cc0__k_kernel i arg2 harg2 arg3 harg3 arg4 harg4 arg5 harg5 arg6 harg6 arg7 harg7 arg8 harg8 arg9 harg9) K := by
  simp only [cc0__k_kernel_eq_skeleton]; unfold cc0__k_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    simp only [View.readAt_eq_ld]
    rw [View.read_writes_eq_canon _ _ _ (cover0_6 _)]
    unfold out0_6 xq0
    rw [View.readCov_eq_canon_ld _ _ _ (cover0_s _)]
  iexists _; isplitr
  swap; · iexact H7
  ipureintro
  sl_unfold_run_names
  exact View.read_writes_eq_canon _ _ _ (cover0_s _)

set_option maxHeartbeats 4000000 in
/-- AT `j ≠ 0`: the scratch holds `s` and is only read; the output's buffer ends at `out0_6` of `s` and the weights. The five
    inputs the other case reads are not touched. -/
theorem sound_kernel0_B (c : Dev nD) (E : Set ℕ) (i : grid0.Coords) (hc : ¬ cond0 i)
    (arg2 : Memref sig .tc .vmem S512x2048 .f32) (harg2 : arg2.IsWhole) (arg3 : Memref sig .tc .vmem S512x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S512x2048 .bf16) (harg7 : arg7.IsWhole)
    (arg8 : Memref sig .tc .vmem S512x512 .bf16) (harg8 : arg8.IsWhole) (arg9 : Memref sig .tc .vmem S512x2048 .bf16) (harg9 : arg9.IsWhole)
    (x5 s : Vec F S512x2048 .bf16) (K : PUnit → sProp 𝕄) :
    iprop(owns (c : Thread nD τ) arg7 fullShare x5 ∗ (∃ d, owns (c : Thread nD τ) arg8 fullShare d) ∗ owns (c : Thread nD τ) arg9 fullShare s
        ∗ (iprop(owns (c : Thread nD τ) arg7 fullShare x5 ∗ owns (c : Thread nD τ) arg8 fullShare (out0_6 s x5) ∗ owns (c : Thread nD τ) arg9 fullShare s) -∗ K ⟨⟩))
      ⊢ wp frame (wpE (defs₀ (F := F)) Variants.none c none) E (cc0__k_kernel i arg2 harg2 arg3 harg3 arg4 harg4 arg5 harg5 arg6 harg6 arg7 harg7 arg8 harg8 arg9 harg9) K := by
  simp only [cc0__k_kernel_eq_skeleton]; unfold cc0__k_kernel_skel
  unfold owns
  iintro ⟨⟨%f5, %hf5, H5⟩, ⟨%d6, %f6, -, H6⟩, ⟨%f7, %hf7, H7⟩, Hk⟩
  subst hf5; subst hf7
  sl_exec (disch := first | exact hc)
  sl_step
  iapply Hk
  isplitl [H5]
  · iexists f5; isplitr; · ipureintro; rfl
    iexact H5
  isplitl [H6]
  · iexists _; isplitr
    swap; · iexact H6
    ipureintro
    exact View.read_writes_eq_canon _ _ _ (cover0_6 _)
  iexists f7; isplitr; · ipureintro; rfl
  iexact H7

/-! ## The scratch between points, and the region's proof data -/

/-- The kernel's scratch buffer, as the body is handed it. -/
abbrev scr0 : Memref sig .tc .vmem S512x2048 .bf16 := Memref.whole cc0_scratch0

/-- The scratch's contents once the body has run at point `t`: the normalised, quantised rows of the point's block of rows
    (computed at the row block's first point, and the same at each of its sixteen points: `sAt_prev`). -/
def sAt (c : Dev nD) (t : Fin cfg0.N) : Vec F S512x2048 .bf16 :=
  xq0 (iblk0 V c 0 t) (iblk0 V c 1 t) (iblk0 V c 2 t) (iblk0 V c 3 t) (iblk0 V c 4 t)

/-- The scoped buffers other than the scratch, at some contents each, and the generator register at some state. -/
def rest0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The region's invariant: before the first point the class's (every scoped buffer that is no staging buffer at anything);
    after point `t` the scratch at `sAt t`, the rest as before. -/
def Phi0 (c : Dev nD) : Fin (cfg0.N + 1) → sProp 𝕄 :=
  Fin.cases (motive := fun _ => sProp 𝕄) (Pipeline.ΦA spec0 c)
    (fun t => iprop(owns (c : Thread nD τ) scr0 fullShare (sAt V c t) ∗ rest0 c))

/-- The arrays as the region finds them; after the body at point `t` each input's buffer holds its block and the output's
    `out0_6` of the scratch's contents there and the weight block; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (sAt V c t) (iblk0 V c 5 t)
  Φ := Phi0 V c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (sAt V c t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! An input not fetched at a point holds what it held at the point before; the five inputs the `j = 0` case reads are
fetched only where the row block changes, so within a row block their blocks, and with them the scratch's contents, stay. -/

theorem iblk0_prev_0 (c : Dev nD) (t : Fin cfg0.N) (h : ¬ t.val % 16 = 0) :
    (iblk0 V c 0 t : Vec F S512x2048 .f32) = iblk0 V c 0 ⟨t.val - 1, Nat.lt_of_le_of_lt (Nat.sub_le _ _) t.isLt⟩ := by
  have hf : (cfg0.win 0).fetch t = false := by
    rcases hb : (cfg0.win 0).fetch t with _ | _
    · rfl
    · exact absurd ((fetch0_0 t).mp hb) (by omega)
  have h1 := (dat0 V c).before_unfetched_in 0 rfl t hf (fun _ => rfl) (iblk0 V c 0 t)
  rw [before0_0 V c t] at h1
  rw [h1]; unfold Dat.kept; rw [after0_0]; rfl
theorem iblk0_prev_1 (c : Dev nD) (t : Fin cfg0.N) (h : ¬ t.val % 16 = 0) :
    (iblk0 V c 1 t : Vec F S512x2048 .f32) = iblk0 V c 1 ⟨t.val - 1, Nat.lt_of_le_of_lt (Nat.sub_le _ _) t.isLt⟩ := by
  have hf : (cfg0.win 1).fetch t = false := by
    rcases hb : (cfg0.win 1).fetch t with _ | _
    · rfl
    · exact absurd ((fetch0_1 t).mp hb) (by omega)
  have h1 := (dat0 V c).before_unfetched_in 1 rfl t hf (fun _ => rfl) (iblk0 V c 1 t)
  rw [before0_1 V c t] at h1
  rw [h1]; unfold Dat.kept; rw [after0_1]; rfl
theorem iblk0_prev_2 (c : Dev nD) (t : Fin cfg0.N) (h : ¬ t.val % 16 = 0) :
    (iblk0 V c 2 t : Vec F S1x2048 .f32) = iblk0 V c 2 ⟨t.val - 1, Nat.lt_of_le_of_lt (Nat.sub_le _ _) t.isLt⟩ := by
  have hf : (cfg0.win 2).fetch t = false := by
    rcases hb : (cfg0.win 2).fetch t with _ | _
    · rfl
    · exact absurd ((fetch0_2 t).mp hb) (by omega)
  have h1 := (dat0 V c).before_unfetched_in 2 rfl t hf (fun _ => rfl) (iblk0 V c 2 t)
  rw [before0_2 V c t] at h1
  rw [h1]; unfold Dat.kept; rw [after0_2]; rfl
theorem iblk0_prev_3 (c : Dev nD) (t : Fin cfg0.N) (h : ¬ t.val % 16 = 0) :
    (iblk0 V c 3 t : Vec F S1x2048 .f32) = iblk0 V c 3 ⟨t.val - 1, Nat.lt_of_le_of_lt (Nat.sub_le _ _) t.isLt⟩ := by
  have hf : (cfg0.win 3).fetch t = false := by
    rcases hb : (cfg0.win 3).fetch t with _ | _
    · rfl
    · exact absurd ((fetch0_3 t).mp hb) (by omega)
  have h1 := (dat0 V c).before_unfetched_in 3 rfl t hf (fun _ => rfl) (iblk0 V c 3 t)
  rw [before0_3 V c t] at h1
  rw [h1]; unfold Dat.kept; rw [after0_3]; rfl
theorem iblk0_prev_4 (c : Dev nD) (t : Fin cfg0.N) (h : ¬ t.val % 16 = 0) :
    (iblk0 V c 4 t : Vec F S1x2048 .f32) = iblk0 V c 4 ⟨t.val - 1, Nat.lt_of_le_of_lt (Nat.sub_le _ _) t.isLt⟩ := by
  have hf : (cfg0.win 4).fetch t = false := by
    rcases hb : (cfg0.win 4).fetch t with _ | _
    · rfl
    · exact absurd ((fetch0_4 t).mp hb) (by omega)
  have h1 := (dat0 V c).before_unfetched_in 4 rfl t hf (fun _ => rfl) (iblk0 V c 4 t)
  rw [before0_4 V c t] at h1
  rw [h1]; unfold Dat.kept; rw [after0_4]; rfl

theorem sAt_prev (c : Dev nD) (t : Fin cfg0.N) (h : ¬ t.val % 16 = 0) :
    sAt V c ⟨t.val - 1, Nat.lt_of_le_of_lt (Nat.sub_le _ _) t.isLt⟩ = sAt V c t := by
  unfold sAt
  rw [iblk0_prev_0 V c t h, iblk0_prev_1 V c t h, iblk0_prev_2 V c t h, iblk0_prev_3 V c t h, iblk0_prev_4 V c t h]

/-- The scoped rest with the scratch split off. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The whole scratch buffer at contents `f` is the body's memref owned at `f`. -/
theorem scr_owns (c : Dev nD) (f : Buf (Elt F) ((c : Thread nD τ).loc cc0_scratch0)) :
    (((c : Thread nD τ).loc cc0_scratch0) ↦{fullShare} f : sProp 𝕄) = owns (c : Thread nD τ) scr0 fullShare f :=
  (owns_whole (c : Thread nD τ) cc0_scratch0 fullShare f).symm

/-- Before any point the invariant yields the scratch at SOME contents beside the rest. -/
theorem Phi0_scratch (c : Dev nD) (n : Fin (cfg0.N + 1)) :
    Phi0 V c n ⊢ iprop((∃ d, owns (c : Thread nD τ) scr0 fullShare d) ∗ rest0 c) := by
  refine Fin.cases ?_ (fun t => ?_) n
  · show Pipeline.ΦA spec0 c ⊢ _
    unfold Pipeline.ΦA rest0; rw [scopedRest0_split]
    iintro ⟨⟨⟨%f, Hs⟩, Hr⟩, Hp⟩
    isplitl [Hs]
    · iexists f; rw [← scr_owns]; iexact Hs
    isplitl [Hr]; · iexact Hr
    iexact Hp
  · show iprop(owns (c : Thread nD τ) scr0 fullShare (sAt V c t) ∗ rest0 c) ⊢ _
    iintro ⟨Hs, Hr⟩
    isplitl [Hs]; · iexists _; iexact Hs
    iexact Hr

theorem castSucc_eq_succ_pred (t : Fin cfg0.N) (h : t.val ≠ 0) :
    t.castSucc = (⟨t.val - 1, Nat.lt_of_le_of_lt (Nat.sub_le _ _) t.isLt⟩ : Fin cfg0.N).succ :=
  Fin.ext (by show t.val = t.val - 1 + 1; omega)

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point. At the first point of a row block the scratch is handed over at anything and comes back at the
    block's quantised rows; at the other fifteen it is handed over at those rows (left by the point before) and comes back
    unchanged. Either way the output's buffer ends at `out0_6` of the scratch and the weight block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6,
    show (dat0 V c).Φ t.succ = iprop(owns (c : Thread nD τ) scr0 fullShare (sAt V c t) ∗ rest0 c) from rfl]
  by_cases h : t.val % 16 = 0
  · rw [show (dat0 V c).Φ t.castSucc = Phi0 V c t.castSucc from rfl]
    iintro ⟨HP, Ho, ⟨%d0, H0⟩, ⟨%d1, H1⟩, ⟨%d2, H2⟩, ⟨%d3, H3⟩, ⟨%d4, H4⟩, ⟨%d5, H5⟩, ⟨%d6, H6⟩⟩
    ihave HP' := (Phi0_scratch V c t.castSucc) $$ HP
    icases HP' with ⟨⟨%ds, Hs⟩, Hr⟩
    iapply (sound_kernel0_A c Set.univ (grid0.coords t) ((hcond0 t).mpr h) _ _ _ _ _ _ _ _ _ _ _ _ _ _ _ _ (iblk0 V c 0 t) (iblk0 V c 1 t) (iblk0 V c 2 t) (iblk0 V c 3 t) (iblk0 V c 4 t) (iblk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hs]; · iexists _; iexact Hs
    iintro ⟨H0, H1, H2, H3, H4, H5, H6, Hs⟩
    unfold sAt
    isplitl [Hs Hr]
    · isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have ht0 : t.val ≠ 0 := fun e => h (by rw [e])
    rw [show (dat0 V c).Φ t.castSucc
        = iprop(owns (c : Thread nD τ) scr0 fullShare (sAt V c ⟨t.val - 1, Nat.lt_of_le_of_lt (Nat.sub_le _ _) t.isLt⟩) ∗ rest0 c)
      from by rw [castSucc_eq_succ_pred t ht0]; rfl, sAt_prev V c t h]
    iintro ⟨⟨Hs, Hr⟩, Ho, ⟨%d0, H0⟩, ⟨%d1, H1⟩, ⟨%d2, H2⟩, ⟨%d3, H3⟩, ⟨%d4, H4⟩, ⟨%d5, H5⟩, ⟨%d6, H6⟩⟩
    iapply (sound_kernel0_B c Set.univ (grid0.coords t) (fun hc => h ((hcond0 t).mp hc)) _ _ _ _ _ _ _ _ _ _ _ _ _ _ _ _ (iblk0 V c 5 t) (sAt V c t) _)
    isplitl [H5]; · iexact H5
    isplitl [H6]; · iexists _; iexact H6
    isplitl [Hs]; · iexact Hs
    iintro ⟨H5, H6, Hs⟩
    isplitl [Hs Hr]
    · isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Fr

end
-- ==== Proof.KRegion1.lean ====
import proofs.«156918_j26774826123920_2_alg».proof.Proof.Gen.Kernel.Launch
import proofs.«156918_j26774826123920_2_alg».proof.Proof.Gen.Kernel.Skeleton
import proofs.«156918_j26774826123920_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
/- The buffers' contents on each core when the region is entered: the parameter everything below is stated at. -/
variable (V : (c : Dev nD) → (b : Ref sig .tc) → Buf (Elt F) ((c : Thread nD τ).loc b))

/-! # The second kernel region (the gate): one block of 256 token rows per grid point -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- An input's staging buffer holds its block at every point, fetched there or not: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1A : Rect S256x2048 := Rect.unit (s := S256x2048) ![0, 0] S256x2048.size inb_S256x2048_S256x2048_0_0
abbrev r1B : Rect S1x2048 := Rect.unit (s := S1x2048) ![0, 0] S1x2048.size inb_S1x2048_S1x2048_0_0
abbrev r1C : Rect S2048x2048 := Rect.unit (s := S2048x2048) ![0, 0] S2048x2048.size inb_S2048x2048_S2048x2048_0_0

/-- What the body leaves in the output's staging buffer, from the six input blocks: its one store, of the whole block. -/
def out1_6 (x0 x1 : Vec F S256x2048 .f32) (x2 x3 x4 : Vec F S1x2048 .f32) (x5 : Vec F S2048x2048 .bf16) : Vec F S256x2048 .bf16 :=
  View.canon [⟨r1A, k1_pay1 (k1_pay2 (View.ld x0 r1A) (View.ld x1 r1A) (View.ld x2 r1B) (View.ld x3 r1B) (View.ld x4 r1B))
    (k1_pay3 (View.ld x0 r1A) (View.ld x1 r1A) (View.ld x2 r1B) (View.ld x3 r1B) (View.ld x4 r1B)) (Scalar.ofBits .f32 0x40200000#32) (View.ld x5 r1C)⟩]

/-- The one store covers the buffer. -/
theorem cover1_6 (p0 : Vec F S256x2048 .bf16) (y : S256x2048.Idx) :
    ∃ pc ∈ ([⟨r1A, p0⟩] : List (View.Piece (Elt F) S256x2048 .bf16)), y ∈ pc.1.set :=
  View.cover_of_tiled [⟨r1A, p0⟩] S256x2048.size (by rfl) y

set_option maxHeartbeats 4000000 in
/-- The body on whole staging buffers, the inputs' at read contents and the output's at anything, runs to the continuation
    holding the inputs' as they were and the output's at `out1_6` of them. -/
theorem sound_kernel1 (c : Dev nD) (E : Set ℕ) (i : grid1.Coords)
    (arg1 : Memref sig .tc .vmem S256x2048 .f32) (harg1 : arg1.IsWhole) (arg2 : Memref sig .tc .vmem S256x2048 .f32) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (arg6 : Memref sig .tc .vmem S2048x2048 .bf16) (harg6 : arg6.IsWhole)
    (arg7 : Memref sig .tc .vmem S256x2048 .bf16) (harg7 : arg7.IsWhole)
    (x0 x1 : Vec F S256x2048 .f32) (x2 x3 x4 : Vec F S1x2048 .f32) (x5 : Vec F S2048x2048 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__r_kernel i arg1 harg1 arg2 harg2 arg3 harg3 arg4 harg4 arg5 harg5 arg6 harg6 arg7 harg7) K := by
  simp only [cc1__r_kernel_eq_skeleton]; unfold cc1__r_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The region's proof data -/

/-- The arrays as the region finds them; after the body at point `t` each input's buffer holds its block and the output's
    holds `out1_6` of the input blocks; the invariant is the class's (the scoped rest and the generator register,
    untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the inputs' buffers hold their blocks, so the body's triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.KRegion2.lean ====
import proofs.«156918_j26774826123920_2_alg».proof.Proof.Gen.Kernel.Launch
import proofs.«156918_j26774826123920_2_alg».proof.Proof.Gen.Kernel.Skeleton
import proofs.«156918_j26774826123920_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
/- The buffers' contents on each core when the region is entered: the parameter everything below is stated at. -/
variable (V : (c : Dev nD) → (b : Ref sig .tc) → Buf (Elt F) ((c : Thread nD τ).loc b))

/-! # The third kernel region (the value map times the gate): one block of 64 token rows per grid point -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/- An input's staging buffer holds its block at every point, fetched there or not: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2A : Rect S64x8192 := Rect.unit (s := S64x8192) ![0, 0] S64x8192.size inb_S64x8192_S64x8192_0_0
abbrev r2B : Rect S1x8192 := Rect.unit (s := S1x8192) ![0, 0] S1x8192.size inb_S1x8192_S1x8192_0_0
abbrev r2C : Rect S2048x8192 := Rect.unit (s := S2048x8192) ![0, 0] S2048x8192.size inb_S2048x8192_S2048x8192_0_0
abbrev r2O : Rect S64x2048 := Rect.unit (s := S64x2048) ![0, 0] S64x2048.size inb_S64x2048_S64x2048_0_0

/-- What the body leaves in the output's staging buffer, from the five input blocks: its one store, of the whole block. -/
def out2_5 (x0 : Vec F S64x8192 .bf16) (x1 x2 : Vec F S1x8192 .f32) (x3 : Vec F S2048x8192 .bf16) (x4 : Vec F S64x2048 .bf16) : Vec F S64x2048 .f32 :=
  View.canon [⟨r2O, k2_pay1 (k2_pay3 (View.ld x0 r2A) (View.ld x1 r2B) (View.ld x2 r2B)) (k2_pay4 (View.ld x0 r2A) (View.ld x1 r2B) (View.ld x2 r2B))
    (Scalar.ofBits .f32 0x42FE0000#32) (k2_pay5 (F := F)) (View.ld x3 r2C) (View.ld x4 r2O)⟩]

/-- The one store covers the buffer. -/
theorem cover2_5 (p0 : Vec F S64x2048 .f32) (y : S64x2048.Idx) :
    ∃ pc ∈ ([⟨r2O, p0⟩] : List (View.Piece (Elt F) S64x2048 .f32)), y ∈ pc.1.set :=
  View.cover_of_tiled [⟨r2O, p0⟩] S64x2048.size (by rfl) y

set_option maxHeartbeats 4000000 in
/-- The body on whole staging buffers, the inputs' at read contents and the output's at anything, runs to the continuation
    holding the inputs' as they were and the output's at `out2_5` of them. -/
theorem sound_kernel2 (c : Dev nD) (E : Set ℕ) (i : grid2.Coords)
    (arg1 : Memref sig .tc .vmem S64x8192 .bf16) (harg1 : arg1.IsWhole) (arg2 : Memref sig .tc .vmem S1x8192 .f32) (harg2 : arg2.IsWhole)
    (arg3 : Memref sig .tc .vmem S1x8192 .f32) (harg3 : arg3.IsWhole) (arg4 : Memref sig .tc .vmem S2048x8192 .bf16) (harg4 : arg4.IsWhole)
    (arg5 : Memref sig .tc .vmem S64x2048 .bf16) (harg5 : arg5.IsWhole) (arg6 : Memref sig .tc .vmem S64x2048 .f32) (harg6 : arg6.IsWhole)
    (x0 : Vec F S64x8192 .bf16) (x1 x2 : Vec F S1x8192 .f32) (x3 : Vec F S2048x8192 .bf16) (x4 : Vec F S64x2048 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__v_kernel i arg1 harg1 arg2 harg2 arg3 harg3 arg4 harg4 arg5 harg5 arg6 harg6) K := by
  simp only [cc2__v_kernel_eq_skeleton]; unfold cc2__v_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The region's proof data -/

/-- The arrays as the region finds them; after the body at point `t` each input's buffer holds its block and the output's
    holds `out2_5` of the input blocks; the invariant is the class's (the scoped rest and the generator register,
    untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 2000000 in
/-- The body at any point: the inputs' buffers hold their blocks, so the body's triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Fr

end
-- ==== Proof.KRun.lean ====
import proofs.«156918_j26774826123920_2_alg».proof.Proof.KRegion0
import proofs.«156918_j26774826123920_2_alg».proof.Proof.KRegion1
import proofs.«156918_j26774826123920_2_alg».proof.Proof.KRegion2
import proofs.«156918_j26774826123920_2_alg».proof.Proof.Gen.Kernel.Launch
import proofs.«156918_j26774826123920_2_alg».proof.Proof.Gen.Kernel.Skeleton
import proofs.«156918_j26774826123920_2_alg».proof.Proof.Gen.Kernel.Points
import proofs.«156918_j26774826123920_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! # The run of the whole program

The buffers' contents between @main's items: the launch contents, then each host stretch's operations applied (the generated
`V1 … V16`), then after each kernel region its output array at what the region's write-backs leave and everything else as it was,
then the last two host operations. -/

/-- What the first region finds, read at the TensorCore's references. -/
abbrev E16 : (c : Dev nD) → (b : Ref sig .tc) → Buf (Elt F) ((c : Thread nD τ).loc b) := fun c b => V16 m c b
/-- What the first region leaves in its output array: its write-backs, folded. -/
def o17 (c : Dev nD) : Buf (Elt F) ((c : Thread nD τ).loc main_v47) := (dat0 (E16 m) c).arrAt 6 cfg0.N
/-- The contents after the first region. -/
def U17 (c : Dev nD) : Valuation τ sig (Elt F) := Function.update (V16 m c) main_v47 (o17 m c)
abbrev E17 : (c : Dev nD) → (b : Ref sig .tc) → Buf (Elt F) ((c : Thread nD τ).loc b) := fun c b => U17 m c b
def o18 (c : Dev nD) : Buf (Elt F) ((c : Thread nD τ).loc main_v48) := (dat1 (E17 m) c).arrAt 6 cfg1.N
/-- The contents after the second region. -/
def U18 (c : Dev nD) : Valuation τ sig (Elt F) := Function.update (U17 m c) main_v48 (o18 m c)
abbrev E18 : (c : Dev nD) → (b : Ref sig .tc) → Buf (Elt F) ((c : Thread nD τ).loc b) := fun c b => U18 m c b
def o19 (c : Dev nD) : Buf (Elt F) ((c : Thread nD τ).loc main_v49) := (dat2 (E18 m) c).arrAt 5 cfg2.N
/-- The contents after the third region. -/
def U19 (c : Dev nD) : Valuation τ sig (Elt F) := Function.update (U18 m c) main_v49 (o19 m c)
abbrev E19 : (c : Dev nD) → (b : Ref sig .tc) → Buf (Elt F) ((c : Thread nD τ).loc b) := fun c b => U19 m c b
/-- The contents at the end: the last two host operations applied. -/
def U20 (c : Dev nD) : Valuation τ sig (Elt F) := StableHlo.after hostOps3 (U19 m c)

/-- Every region's proof data, each at its own entry contents: a literal match on the region. -/
def pdats : (p : Fin 3) → (c : Dev nD) → Dat τ (Elt F) Unit ℕ (UR sig nD τ) ℕ (Pipeline.pin (pcfgs (F := F)) adm p) c
  | ⟨0, _⟩ => fun c => dat0 (E16 m) c
  | ⟨1, _⟩ => fun c => dat1 (E17 m) c
  | ⟨2, _⟩ => fun c => dat2 (E18 m) c

theorem U17_of (c : Dev nD) (r : Ref sig .tc) (h : r ≠ main_v47) : U17 m c r = V16 m c r := by
  simp only [U17, Function.update_of_ne (StableHlo.devRef_ne_of_ne h : (Proc.devRef .tc r : DevRef τ sig) ≠ Proc.devRef .tc main_v47)]
theorem U17_self (c : Dev nD) : U17 m c main_v47 = o17 m c := by
  simp only [U17, Function.update_self]
set_option maxHeartbeats 4000000 in
/-- At region 0's exit each of its arrays holds what the pipeline leaves, -/
theorem hF0 (c : Dev nD) (w : Fin cfg0.W) : (pdats m 0 c).arrAt w cfg0.N = E17 m c (Pipeline.arrRef spec0 w) := by
  match w with
  | ⟨6, _⟩ => exact (U17_self m c).symm
  | ⟨0, _⟩ => exact (((pdats m 0 c).arrAt_in 0 rfl _).trans (A_eq0 (E16 m) c 0)).trans (U17_of m c _ (by decide)).symm
  | ⟨1, _⟩ => exact (((pdats m 0 c).arrAt_in 1 rfl _).trans (A_eq0 (E16 m) c 1)).trans (U17_of m c _ (by decide)).symm
  | ⟨2, _⟩ => exact (((pdats m 0 c).arrAt_in 2 rfl _).trans (A_eq0 (E16 m) c 2)).trans (U17_of m c _ (by decide)).symm
  | ⟨3, _⟩ => exact (((pdats m 0 c).arrAt_in 3 rfl _).trans (A_eq0 (E16 m) c 3)).trans (U17_of m c _ (by decide)).symm
  | ⟨4, _⟩ => exact (((pdats m 0 c).arrAt_in 4 rfl _).trans (A_eq0 (E16 m) c 4)).trans (U17_of m c _ (by decide)).symm
  | ⟨5, _⟩ => exact (((pdats m 0 c).arrAt_in 5 rfl _).trans (A_eq0 (E16 m) c 5)).trans (U17_of m c _ (by decide)).symm
/-- and every other buffer what it held at entry. -/
theorem hrest0 (c : Dev nD) : ∀ b, b ∉ Finset.univ.image (Pipeline.arrRef spec0) → E17 m c b = E16 m c b :=
  fun b hb => U17_of m c b fun e => hb (Finset.mem_image.mpr ⟨6, Finset.mem_univ _, e.symm⟩)

theorem U18_of (c : Dev nD) (r : Ref sig .tc) (h : r ≠ main_v48) : U18 m c r = U17 m c r := by
  simp only [U18, Function.update_of_ne (StableHlo.devRef_ne_of_ne h : (Proc.devRef .tc r : DevRef τ sig) ≠ Proc.devRef .tc main_v48)]
theorem U18_self (c : Dev nD) : U18 m c main_v48 = o18 m c := by
  simp only [U18, Function.update_self]
set_option maxHeartbeats 4000000 in
/-- At region 1's exit each of its arrays holds what the pipeline leaves, -/
theorem hF1 (c : Dev nD) (w : Fin cfg1.W) : (pdats m 1 c).arrAt w cfg1.N = E18 m c (Pipeline.arrRef spec1 w) := by
  match w with
  | ⟨6, _⟩ => exact (U18_self m c).symm
  | ⟨0, _⟩ => exact (((pdats m 1 c).arrAt_in 0 rfl _).trans (A_eq1 (E17 m) c 0)).trans (U18_of m c _ (by decide)).symm
  | ⟨1, _⟩ => exact (((pdats m 1 c).arrAt_in 1 rfl _).trans (A_eq1 (E17 m) c 1)).trans (U18_of m c _ (by decide)).symm
  | ⟨2, _⟩ => exact (((pdats m 1 c).arrAt_in 2 rfl _).trans (A_eq1 (E17 m) c 2)).trans (U18_of m c _ (by decide)).symm
  | ⟨3, _⟩ => exact (((pdats m 1 c).arrAt_in 3 rfl _).trans (A_eq1 (E17 m) c 3)).trans (U18_of m c _ (by decide)).symm
  | ⟨4, _⟩ => exact (((pdats m 1 c).arrAt_in 4 rfl _).trans (A_eq1 (E17 m) c 4)).trans (U18_of m c _ (by decide)).symm
  | ⟨5, _⟩ => exact (((pdats m 1 c).arrAt_in 5 rfl _).trans (A_eq1 (E17 m) c 5)).trans (U18_of m c _ (by decide)).symm
/-- and every other buffer what it held at entry. -/
theorem hrest1 (c : Dev nD) : ∀ b, b ∉ Finset.univ.image (Pipeline.arrRef spec1) → E18 m c b = E17 m c b :=
  fun b hb => U18_of m c b fun e => hb (Finset.mem_image.mpr ⟨6, Finset.mem_univ _, e.symm⟩)

theorem U19_of (c : Dev nD) (r : Ref sig .tc) (h : r ≠ main_v49) : U19 m c r = U18 m c r := by
  simp only [U19, Function.update_of_ne (StableHlo.devRef_ne_of_ne h : (Proc.devRef .tc r : DevRef τ sig) ≠ Proc.devRef .tc main_v49)]
theorem U19_self (c : Dev nD) : U19 m c main_v49 = o19 m c := by
  simp only [U19, Function.update_self]
set_option maxHeartbeats 4000000 in
/-- At region 2's exit each of its arrays holds what the pipeline leaves, -/
theorem hF2 (c : Dev nD) (w : Fin cfg2.W) : (pdats m 2 c).arrAt w cfg2.N = E19 m c (Pipeline.arrRef spec2 w) := by
  match w with
  | ⟨5, _⟩ => exact (U19_self m c).symm
  | ⟨0, _⟩ => exact (((pdats m 2 c).arrAt_in 0 rfl _).trans (A_eq2 (E18 m) c 0)).trans (U19_of m c _ (by decide)).symm
  | ⟨1, _⟩ => exact (((pdats m 2 c).arrAt_in 1 rfl _).trans (A_eq2 (E18 m) c 1)).trans (U19_of m c _ (by decide)).symm
  | ⟨2, _⟩ => exact (((pdats m 2 c).arrAt_in 2 rfl _).trans (A_eq2 (E18 m) c 2)).trans (U19_of m c _ (by decide)).symm
  | ⟨3, _⟩ => exact (((pdats m 2 c).arrAt_in 3 rfl _).trans (A_eq2 (E18 m) c 3)).trans (U19_of m c _ (by decide)).symm
  | ⟨4, _⟩ => exact (((pdats m 2 c).arrAt_in 4 rfl _).trans (A_eq2 (E18 m) c 4)).trans (U19_of m c _ (by decide)).symm
/-- and every other buffer what it held at entry. -/
theorem hrest2 (c : Dev nD) : ∀ b, b ∉ Finset.univ.image (Pipeline.arrRef spec2) → E19 m c b = E18 m c b :=
  fun b hb => U19_of m c b fun e => hb (Finset.mem_image.mpr ⟨5, Finset.mem_univ _, e.symm⟩)

theorem U20_of (c : Dev nD) (r : Ref sig .tc) (h : r ∉ hostOps3_W) : U20 m c r = U19 m c r :=
  StableHlo.after_of_writes_sub hostOps3 _ hostOps3_writes h

/-! No item writes an argument array: each reaches the end as launched. -/
theorem U20_main_arg0 (c : Dev nD) : U20 m c main_arg0 = m ((c : Thread nD τ).loc main_arg0) :=
  (U20_of m c main_arg0 (by decide)).trans <| (U19_of m c main_arg0 (by decide)).trans <| (U18_of m c main_arg0 (by decide)).trans <| (U17_of m c main_arg0 (by decide)).trans <| (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem U20_main_arg1 (c : Dev nD) : U20 m c main_arg1 = m ((c : Thread nD τ).loc main_arg1) :=
  (U20_of m c main_arg1 (by decide)).trans <| (U19_of m c main_arg1 (by decide)).trans <| (U18_of m c main_arg1 (by decide)).trans <| (U17_of m c main_arg1 (by decide)).trans <| (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem U20_main_arg2 (c : Dev nD) : U20 m c main_arg2 = m ((c : Thread nD τ).loc main_arg2) :=
  (U20_of m c main_arg2 (by decide)).trans <| (U19_of m c main_arg2 (by decide)).trans <| (U18_of m c main_arg2 (by decide)).trans <| (U17_of m c main_arg2 (by decide)).trans <| (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl
theorem U20_main_arg3 (c : Dev nD) : U20 m c main_arg3 = m ((c : Thread nD τ).loc main_arg3) :=
  (U20_of m c main_arg3 (by decide)).trans <| (U19_of m c main_arg3 (by decide)).trans <| (U18_of m c main_arg3 (by decide)).trans <| (U17_of m c main_arg3 (by decide)).trans <| (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl
theorem U20_main_arg4 (c : Dev nD) : U20 m c main_arg4 = m ((c : Thread nD τ).loc main_arg4) :=
  (U20_of m c main_arg4 (by decide)).trans <| (U19_of m c main_arg4 (by decide)).trans <| (U18_of m c main_arg4 (by decide)).trans <| (U17_of m c main_arg4 (by decide)).trans <| (V16_of m c main_arg4 (by decide)).trans <| (V15_of m c main_arg4 (by decide)).trans <| (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl
theorem U20_main_arg5 (c : Dev nD) : U20 m c main_arg5 = m ((c : Thread nD τ).loc main_arg5) :=
  (U20_of m c main_arg5 (by decide)).trans <| (U19_of m c main_arg5 (by decide)).trans <| (U18_of m c main_arg5 (by decide)).trans <| (U17_of m c main_arg5 (by decide)).trans <| (V16_of m c main_arg5 (by decide)).trans <| (V15_of m c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl
theorem U20_main_arg6 (c : Dev nD) : U20 m c main_arg6 = m ((c : Thread nD τ).loc main_arg6) :=
  (U20_of m c main_arg6 (by decide)).trans <| (U19_of m c main_arg6 (by decide)).trans <| (U18_of m c main_arg6 (by decide)).trans <| (U17_of m c main_arg6 (by decide)).trans <| (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl
theorem U20_main_arg7 (c : Dev nD) : U20 m c main_arg7 = m ((c : Thread nD τ).loc main_arg7) :=
  (U20_of m c main_arg7 (by decide)).trans <| (U19_of m c main_arg7 (by decide)).trans <| (U18_of m c main_arg7 (by decide)).trans <| (U17_of m c main_arg7 (by decide)).trans <| (V16_of m c main_arg7 (by decide)).trans <| (V15_of m c main_arg7 (by decide)).trans <| (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans <| rfl
theorem U20_main_arg8 (c : Dev nD) : U20 m c main_arg8 = m ((c : Thread nD τ).loc main_arg8) :=
  (U20_of m c main_arg8 (by decide)).trans <| (U19_of m c main_arg8 (by decide)).trans <| (U18_of m c main_arg8 (by decide)).trans <| (U17_of m c main_arg8 (by decide)).trans <| (V16_of m c main_arg8 (by decide)).trans <| (V15_of m c main_arg8 (by decide)).trans <| (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans <| rfl
theorem U20_main_arg9 (c : Dev nD) : U20 m c main_arg9 = m ((c : Thread nD τ).loc main_arg9) :=
  (U20_of m c main_arg9 (by decide)).trans <| (U19_of m c main_arg9 (by decide)).trans <| (U18_of m c main_arg9 (by decide)).trans <| (U17_of m c main_arg9 (by decide)).trans <| (V16_of m c main_arg9 (by decide)).trans <| (V15_of m c main_arg9 (by decide)).trans <| (V14_of m c main_arg9 (by decide)).trans <| (V13_of m c main_arg9 (by decide)).trans <| (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans <| rfl
theorem U20_main_arg10 (c : Dev nD) : U20 m c main_arg10 = m ((c : Thread nD τ).loc main_arg10) :=
  (U20_of m c main_arg10 (by decide)).trans <| (U19_of m c main_arg10 (by decide)).trans <| (U18_of m c main_arg10 (by decide)).trans <| (U17_of m c main_arg10 (by decide)).trans <| (V16_of m c main_arg10 (by decide)).trans <| (V15_of m c main_arg10 (by decide)).trans <| (V14_of m c main_arg10 (by decide)).trans <| (V13_of m c main_arg10 (by decide)).trans <| (V12_of m c main_arg10 (by decide)).trans <| (V11_of m c main_arg10 (by decide)).trans <| (V10_of m c main_arg10 (by decide)).trans <| (V9_of m c main_arg10 (by decide)).trans <| (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans <| rfl
theorem U20_main_arg11 (c : Dev nD) : U20 m c main_arg11 = m ((c : Thread nD τ).loc main_arg11) :=
  (U20_of m c main_arg11 (by decide)).trans <| (U19_of m c main_arg11 (by decide)).trans <| (U18_of m c main_arg11 (by decide)).trans <| (U17_of m c main_arg11 (by decide)).trans <| (V16_of m c main_arg11 (by decide)).trans <| (V15_of m c main_arg11 (by decide)).trans <| (V14_of m c main_arg11 (by decide)).trans <| (V13_of m c main_arg11 (by decide)).trans <| (V12_of m c main_arg11 (by decide)).trans <| (V11_of m c main_arg11 (by decide)).trans <| (V10_of m c main_arg11 (by decide)).trans <| (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans <| rfl

abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev EE : Fin 4 → Dev nD → sProp 𝕄 := fun _ c => R c

set_option backward.isDefEq.respectTransparency.types false in
/-- Region 0 over the thread state: entered from every unscoped buffer at the contents before it, left at the contents after
    it. Its arrays split out of the unscoped buffers and put back at the exit contents; the generator register into the
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E16 m) c).loose
  hwaits := Pipeline.hwaits_of_owed_zero _ _ _ _ L lv 0 fun _ _ => rfl
  pre c := iprop(StableHlo.held (c : Thread nD τ) (Pipeline.ucRefs τ sig) (V16 m c) ∗ R c)
  post c := iprop(StableHlo.held (c : Thread nD τ) (Pipeline.ucRefs τ sig) (U17 m c) ∗ R c)
  X c := iprop(∃ r, prngReg c r)
  Y c := iprop(∃ r, prngReg c r)
  Z c := Pipeline.unscopedRest (Ix := Unit) (Name := ℕ) (U := UR sig nD τ) (Lvl := ℕ) spec0 c (E16 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Phi0 (E16 m) c (Fin.last _) from rfl]
    refine (Phi0_scratch (E16 m) c _).trans ?_
    unfold rest0
    rw [show (Pipeline.scopedRest (Pipeline.pin (pcfgs (F := F)) adm 0).spec c : sProp 𝕄) = Pipeline.scopedRest spec0 c from rfl,
      scopedRest0_split]
    iintro ⟨⟨%d, Hs⟩, Hr, Hp⟩
    isplitl [Hp]; · iexact Hp
    isplitr; · iempintro
    isplitl [Hs]; · iexists d; rw [scr_owns]; iexact Hs
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E16 m c) (E17 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after
    it. Its arrays split out of the unscoped buffers and put back at the exit contents; the generator register into the
    invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E17 m) c).loose
  hwaits := Pipeline.hwaits_of_owed_zero _ _ _ _ L lv 1 fun _ _ => rfl
  pre c := iprop(StableHlo.held (c : Thread nD τ) (Pipeline.ucRefs τ sig) (U17 m c) ∗ R c)
  post c := iprop(StableHlo.held (c : Thread nD τ) (Pipeline.ucRefs τ sig) (U18 m c) ∗ R c)
  X c := iprop(∃ r, prngReg c r)
  Y c := iprop(∃ r, prngReg c r)
  Z c := Pipeline.unscopedRest (Ix := Unit) (Name := ℕ) (U := UR sig nD τ) (Lvl := ℕ) spec1 c (E17 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E17 m c) (E18 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents after
    it. Its arrays split out of the unscoped buffers and put back at the exit contents; the generator register into the
    invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E18 m) c).loose
  hwaits := Pipeline.hwaits_of_owed_zero _ _ _ _ L lv 2 fun _ _ => rfl
  pre c := iprop(StableHlo.held (c : Thread nD τ) (Pipeline.ucRefs τ sig) (U18 m c) ∗ R c)
  post c := iprop(StableHlo.held (c : Thread nD τ) (Pipeline.ucRefs τ sig) (U19 m c) ∗ R c)
  X c := iprop(∃ r, prngReg c r)
  Y c := iprop(∃ r, prngReg c r)
  Z c := Pipeline.unscopedRest (Ix := Unit) (Name := ℕ) (U := UR sig nD τ) (Lvl := ℕ) spec2 c (E18 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E18 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E18 m c) (E19 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last two host operations as a segment, from the contents after the third region. -/
def seg19' : HostSeg (Ix := Unit) (Name := ℕ) (U := UR sig nD τ) (Lvl := ℕ) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (U19 m) (EE 3)

/-- @main's twenty items as segments: sixteen host stretches, the three regions, the last host stretch. -/
abbrev segsU (c : Dev nD) : List (Seg (pcfgs (F := F)) adm (pdats m) () defs₀ 𝒱₀ L lv) :=
  [.host (seg0 m 𝒱₀ L lv EE), .host (seg1 m 𝒱₀ L lv EE), .host (seg2 m 𝒱₀ L lv EE), .host (seg3 m 𝒱₀ L lv EE), .host (seg4 m 𝒱₀ L lv EE), .host (seg5 m 𝒱₀ L lv EE), .host (seg6 m 𝒱₀ L lv EE), .host (seg7 m 𝒱₀ L lv EE), .host (seg8 m 𝒱₀ L lv EE), .host (seg9 m 𝒱₀ L lv EE), .host (seg10 m 𝒱₀ L lv EE), .host (seg11 m 𝒱₀ L lv EE), .host (seg12 m 𝒱₀ L lv EE), .host (seg13 m 𝒱₀ L lv EE), .host (seg14 m 𝒱₀ L lv EE), .host (seg15 m 𝒱₀ L lv EE), .region (reg0 m), .region (reg1 m), .region (reg2 m), .host (seg19' m)]

/-- The last item's thread state regrouped: the buffers and the generator register on one side, the core owing nothing on the other. -/
theorem lastStep (c : Dev nD) :
    (iprop(StableHlo.held (c : Thread nD τ) (Pipeline.ucRefs τ sig) (StableHlo.after hostOps3 (U19 m c)) ∗ EE 3 c) : sProp 𝕄)
      ⊢ iprop((StableHlo.held (c : Thread nD τ) (Pipeline.ucRefs τ sig) (U20 m c) ∗ ∃ r, prngReg c r)
          ∗ ∃ W, owes (c : Thread nD τ) (0 : CellTallies nD τ sig Unit) W) := by
  unfold U20
  iintro ⟨Hh, Hp, HO⟩
  isplitl [Hh Hp]
  · isplitl [Hh]; · iexact Hh
    iexact Hp
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
set_option maxHeartbeats 4000000 in
/-- THE RUN: from any memory with zero counters every weakly fair execution of @main terminates, nothing faulting, and the final
    memory holds every unscoped buffer at the last contents `U20`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = U20 m c b) := by
  refine Pipeline.θ_run_regions_kit_dev (pcfgs (F := F)) adm (pdats m) () cellOf_inj emb₁ defs₀ 𝒱₀ L lv m ρ main
    (segsU m)
    (fun c Q => by
      rewrite [main_chain c, Seg.run_eq_chain,
        show (segsU m c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segsU, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (U20 m c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, .rfl, lastStep m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U20 m c b)
    (hfin := fun c s' => by
      iintro ⟨⟨Hh, -⟩, HSI⟩
      unfold StableHlo.held
      imodintro
      iapply (pointsTo_read_all (Pipeline.ucRefs τ sig) (fun b => (((c : Thread nD τ)).1, b)) (U20 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _ (mem_uc main_arg0 (by decide))).trans (U20_main_arg0 m c),
    (h c _ (mem_uc main_arg1 (by decide))).trans (U20_main_arg1 m c),
    (h c _ (mem_uc main_arg2 (by decide))).trans (U20_main_arg2 m c),
    (h c _ (mem_uc main_arg3 (by decide))).trans (U20_main_arg3 m c),
    (h c _ (mem_uc main_arg4 (by decide))).trans (U20_main_arg4 m c),
    (h c _ (mem_uc main_arg5 (by decide))).trans (U20_main_arg5 m c),
    (h c _ (mem_uc main_arg6 (by decide))).trans (U20_main_arg6 m c),
    (h c _ (mem_uc main_arg7 (by decide))).trans (U20_main_arg7 m c),
    (h c _ (mem_uc main_arg8 (by decide))).trans (U20_main_arg8 m c),
    (h c _ (mem_uc main_arg9 (by decide))).trans (U20_main_arg9 m c),
    (h c _ (mem_uc main_arg10 (by decide))).trans (U20_main_arg10 m c),
    (h c _ (mem_uc main_arg11 (by decide))).trans (U20_main_arg11 m c)⟩) (run_all m ρ)

/-- THE RESULTS: both result buffers end at the last contents, the arguments as launched. -/
theorem run_results : θ_run defs (onTc (τ := τ) (main (F := F))) ⟨m, fun _ => 0, ρ⟩ (fun r => ∀ c : Dev nD,
      r.2.mem ((c.tc : Thread nD τ).loc main_v50) = U20 m c main_v50
      ∧ r.2.mem ((c.tc : Thread nD τ).loc main_v51) = U20 m c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨h c _ (mem_uc main_v50 (by decide)), h c _ (mem_uc main_v51 (by decide)),
    (h c _ (mem_uc main_arg0 (by decide))).trans (U20_main_arg0 m c),
    (h c _ (mem_uc main_arg1 (by decide))).trans (U20_main_arg1 m c),
    (h c _ (mem_uc main_arg2 (by decide))).trans (U20_main_arg2 m c),
    (h c _ (mem_uc main_arg3 (by decide))).trans (U20_main_arg3 m c),
    (h c _ (mem_uc main_arg4 (by decide))).trans (U20_main_arg4 m c),
    (h c _ (mem_uc main_arg5 (by decide))).trans (U20_main_arg5 m c),
    (h c _ (mem_uc main_arg6 (by decide))).trans (U20_main_arg6 m c),
    (h c _ (mem_uc main_arg7 (by decide))).trans (U20_main_arg7 m c),
    (h c _ (mem_uc main_arg8 (by decide))).trans (U20_main_arg8 m c),
    (h c _ (mem_uc main_arg9 (by decide))).trans (U20_main_arg9 m c),
    (h c _ (mem_uc main_arg10 (by decide))).trans (U20_main_arg10 m c),
    (h c _ (mem_uc main_arg11 (by decide))).trans (U20_main_arg11 m c)⟩) (run_all m ρ)

end Cert.Kernel.Fr

end
-- ==== Proof.KIRegion0.lean ====
import proofs.«156918_j26774826123920_2_alg».proof.Proof.Gen.KernelIdeal.Launch
import proofs.«156918_j26774826123920_2_alg».proof.Proof.Gen.KernelIdeal.Skeleton
import proofs.«156918_j26774826123920_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
/- The buffers' contents on each core when the region is entered: the parameter everything below is stated at. -/
variable (V : (c : Dev nD) → (b : Ref sig .tc) → Buf (Elt F) ((c : Thread nD τ).loc b))

/-! # The first kernel region (the key map): a 16 × 16 grid, 512 token rows by 512 output columns per point

The grid's inner coordinate `j` walks the output columns of one block of 512 rows. The normalised, quantised rows are
computed once, at `j = 0`, into a scratch buffer the kernel keeps, and read from it at every `j`. -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/- An input's staging buffer holds its block at every point, fetched there or not: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0A : Rect S512x2048 := Rect.unit (s := S512x2048) ![0, 0] S512x2048.size inb_S512x2048_S512x2048_0_0
abbrev r0B : Rect S1x2048 := Rect.unit (s := S1x2048) ![0, 0] S1x2048.size inb_S1x2048_S1x2048_0_0
abbrev r0O : Rect S512x512 := Rect.unit (s := S512x512) ![0, 0] S512x512.size inb_S512x512_S512x512_0_0

/-- What the body writes to the scratch at `j = 0`, from the five input blocks it reads there (the rows, their shift
    differences, the mixing row, the gain and the bias): its one store, of the whole buffer. -/
def xq0 (x0 x1 : Vec F S512x2048 .f32) (x2 x3 x4 : Vec F S1x2048 .f32) : Vec F S512x2048 .bf16 :=
  View.canon [⟨r0A, k0_pay1 (k0_pay3 (View.ld x0 r0A) (View.ld x1 r0A) (View.ld x2 r0B) (View.ld x3 r0B) (View.ld x4 r0B))
    (k0_pay4 (View.ld x0 r0A) (View.ld x1 r0A) (View.ld x2 r0B) (View.ld x3 r0B) (View.ld x4 r0B)) (k0_pay5 (F := F))⟩]

/-- What the body leaves in the output's staging buffer, from the scratch's contents `s` and the weight block. -/
def out0_6 (s x5 : Vec F S512x2048 .bf16) : Vec F S512x512 .bf16 :=
  View.canon [⟨r0O, k0_pay2 (View.ld s r0A) (View.ld x5 r0A)⟩]

theorem cover0_s (p0 : Vec F S512x2048 .bf16) (y : S512x2048.Idx) :
    ∃ pc ∈ ([⟨r0A, p0⟩] : List (View.Piece (Elt F) S512x2048 .bf16)), y ∈ pc.1.set :=
  View.cover_of_tiled [⟨r0A, p0⟩] S512x2048.size (by rfl) y
theorem cover0_6 (p0 : Vec F S512x512 .bf16) (y : S512x512.Idx) :
    ∃ pc ∈ ([⟨r0O, p0⟩] : List (View.Piece (Elt F) S512x512 .bf16)), y ∈ pc.1.set :=
  View.cover_of_tiled [⟨r0O, p0⟩] S512x512.size (by rfl) y

/-- The body's one condition, "the inner grid coordinate is zero", as the printed scalar chain states it. -/
abbrev cond0 (i : grid0.Coords) : Prop := (Scalar.cmpi .ne (Scalar.extui (Scalar.cmpi .eq (BitVec.ofNat 32 (i 1).val) 0#32)) 0#32) = 1#1
/-- It holds exactly at the points whose position is a multiple of 16: decided over the grid's 256 points. -/
theorem hcond0 : ∀ t : Fin cfg0.N, cond0 (grid0.coords t) ↔ t.val % 16 = 0 :=
  (by decide +kernel : ∀ t : Fin grid0.N, cond0 (grid0.coords t) ↔ t.val % 16 = 0)

set_option maxHeartbeats 4000000 in
/-- AT `j = 0`: from the inputs' buffers at read contents, the output's and the scratch at anything, the body runs to the
    continuation holding the scratch at `xq0` of the five blocks and the output's buffer at `out0_6` of that and the weights. -/
theorem sound_kernel0_A (c : Dev nD) (E : Set ℕ) (i : grid0.Coords) (hc : cond0 i)
    (arg2 : Memref sig .tc .vmem S512x2048 .f32) (harg2 : arg2.IsWhole) (arg3 : Memref sig .tc .vmem S512x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S512x2048 .bf16) (harg7 : arg7.IsWhole)
    (arg8 : Memref sig .tc .vmem S512x512 .bf16) (harg8 : arg8.IsWhole) (arg9 : Memref sig .tc .vmem S512x2048 .bf16) (harg9 : arg9.IsWhole)
    (x0 x1 : Vec F S512x2048 .f32) (x2 x3 x4 : Vec F S1x2048 .f32) (x5 : Vec F S512x2048 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out0_6 (xq0 x0 x1 x2 x3 x4) x5) ∗ owns (c : Thread nD τ) arg9 fullShare (xq0 x0 x1 x2 x3 x4)) -∗ K ⟨⟩))
      ⊢ wp frame (wpE (defs₀ (F := F)) Variants.none c none) E (cc0__k_kernel i arg2 harg2 arg3 harg3 arg4 harg4 arg5 harg5 arg6 harg6 arg7 harg7 arg8 harg8 arg9 harg9) K := by
  simp only [cc0__k_kernel_eq_skeleton]; unfold cc0__k_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0; subst hf1; subst hf2; subst hf3; subst hf4; subst hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    simp only [View.readAt_eq_ld]
    rw [View.read_writes_eq_canon _ _ _ (cover0_6 _)]
    unfold out0_6 xq0
    rw [View.readCov_eq_canon_ld _ _ _ (cover0_s _)]
  iexists _; isplitr
  swap; · iexact H7
  ipureintro
  sl_unfold_run_names
  exact View.read_writes_eq_canon _ _ _ (cover0_s _)

set_option maxHeartbeats 4000000 in
/-- AT `j ≠ 0`: the scratch holds `s` and is only read; the output's buffer ends at `out0_6` of `s` and the weights. The five
    inputs the other case reads are not touched. -/
theorem sound_kernel0_B (c : Dev nD) (E : Set ℕ) (i : grid0.Coords) (hc : ¬ cond0 i)
    (arg2 : Memref sig .tc .vmem S512x2048 .f32) (harg2 : arg2.IsWhole) (arg3 : Memref sig .tc .vmem S512x2048 .f32) (harg3 : arg3.IsWhole)
    (arg4 : Memref sig .tc .vmem S1x2048 .f32) (harg4 : arg4.IsWhole) (arg5 : Memref sig .tc .vmem S1x2048 .f32) (harg5 : arg5.IsWhole)
    (arg6 : Memref sig .tc .vmem S1x2048 .f32) (harg6 : arg6.IsWhole) (arg7 : Memref sig .tc .vmem S512x2048 .bf16) (harg7 : arg7.IsWhole)
    (arg8 : Memref sig .tc .vmem S512x512 .bf16) (harg8 : arg8.IsWhole) (arg9 : Memref sig .tc .vmem S512x2048 .bf16) (harg9 : arg9.IsWhole)
    (x5 s : Vec F S512x2048 .bf16) (K : PUnit → sProp 𝕄) :
    iprop(owns (c : Thread nD τ) arg7 fullShare x5 ∗ (∃ d, owns (c : Thread nD τ) arg8 fullShare d) ∗ owns (c : Thread nD τ) arg9 fullShare s
        ∗ (iprop(owns (c : Thread nD τ) arg7 fullShare x5 ∗ owns (c : Thread nD τ) arg8 fullShare (out0_6 s x5) ∗ owns (c : Thread nD τ) arg9 fullShare s) -∗ K ⟨⟩))
      ⊢ wp frame (wpE (defs₀ (F := F)) Variants.none c none) E (cc0__k_kernel i arg2 harg2 arg3 harg3 arg4 harg4 arg5 harg5 arg6 harg6 arg7 harg7 arg8 harg8 arg9 harg9) K := by
  simp only [cc0__k_kernel_eq_skeleton]; unfold cc0__k_kernel_skel
  unfold owns
  iintro ⟨⟨%f5, %hf5, H5⟩, ⟨%d6, %f6, -, H6⟩, ⟨%f7, %hf7, H7⟩, Hk⟩
  subst hf5; subst hf7
  sl_exec (disch := first | exact hc)
  sl_step
  iapply Hk
  isplitl [H5]
  · iexists f5; isplitr; · ipureintro; rfl
    iexact H5
  isplitl [H6]
  · iexists _; isplitr
    swap; · iexact H6
    ipureintro
    exact View.read_writes_eq_canon _ _ _ (cover0_6 _)
  iexists f7; isplitr; · ipureintro; rfl
  iexact H7

/-! ## The scratch between points, and the region's proof data -/

/-- The kernel's scratch buffer, as the body is handed it. -/
abbrev scr0 : Memref sig .tc .vmem S512x2048 .bf16 := Memref.whole cc0_scratch0

/-- The scratch's contents once the body has run at point `t`: the normalised, quantised rows of the point's block of rows
    (computed at the row block's first point, and the same at each of its sixteen points: `sAt_prev`). -/
def sAt (c : Dev nD) (t : Fin cfg0.N) : Vec F S512x2048 .bf16 :=
  xq0 (iblk0 V c 0 t) (iblk0 V c 1 t) (iblk0 V c 2 t) (iblk0 V c 3 t) (iblk0 V c 4 t)

/-- The scoped buffers other than the scratch, at some contents each, and the generator register at some state. -/
def rest0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The region's invariant: before the first point the class's (every scoped buffer that is no staging buffer at anything);
    after point `t` the scratch at `sAt t`, the rest as before. -/
def Phi0 (c : Dev nD) : Fin (cfg0.N + 1) → sProp 𝕄 :=
  Fin.cases (motive := fun _ => sProp 𝕄) (Pipeline.ΦA spec0 c)
    (fun t => iprop(owns (c : Thread nD τ) scr0 fullShare (sAt V c t) ∗ rest0 c))

/-- The arrays as the region finds them; after the body at point `t` each input's buffer holds its block and the output's
    `out0_6` of the scratch's contents there and the weight block; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (sAt V c t) (iblk0 V c 5 t)
  Φ := Phi0 V c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (sAt V c t) (iblk0 V c 5 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! An input not fetched at a point holds what it held at the point before; the five inputs the `j = 0` case reads are
fetched only where the row block changes, so within a row block their blocks, and with them the scratch's contents, stay. -/

theorem iblk0_prev_0 (c : Dev nD) (t : Fin cfg0.N) (h : ¬ t.val % 16 = 0) :
    (iblk0 V c 0 t : Vec F S512x2048 .f32) = iblk0 V c 0 ⟨t.val - 1, Nat.lt_of_le_of_lt (Nat.sub_le _ _) t.isLt⟩ := by
  have hf : (cfg0.win 0).fetch t = false := by
    rcases hb : (cfg0.win 0).fetch t with _ | _
    · rfl
    · exact absurd ((fetch0_0 t).mp hb) (by omega)
  have h1 := (dat0 V c).before_unfetched_in 0 rfl t hf (fun _ => rfl) (iblk0 V c 0 t)
  rw [before0_0 V c t] at h1
  rw [h1]; unfold Dat.kept; rw [after0_0]; rfl
theorem iblk0_prev_1 (c : Dev nD) (t : Fin cfg0.N) (h : ¬ t.val % 16 = 0) :
    (iblk0 V c 1 t : Vec F S512x2048 .f32) = iblk0 V c 1 ⟨t.val - 1, Nat.lt_of_le_of_lt (Nat.sub_le _ _) t.isLt⟩ := by
  have hf : (cfg0.win 1).fetch t = false := by
    rcases hb : (cfg0.win 1).fetch t with _ | _
    · rfl
    · exact absurd ((fetch0_1 t).mp hb) (by omega)
  have h1 := (dat0 V c).before_unfetched_in 1 rfl t hf (fun _ => rfl) (iblk0 V c 1 t)
  rw [before0_1 V c t] at h1
  rw [h1]; unfold Dat.kept; rw [after0_1]; rfl
theorem iblk0_prev_2 (c : Dev nD) (t : Fin cfg0.N) (h : ¬ t.val % 16 = 0) :
    (iblk0 V c 2 t : Vec F S1x2048 .f32) = iblk0 V c 2 ⟨t.val - 1, Nat.lt_of_le_of_lt (Nat.sub_le _ _) t.isLt⟩ := by
  have hf : (cfg0.win 2).fetch t = false := by
    rcases hb : (cfg0.win 2).fetch t with _ | _
    · rfl
    · exact absurd ((fetch0_2 t).mp hb) (by omega)
  have h1 := (dat0 V c).before_unfetched_in 2 rfl t hf (fun _ => rfl) (iblk0 V c 2 t)
  rw [before0_2 V c t] at h1
  rw [h1]; unfold Dat.kept; rw [after0_2]; rfl
theorem iblk0_prev_3 (c : Dev nD) (t : Fin cfg0.N) (h : ¬ t.val % 16 = 0) :
    (iblk0 V c 3 t : Vec F S1x2048 .f32) = iblk0 V c 3 ⟨t.val - 1, Nat.lt_of_le_of_lt (Nat.sub_le _ _) t.isLt⟩ := by
  have hf : (cfg0.win 3).fetch t = false := by
    rcases hb : (cfg0.win 3).fetch t with _ | _
    · rfl
    · exact absurd ((fetch0_3 t).mp hb) (by omega)
  have h1 := (dat0 V c).before_unfetched_in 3 rfl t hf (fun _ => rfl) (iblk0 V c 3 t)
  rw [before0_3 V c t] at h1
  rw [h1]; unfold Dat.kept; rw [after0_3]; rfl
theorem iblk0_prev_4 (c : Dev nD) (t : Fin cfg0.N) (h : ¬ t.val % 16 = 0) :
    (iblk0 V c 4 t : Vec F S1x2048 .f32) = iblk0 V c 4 ⟨t.val - 1, Nat.lt_of_le_of_lt (Nat.sub_le _ _) t.isLt⟩ := by
  have hf : (cfg0.win 4).fetch t = false := by
    rcases hb : (cfg0.win 4).fetch t with _ | _
    · rfl
    · exact absurd ((fetch0_4 t).mp hb) (by omega)
  have h1 := (dat0 V c).before_unfetched_in 4 rfl t hf (fun _ => rfl) (iblk0 V c 4 t)
  rw [before0_4 V c t] at h1
  rw [h1]; unfold Dat.kept; rw [after0_4]; rfl

theorem sAt_prev (c : Dev nD) (t : Fin cfg0.N) (h : ¬ t.val % 16 = 0) :
    sAt V c ⟨t.val - 1, Nat.lt_of_le_of_lt (Nat.sub_le _ _) t.isLt⟩ = sAt V c t := by
  unfold sAt
  rw [iblk0_prev_0 V c t h, iblk0_prev_1 V c t h, iblk0_prev_2 V c t h, iblk0_prev_3 V c t h, iblk0_prev_4 V c t h]

/-- The scoped rest with the scratch split off. -/
theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The whole scratch buffer at contents `f` is the body's memref owned at `f`. -/
theorem scr_owns (c : Dev nD) (f : Buf (Elt F) ((c : Thread nD τ).loc cc0_scratch0)) :
    (((c : Thread nD τ).loc cc0_scratch0) ↦{fullShare} f : sProp 𝕄) = owns (c : Thread nD τ) scr0 fullShare f :=
  (owns_whole (c : Thread nD τ) cc0_scratch0 fullShare f).symm

/-- Before any point the invariant yields the scratch at SOME contents beside the rest. -/
theorem Phi0_scratch (c : Dev nD) (n : Fin (cfg0.N + 1)) :
    Phi0 V c n ⊢ iprop((∃ d, owns (c : Thread nD τ) scr0 fullShare d) ∗ rest0 c) := by
  refine Fin.cases ?_ (fun t => ?_) n
  · show Pipeline.ΦA spec0 c ⊢ _
    unfold Pipeline.ΦA rest0; rw [scopedRest0_split]
    iintro ⟨⟨⟨%f, Hs⟩, Hr⟩, Hp⟩
    isplitl [Hs]
    · iexists f; rw [← scr_owns]; iexact Hs
    isplitl [Hr]; · iexact Hr
    iexact Hp
  · show iprop(owns (c : Thread nD τ) scr0 fullShare (sAt V c t) ∗ rest0 c) ⊢ _
    iintro ⟨Hs, Hr⟩
    isplitl [Hs]; · iexists _; iexact Hs
    iexact Hr

theorem castSucc_eq_succ_pred (t : Fin cfg0.N) (h : t.val ≠ 0) :
    t.castSucc = (⟨t.val - 1, Nat.lt_of_le_of_lt (Nat.sub_le _ _) t.isLt⟩ : Fin cfg0.N).succ :=
  Fin.ext (by show t.val = t.val - 1 + 1; omega)

/-! ## The body obligation at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 2000000 in
/-- The body at any point. At the first point of a row block the scratch is handed over at anything and comes back at the
    block's quantised rows; at the other fifteen it is handed over at those rows (left by the point before) and comes back
    unchanged. Either way the output's buffer ends at `out0_6` of the scratch and the weight block. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl,
    after0_0, after0_1, after0_2, after0_3, after0_4, after0_5, after0_6,
    show (dat0 V c).Φ t.succ = iprop(owns (c : Thread nD τ) scr0 fullShare (sAt V c t) ∗ rest0 c) from rfl]
  by_cases h : t.val % 16 = 0
  · rw [show (dat0 V c).Φ t.castSucc = Phi0 V c t.castSucc from rfl]
    iintro ⟨HP, Ho, ⟨%d0, H0⟩, ⟨%d1, H1⟩, ⟨%d2, H2⟩, ⟨%d3, H3⟩, ⟨%d4, H4⟩, ⟨%d5, H5⟩, ⟨%d6, H6⟩⟩
    ihave HP' := (Phi0_scratch V c t.castSucc) $$ HP
    icases HP' with ⟨⟨%ds, Hs⟩, Hr⟩
    iapply (sound_kernel0_A c Set.univ (grid0.coords t) ((hcond0 t).mpr h) _ _ _ _ _ _ _ _ _ _ _ _ _ _ _ _ (iblk0 V c 0 t) (iblk0 V c 1 t) (iblk0 V c 2 t) (iblk0 V c 3 t) (iblk0 V c 4 t) (iblk0 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [Hs]; · iexists _; iexact Hs
    iintro ⟨H0, H1, H2, H3, H4, H5, H6, Hs⟩
    unfold sAt
    isplitl [Hs Hr]
    · isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have ht0 : t.val ≠ 0 := fun e => h (by rw [e])
    rw [show (dat0 V c).Φ t.castSucc
        = iprop(owns (c : Thread nD τ) scr0 fullShare (sAt V c ⟨t.val - 1, Nat.lt_of_le_of_lt (Nat.sub_le _ _) t.isLt⟩) ∗ rest0 c)
      from by rw [castSucc_eq_succ_pred t ht0]; rfl, sAt_prev V c t h]
    iintro ⟨⟨Hs, Hr⟩, Ho, ⟨%d0, H0⟩, ⟨%d1, H1⟩, ⟨%d2, H2⟩, ⟨%d3, H3⟩, ⟨%d4, H4⟩, ⟨%d5, H5⟩, ⟨%d6, H6⟩⟩
    iapply (sound_kernel0_B c Set.univ (grid0.coords t) (fun hc => h ((hcond0 t).mp hc)) _ _ _ _ _ _ _ _ _ _ _ _ _ _ _ _ (iblk0 V c 5 t) (sAt V c t) _)
    isplitl [H5]; · iexact H5
    isplitl [H6]; · iexists _; iexact H6
    isplitl [Hs]; · iexact Hs
    iintro ⟨H5, H6, Hs⟩
    isplitl [Hs Hr]
    · isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Fr

end
-- ==== Proof.KIRegion1.lean ====
import proofs.«156918_j26774826123920_2_alg».proof.Proof.Gen.KernelIdeal.Launch
import proofs.«156918_j26774826123920_2_alg».proof.Proof.Gen.KernelIdeal.Skeleton
import proofs.«156918_j26774826123920_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
/- The buffers' contents on each core when the region is entered: the parameter everything below is stated at. -/
variable (V : (c : Dev nD) → (b : Ref sig .tc) → Buf (Elt F) ((c : Thread nD τ).loc b))

/-! # The second kernel region (the gate): one block of 256 token rows per grid point -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/- An input's staging buffer holds its block at every point, fetched there or not: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev r1A : Rect S256x2048 := Rect.unit (s := S256x2048) ![0, 0] S256x2048.size inb_S256x2048_S256x2048_0_0
abbrev r1B : Rect S1x2048 := Rect.unit (s := S1x2048) ![0, 0] S1x2048.size inb_S1x2048_S1x2048_0_0
abbrev r1C : Rect S2048x2048 := Rect.unit (s := S2048x2048) ![0, 0] S2048x2048.size inb_S2048x2048_S2048x2048_0_0

/-- What the body leaves in the output's staging buffer, from the six input blocks: its one store, of the whole block. -/
def out1_6 (x0 x1 : Vec F S256x2048 .f32) (x2 x3 x4 : Vec F S1x2048 .f32) (x5 : Vec F S2048x2048 .bf16) : Vec F S256x2048 .bf16 :=
  View.canon [⟨r1A, k1_pay1 (k1_pay2 (View.ld x0 r1A) (View.ld x1 r1A) (View.ld x2 r1B) (View.ld x3 r1B) (View.ld x4 r1B))
    (k1_pay3 (View.ld x0 r1A) (View.ld x1 r1A) (View.ld x2 r1B) (View.ld x3 r1B) (View.ld x4 r1B)) (Scalar.ofBits .f32 0x40200000#32) (View.ld x5 r1C)⟩]

/-- The one store covers the buffer. -/
theorem cover1_6 (p0 : Vec F S256x2048 .bf16) (y : S256x2048.Idx) :
    ∃ pc ∈ ([⟨r1A, p0⟩] : List (View.Piece (Elt F) S256x2048 .bf16)), y ∈ pc.1.set :=
  View.cover_of_tiled [⟨r1A, p0⟩] S256x2048.size (by rfl) y

set_option maxHeartbeats 4000000 in
/-- The body on whole staging buffers, the inputs' at read contents and the output's at anything, runs to the continuation
    holding the inputs' as they were and the output's at `out1_6` of them. -/
theorem sound_kernel1 (c : Dev nD) (E : Set ℕ) (i : grid1.Coords)
    (arg1 : Memref sig .tc .vmem S256x2048 .f32) (harg1 : arg1.IsWhole) (arg2 : Memref sig .tc .vmem S256x2048 .f32) (harg2 : arg2.IsWhole)
    (arg3 : Memref sig .tc .vmem S1x2048 .f32) (harg3 : arg3.IsWhole) (arg4 : Memref sig .tc .vmem S1x2048 .f32) (harg4 : arg4.IsWhole)
    (arg5 : Memref sig .tc .vmem S1x2048 .f32) (harg5 : arg5.IsWhole) (arg6 : Memref sig .tc .vmem S2048x2048 .bf16) (harg6 : arg6.IsWhole)
    (arg7 : Memref sig .tc .vmem S256x2048 .bf16) (harg7 : arg7.IsWhole)
    (x0 x1 : Vec F S256x2048 .f32) (x2 x3 x4 : Vec F S1x2048 .f32) (x5 : Vec F S2048x2048 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E (cc1__r_kernel i arg1 harg1 arg2 harg2 arg3 harg3 arg4 harg4 arg5 harg5 arg6 harg6 arg7 harg7) K := by
  simp only [cc1__r_kernel_eq_skeleton]; unfold cc1__r_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The region's proof data -/

/-- The arrays as the region finds them; after the body at point `t` each input's buffer holds its block and the output's
    holds `out1_6` of the input blocks; the invariant is the class's (the scoped rest and the generator register,
    untouched); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
/-- The body at any point: the inputs' buffers hold their blocks, so the body's triple applies; the invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.KIRegion2.lean ====
import proofs.«156918_j26774826123920_2_alg».proof.Proof.Gen.KernelIdeal.Launch
import proofs.«156918_j26774826123920_2_alg».proof.Proof.Gen.KernelIdeal.Skeleton
import proofs.«156918_j26774826123920_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section
/- The buffers' contents on each core when the region is entered: the parameter everything below is stated at. -/
variable (V : (c : Dev nD) → (b : Ref sig .tc) → Buf (Elt F) ((c : Thread nD τ).loc b))

/-! # The third kernel region (the value map times the gate): one block of 64 token rows per grid point -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/- An input's staging buffer holds its block at every point, fetched there or not: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2A : Rect S64x8192 := Rect.unit (s := S64x8192) ![0, 0] S64x8192.size inb_S64x8192_S64x8192_0_0
abbrev r2B : Rect S1x8192 := Rect.unit (s := S1x8192) ![0, 0] S1x8192.size inb_S1x8192_S1x8192_0_0
abbrev r2C : Rect S2048x8192 := Rect.unit (s := S2048x8192) ![0, 0] S2048x8192.size inb_S2048x8192_S2048x8192_0_0
abbrev r2O : Rect S64x2048 := Rect.unit (s := S64x2048) ![0, 0] S64x2048.size inb_S64x2048_S64x2048_0_0

/-- What the body leaves in the output's staging buffer, from the five input blocks: its one store, of the whole block. -/
def out2_5 (x0 : Vec F S64x8192 .bf16) (x1 x2 : Vec F S1x8192 .f32) (x3 : Vec F S2048x8192 .bf16) (x4 : Vec F S64x2048 .bf16) : Vec F S64x2048 .f32 :=
  View.canon [⟨r2O, k2_pay1 (k2_pay3 (View.ld x0 r2A) (View.ld x1 r2B) (View.ld x2 r2B)) (k2_pay4 (View.ld x0 r2A) (View.ld x1 r2B) (View.ld x2 r2B))
    (Scalar.ofBits .f32 0x42FE0000#32) (k2_pay5 (F := F)) (View.ld x3 r2C) (View.ld x4 r2O)⟩]

/-- The one store covers the buffer. -/
theorem cover2_5 (p0 : Vec F S64x2048 .f32) (y : S64x2048.Idx) :
    ∃ pc ∈ ([⟨r2O, p0⟩] : List (View.Piece (Elt F) S64x2048 .f32)), y ∈ pc.1.set :=
  View.cover_of_tiled [⟨r2O, p0⟩] S64x2048.size (by rfl) y

set_option maxHeartbeats 4000000 in
/-- The body on whole staging buffers, the inputs' at read contents and the output's at anything, runs to the continuation
    holding the inputs' as they were and the output's at `out2_5` of them. -/
theorem sound_kernel2 (c : Dev nD) (E : Set ℕ) (i : grid2.Coords)
    (arg1 : Memref sig .tc .vmem S64x8192 .bf16) (harg1 : arg1.IsWhole) (arg2 : Memref sig .tc .vmem S1x8192 .f32) (harg2 : arg2.IsWhole)
    (arg3 : Memref sig .tc .vmem S1x8192 .f32) (harg3 : arg3.IsWhole) (arg4 : Memref sig .tc .vmem S2048x8192 .bf16) (harg4 : arg4.IsWhole)
    (arg5 : Memref sig .tc .vmem S64x2048 .bf16) (harg5 : arg5.IsWhole) (arg6 : Memref sig .tc .vmem S64x2048 .f32) (harg6 : arg6.IsWhole)
    (x0 : Vec F S64x8192 .bf16) (x1 x2 : Vec F S1x8192 .f32) (x3 : Vec F S2048x8192 .bf16) (x4 : Vec F S64x2048 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E (cc2__v_kernel i arg1 harg1 arg2 harg2 arg3 harg3 arg4 harg4 arg5 harg5 arg6 harg6) K := by
  simp only [cc2__v_kernel_eq_skeleton]; unfold cc2__v_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The region's proof data -/

/-- The arrays as the region finds them; after the body at point `t` each input's buffer holds its block and the output's
    holds `out2_5` of the input blocks; the invariant is the class's (the scoped rest and the generator register,
    untouched); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

set_option maxHeartbeats 2000000 in
/-- The body at any point: the inputs' buffers hold their blocks, so the body's triple applies; the invariant and what the core
    owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Fr

end
-- ==== Proof.KIRun.lean ====
import proofs.«156918_j26774826123920_2_alg».proof.Proof.KIRegion0
import proofs.«156918_j26774826123920_2_alg».proof.Proof.KIRegion1
import proofs.«156918_j26774826123920_2_alg».proof.Proof.KIRegion2
import proofs.«156918_j26774826123920_2_alg».proof.Proof.Gen.KernelIdeal.Launch
import proofs.«156918_j26774826123920_2_alg».proof.Proof.Gen.KernelIdeal.Skeleton
import proofs.«156918_j26774826123920_2_alg».proof.Proof.Gen.KernelIdeal.Points
import proofs.«156918_j26774826123920_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! # The run of the whole program

The buffers' contents between @main's items: the launch contents, then each host stretch's operations applied (the generated
`V1 … V16`), then after each kernel region its output array at what the region's write-backs leave and everything else as it was,
then the last two host operations. -/

/-- What the first region finds, read at the TensorCore's references. -/
abbrev E16 : (c : Dev nD) → (b : Ref sig .tc) → Buf (Elt F) ((c : Thread nD τ).loc b) := fun c b => V16 m c b
/-- What the first region leaves in its output array: its write-backs, folded. -/
def o17 (c : Dev nD) : Buf (Elt F) ((c : Thread nD τ).loc main_v47) := (dat0 (E16 m) c).arrAt 6 cfg0.N
/-- The contents after the first region. -/
def U17 (c : Dev nD) : Valuation τ sig (Elt F) := Function.update (V16 m c) main_v47 (o17 m c)
abbrev E17 : (c : Dev nD) → (b : Ref sig .tc) → Buf (Elt F) ((c : Thread nD τ).loc b) := fun c b => U17 m c b
def o18 (c : Dev nD) : Buf (Elt F) ((c : Thread nD τ).loc main_v48) := (dat1 (E17 m) c).arrAt 6 cfg1.N
/-- The contents after the second region. -/
def U18 (c : Dev nD) : Valuation τ sig (Elt F) := Function.update (U17 m c) main_v48 (o18 m c)
abbrev E18 : (c : Dev nD) → (b : Ref sig .tc) → Buf (Elt F) ((c : Thread nD τ).loc b) := fun c b => U18 m c b
def o19 (c : Dev nD) : Buf (Elt F) ((c : Thread nD τ).loc main_v49) := (dat2 (E18 m) c).arrAt 5 cfg2.N
/-- The contents after the third region. -/
def U19 (c : Dev nD) : Valuation τ sig (Elt F) := Function.update (U18 m c) main_v49 (o19 m c)
abbrev E19 : (c : Dev nD) → (b : Ref sig .tc) → Buf (Elt F) ((c : Thread nD τ).loc b) := fun c b => U19 m c b
/-- The contents at the end: the last two host operations applied. -/
def U20 (c : Dev nD) : Valuation τ sig (Elt F) := StableHlo.after hostOps3 (U19 m c)

/-- Every region's proof data, each at its own entry contents: a literal match on the region. -/
def pdats : (p : Fin 3) → (c : Dev nD) → Dat τ (Elt F) Unit ℕ (UR sig nD τ) ℕ (Pipeline.pin (pcfgs (F := F)) adm p) c
  | ⟨0, _⟩ => fun c => dat0 (E16 m) c
  | ⟨1, _⟩ => fun c => dat1 (E17 m) c
  | ⟨2, _⟩ => fun c => dat2 (E18 m) c

theorem U17_of (c : Dev nD) (r : Ref sig .tc) (h : r ≠ main_v47) : U17 m c r = V16 m c r := by
  simp only [U17, Function.update_of_ne (StableHlo.devRef_ne_of_ne h : (Proc.devRef .tc r : DevRef τ sig) ≠ Proc.devRef .tc main_v47)]
theorem U17_self (c : Dev nD) : U17 m c main_v47 = o17 m c := by
  simp only [U17, Function.update_self]
set_option maxHeartbeats 4000000 in
/-- At region 0's exit each of its arrays holds what the pipeline leaves, -/
theorem hF0 (c : Dev nD) (w : Fin cfg0.W) : (pdats m 0 c).arrAt w cfg0.N = E17 m c (Pipeline.arrRef spec0 w) := by
  match w with
  | ⟨6, _⟩ => exact (U17_self m c).symm
  | ⟨0, _⟩ => exact (((pdats m 0 c).arrAt_in 0 rfl _).trans (A_eq0 (E16 m) c 0)).trans (U17_of m c _ (by decide)).symm
  | ⟨1, _⟩ => exact (((pdats m 0 c).arrAt_in 1 rfl _).trans (A_eq0 (E16 m) c 1)).trans (U17_of m c _ (by decide)).symm
  | ⟨2, _⟩ => exact (((pdats m 0 c).arrAt_in 2 rfl _).trans (A_eq0 (E16 m) c 2)).trans (U17_of m c _ (by decide)).symm
  | ⟨3, _⟩ => exact (((pdats m 0 c).arrAt_in 3 rfl _).trans (A_eq0 (E16 m) c 3)).trans (U17_of m c _ (by decide)).symm
  | ⟨4, _⟩ => exact (((pdats m 0 c).arrAt_in 4 rfl _).trans (A_eq0 (E16 m) c 4)).trans (U17_of m c _ (by decide)).symm
  | ⟨5, _⟩ => exact (((pdats m 0 c).arrAt_in 5 rfl _).trans (A_eq0 (E16 m) c 5)).trans (U17_of m c _ (by decide)).symm
/-- and every other buffer what it held at entry. -/
theorem hrest0 (c : Dev nD) : ∀ b, b ∉ Finset.univ.image (Pipeline.arrRef spec0) → E17 m c b = E16 m c b :=
  fun b hb => U17_of m c b fun e => hb (Finset.mem_image.mpr ⟨6, Finset.mem_univ _, e.symm⟩)

theorem U18_of (c : Dev nD) (r : Ref sig .tc) (h : r ≠ main_v48) : U18 m c r = U17 m c r := by
  simp only [U18, Function.update_of_ne (StableHlo.devRef_ne_of_ne h : (Proc.devRef .tc r : DevRef τ sig) ≠ Proc.devRef .tc main_v48)]
theorem U18_self (c : Dev nD) : U18 m c main_v48 = o18 m c := by
  simp only [U18, Function.update_self]
set_option maxHeartbeats 4000000 in
/-- At region 1's exit each of its arrays holds what the pipeline leaves, -/
theorem hF1 (c : Dev nD) (w : Fin cfg1.W) : (pdats m 1 c).arrAt w cfg1.N = E18 m c (Pipeline.arrRef spec1 w) := by
  match w with
  | ⟨6, _⟩ => exact (U18_self m c).symm
  | ⟨0, _⟩ => exact (((pdats m 1 c).arrAt_in 0 rfl _).trans (A_eq1 (E17 m) c 0)).trans (U18_of m c _ (by decide)).symm
  | ⟨1, _⟩ => exact (((pdats m 1 c).arrAt_in 1 rfl _).trans (A_eq1 (E17 m) c 1)).trans (U18_of m c _ (by decide)).symm
  | ⟨2, _⟩ => exact (((pdats m 1 c).arrAt_in 2 rfl _).trans (A_eq1 (E17 m) c 2)).trans (U18_of m c _ (by decide)).symm
  | ⟨3, _⟩ => exact (((pdats m 1 c).arrAt_in 3 rfl _).trans (A_eq1 (E17 m) c 3)).trans (U18_of m c _ (by decide)).symm
  | ⟨4, _⟩ => exact (((pdats m 1 c).arrAt_in 4 rfl _).trans (A_eq1 (E17 m) c 4)).trans (U18_of m c _ (by decide)).symm
  | ⟨5, _⟩ => exact (((pdats m 1 c).arrAt_in 5 rfl _).trans (A_eq1 (E17 m) c 5)).trans (U18_of m c _ (by decide)).symm
/-- and every other buffer what it held at entry. -/
theorem hrest1 (c : Dev nD) : ∀ b, b ∉ Finset.univ.image (Pipeline.arrRef spec1) → E18 m c b = E17 m c b :=
  fun b hb => U18_of m c b fun e => hb (Finset.mem_image.mpr ⟨6, Finset.mem_univ _, e.symm⟩)

theorem U19_of (c : Dev nD) (r : Ref sig .tc) (h : r ≠ main_v49) : U19 m c r = U18 m c r := by
  simp only [U19, Function.update_of_ne (StableHlo.devRef_ne_of_ne h : (Proc.devRef .tc r : DevRef τ sig) ≠ Proc.devRef .tc main_v49)]
theorem U19_self (c : Dev nD) : U19 m c main_v49 = o19 m c := by
  simp only [U19, Function.update_self]
set_option maxHeartbeats 4000000 in
/-- At region 2's exit each of its arrays holds what the pipeline leaves, -/
theorem hF2 (c : Dev nD) (w : Fin cfg2.W) : (pdats m 2 c).arrAt w cfg2.N = E19 m c (Pipeline.arrRef spec2 w) := by
  match w with
  | ⟨5, _⟩ => exact (U19_self m c).symm
  | ⟨0, _⟩ => exact (((pdats m 2 c).arrAt_in 0 rfl _).trans (A_eq2 (E18 m) c 0)).trans (U19_of m c _ (by decide)).symm
  | ⟨1, _⟩ => exact (((pdats m 2 c).arrAt_in 1 rfl _).trans (A_eq2 (E18 m) c 1)).trans (U19_of m c _ (by decide)).symm
  | ⟨2, _⟩ => exact (((pdats m 2 c).arrAt_in 2 rfl _).trans (A_eq2 (E18 m) c 2)).trans (U19_of m c _ (by decide)).symm
  | ⟨3, _⟩ => exact (((pdats m 2 c).arrAt_in 3 rfl _).trans (A_eq2 (E18 m) c 3)).trans (U19_of m c _ (by decide)).symm
  | ⟨4, _⟩ => exact (((pdats m 2 c).arrAt_in 4 rfl _).trans (A_eq2 (E18 m) c 4)).trans (U19_of m c _ (by decide)).symm
/-- and every other buffer what it held at entry. -/
theorem hrest2 (c : Dev nD) : ∀ b, b ∉ Finset.univ.image (Pipeline.arrRef spec2) → E19 m c b = E18 m c b :=
  fun b hb => U19_of m c b fun e => hb (Finset.mem_image.mpr ⟨5, Finset.mem_univ _, e.symm⟩)

theorem U20_of (c : Dev nD) (r : Ref sig .tc) (h : r ∉ hostOps3_W) : U20 m c r = U19 m c r :=
  StableHlo.after_of_writes_sub hostOps3 _ hostOps3_writes h

/-! No item writes an argument array: each reaches the end as launched. -/
theorem U20_main_arg0 (c : Dev nD) : U20 m c main_arg0 = m ((c : Thread nD τ).loc main_arg0) :=
  (U20_of m c main_arg0 (by decide)).trans <| (U19_of m c main_arg0 (by decide)).trans <| (U18_of m c main_arg0 (by decide)).trans <| (U17_of m c main_arg0 (by decide)).trans <| (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl
theorem U20_main_arg1 (c : Dev nD) : U20 m c main_arg1 = m ((c : Thread nD τ).loc main_arg1) :=
  (U20_of m c main_arg1 (by decide)).trans <| (U19_of m c main_arg1 (by decide)).trans <| (U18_of m c main_arg1 (by decide)).trans <| (U17_of m c main_arg1 (by decide)).trans <| (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl
theorem U20_main_arg2 (c : Dev nD) : U20 m c main_arg2 = m ((c : Thread nD τ).loc main_arg2) :=
  (U20_of m c main_arg2 (by decide)).trans <| (U19_of m c main_arg2 (by decide)).trans <| (U18_of m c main_arg2 (by decide)).trans <| (U17_of m c main_arg2 (by decide)).trans <| (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl
theorem U20_main_arg3 (c : Dev nD) : U20 m c main_arg3 = m ((c : Thread nD τ).loc main_arg3) :=
  (U20_of m c main_arg3 (by decide)).trans <| (U19_of m c main_arg3 (by decide)).trans <| (U18_of m c main_arg3 (by decide)).trans <| (U17_of m c main_arg3 (by decide)).trans <| (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl
theorem U20_main_arg4 (c : Dev nD) : U20 m c main_arg4 = m ((c : Thread nD τ).loc main_arg4) :=
  (U20_of m c main_arg4 (by decide)).trans <| (U19_of m c main_arg4 (by decide)).trans <| (U18_of m c main_arg4 (by decide)).trans <| (U17_of m c main_arg4 (by decide)).trans <| (V16_of m c main_arg4 (by decide)).trans <| (V15_of m c main_arg4 (by decide)).trans <| (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl
theorem U20_main_arg5 (c : Dev nD) : U20 m c main_arg5 = m ((c : Thread nD τ).loc main_arg5) :=
  (U20_of m c main_arg5 (by decide)).trans <| (U19_of m c main_arg5 (by decide)).trans <| (U18_of m c main_arg5 (by decide)).trans <| (U17_of m c main_arg5 (by decide)).trans <| (V16_of m c main_arg5 (by decide)).trans <| (V15_of m c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl
theorem U20_main_arg6 (c : Dev nD) : U20 m c main_arg6 = m ((c : Thread nD τ).loc main_arg6) :=
  (U20_of m c main_arg6 (by decide)).trans <| (U19_of m c main_arg6 (by decide)).trans <| (U18_of m c main_arg6 (by decide)).trans <| (U17_of m c main_arg6 (by decide)).trans <| (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl
theorem U20_main_arg7 (c : Dev nD) : U20 m c main_arg7 = m ((c : Thread nD τ).loc main_arg7) :=
  (U20_of m c main_arg7 (by decide)).trans <| (U19_of m c main_arg7 (by decide)).trans <| (U18_of m c main_arg7 (by decide)).trans <| (U17_of m c main_arg7 (by decide)).trans <| (V16_of m c main_arg7 (by decide)).trans <| (V15_of m c main_arg7 (by decide)).trans <| (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans <| rfl
theorem U20_main_arg8 (c : Dev nD) : U20 m c main_arg8 = m ((c : Thread nD τ).loc main_arg8) :=
  (U20_of m c main_arg8 (by decide)).trans <| (U19_of m c main_arg8 (by decide)).trans <| (U18_of m c main_arg8 (by decide)).trans <| (U17_of m c main_arg8 (by decide)).trans <| (V16_of m c main_arg8 (by decide)).trans <| (V15_of m c main_arg8 (by decide)).trans <| (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans <| rfl
theorem U20_main_arg9 (c : Dev nD) : U20 m c main_arg9 = m ((c : Thread nD τ).loc main_arg9) :=
  (U20_of m c main_arg9 (by decide)).trans <| (U19_of m c main_arg9 (by decide)).trans <| (U18_of m c main_arg9 (by decide)).trans <| (U17_of m c main_arg9 (by decide)).trans <| (V16_of m c main_arg9 (by decide)).trans <| (V15_of m c main_arg9 (by decide)).trans <| (V14_of m c main_arg9 (by decide)).trans <| (V13_of m c main_arg9 (by decide)).trans <| (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans <| rfl
theorem U20_main_arg10 (c : Dev nD) : U20 m c main_arg10 = m ((c : Thread nD τ).loc main_arg10) :=
  (U20_of m c main_arg10 (by decide)).trans <| (U19_of m c main_arg10 (by decide)).trans <| (U18_of m c main_arg10 (by decide)).trans <| (U17_of m c main_arg10 (by decide)).trans <| (V16_of m c main_arg10 (by decide)).trans <| (V15_of m c main_arg10 (by decide)).trans <| (V14_of m c main_arg10 (by decide)).trans <| (V13_of m c main_arg10 (by decide)).trans <| (V12_of m c main_arg10 (by decide)).trans <| (V11_of m c main_arg10 (by decide)).trans <| (V10_of m c main_arg10 (by decide)).trans <| (V9_of m c main_arg10 (by decide)).trans <| (V8_of m c main_arg10 (by decide)).trans <| (V7_of m c main_arg10 (by decide)).trans <| (V6_of m c main_arg10 (by decide)).trans <| (V5_of m c main_arg10 (by decide)).trans <| (V4_of m c main_arg10 (by decide)).trans <| (V3_of m c main_arg10 (by decide)).trans <| (V2_of m c main_arg10 (by decide)).trans <| (V1_of m c main_arg10 (by decide)).trans <| rfl
theorem U20_main_arg11 (c : Dev nD) : U20 m c main_arg11 = m ((c : Thread nD τ).loc main_arg11) :=
  (U20_of m c main_arg11 (by decide)).trans <| (U19_of m c main_arg11 (by decide)).trans <| (U18_of m c main_arg11 (by decide)).trans <| (U17_of m c main_arg11 (by decide)).trans <| (V16_of m c main_arg11 (by decide)).trans <| (V15_of m c main_arg11 (by decide)).trans <| (V14_of m c main_arg11 (by decide)).trans <| (V13_of m c main_arg11 (by decide)).trans <| (V12_of m c main_arg11 (by decide)).trans <| (V11_of m c main_arg11 (by decide)).trans <| (V10_of m c main_arg11 (by decide)).trans <| (V9_of m c main_arg11 (by decide)).trans <| (V8_of m c main_arg11 (by decide)).trans <| (V7_of m c main_arg11 (by decide)).trans <| (V6_of m c main_arg11 (by decide)).trans <| (V5_of m c main_arg11 (by decide)).trans <| (V4_of m c main_arg11 (by decide)).trans <| (V3_of m c main_arg11 (by decide)).trans <| (V2_of m c main_arg11 (by decide)).trans <| (V1_of m c main_arg11 (by decide)).trans <| rfl

abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
abbrev EE : Fin 4 → Dev nD → sProp 𝕄 := fun _ c => R c

set_option backward.isDefEq.respectTransparency.types false in
/-- Region 0 over the thread state: entered from every unscoped buffer at the contents before it, left at the contents after
    it. Its arrays split out of the unscoped buffers and put back at the exit contents; the generator register into the
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E16 m) c).loose
  hwaits := Pipeline.hwaits_of_owed_zero _ _ _ _ L lv 0 fun _ _ => rfl
  pre c := iprop(StableHlo.held (c : Thread nD τ) (Pipeline.ucRefs τ sig) (V16 m c) ∗ R c)
  post c := iprop(StableHlo.held (c : Thread nD τ) (Pipeline.ucRefs τ sig) (U17 m c) ∗ R c)
  X c := iprop(∃ r, prngReg c r)
  Y c := iprop(∃ r, prngReg c r)
  Z c := Pipeline.unscopedRest (Ix := Unit) (Name := ℕ) (U := UR sig nD τ) (Lvl := ℕ) spec0 c (E16 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Phi0 (E16 m) c (Fin.last _) from rfl]
    refine (Phi0_scratch (E16 m) c _).trans ?_
    unfold rest0
    rw [show (Pipeline.scopedRest (Pipeline.pin (pcfgs (F := F)) adm 0).spec c : sProp 𝕄) = Pipeline.scopedRest spec0 c from rfl,
      scopedRest0_split]
    iintro ⟨⟨%d, Hs⟩, Hr, Hp⟩
    isplitl [Hp]; · iexact Hp
    isplitr; · iempintro
    isplitl [Hs]; · iexists d; rw [scr_owns]; iexact Hs
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E16 m c) (E17 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the contents after
    it. Its arrays split out of the unscoped buffers and put back at the exit contents; the generator register into the
    invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E17 m) c).loose
  hwaits := Pipeline.hwaits_of_owed_zero _ _ _ _ L lv 1 fun _ _ => rfl
  pre c := iprop(StableHlo.held (c : Thread nD τ) (Pipeline.ucRefs τ sig) (U17 m c) ∗ R c)
  post c := iprop(StableHlo.held (c : Thread nD τ) (Pipeline.ucRefs τ sig) (U18 m c) ∗ R c)
  X c := iprop(∃ r, prngReg c r)
  Y c := iprop(∃ r, prngReg c r)
  Z c := Pipeline.unscopedRest (Ix := Unit) (Name := ℕ) (U := UR sig nD τ) (Lvl := ℕ) spec1 c (E17 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E17 m c) (E18 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the contents after
    it. Its arrays split out of the unscoped buffers and put back at the exit contents; the generator register into the
    invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E18 m) c).loose
  hwaits := Pipeline.hwaits_of_owed_zero _ _ _ _ L lv 2 fun _ _ => rfl
  pre c := iprop(StableHlo.held (c : Thread nD τ) (Pipeline.ucRefs τ sig) (U18 m c) ∗ R c)
  post c := iprop(StableHlo.held (c : Thread nD τ) (Pipeline.ucRefs τ sig) (U19 m c) ∗ R c)
  X c := iprop(∃ r, prngReg c r)
  Y c := iprop(∃ r, prngReg c r)
  Z c := Pipeline.unscopedRest (Ix := Unit) (Name := ℕ) (U := UR sig nD τ) (Lvl := ℕ) spec2 c (E18 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E18 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E18 m c) (E19 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last two host operations as a segment, from the contents after the third region. -/
def seg19' : HostSeg (Ix := Unit) (Name := ℕ) (U := UR sig nD τ) (Lvl := ℕ) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (U19 m) (EE 3)

/-- @main's twenty items as segments: sixteen host stretches, the three regions, the last host stretch. -/
abbrev segsU (c : Dev nD) : List (Seg (pcfgs (F := F)) adm (pdats m) () defs₀ 𝒱₀ L lv) :=
  [.host (seg0 m 𝒱₀ L lv EE), .host (seg1 m 𝒱₀ L lv EE), .host (seg2 m 𝒱₀ L lv EE), .host (seg3 m 𝒱₀ L lv EE), .host (seg4 m 𝒱₀ L lv EE), .host (seg5 m 𝒱₀ L lv EE), .host (seg6 m 𝒱₀ L lv EE), .host (seg7 m 𝒱₀ L lv EE), .host (seg8 m 𝒱₀ L lv EE), .host (seg9 m 𝒱₀ L lv EE), .host (seg10 m 𝒱₀ L lv EE), .host (seg11 m 𝒱₀ L lv EE), .host (seg12 m 𝒱₀ L lv EE), .host (seg13 m 𝒱₀ L lv EE), .host (seg14 m 𝒱₀ L lv EE), .host (seg15 m 𝒱₀ L lv EE), .region (reg0 m), .region (reg1 m), .region (reg2 m), .host (seg19' m)]

/-- The last item's thread state regrouped: the buffers and the generator register on one side, the core owing nothing on the other. -/
theorem lastStep (c : Dev nD) :
    (iprop(StableHlo.held (c : Thread nD τ) (Pipeline.ucRefs τ sig) (StableHlo.after hostOps3 (U19 m c)) ∗ EE 3 c) : sProp 𝕄)
      ⊢ iprop((StableHlo.held (c : Thread nD τ) (Pipeline.ucRefs τ sig) (U20 m c) ∗ ∃ r, prngReg c r)
          ∗ ∃ W, owes (c : Thread nD τ) (0 : CellTallies nD τ sig Unit) W) := by
  unfold U20
  iintro ⟨Hh, Hp, HO⟩
  isplitl [Hh Hp]
  · isplitl [Hh]; · iexact Hh
    iexact Hp
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
set_option maxHeartbeats 4000000 in
/-- THE RUN: from any memory with zero counters every weakly fair execution of @main terminates, nothing faulting, and the final
    memory holds every unscoped buffer at the last contents `U20`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = U20 m c b) := by
  refine Pipeline.θ_run_regions_kit_dev (pcfgs (F := F)) adm (pdats m) () cellOf_inj emb₁ defs₀ 𝒱₀ L lv m ρ main
    (segsU m)
    (fun c Q => by
      rewrite [main_chain c, Seg.run_eq_chain,
        show (segsU m c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segsU, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (U20 m c) ∗ ∃ r, prngReg c r))
    (hch := fun c => ⟨.rfl, .rfl, .rfl, .rfl, .rfl, .rfl, .rfl, .rfl, .rfl, .rfl, .rfl, .rfl, .rfl, .rfl, .rfl, .rfl, .rfl, .rfl, .rfl, .rfl, lastStep m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U20 m c b)
    (hfin := fun c s' => by
      iintro ⟨⟨Hh, -⟩, HSI⟩
      unfold StableHlo.held
      imodintro
      iapply (pointsTo_read_all (Pipeline.ucRefs τ sig) (fun b => (((c : Thread nD τ)).1, b)) (U20 m c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c _ (mem_uc main_arg0 (by decide))).trans (U20_main_arg0 m c),
    (h c _ (mem_uc main_arg1 (by decide))).trans (U20_main_arg1 m c),
    (h c _ (mem_uc main_arg2 (by decide))).trans (U20_main_arg2 m c),
    (h c _ (mem_uc main_arg3 (by decide))).trans (U20_main_arg3 m c),
    (h c _ (mem_uc main_arg4 (by decide))).trans (U20_main_arg4 m c),
    (h c _ (mem_uc main_arg5 (by decide))).trans (U20_main_arg5 m c),
    (h c _ (mem_uc main_arg6 (by decide))).trans (U20_main_arg6 m c),
    (h c _ (mem_uc main_arg7 (by decide))).trans (U20_main_arg7 m c),
    (h c _ (mem_uc main_arg8 (by decide))).trans (U20_main_arg8 m c),
    (h c _ (mem_uc main_arg9 (by decide))).trans (U20_main_arg9 m c),
    (h c _ (mem_uc main_arg10 (by decide))).trans (U20_main_arg10 m c),
    (h c _ (mem_uc main_arg11 (by decide))).trans (U20_main_arg11 m c)⟩) (run_all m ρ)

/-- THE RESULTS: both result buffers end at the last contents, the arguments as launched. -/
theorem run_results : θ_run defs (onTc (τ := τ) (main (F := F))) ⟨m, fun _ => 0, ρ⟩ (fun r => ∀ c : Dev nD,
      r.2.mem ((c.tc : Thread nD τ).loc main_v50) = U20 m c main_v50
      ∧ r.2.mem ((c.tc : Thread nD τ).loc main_v51) = U20 m c main_v51
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨h c _ (mem_uc main_v50 (by decide)), h c _ (mem_uc main_v51 (by decide)),
    (h c _ (mem_uc main_arg0 (by decide))).trans (U20_main_arg0 m c),
    (h c _ (mem_uc main_arg1 (by decide))).trans (U20_main_arg1 m c),
    (h c _ (mem_uc main_arg2 (by decide))).trans (U20_main_arg2 m c),
    (h c _ (mem_uc main_arg3 (by decide))).trans (U20_main_arg3 m c),
    (h c _ (mem_uc main_arg4 (by decide))).trans (U20_main_arg4 m c),
    (h c _ (mem_uc main_arg5 (by decide))).trans (U20_main_arg5 m c),
    (h c _ (mem_uc main_arg6 (by decide))).trans (U20_main_arg6 m c),
    (h c _ (mem_uc main_arg7 (by decide))).trans (U20_main_arg7 m c),
    (h c _ (mem_uc main_arg8 (by decide))).trans (U20_main_arg8 m c),
    (h c _ (mem_uc main_arg9 (by decide))).trans (U20_main_arg9 m c),
    (h c _ (mem_uc main_arg10 (by decide))).trans (U20_main_arg10 m c),
    (h c _ (mem_uc main_arg11 (by decide))).trans (U20_main_arg11 m c)⟩) (run_all m ρ)

end Cert.KernelIdeal.Fr

end
-- ==== Proof.Spec.lean ====
/-
  The mathematics both programs compute, on the extended reals, one token row at a time.

  A row `v` of `n` entries is normalised (mean and variance over the row, a gain and a bias per
  column), then quantised to integers in [-127, 127]: the row's scale is `max(tiny, mean |l|) · 2.5 / 127`,
  an entry is `round(clip(l / scale))`.  A weight matrix is quantised to {-1, 0, 1} times one
  scale `s` for the whole matrix.  Three such quantised linear maps are composed:
    k   = (max(q(x + dx·μk) · Wkᵀ, 0))²
    r   = σ(q(x + dx·μr) · Wrᵀ)
    out = r · (q(k) · Wvᵀ)
  The two programs arrange this differently in three places, which is why there are two
  spellings below (suffix `K` for the kernel's, `R` for the reference's):
    * the reference writes a quantised value as `y + (round(clip y) − y)`, the kernel as `round(clip y)`;
    * the reference divides by 127, the kernel multiplies by the rational 1/127;
    * in the last map the kernel multiplies the integer product by the row's scale AFTER the sum,
      the reference scales each entry BEFORE it.
  Words are kept as `Ideal.ofBits .f32 0x…`: the same word on both sides is never evaluated.
-/
import Idealize.ShloMosaic.PureOps.Ideal
import Mathlib.Algebra.BigOperators.Fin
import Idealize.ShloMosaic.Lib.ValueIdx

noncomputable section

namespace Cert.Spec

open Idealize.ShloMosaic

/-- A 32-bit float word read as the exact extended real it encodes. -/
abbrev W (b : BitVec 32) : EReal := Ideal.ofBits .f32 b

/-- Round to nearest, ties to even, fixing the infinities. -/
def rnd (x : EReal) : EReal := Ideal.liftRound Ideal.roundHalfEven x
/-- Absolute value. -/
def ab (x : EReal) : EReal := max x (-x)

section Row
variable {n : ℕ}

/-- The mean of a row: the sum started from the zero word, divided by the word `Nw` (the row's length as a float). -/
def mean (Nw : EReal) (v : Fin n → EReal) : EReal := Ideal.div (W 0x00000000#32 + ∑ k, v k) Nw
/-- An entry minus the row's mean. -/
def cen (Nw : EReal) (v : Fin n → EReal) (k : Fin n) : EReal := v k - mean Nw v
/-- Layer normalisation of a row: `(v − μ) · rsqrt(var + ε) · g + b`, ε the word 0x3727C5AC. -/
def lnorm (Nw : EReal) (g b v : Fin n → EReal) (k : Fin n) : EReal :=
  cen Nw v k * Ideal.rsqrt (mean Nw (fun j => cen Nw v j * cen Nw v j) + W 0x3727C5AC#32) * g k + b k
/-- `max(tiny, mean |l|)`, tiny the word 0x322BCC77. -/
def clipv (Nw : EReal) (l : Fin n → EReal) : EReal := max (W 0x322BCC77#32) (mean Nw fun k => ab (l k))
/-- The kernel's row scale: `clip · 2.5 · (1/127)`. -/
def scK (Nw : EReal) (l : Fin n → EReal) : EReal := clipv Nw l * W 0x40200000#32 * ((1 / 127 : ℝ) : EReal)
/-- The reference's row scale: `(clip · 2.5) / 127`. -/
def scR (Nw : EReal) (l : Fin n → EReal) : EReal := Ideal.div (clipv Nw l * W 0x40200000#32) (W 0x42FE0000#32)
/-- The quantised integer: `round(min(127, max(−127, x / s)))`. -/
def qi (s x : EReal) : EReal := rnd (min (W 0x42FE0000#32) (max (W 0xC2FE0000#32) (Ideal.div x s)))
/-- The reference's straight-through spelling of the same integer: `y + (round(clip y) − y)`, `y = x / s`. -/
def ste (s x : EReal) : EReal := Ideal.div x s + (qi s x - Ideal.div x s)

end Row

/-- A weight entry quantised to {−1,0,1}: `round(min(1, max(−1, w / s)))`. -/
def wi (s w : EReal) : EReal := rnd (min (W 0x3F800000#32) (max (W 0xBF800000#32) (Ideal.div w s)))
/-- The kernel's quantised weight entry: `round(clip(w/s)) · s`. -/
def wqK (s w : EReal) : EReal := wi s w * s
/-- The reference's: `(w/s + (round(clip(w/s)) − w/s)) · s`. -/
def wqR (s w : EReal) : EReal := (Ideal.div w s + (wi s w - Ideal.div w s)) * s
/-- A matrix's scale from the total `T` of its absolute values (started from the zero word) and its entry count `Nw`. -/
def wscale (Nw T : EReal) : EReal := max (W 0x322BCC77#32) (Ideal.div T Nw)

/-- The logistic function as the reference spells it: `1 / (1 + exp(−a))` with the word 1.0. -/
def sigR (a : EReal) : EReal := Ideal.div (W 0x3F800000#32) (W 0x3F800000#32 + Ideal.exp (-a))

section Stages
variable {D H : ℕ}

/-- The token-shift mix of a row: `x + dx · μ`. -/
def mix (μ x dx : Fin D → EReal) (d : Fin D) : EReal := x d + dx d * μ d

/-! ### The kernel's arrangement -/

/-- A normalised, quantised, re-scaled row (the first two maps' input): `round(clip(l/s)) · s`. -/
def xqK (Nw : EReal) (g b v : Fin D → EReal) (d : Fin D) : EReal :=
  qi (scK Nw (lnorm Nw g b v)) (lnorm Nw g b v d) * scK Nw (lnorm Nw g b v)
/-- First map: `(max(Σ_d xq d · Wk h d, 0))²`. -/
def kactK (Nw : EReal) (g b : Fin D → EReal) (Wk : Fin H → Fin D → EReal) (v : Fin D → EReal) (h : Fin H) : EReal :=
  max (∑ d, xqK Nw g b v d * Wk h d) (W 0x00000000#32) * max (∑ d, xqK Nw g b v d * Wk h d) (W 0x00000000#32)
/-- Second map's sum: `Σ_d xq d · Wr e d`. -/
def raccK (Nw : EReal) (g b : Fin D → EReal) (Wr : Fin D → Fin D → EReal) (v : Fin D → EReal) (e : Fin D) : EReal :=
  ∑ d, xqK Nw g b v d * Wr e d
/-- Third map with the scale after the sum: `(Σ_h round(clip(l h / s)) · Wv e h) · s`. -/
def vaccK (Nw : EReal) (g b : Fin H → EReal) (Wv : Fin D → Fin H → EReal) (k : Fin H → EReal) (e : Fin D) : EReal :=
  (∑ h, qi (scK Nw (lnorm Nw g b k)) (lnorm Nw g b k h) * Wv e h) * scK Nw (lnorm Nw g b k)

/-! ### The reference's arrangement -/

/-- A normalised row in the straight-through spelling, re-scaled: `(y + (round(clip y) − y)) · s`. -/
def xqR (Nw : EReal) (g b v : Fin D → EReal) (d : Fin D) : EReal :=
  ste (scR Nw (lnorm Nw g b v)) (lnorm Nw g b v d) * scR Nw (lnorm Nw g b v)
def kactR (Nw : EReal) (g b : Fin D → EReal) (Wk : Fin H → Fin D → EReal) (v : Fin D → EReal) (h : Fin H) : EReal :=
  max (∑ d, xqR Nw g b v d * Wk h d) (W 0x00000000#32) * max (∑ d, xqR Nw g b v d * Wk h d) (W 0x00000000#32)
def raccR (Nw : EReal) (g b : Fin D → EReal) (Wr : Fin D → Fin D → EReal) (v : Fin D → EReal) (e : Fin D) : EReal :=
  ∑ d, xqR Nw g b v d * Wr e d
def vaccR (Nw : EReal) (g b : Fin H → EReal) (Wv : Fin D → Fin H → EReal) (k : Fin H → EReal) (e : Fin D) : EReal :=
  ∑ h, xqR Nw g b k h * Wv e h

/-! ### One output row, both arrangements

`x`, `dx` the token's row and its shift difference; `μk μr` the mixing rows; `gk bk gr br` (length `D`) and
`gv bv` (length `H`) the normalisations' gains and biases; `Wk : H×D`, `Wr : D×D`, `Wv : D×H` the quantised
weights. Row lengths as words: 2048.0 = 0x45000000, 8192.0 = 0x46000000. -/

/-- The kernel's output entry: `((Σ_h q(k) h · Wv e h) · s) · σ(Σ_d xq d · Wr e d)`. -/
def outK (μk μr gk bk gr br : Fin D → EReal) (gv bv : Fin H → EReal)
    (Wk : Fin H → Fin D → EReal) (Wr : Fin D → Fin D → EReal) (Wv : Fin D → Fin H → EReal)
    (x dx : Fin D → EReal) (e : Fin D) : EReal :=
  vaccK (W 0x46000000#32) gv bv Wv (kactK (W 0x45000000#32) gk bk Wk (mix μk x dx)) e
    * Ideal.logistic (raccK (W 0x45000000#32) gr br Wr (mix μr x dx) e)

/-- The reference's output entry: `σ(Σ_d xq d · Wr e d) · Σ_h xq(k) h · Wv e h`. -/
def outR (μk μr gk bk gr br : Fin D → EReal) (gv bv : Fin H → EReal)
    (Wk : Fin H → Fin D → EReal) (Wr : Fin D → Fin D → EReal) (Wv : Fin D → Fin H → EReal)
    (x dx : Fin D → EReal) (e : Fin D) : EReal :=
  sigR (raccR (W 0x45000000#32) gr br Wr (mix μr x dx) e)
    * vaccR (W 0x46000000#32) gv bv Wv (kactR (W 0x45000000#32) gk bk Wk (mix μk x dx)) e

end Stages

/-- The total of a whole array's absolute values, started from the zero word (what the host's reduce over every
    axis gives). -/
def total {ι : Type} [Fintype ι] (w : ι → EReal) : EReal := W 0x00000000#32 + ∑ i, ab (w i)

/-! ### The whole results, as functions of the twelve argument arrays

`x : 4×2048×2048`, `μk μr : 1×1×2048`, `wk : 8192×2048`, `gk bk gr br : 2048`, `wr : 2048×2048`, `wv : 2048×8192`,
`gv bv : 8192`. A token is `(b, t)`; its shift difference is the previous token's row (zero for `t = 0`) minus its own.
Entry counts as words: 8192·2048 = 0x4B800000, 2048·2048 = 0x4A800000. -/

section Whole
open Idealize.ShloMosaic.ValueIdx

/-- Row `(b, t)` of `x`. -/
def xrow (x : (⟨3, ![4, 2048, 2048]⟩ : Shape).Idx → EReal) (b : Fin 4) (t : Fin 2048) (d : Fin 2048) : EReal := x (ix3 b t d)
/-- The shift difference of row `(b, t)`: `x[b, t−1] − x[b, t]`, the zero word for the row before the first. -/
def dxrow (x : (⟨3, ![4, 2048, 2048]⟩ : Shape).Idx → EReal) (b : Fin 4) (t : Fin 2048) (d : Fin 2048) : EReal :=
  (if t.val = 0 then W 0x00000000#32 else x (ix3 b (⟨t.val - 1, by omega⟩ : Fin 2048) d)) - x (ix3 b t d)
/-- A weight matrix in the kernel's quantised spelling: one scale from the whole matrix. -/
def wK {a c : ℕ} (Nw : EReal) (w : (⟨2, ![a, c]⟩ : Shape).Idx → EReal) (i : Fin a) (j : Fin c) : EReal :=
  wqK (wscale Nw (total w)) (w (ix2 i j))
/-- The same in the reference's spelling. -/
def wR {a c : ℕ} (Nw : EReal) (w : (⟨2, ![a, c]⟩ : Shape).Idx → EReal) (i : Fin a) (j : Fin c) : EReal :=
  wqR (wscale Nw (total w)) (w (ix2 i j))

/-- Entry `(b, t, e)` of the first result, the kernel's arrangement. -/
def resK (x : (⟨3, ![4, 2048, 2048]⟩ : Shape).Idx → EReal) (μk μr : (⟨3, ![1, 1, 2048]⟩ : Shape).Idx → EReal)
    (wk : (⟨2, ![8192, 2048]⟩ : Shape).Idx → EReal) (gk bk : (⟨1, ![2048]⟩ : Shape).Idx → EReal)
    (wr : (⟨2, ![2048, 2048]⟩ : Shape).Idx → EReal) (gr br : (⟨1, ![2048]⟩ : Shape).Idx → EReal)
    (wv : (⟨2, ![2048, 8192]⟩ : Shape).Idx → EReal) (gv bv : (⟨1, ![8192]⟩ : Shape).Idx → EReal)
    (b : Fin 4) (t : Fin 2048) (e : Fin 2048) : EReal :=
  outK (fun d => μk (ix3 0 0 d)) (fun d => μr (ix3 0 0 d)) (fun d => gk (ix1 d)) (fun d => bk (ix1 d))
    (fun d => gr (ix1 d)) (fun d => br (ix1 d)) (fun h => gv (ix1 h)) (fun h => bv (ix1 h))
    (wK (W 0x4B800000#32) wk) (wK (W 0x4A800000#32) wr) (wK (W 0x4B800000#32) wv) (xrow x b t) (dxrow x b t) e

/-- Entry `(b, t, e)` of the first result, the reference's arrangement. -/
def resR (x : (⟨3, ![4, 2048, 2048]⟩ : Shape).Idx → EReal) (μk μr : (⟨3, ![1, 1, 2048]⟩ : Shape).Idx → EReal)
    (wk : (⟨2, ![8192, 2048]⟩ : Shape).Idx → EReal) (gk bk : (⟨1, ![2048]⟩ : Shape).Idx → EReal)
    (wr : (⟨2, ![2048, 2048]⟩ : Shape).Idx → EReal) (gr br : (⟨1, ![2048]⟩ : Shape).Idx → EReal)
    (wv : (⟨2, ![2048, 8192]⟩ : Shape).Idx → EReal) (gv bv : (⟨1, ![8192]⟩ : Shape).Idx → EReal)
    (b : Fin 4) (t : Fin 2048) (e : Fin 2048) : EReal :=
  outR (fun d => μk (ix3 0 0 d)) (fun d => μr (ix3 0 0 d)) (fun d => gk (ix1 d)) (fun d => bk (ix1 d))
    (fun d => gr (ix1 d)) (fun d => br (ix1 d)) (fun h => gv (ix1 h)) (fun h => bv (ix1 h))
    (wR (W 0x4B800000#32) wk) (wR (W 0x4A800000#32) wr) (wR (W 0x4B800000#32) wv) (xrow x b t) (dxrow x b t) e

end Whole

end Cert.Spec

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.PayChain.lean ====
/-
  One token row's normalise-and-quantise chain, as a kernel body spells it on an a×b block of token rows, read at an
  entry of the block.

  The body never works on a single row: it carries the whole block, takes each per-row quantity (a mean, a
  variance, a scale) as an a×1 column obtained by summing along the lanes, and stretches that column back across
  the b lanes; gains, biases and the mixing weights are 1×b rows stretched down the a rows. Read at the entry
  (p, d), every such step only ever looks at row p of the block, so the block-level term is the row-level
  function of the specification applied to row p. The steps are stated for an arbitrary block height a and row
  length b; the three bodies use them at 512×2048, 256×2048 and 64×8192.

  A lane sum starts from the zero word, which is the real number zero, so it is the bare sum over the row; the
  specification keeps that leading zero word in its mean, and the two agree (mean_eq).
-/
import proofs.«156918_j26774826123920_2_alg».proof.Proof.Spec
import proofs.«156918_j26774826123920_2_alg».proof.Proof.LibRowReductions
import proofs.«156918_j26774826123920_2_alg».proof.Proof.LibBlockReads

open scoped BigOperators

noncomputable section

namespace Cert.KernelIdeal.Pay

open Idealize.ShloMosaic Idealize.ShloMosaic.ValueIdx Cert.Lib.RowReductions Cert.Lib.BlockReads

/-! ## The remaining pointwise operations at an index -/

section Pointwise
variable {s : Shape} {φ : FTy}

/-- A reciprocal square root at an index is that of the entry. -/
theorem rsqrt_apply (x : FVec Ideal s φ) (i : s.Idx) : rsqrt x i = Ideal.rsqrt (x i) := rfl
/-- A rounding to even at an index rounds the entry. -/
theorem roundeven_apply (x : FVec Ideal s φ) (i : s.Idx) : roundeven x i = Spec.rnd (x i) := rfl
/-- An absolute value at an index is the entry's. -/
theorem absf_apply (x : FVec Ideal s φ) (i : s.Idx) : absf x i = Spec.ab (x i) := rfl
/-- A logistic function at an index is the entry's. -/
theorem logistic_apply (x : FVec Ideal s φ) (i : s.Idx) : logistic x i = Ideal.logistic (x i) := rfl

end Pointwise

/-- The shape facts a body over a×b blocks cites: the block and a 1×b row re-shaped in place, a row stretched
    down the block, the lane reduction to one value per row, that vector stood up as an a×1 column, and a column
    stretched across the lanes. -/
structure Wit (a b : Nat) : Prop where
  blk : (⟨2, ![a, b]⟩ : Shape).ShapeCasts ⟨2, ![a, b]⟩
  row : (⟨2, ![1, b]⟩ : Shape).ShapeCasts ⟨2, ![1, b]⟩
  down : (⟨2, ![1, b]⟩ : Shape).Broadcasts ⟨2, ![a, b]⟩
  red : (⟨2, ![a, b]⟩ : Shape).Reduces [1] ⟨1, ![a]⟩
  col : (⟨1, ![a]⟩ : Shape).ShapeCasts ⟨2, ![a, 1]⟩
  across : (⟨2, ![a, 1]⟩ : Shape).Broadcasts ⟨2, ![a, b]⟩

variable {a b : Nat}

/-- The mean in the specification's spelling is the row's sum divided by the length word: its leading zero
    word is zero. -/
theorem mean_eq {n : Nat} (Nw : EReal) (v : Fin n → EReal) : Spec.mean Nw v = Ideal.div (∑ k, v k) Nw := by
  unfold Spec.mean
  rw [show Spec.W 0x00000000#32 = 0 from Ideal.ofBits_zero_f32, zero_add]

/-! ## The token-shift mix -/

/-- x + dx·μ on a block: the mixing row μ stretched down the rows. -/
def mixBlk (w : Wit a b) (X DX : FVec Ideal ⟨2, ![a, b]⟩ .f32) (μ : FVec Ideal ⟨2, ![1, b]⟩ .f32) :
    FVec Ideal ⟨2, ![a, b]⟩ .f32 :=
  addf (shapeCast ⟨2, ![a, b]⟩ X w.blk)
    (mulf (shapeCast ⟨2, ![a, b]⟩ DX w.blk) (broadcastTo ⟨2, ![a, b]⟩ (shapeCast ⟨2, ![1, b]⟩ μ w.row) w.down))

/-- At (p, d) the mixed block is the mix of row p. -/
theorem mixBlk_apply (w : Wit a b) (X DX : FVec Ideal ⟨2, ![a, b]⟩ .f32) (μ : FVec Ideal ⟨2, ![1, b]⟩ .f32)
    (p : Fin a) (d : Fin b) :
    mixBlk w X DX μ (ix2 p d)
      = Spec.mix (fun k => μ (ix2 0 k)) (fun k => X (ix2 p k)) (fun k => DX (ix2 p k)) d := by
  unfold mixBlk Spec.mix
  rw [addf_apply, mulf_apply, broadcast_row_apply, shapeCast_self, shapeCast_self, shapeCast_self]

/-! ## Means, centring, normalisation -/

/-- The per-row mean as a column: the lane sum from the zero word, stood up as a column, over the length word. -/
def meanCol (w : Wit a b) (Nw : BitVec 32) (X : FVec Ideal ⟨2, ![a, b]⟩ .f32) : FVec Ideal ⟨2, ![a, 1]⟩ .f32 :=
  divf (shapeCast ⟨2, ![a, 1]⟩ (multiReduction .add [1] ⟨1, ![a]⟩ X 0x00000000#32 w.red (.inl rfl) rfl) w.col)
    (broadcast ⟨2, ![a, 1]⟩ (Scalar.ofBits (F := Ideal) .f32 Nw))

/-- The column's entry p is the mean of row p. -/
theorem meanCol_apply (w : Wit a b) (Nw : BitVec 32) (X : FVec Ideal ⟨2, ![a, b]⟩ .f32) (p : Fin a) :
    meanCol w Nw X (ix2 p 0) = Spec.mean (Spec.W Nw) (fun k => X (ix2 p k)) := by
  rw [mean_eq]
  unfold meanCol
  rw [divf_apply, shapeCast_col_apply, broadcast_apply]
  exact congrArg₂ Ideal.div (rowsum_apply X 0x00000000#32 w.red (.inl rfl) rfl p) rfl

/-- The block minus its rows' means. -/
def cenBlk (w : Wit a b) (Nw : BitVec 32) (V : FVec Ideal ⟨2, ![a, b]⟩ .f32) : FVec Ideal ⟨2, ![a, b]⟩ .f32 :=
  subf V (broadcastTo ⟨2, ![a, b]⟩ (meanCol w Nw V) w.across)

theorem cenBlk_apply (w : Wit a b) (Nw : BitVec 32) (V : FVec Ideal ⟨2, ![a, b]⟩ .f32) (p : Fin a) (d : Fin b) :
    cenBlk w Nw V (ix2 p d) = Spec.cen (Spec.W Nw) (fun k => V (ix2 p k)) d := by
  unfold cenBlk Spec.cen
  rw [subf_apply, broadcast_col_apply, meanCol_apply]

/-- Layer normalisation of every row of a block: centre, times the reciprocal root of the variance plus ε,
    times the gain row, plus the bias row. -/
def lnBlk (w : Wit a b) (Nw : BitVec 32) (V : FVec Ideal ⟨2, ![a, b]⟩ .f32) (g bi : FVec Ideal ⟨2, ![1, b]⟩ .f32) :
    FVec Ideal ⟨2, ![a, b]⟩ .f32 :=
  addf
    (mulf
      (mulf (cenBlk w Nw V)
        (broadcastTo ⟨2, ![a, b]⟩
          (rsqrt (addf (meanCol w Nw (mulf (cenBlk w Nw V) (cenBlk w Nw V)))
            (broadcast ⟨2, ![a, 1]⟩ (Scalar.ofBits (F := Ideal) .f32 0x3727C5AC#32))))
          w.across))
      (broadcastTo ⟨2, ![a, b]⟩ (shapeCast ⟨2, ![1, b]⟩ g w.row) w.down))
    (broadcastTo ⟨2, ![a, b]⟩ (shapeCast ⟨2, ![1, b]⟩ bi w.row) w.down)

/-- At (p, d) the normalised block is the normalisation of row p at d. -/
theorem lnBlk_apply (w : Wit a b) (Nw : BitVec 32) (V : FVec Ideal ⟨2, ![a, b]⟩ .f32)
    (g bi : FVec Ideal ⟨2, ![1, b]⟩ .f32) (p : Fin a) (d : Fin b) :
    lnBlk w Nw V g bi (ix2 p d)
      = Spec.lnorm (Spec.W Nw) (fun k => g (ix2 0 k)) (fun k => bi (ix2 0 k)) (fun k => V (ix2 p k)) d := by
  unfold lnBlk Spec.lnorm
  rw [addf_apply, mulf_apply, mulf_apply, broadcast_col_apply, broadcast_row_apply, broadcast_row_apply,
    shapeCast_self, shapeCast_self, cenBlk_apply]
  rw [rsqrt_apply, addf_apply, meanCol_apply, broadcast_apply]
  simp only [mulf_apply, cenBlk_apply]
  rfl

/-! ## The row scale -/

/-- max(tiny, mean |l|) per row, as a column. -/
def clipCol (w : Wit a b) (Nw : BitVec 32) (L : FVec Ideal ⟨2, ![a, b]⟩ .f32) : FVec Ideal ⟨2, ![a, 1]⟩ .f32 :=
  maximumf (broadcast ⟨2, ![a, 1]⟩ (Scalar.ofBits (F := Ideal) .f32 0x322BCC77#32)) (meanCol w Nw (absf L))

theorem clipCol_apply (w : Wit a b) (Nw : BitVec 32) (L : FVec Ideal ⟨2, ![a, b]⟩ .f32) (p : Fin a) :
    clipCol w Nw L (ix2 p 0) = Spec.clipv (Spec.W Nw) (fun k => L (ix2 p k)) := by
  unfold clipCol Spec.clipv
  rw [maximumf_apply, broadcast_apply, meanCol_apply]
  rfl

/-- A column times two scalars, each splat down the column: (c · s₁) · s₂. -/
def scaleCol (C : FVec Ideal ⟨2, ![a, 1]⟩ .f32) (s₁ s₂ : Ideal .f32) : FVec Ideal ⟨2, ![a, 1]⟩ .f32 :=
  mulf (mulf C (broadcast ⟨2, ![a, 1]⟩ s₁)) (broadcast ⟨2, ![a, 1]⟩ s₂)

theorem scaleCol_apply (C : FVec Ideal ⟨2, ![a, 1]⟩ .f32) (s₁ s₂ : Ideal .f32) (i : (⟨2, ![a, 1]⟩ : Shape).Idx) :
    scaleCol C s₁ s₂ i = C i * s₁ * s₂ := rfl

/-- The kernel's row scale of a normalised block, as a column: clip · 2.5 · s, s the named reciprocal of 127. -/
theorem scale_apply (w : Wit a b) (Nw : BitVec 32) (L : FVec Ideal ⟨2, ![a, b]⟩ .f32) (s : Ideal .f32)
    (hs : s = ((1 / 127 : ℝ) : EReal)) (p : Fin a) :
    scaleCol (clipCol w Nw L) (Scalar.ofBits (F := Ideal) .f32 0x40200000#32) s (ix2 p 0)
      = Spec.scK (Spec.W Nw) (fun k => L (ix2 p k)) := by
  rw [scaleCol_apply, clipCol_apply, hs]
  rfl

/-! ## Quantisation -/

/-- Every entry over its row's scale, clipped to ±127 and rounded to even. -/
def quantBlk (w : Wit a b) (L : FVec Ideal ⟨2, ![a, b]⟩ .f32) (S : FVec Ideal ⟨2, ![a, 1]⟩ .f32) :
    FVec Ideal ⟨2, ![a, b]⟩ .f32 :=
  roundeven (minimumf (broadcast ⟨2, ![a, b]⟩ (Scalar.ofBits (F := Ideal) .f32 0x42FE0000#32))
    (maximumf (broadcast ⟨2, ![a, b]⟩ (Scalar.ofBits (F := Ideal) .f32 0xC2FE0000#32))
      (divf L (broadcastTo ⟨2, ![a, b]⟩ S w.across))))

theorem quantBlk_apply (w : Wit a b) (L : FVec Ideal ⟨2, ![a, b]⟩ .f32) (S : FVec Ideal ⟨2, ![a, 1]⟩ .f32)
    (p : Fin a) (d : Fin b) : quantBlk w L S (ix2 p d) = Spec.qi (S (ix2 p 0)) (L (ix2 p d)) := by
  unfold quantBlk Spec.qi
  rw [roundeven_apply, minimumf_apply, maximumf_apply, divf_apply, broadcast_col_apply, broadcast_apply, broadcast_apply]
  rfl

/-- The quantised integers times the row's scale again. -/
def deqBlk (w : Wit a b) (L : FVec Ideal ⟨2, ![a, b]⟩ .f32) (S : FVec Ideal ⟨2, ![a, 1]⟩ .f32) :
    FVec Ideal ⟨2, ![a, b]⟩ .f32 :=
  mulf (quantBlk w L S) (broadcastTo ⟨2, ![a, b]⟩ S w.across)

theorem deqBlk_apply (w : Wit a b) (L : FVec Ideal ⟨2, ![a, b]⟩ .f32) (S : FVec Ideal ⟨2, ![a, 1]⟩ .f32)
    (p : Fin a) (d : Fin b) :
    deqBlk w L S (ix2 p d) = Spec.qi (S (ix2 p 0)) (L (ix2 p d)) * S (ix2 p 0) := by
  unfold deqBlk
  rw [mulf_apply, quantBlk_apply, broadcast_col_apply]

/-! ## The chain whole -/

/-- The quantised integer of entry (p, d) of a block normalised and scaled by its own rows. -/
theorem quant_chain_apply (w : Wit a b) (Nw : BitVec 32) (V : FVec Ideal ⟨2, ![a, b]⟩ .f32)
    (g bi : FVec Ideal ⟨2, ![1, b]⟩ .f32) (s : Ideal .f32) (hs : s = ((1 / 127 : ℝ) : EReal)) (p : Fin a) (d : Fin b) :
    quantBlk w (lnBlk w Nw V g bi)
        (scaleCol (clipCol w Nw (lnBlk w Nw V g bi)) (Scalar.ofBits (F := Ideal) .f32 0x40200000#32) s) (ix2 p d)
      = Spec.qi (Spec.scK (Spec.W Nw)
            (Spec.lnorm (Spec.W Nw) (fun k => g (ix2 0 k)) (fun k => bi (ix2 0 k)) (fun k => V (ix2 p k))))
          (Spec.lnorm (Spec.W Nw) (fun k => g (ix2 0 k)) (fun k => bi (ix2 0 k)) (fun k => V (ix2 p k)) d) := by
  rw [quantBlk_apply, scale_apply w Nw _ s hs, lnBlk_apply]
  simp only [lnBlk_apply]

/-- The row scale of a block normalised by its own rows. -/
theorem scale_chain_apply (w : Wit a b) (Nw : BitVec 32) (V : FVec Ideal ⟨2, ![a, b]⟩ .f32)
    (g bi : FVec Ideal ⟨2, ![1, b]⟩ .f32) (s : Ideal .f32) (hs : s = ((1 / 127 : ℝ) : EReal)) (p : Fin a) :
    scaleCol (clipCol w Nw (lnBlk w Nw V g bi)) (Scalar.ofBits (F := Ideal) .f32 0x40200000#32) s (ix2 p 0)
      = Spec.scK (Spec.W Nw)
          (Spec.lnorm (Spec.W Nw) (fun k => g (ix2 0 k)) (fun k => bi (ix2 0 k)) (fun k => V (ix2 p k))) := by
  rw [scale_apply w Nw _ s hs]
  simp only [lnBlk_apply]

/-- Normalised, quantised and re-scaled: entry (p, d) is the specification's quantised row of row p at d. -/
theorem deq_chain_apply (w : Wit a b) (Nw : BitVec 32) (V : FVec Ideal ⟨2, ![a, b]⟩ .f32)
    (g bi : FVec Ideal ⟨2, ![1, b]⟩ .f32) (s : Ideal .f32) (hs : s = ((1 / 127 : ℝ) : EReal)) (p : Fin a) (d : Fin b) :
    deqBlk w (lnBlk w Nw V g bi)
        (scaleCol (clipCol w Nw (lnBlk w Nw V g bi)) (Scalar.ofBits (F := Ideal) .f32 0x40200000#32) s) (ix2 p d)
      = Spec.xqK (Spec.W Nw) (fun k => g (ix2 0 k)) (fun k => bi (ix2 0 k)) (fun k => V (ix2 p k)) d := by
  unfold deqBlk Spec.xqK
  rw [mulf_apply, quant_chain_apply w Nw V g bi s hs, broadcast_col_apply, scale_chain_apply w Nw V g bi s hs]

end Cert.KernelIdeal.Pay

end
-- ==== Proof.PayInv.lean ====
/-
  The one named constant of the three kernel bodies: the word they multiply a row's scale by is, on the extended
  reals, the rational 1/127 that the table of named constants gives its name, not the dyadic number the word encodes.
-/
import proofs.«156918_j26774826123920_2_alg».proof.Proof.Gen.KernelIdeal
import Idealize.ShloMosaic.PureOps.IdealRules

noncomputable section

namespace Cert.KernelIdeal.Pay

open Idealize.ShloMosaic

/-- The named reciprocal of 127 is the real number 1/127. -/
theorem inv127 :
    Named.named (F := Ideal) Cert.KernelIdeal.κ "inv_127" (φ := .f32) 0x3C010204#32 = ((1 / 127 : ℝ) : EReal) :=
  IdealRules.named_const.ideal_named_scalar _ _ _ _ rfl

end Cert.KernelIdeal.Pay

end
-- ==== Proof.PayK0.lean ====
/-
  The first kernel body (blocks of 512 token rows, row length 2048) read at an entry.

  At the first column-block of the grid the body fills a 512×2048 scratch with the mixed, normalised, quantised and
  re-scaled rows; at every grid point it multiplies that scratch by the transpose of a 512×2048 block of the
  weight matrix, clamps at zero and squares. Read at (p, d) the scratch is the specification's quantised row of
  token p of the block; read at (p, q) the output block is the squared clamp of the product of scratch row p with
  weight row q.
-/
import proofs.«156918_j26774826123920_2_alg».proof.Proof.Gen.KernelIdeal.Skeleton
import proofs.«156918_j26774826123920_2_alg».proof.Proof.PayChain
import proofs.«156918_j26774826123920_2_alg».proof.Proof.PayInv

open scoped BigOperators

noncomputable section

namespace Cert.KernelIdeal.Pay

open Idealize.ShloMosaic Idealize.ShloMosaic.ValueIdx Cert.KernelIdeal Cert.KernelIdeal.Gen Cert.Lib.BlockReads

/-- The shape facts of the 512×2048 blocks. -/
theorem w0 : Wit 512 2048 :=
  ⟨shapeCasts_S512x2048_S512x2048, shapeCasts_S1x2048_S1x2048, broadcasts_S1x2048_S512x2048, reduces_S512x2048_S512,
    shapeCasts_S512_S512x1, broadcasts_S512x1_S512x2048⟩

/-- The body's normalised block is the generic chain's, on the mixed block. -/
theorem k0_pay3_eq (xb dxb : FVec Ideal S512x2048 .f32) (μb gb bb : FVec Ideal S1x2048 .f32) :
    k0_pay3 (F := Ideal) xb dxb μb gb bb = lnBlk w0 0x45000000#32 (mixBlk w0 xb dxb μb) gb bb := rfl

/-- Its clip column is the generic one of that normalised block. -/
theorem k0_pay4_eq (xb dxb : FVec Ideal S512x2048 .f32) (μb gb bb : FVec Ideal S1x2048 .f32) :
    k0_pay4 (F := Ideal) xb dxb μb gb bb = clipCol w0 0x45000000#32 (k0_pay3 (F := Ideal) xb dxb μb gb bb) := rfl

/-- What the body stores in the scratch: the quantised block times its scale, narrowed and re-shaped in place. -/
theorem k0_pay1_eq (L : FVec Ideal S512x2048 .f32) (C : FVec Ideal S512x1 .f32) :
    k0_pay1 (F := Ideal) L C k0_pay5
      = shapeCast S512x2048
          (truncf .bf16
            (deqBlk w0 L (scaleCol C (Scalar.ofBits (F := Ideal) .f32 0x40200000#32)
              (Named.named (F := Ideal) κ "inv_127" (φ := .f32) 0x3C010204#32)))
            bitsLt_bf16_f32)
          shapeCasts_S512x2048_S512x2048 := rfl

/-- The scratch at (p, d): the quantised, re-scaled normalisation of the mixed row p, at d. -/
theorem k0_scratch (xb dxb : FVec Ideal S512x2048 .f32) (μb gb bb : FVec Ideal S1x2048 .f32)
    (p : Fin 512) (d : Fin 2048) :
    k0_pay1 (F := Ideal) (k0_pay3 xb dxb μb gb bb) (k0_pay4 xb dxb μb gb bb) k0_pay5 (ix2 p d)
      = Spec.xqK (Spec.W 0x45000000#32) (fun d => gb (ix2 0 d)) (fun d => bb (ix2 0 d))
          (Spec.mix (fun d => μb (ix2 0 d)) (fun d => xb (ix2 p d)) (fun d => dxb (ix2 p d))) d := by
  have hmix : (fun k => mixBlk w0 xb dxb μb (ix2 p k))
      = Spec.mix (fun d => μb (ix2 0 d)) (fun d => xb (ix2 p d)) (fun d => dxb (ix2 p d)) :=
    funext fun k => mixBlk_apply w0 xb dxb μb p k
  rw [k0_pay1_eq, k0_pay4_eq, k0_pay3_eq, shapeCast_self, truncf_apply,
    deq_chain_apply w0 0x45000000#32 (mixBlk w0 xb dxb μb) gb bb _ inv127 p d, hmix]

/-- The output block at (p, q): the product of scratch row p with weight row q, clamped at zero and squared. -/
theorem k0_out (xq wb : FVec Ideal S512x2048 .bf16) (p q : Fin 512) :
    k0_pay2 (F := Ideal) xq wb (ix2 p q)
      = max (∑ d, xq (ix2 p d) * wb (ix2 q d)) (Spec.W 0x00000000#32)
          * max (∑ d, xq (ix2 p d) * wb (ix2 q d)) (Spec.W 0x00000000#32) := by
  unfold k0_pay2
  rw [truncf_apply, mulf_apply, maximumf_apply, broadcast_apply,
    matmul_zero_cols_apply dot_S512x2048_S512x2048_S512x512_1_1_0_0_n_n rfl rfl rfl rfl rfl rfl, shapeCast_self]
  rfl

/-- With the scratch filled by the same body: the specification's first map of the mixed row p, at q. -/
theorem k0_kact (xb dxb : FVec Ideal S512x2048 .f32) (μb gb bb : FVec Ideal S1x2048 .f32)
    (wb : FVec Ideal S512x2048 .bf16) (p q : Fin 512) :
    k0_pay2 (F := Ideal) (k0_pay1 (F := Ideal) (k0_pay3 xb dxb μb gb bb) (k0_pay4 xb dxb μb gb bb) k0_pay5) wb (ix2 p q)
      = Spec.kactK (Spec.W 0x45000000#32) (fun d => gb (ix2 0 d)) (fun d => bb (ix2 0 d)) (fun h d => wb (ix2 h d))
          (Spec.mix (fun d => μb (ix2 0 d)) (fun d => xb (ix2 p d)) (fun d => dxb (ix2 p d))) q := by
  rw [k0_out]
  simp only [k0_scratch]
  rfl

end Cert.KernelIdeal.Pay

end
-- ==== Proof.KIValue0.lean ====
import proofs.«156918_j26774826123920_2_alg».proof.Proof.KIRegion0
import proofs.«156918_j26774826123920_2_alg».proof.Proof.PayK0
import proofs.«156918_j26774826123920_2_alg».proof.Proof.Spec

import Idealize.ShloMosaic.Lib.Pipeline.Value
import Idealize.ShloMosaic.Lib.ValueIdx

noncomputable section

namespace Cert.KernelIdeal.Val

open Cert.KernelIdeal Cert.KernelIdeal.Gen Cert.KernelIdeal.Fr Cert.KernelIdeal.Pay
open Idealize.ShloMosaic Idealize.ShloMosaic.TcCoe Idealize.SL.Sem Idealize.ShloMosaic.ValueIdx
open Idealize.ShloMosaic.Pipeline (Dat)

/-! # The first region's output array, entry by entry

The grid is 16×16; point `t` has outer coordinate `t / 16` (a block of 512 token rows) and inner coordinate `t % 16`
(a block of 512 rows of the weight matrix, that is 512 output columns). The scratch at any point holds the quantised,
re-scaled normalisation of the point's 512 token rows; the output block is its product with the point's weight rows,
rectified and squared. So the output array is one function of the arrays the region finds: entry `(r, h)` is the
first map of the mixed row `r`, at `h`. -/

variable (V : (c : Dev nD) → (b : Ref sig .tc) → Buf (Elt Ideal) ((c : Thread nD τ).loc b))

theorem hz0 : (![0, 0] : Fin 2 → Nat) = fun _ => 0 := funext fun a => by fin_cases a <;> rfl

/-! The printed index maps over the 256 points. -/
theorem idx_outer0_0 : ∀ t : Fin cfg0.N, win0_0.index t (0 : Fin 2) = t.val / 16 ∧ win0_0.index t (1 : Fin 2) = 0 :=
  (by decide +kernel : ∀ t : Fin grid0.N, _)
theorem idx_outer0_1 : ∀ t : Fin cfg0.N, win0_1.index t (0 : Fin 2) = t.val / 16 ∧ win0_1.index t (1 : Fin 2) = 0 :=
  (by decide +kernel : ∀ t : Fin grid0.N, _)
theorem idx_whole0_2 : ∀ t : Fin cfg0.N, win0_2.index t (0 : Fin 2) = 0 ∧ win0_2.index t (1 : Fin 2) = 0 :=
  (by decide +kernel : ∀ t : Fin grid0.N, _)
theorem idx_whole0_3 : ∀ t : Fin cfg0.N, win0_3.index t (0 : Fin 2) = 0 ∧ win0_3.index t (1 : Fin 2) = 0 :=
  (by decide +kernel : ∀ t : Fin grid0.N, _)
theorem idx_whole0_4 : ∀ t : Fin cfg0.N, win0_4.index t (0 : Fin 2) = 0 ∧ win0_4.index t (1 : Fin 2) = 0 :=
  (by decide +kernel : ∀ t : Fin grid0.N, _)
theorem idx_inner0_5 : ∀ t : Fin cfg0.N, win0_5.index t (0 : Fin 2) = t.val % 16 ∧ win0_5.index t (1 : Fin 2) = 0 :=
  (by decide +kernel : ∀ t : Fin grid0.N, _)
theorem idx_both0_6 : ∀ t : Fin cfg0.N, win0_6.index t (0 : Fin 2) = t.val / 16 ∧ win0_6.index t (1 : Fin 2) = t.val % 16 :=
  (by decide +kernel : ∀ t : Fin grid0.N, _)

/-- The token row that row `p` of point `t`'s row block is. -/
def row0 (t : Fin cfg0.N) (p : Fin 512) : Fin 8192 :=
  ⟨512 * (t.val / 16) + p.val, by have h : t.val < 256 := Nat.lt_of_lt_of_eq t.isLt N_0; have := p.isLt; omega⟩
/-- The weight row (output column) that row `q` of point `t`'s weight block is. -/
def col0 (t : Fin cfg0.N) (q : Fin 512) : Fin 8192 :=
  ⟨512 * (t.val % 16) + q.val, by have := q.isLt; omega⟩

/-! Each input block read at an entry is the array at the entry the block's rectangle puts there. -/

theorem blk0_0 (c : Dev nD) (t : Fin cfg0.N) (p : Fin 512) (d : Fin 2048) :
    (iblk0 V c 0 t : Vec Ideal S512x2048 .f32) (ix2 p d) = (V c main_v4 : S8192x2048.Idx → EReal) (ix2 (row0 t p) d) := by
  obtain ⟨q0, q1⟩ := idx_outer0_0 t
  unfold iblk0
  rw [View.read_apply]
  show (V c main_v4 : S8192x2048.Idx → EReal) _ = _
  refine congrArg (V c main_v4 : S8192x2048.Idx → EReal) (funext fun a => Fin.ext ?_)
  match a with
  | ⟨0, _⟩ => show win0_0.index t (0 : Fin 2) * 512 + 1 * p.val = 512 * (t.val / 16) + p.val; rw [q0]; omega
  | ⟨1, _⟩ => show win0_0.index t (1 : Fin 2) * 2048 + 1 * d.val = d.val; rw [q1]; omega

theorem blk0_1 (c : Dev nD) (t : Fin cfg0.N) (p : Fin 512) (d : Fin 2048) :
    (iblk0 V c 1 t : Vec Ideal S512x2048 .f32) (ix2 p d) = (V c main_v5 : S8192x2048.Idx → EReal) (ix2 (row0 t p) d) := by
  obtain ⟨q0, q1⟩ := idx_outer0_1 t
  unfold iblk0
  rw [View.read_apply]
  show (V c main_v5 : S8192x2048.Idx → EReal) _ = _
  refine congrArg (V c main_v5 : S8192x2048.Idx → EReal) (funext fun a => Fin.ext ?_)
  match a with
  | ⟨0, _⟩ => show win0_1.index t (0 : Fin 2) * 512 + 1 * p.val = 512 * (t.val / 16) + p.val; rw [q0]; omega
  | ⟨1, _⟩ => show win0_1.index t (1 : Fin 2) * 2048 + 1 * d.val = d.val; rw [q1]; omega

theorem blk0_2 (c : Dev nD) (t : Fin cfg0.N) (d : Fin 2048) :
    (iblk0 V c 2 t : Vec Ideal S1x2048 .f32) (ix2 0 d) = (V c main_v6 : S1x2048.Idx → EReal) (ix2 0 d) := by
  obtain ⟨q0, q1⟩ := idx_whole0_2 t
  unfold iblk0
  rw [View.read_apply]
  show (V c main_v6 : S1x2048.Idx → EReal) _ = _
  refine congrArg (V c main_v6 : S1x2048.Idx → EReal) (funext fun a => Fin.ext ?_)
  match a with
  | ⟨0, _⟩ => show win0_2.index t (0 : Fin 2) * 1 + 1 * 0 = 0; rw [q0]
  | ⟨1, _⟩ => show win0_2.index t (1 : Fin 2) * 2048 + 1 * d.val = d.val; rw [q1]; omega

theorem blk0_3 (c : Dev nD) (t : Fin cfg0.N) (d : Fin 2048) :
    (iblk0 V c 3 t : Vec Ideal S1x2048 .f32) (ix2 0 d) = (V c main_v8 : S1x2048.Idx → EReal) (ix2 0 d) := by
  obtain ⟨q0, q1⟩ := idx_whole0_3 t
  unfold iblk0
  rw [View.read_apply]
  show (V c main_v8 : S1x2048.Idx → EReal) _ = _
  refine congrArg (V c main_v8 : S1x2048.Idx → EReal) (funext fun a => Fin.ext ?_)
  match a with
  | ⟨0, _⟩ => show win0_3.index t (0 : Fin 2) * 1 + 1 * 0 = 0; rw [q0]
  | ⟨1, _⟩ => show win0_3.index t (1 : Fin 2) * 2048 + 1 * d.val = d.val; rw [q1]; omega

theorem blk0_4 (c : Dev nD) (t : Fin cfg0.N) (d : Fin 2048) :
    (iblk0 V c 4 t : Vec Ideal S1x2048 .f32) (ix2 0 d) = (V c main_v9 : S1x2048.Idx → EReal) (ix2 0 d) := by
  obtain ⟨q0, q1⟩ := idx_whole0_4 t
  unfold iblk0
  rw [View.read_apply]
  show (V c main_v9 : S1x2048.Idx → EReal) _ = _
  refine congrArg (V c main_v9 : S1x2048.Idx → EReal) (funext fun a => Fin.ext ?_)
  match a with
  | ⟨0, _⟩ => show win0_4.index t (0 : Fin 2) * 1 + 1 * 0 = 0; rw [q0]
  | ⟨1, _⟩ => show win0_4.index t (1 : Fin 2) * 2048 + 1 * d.val = d.val; rw [q1]; omega

theorem blk0_5 (c : Dev nD) (t : Fin cfg0.N) (p : Fin 512) (d : Fin 2048) :
    (iblk0 V c 5 t : Vec Ideal S512x2048 .bf16) (ix2 p d) = (V c main_v24 : S8192x2048.Idx → EReal) (ix2 (col0 t p) d) := by
  obtain ⟨q0, q1⟩ := idx_inner0_5 t
  unfold iblk0
  rw [View.read_apply]
  show (V c main_v24 : S8192x2048.Idx → EReal) _ = _
  refine congrArg (V c main_v24 : S8192x2048.Idx → EReal) (funext fun a => Fin.ext ?_)
  match a with
  | ⟨0, _⟩ => show win0_5.index t (0 : Fin 2) * 512 + 1 * p.val = 512 * (t.val % 16) + p.val; rw [q0]; omega
  | ⟨1, _⟩ => show win0_5.index t (1 : Fin 2) * 2048 + 1 * d.val = d.val; rw [q1]; omega

/-- The entry `(r, h)` the output array ends holding. -/
def G0 (c : Dev nD) : S8192x8192.Idx → EReal := fun i =>
  Spec.kactK (Spec.W 0x45000000#32) (fun d => (V c main_v8 : S1x2048.Idx → EReal) (ix2 0 d)) (fun d => (V c main_v9 : S1x2048.Idx → EReal) (ix2 0 d))
    (fun h d => (V c main_v24 : S8192x2048.Idx → EReal) (ix2 h d))
    (Spec.mix (fun d => (V c main_v6 : S1x2048.Idx → EReal) (ix2 0 d)) (fun d => (V c main_v4 : S8192x2048.Idx → EReal) (ix2 (i 0) d))
      (fun d => (V c main_v5 : S8192x2048.Idx → EReal) (ix2 (i 0) d))) (i 1)

/-- One point's store at `(p, q)`, the scratch filled from the same point's row blocks, over arbitrary blocks whose rows
    are rows of arbitrary arrays. -/
theorem point0 (x0 x1 : Vec Ideal S512x2048 .f32) (x2 x3 x4 : Vec Ideal S1x2048 .f32) (x5 : Vec Ideal S512x2048 .bf16)
    (A0 A1 : S8192x2048.Idx → EReal) (A2 A3 A4 : S1x2048.Idx → EReal) (A5 : S8192x2048.Idx → EReal)
    (r h : Fin 8192) (p q : Fin 512)
    (h0 : ∀ d, x0 (ix2 p d) = A0 (ix2 r d)) (h1 : ∀ d, x1 (ix2 p d) = A1 (ix2 r d))
    (h2 : ∀ d, x2 (ix2 0 d) = A2 (ix2 0 d)) (h3 : ∀ d, x3 (ix2 0 d) = A3 (ix2 0 d)) (h4 : ∀ d, x4 (ix2 0 d) = A4 (ix2 0 d))
    (h5 : ∀ d, x5 (ix2 q d) = A5 (ix2 h d)) :
    out0_6 (xq0 x0 x1 x2 x3 x4) x5 (ix2 p q)
      = Spec.kactK (Spec.W 0x45000000#32) (fun d => A3 (ix2 0 d)) (fun d => A4 (ix2 0 d)) (fun h d => A5 (ix2 h d))
          (Spec.mix (fun d => A2 (ix2 0 d)) (fun d => A0 (ix2 r d)) (fun d => A1 (ix2 r d))) h := by
  unfold out0_6 xq0
  simp only [View.canon_unit_zero (S := S512x512) hz0, View.canon_unit_zero (S := S512x2048) hz0,
    View.ld_unit_zero (S := S512x2048) hz0, View.ld_unit_zero (S := S1x2048) hz0]
  rw [k0_kact]
  simp only [Spec.kactK, h0, h1, h2, h3, h4, h5]

/-- What point `t` writes back is block `t` of that function. -/
theorem flushed0_eq (c : Dev nD) (t : Fin cfg0.N) :
    (dat0 V c).flushed 6 t = ((cfg0.win 6).blk t).view.read (Elt Ideal) (G0 V c) := by
  show (cfg0.win 6).cut (grid0.coords t) ((dat0 V c).after 6 t) = _
  rw [after0_6]
  unfold sAt
  obtain ⟨g0, g1⟩ := idx_both0_6 t
  funext j
  obtain ⟨p, q, rfl⟩ : ∃ (p : Fin 512) (q : Fin 512), j = (ix2 p q : S512x512.Idx) := ⟨j 0, j 1, eq_ix2 (n0 := 512) (n1 := 512) j⟩
  rw [View.read_apply]
  have hj : ((cfg0.win 6).blk t).view.emb (ix2 p q : S512x512.Idx) = (ix2 (row0 t p) (col0 t q) : S8192x8192.Idx) := by
    funext a; apply Fin.ext
    match a with
    | ⟨0, _⟩ => show win0_6.index t (0 : Fin 2) * 512 + 1 * p.val = 512 * (t.val / 16) + p.val; rw [g0]; omega
    | ⟨1, _⟩ => show win0_6.index t (1 : Fin 2) * 512 + 1 * q.val = 512 * (t.val % 16) + q.val; rw [g1]; omega
  rw [hj]
  exact point0 (iblk0 V c 0 t) (iblk0 V c 1 t) (iblk0 V c 2 t) (iblk0 V c 3 t) (iblk0 V c 4 t) (iblk0 V c 5 t)
    (V c main_v4) (V c main_v5) (V c main_v6) (V c main_v8) (V c main_v9) (V c main_v24) (row0 t p) (col0 t q) p q
    (blk0_0 V c t p) (blk0_1 V c t p) (blk0_2 V c t) (blk0_3 V c t) (blk0_4 V c t) (blk0_5 V c t q)

/-- An index of the output array is in point `t`'s block iff each coordinate is in the block's range on its axis. -/
theorem mem_blk0 (t : Fin cfg0.N) (i : S8192x8192.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v47).slice (win0_6.rect t)).set ↔ _
  rw [View.set_slice_whole, Rect.mem_set_unit]
  exact Iff.rfl

/-- The output array after the region. -/
theorem final0 (c : Dev nD) : (dat0 V c).arrAt 6 cfg0.N = G0 V c :=
  (dat0 V c).arrAt_eq_of_cover 6 (G0 V c) (fun t _ => flushed0_eq V c t) fun i => by
    have hi0 : (i 0).val < 8192 := (i 0).isLt
    have hi1 : (i 1).val < 8192 := (i 1).isLt
    have hN : cfg0.N = 256 := N_0
    have ht : (i 0).val / 512 * 16 + (i 1).val / 512 < cfg0.N := by rw [hN]; omega
    refine ⟨⟨(i 0).val / 512 * 16 + (i 1).val / 512, ht⟩, flush0_6 _, ?_⟩
    rw [mem_blk0]
    obtain ⟨g0, g1⟩ := idx_both0_6 ⟨(i 0).val / 512 * 16 + (i 1).val / 512, ht⟩
    intro a
    match a with
    | ⟨0, _⟩ => show win0_6.index _ (0 : Fin 2) * 512 ≤ (i 0).val ∧ (i 0).val < win0_6.index _ (0 : Fin 2) * 512 + 512; rw [g0]; show ((i 0).val / 512 * 16 + (i 1).val / 512) / 16 * 512 ≤ (i 0).val ∧ (i 0).val < ((i 0).val / 512 * 16 + (i 1).val / 512) / 16 * 512 + 512; omega
    | ⟨1, _⟩ => show win0_6.index _ (1 : Fin 2) * 512 ≤ (i 1).val ∧ (i 1).val < win0_6.index _ (1 : Fin 2) * 512 + 512; rw [g1]; show ((i 0).val / 512 * 16 + (i 1).val / 512) % 16 * 512 ≤ (i 1).val ∧ (i 1).val < ((i 0).val / 512 * 16 + (i 1).val / 512) % 16 * 512 + 512; omega

/-- Entry `(r, h)` of the output array after the region. -/
theorem R0 (c : Dev nD) (r h : Fin 8192) :
    ((dat0 V c).arrAt 6 cfg0.N : S8192x8192.Idx → EReal) (ix2 r h)
      = Cert.Spec.kactK (Spec.W 0x45000000#32) (fun d => (V c main_v8 : S1x2048.Idx → EReal) (ix2 0 d)) (fun d => (V c main_v9 : S1x2048.Idx → EReal) (ix2 0 d))
          (fun h d => (V c main_v24 : S8192x2048.Idx → EReal) (ix2 h d))
          (Cert.Spec.mix (fun d => (V c main_v6 : S1x2048.Idx → EReal) (ix2 0 d)) (fun d => (V c main_v4 : S8192x2048.Idx → EReal) (ix2 r d))
            (fun d => (V c main_v5 : S8192x2048.Idx → EReal) (ix2 r d))) h := by
  rw [final0]
  rfl

end Cert.KernelIdeal.Val

end
-- ==== Proof.PayK1.lean ====
/-
  The second kernel body (blocks of 256 token rows, row length 2048) read at an entry.

  The body mixes, normalises, quantises and re-scales its 256 rows exactly as the first does, multiplies the result
  by the transpose of the whole 2048×2048 weight matrix and applies the logistic function. Read at (p, e) the stored
  block is the logistic function of the specification's second sum for the mixed row p, at e.
-/
import proofs.«156918_j26774826123920_2_alg».proof.Proof.Gen.KernelIdeal.Skeleton
import proofs.«156918_j26774826123920_2_alg».proof.Proof.PayChain
import proofs.«156918_j26774826123920_2_alg».proof.Proof.PayInv

open scoped BigOperators

noncomputable section

namespace Cert.KernelIdeal.Pay

open Idealize.ShloMosaic Idealize.ShloMosaic.ValueIdx Cert.KernelIdeal Cert.KernelIdeal.Gen Cert.Lib.BlockReads

/-- The shape facts of the 256×2048 blocks. -/
theorem w1 : Wit 256 2048 :=
  ⟨shapeCasts_S256x2048_S256x2048, shapeCasts_S1x2048_S1x2048, broadcasts_S1x2048_S256x2048, reduces_S256x2048_S256,
    shapeCasts_S256_S256x1, broadcasts_S256x1_S256x2048⟩

/-- The body's normalised block is the generic chain's, on the mixed block. -/
theorem k1_pay2_eq (xb dxb : FVec Ideal S256x2048 .f32) (μb gb bb : FVec Ideal S1x2048 .f32) :
    k1_pay2 (F := Ideal) xb dxb μb gb bb = lnBlk w1 0x45000000#32 (mixBlk w1 xb dxb μb) gb bb := rfl

/-- Its clip column is the generic one of that normalised block. -/
theorem k1_pay3_eq (xb dxb : FVec Ideal S256x2048 .f32) (μb gb bb : FVec Ideal S1x2048 .f32) :
    k1_pay3 (F := Ideal) xb dxb μb gb bb = clipCol w1 0x45000000#32 (k1_pay2 (F := Ideal) xb dxb μb gb bb) := rfl

/-- What the body stores: the quantised, re-scaled block times the transposed weights, through the logistic function. -/
theorem k1_pay1_eq (L : FVec Ideal S256x2048 .f32) (C : FVec Ideal S256x1 .f32) (c : Ideal .f32)
    (wb : FVec Ideal S2048x2048 .bf16) :
    k1_pay1 (F := Ideal) L C c wb
      = truncf .bf16
          (logistic
            (matmul dot_S256x2048_S2048x2048_S256x2048_1_1_0_0_n_n none
              (truncf .bf16
                (deqBlk w1 L (scaleCol C c (Named.named (F := Ideal) κ "inv_127" (φ := .f32) 0x3C010204#32)))
                bitsLt_bf16_f32)
              (shapeCast S2048x2048 wb shapeCasts_S2048x2048_S2048x2048)
              (constant (F := Ideal) S256x2048 .f32 0x00000000#32)))
          bitsLt_bf16_f32 := rfl

/-- The stored block at (p, e): the logistic function of the sum over d of the quantised mixed row p at d times the
    weight entry (e, d). -/
theorem k1_out (xb dxb : FVec Ideal S256x2048 .f32) (μb gb bb : FVec Ideal S1x2048 .f32)
    (wb : FVec Ideal S2048x2048 .bf16) (p : Fin 256) (e : Fin 2048) :
    k1_pay1 (F := Ideal) (k1_pay2 xb dxb μb gb bb) (k1_pay3 xb dxb μb gb bb)
        (Scalar.ofBits (F := Ideal) .f32 0x40200000#32) wb (ix2 p e)
      = Ideal.logistic
          (Spec.raccK (Spec.W 0x45000000#32) (fun d => gb (ix2 0 d)) (fun d => bb (ix2 0 d)) (fun e d => wb (ix2 e d))
            (Spec.mix (fun d => μb (ix2 0 d)) (fun d => xb (ix2 p d)) (fun d => dxb (ix2 p d))) e) := by
  have hmix : (fun k => mixBlk w1 xb dxb μb (ix2 p k))
      = Spec.mix (fun d => μb (ix2 0 d)) (fun d => xb (ix2 p d)) (fun d => dxb (ix2 p d)) :=
    funext fun k => mixBlk_apply w1 xb dxb μb p k
  rw [k1_pay1_eq, k1_pay3_eq, k1_pay2_eq, truncf_apply, logistic_apply,
    matmul_zero_cols_apply dot_S256x2048_S2048x2048_S256x2048_1_1_0_0_n_n rfl rfl rfl rfl rfl rfl, shapeCast_self]
  simp only [truncf_apply, deq_chain_apply w1 0x45000000#32 (mixBlk w1 xb dxb μb) gb bb _ inv127 p, hmix]
  rfl

end Cert.KernelIdeal.Pay

end
-- ==== Proof.KIValue1.lean ====
import proofs.«156918_j26774826123920_2_alg».proof.Proof.KIRegion1
import proofs.«156918_j26774826123920_2_alg».proof.Proof.PayK1
import proofs.«156918_j26774826123920_2_alg».proof.Proof.Spec

import Idealize.ShloMosaic.Lib.Pipeline.Value
import Idealize.ShloMosaic.Lib.ValueIdx

noncomputable section

namespace Cert.KernelIdeal.Val

open Cert.KernelIdeal Cert.KernelIdeal.Gen Cert.KernelIdeal.Fr Cert.KernelIdeal.Pay
open Idealize.ShloMosaic Idealize.ShloMosaic.TcCoe Idealize.SL.Sem Idealize.ShloMosaic.ValueIdx
open Idealize.ShloMosaic.Pipeline (Dat)

/-! # The second region's output array, entry by entry

Grid point `t` of 32 handles token rows `256·t … 256·t + 255`: it reads those rows of the two row arrays, the three
1×2048 rows and the whole weight matrix, and writes the same rows of the output. So the output array is one function
of the arrays the region finds: entry `(r, e)` is the logistic function of the second map's sum for the mixed row
`r`, at `e`. -/

variable (V : (c : Dev nD) → (b : Ref sig .tc) → Buf (Elt Ideal) ((c : Thread nD τ).loc b))

theorem hz1 : (![0, 0] : Fin 2 → Nat) = fun _ => 0 := funext fun a => by fin_cases a <;> rfl

/-! The printed index maps over the 32 points: the row windows and the output sit at block `(t, 0)`, the others at `(0, 0)`. -/
theorem idx_rows1_0 : ∀ t : Fin cfg1.N, win1_0.index t (0 : Fin 2) = t.val ∧ win1_0.index t (1 : Fin 2) = 0 :=
  (by decide +kernel : ∀ t : Fin grid1.N, _)
theorem idx_rows1_1 : ∀ t : Fin cfg1.N, win1_1.index t (0 : Fin 2) = t.val ∧ win1_1.index t (1 : Fin 2) = 0 :=
  (by decide +kernel : ∀ t : Fin grid1.N, _)
theorem idx_whole1_2 : ∀ t : Fin cfg1.N, win1_2.index t (0 : Fin 2) = 0 ∧ win1_2.index t (1 : Fin 2) = 0 :=
  (by decide +kernel : ∀ t : Fin grid1.N, _)
theorem idx_whole1_3 : ∀ t : Fin cfg1.N, win1_3.index t (0 : Fin 2) = 0 ∧ win1_3.index t (1 : Fin 2) = 0 :=
  (by decide +kernel : ∀ t : Fin grid1.N, _)
theorem idx_whole1_4 : ∀ t : Fin cfg1.N, win1_4.index t (0 : Fin 2) = 0 ∧ win1_4.index t (1 : Fin 2) = 0 :=
  (by decide +kernel : ∀ t : Fin grid1.N, _)
theorem idx_whole1_5 : ∀ t : Fin cfg1.N, win1_5.index t (0 : Fin 2) = 0 ∧ win1_5.index t (1 : Fin 2) = 0 :=
  (by decide +kernel : ∀ t : Fin grid1.N, _)
theorem idx_rows1_6 : ∀ t : Fin cfg1.N, win1_6.index t (0 : Fin 2) = t.val ∧ win1_6.index t (1 : Fin 2) = 0 :=
  (by decide +kernel : ∀ t : Fin grid1.N, _)

/-- The array row that row `p` of point `t`'s block is. -/
def row1 (t : Fin cfg1.N) (p : Fin 256) : Fin 8192 :=
  ⟨256 * t.val + p.val, by have h : t.val < 32 := Nat.lt_of_lt_of_eq t.isLt N_1; have := p.isLt; omega⟩

/-! Each input block read at an entry is the array at the entry the block's rectangle puts there. -/

theorem blk1_0 (c : Dev nD) (t : Fin cfg1.N) (p : Fin 256) (d : Fin 2048) :
    (iblk1 V c 0 t : Vec Ideal S256x2048 .f32) (ix2 p d) = (V c main_v4 : S8192x2048.Idx → EReal) (ix2 (row1 t p) d) := by
  obtain ⟨q0, q1⟩ := idx_rows1_0 t
  unfold iblk1
  rw [View.read_apply]
  show (V c main_v4 : S8192x2048.Idx → EReal) _ = _
  refine congrArg (V c main_v4 : S8192x2048.Idx → EReal) (funext fun a => Fin.ext ?_)
  match a with
  | ⟨0, _⟩ => show win1_0.index t (0 : Fin 2) * 256 + 1 * p.val = 256 * t.val + p.val; rw [q0]; omega
  | ⟨1, _⟩ => show win1_0.index t (1 : Fin 2) * 2048 + 1 * d.val = d.val; rw [q1]; omega

theorem blk1_1 (c : Dev nD) (t : Fin cfg1.N) (p : Fin 256) (d : Fin 2048) :
    (iblk1 V c 1 t : Vec Ideal S256x2048 .f32) (ix2 p d) = (V c main_v5 : S8192x2048.Idx → EReal) (ix2 (row1 t p) d) := by
  obtain ⟨q0, q1⟩ := idx_rows1_1 t
  unfold iblk1
  rw [View.read_apply]
  show (V c main_v5 : S8192x2048.Idx → EReal) _ = _
  refine congrArg (V c main_v5 : S8192x2048.Idx → EReal) (funext fun a => Fin.ext ?_)
  match a with
  | ⟨0, _⟩ => show win1_1.index t (0 : Fin 2) * 256 + 1 * p.val = 256 * t.val + p.val; rw [q0]; omega
  | ⟨1, _⟩ => show win1_1.index t (1 : Fin 2) * 2048 + 1 * d.val = d.val; rw [q1]; omega

theorem blk1_2 (c : Dev nD) (t : Fin cfg1.N) (d : Fin 2048) :
    (iblk1 V c 2 t : Vec Ideal S1x2048 .f32) (ix2 0 d) = (V c main_v7 : S1x2048.Idx → EReal) (ix2 0 d) := by
  obtain ⟨q0, q1⟩ := idx_whole1_2 t
  unfold iblk1
  rw [View.read_apply]
  show (V c main_v7 : S1x2048.Idx → EReal) _ = _
  refine congrArg (V c main_v7 : S1x2048.Idx → EReal) (funext fun a => Fin.ext ?_)
  match a with
  | ⟨0, _⟩ => show win1_2.index t (0 : Fin 2) * 1 + 1 * 0 = 0; rw [q0]
  | ⟨1, _⟩ => show win1_2.index t (1 : Fin 2) * 2048 + 1 * d.val = d.val; rw [q1]; omega

theorem blk1_3 (c : Dev nD) (t : Fin cfg1.N) (d : Fin 2048) :
    (iblk1 V c 3 t : Vec Ideal S1x2048 .f32) (ix2 0 d) = (V c main_v10 : S1x2048.Idx → EReal) (ix2 0 d) := by
  obtain ⟨q0, q1⟩ := idx_whole1_3 t
  unfold iblk1
  rw [View.read_apply]
  show (V c main_v10 : S1x2048.Idx → EReal) _ = _
  refine congrArg (V c main_v10 : S1x2048.Idx → EReal) (funext fun a => Fin.ext ?_)
  match a with
  | ⟨0, _⟩ => show win1_3.index t (0 : Fin 2) * 1 + 1 * 0 = 0; rw [q0]
  | ⟨1, _⟩ => show win1_3.index t (1 : Fin 2) * 2048 + 1 * d.val = d.val; rw [q1]; omega

theorem blk1_4 (c : Dev nD) (t : Fin cfg1.N) (d : Fin 2048) :
    (iblk1 V c 4 t : Vec Ideal S1x2048 .f32) (ix2 0 d) = (V c main_v11 : S1x2048.Idx → EReal) (ix2 0 d) := by
  obtain ⟨q0, q1⟩ := idx_whole1_4 t
  unfold iblk1
  rw [View.read_apply]
  show (V c main_v11 : S1x2048.Idx → EReal) _ = _
  refine congrArg (V c main_v11 : S1x2048.Idx → EReal) (funext fun a => Fin.ext ?_)
  match a with
  | ⟨0, _⟩ => show win1_4.index t (0 : Fin 2) * 1 + 1 * 0 = 0; rw [q0]
  | ⟨1, _⟩ => show win1_4.index t (1 : Fin 2) * 2048 + 1 * d.val = d.val; rw [q1]; omega

theorem blk1_5 (c : Dev nD) (t : Fin cfg1.N) (e : Fin 2048) (d : Fin 2048) :
    (iblk1 V c 5 t : Vec Ideal S2048x2048 .bf16) (ix2 e d) = (V c main_v35 : S2048x2048.Idx → EReal) (ix2 e d) := by
  obtain ⟨q0, q1⟩ := idx_whole1_5 t
  unfold iblk1
  rw [View.read_apply]
  show (V c main_v35 : S2048x2048.Idx → EReal) _ = _
  refine congrArg (V c main_v35 : S2048x2048.Idx → EReal) (funext fun a => Fin.ext ?_)
  match a with
  | ⟨0, _⟩ => show win1_5.index t (0 : Fin 2) * 2048 + 1 * e.val = e.val; rw [q0]; omega
  | ⟨1, _⟩ => show win1_5.index t (1 : Fin 2) * 2048 + 1 * d.val = d.val; rw [q1]; omega

/-- The entry `(r, e)` the output array ends holding. -/
def G1 (c : Dev nD) : S8192x2048.Idx → EReal := fun i =>
  Ideal.logistic (Spec.raccK (Spec.W 0x45000000#32) (fun d => (V c main_v10 : S1x2048.Idx → EReal) (ix2 0 d))
    (fun d => (V c main_v11 : S1x2048.Idx → EReal) (ix2 0 d)) (fun e d => (V c main_v35 : S2048x2048.Idx → EReal) (ix2 e d))
    (Spec.mix (fun d => (V c main_v7 : S1x2048.Idx → EReal) (ix2 0 d)) (fun d => (V c main_v4 : S8192x2048.Idx → EReal) (ix2 (i 0) d))
      (fun d => (V c main_v5 : S8192x2048.Idx → EReal) (ix2 (i 0) d))) (i 1))

/-- One point's store at `(p, e)`, over arbitrary blocks whose rows are rows of arbitrary arrays. -/
theorem point1 (x0 x1 : Vec Ideal S256x2048 .f32) (x2 x3 x4 : Vec Ideal S1x2048 .f32) (x5 : Vec Ideal S2048x2048 .bf16)
    (A0 A1 : S8192x2048.Idx → EReal) (A2 A3 A4 : S1x2048.Idx → EReal) (A5 : S2048x2048.Idx → EReal)
    (r : Fin 8192) (p : Fin 256) (e : Fin 2048)
    (h0 : ∀ d, x0 (ix2 p d) = A0 (ix2 r d)) (h1 : ∀ d, x1 (ix2 p d) = A1 (ix2 r d))
    (h2 : ∀ d, x2 (ix2 0 d) = A2 (ix2 0 d)) (h3 : ∀ d, x3 (ix2 0 d) = A3 (ix2 0 d)) (h4 : ∀ d, x4 (ix2 0 d) = A4 (ix2 0 d))
    (h5 : ∀ e d, x5 (ix2 e d) = A5 (ix2 e d)) :
    out1_6 x0 x1 x2 x3 x4 x5 (ix2 p e)
      = Ideal.logistic (Spec.raccK (Spec.W 0x45000000#32) (fun d => A3 (ix2 0 d)) (fun d => A4 (ix2 0 d)) (fun e d => A5 (ix2 e d))
          (Spec.mix (fun d => A2 (ix2 0 d)) (fun d => A0 (ix2 r d)) (fun d => A1 (ix2 r d))) e) := by
  unfold out1_6
  rw [View.canon_unit_zero hz1]
  simp only [View.ld_unit_zero (S := S256x2048) hz1, View.ld_unit_zero (S := S1x2048) hz1, View.ld_unit_zero (S := S2048x2048) hz1]
  rw [k1_out]
  simp only [h0, h1, h2, h3, h4, h5]

/-- What point `t` writes back is block `t` of that function. -/
theorem flushed1_eq (c : Dev nD) (t : Fin cfg1.N) :
    (dat1 V c).flushed 6 t = ((cfg1.win 6).blk t).view.read (Elt Ideal) (G1 V c) := by
  show (cfg1.win 6).cut (grid1.coords t) ((dat1 V c).after 6 t) = _
  rw [after1_6]
  obtain ⟨g0, g1⟩ := idx_rows1_6 t
  funext j
  obtain ⟨p, e, rfl⟩ : ∃ (p : Fin 256) (e : Fin 2048), j = (ix2 p e : S256x2048.Idx) := ⟨j 0, j 1, eq_ix2 (n0 := 256) (n1 := 2048) j⟩
  rw [View.read_apply]
  have hj : ((cfg1.win 6).blk t).view.emb (ix2 p e : S256x2048.Idx) = (ix2 (row1 t p) e : S8192x2048.Idx) := by
    funext a; apply Fin.ext
    match a with
    | ⟨0, _⟩ => show win1_6.index t (0 : Fin 2) * 256 + 1 * p.val = 256 * t.val + p.val; rw [g0]; omega
    | ⟨1, _⟩ => show win1_6.index t (1 : Fin 2) * 2048 + 1 * e.val = e.val; rw [g1]; omega
  rw [hj]
  exact point1 (iblk1 V c 0 t) (iblk1 V c 1 t) (iblk1 V c 2 t) (iblk1 V c 3 t) (iblk1 V c 4 t) (iblk1 V c 5 t)
    (V c main_v4) (V c main_v5) (V c main_v7) (V c main_v10) (V c main_v11) (V c main_v35) (row1 t p) p e
    (blk1_0 V c t p) (blk1_1 V c t p) (blk1_2 V c t) (blk1_3 V c t) (blk1_4 V c t) (blk1_5 V c t)

/-- An index of the output array is in point `t`'s block iff each coordinate is in the block's range on its axis. -/
theorem mem_blk1 (t : Fin cfg1.N) (i : S8192x2048.Idx) :
    i ∈ ((cfg1.win 6).blk t).view.set ↔ ∀ a : Fin 2, win1_6.index t a * S256x2048.size a ≤ (i a).val ∧ (i a).val < win1_6.index t a * S256x2048.size a + S256x2048.size a := by
  show i ∈ ((View.whole main_v48).slice (win1_6.rect t)).set ↔ _
  rw [View.set_slice_whole, Rect.mem_set_unit]
  exact Iff.rfl

/-- The output array after the region. -/
theorem final1 (c : Dev nD) : (dat1 V c).arrAt 6 cfg1.N = G1 V c :=
  (dat1 V c).arrAt_eq_of_cover 6 (G1 V c) (fun t _ => flushed1_eq V c t) fun i => by
    have hi0 : (i 0).val < 8192 := (i 0).isLt
    have hi1 : (i 1).val < 2048 := (i 1).isLt
    have hN : cfg1.N = 32 := N_1
    refine ⟨⟨(i 0).val / 256, by rw [hN]; omega⟩, flush1_6 _, ?_⟩
    rw [mem_blk1]
    obtain ⟨g0, g1⟩ := idx_rows1_6 ⟨(i 0).val / 256, by rw [hN]; omega⟩
    intro a
    match a with
    | ⟨0, _⟩ => show win1_6.index _ (0 : Fin 2) * 256 ≤ (i 0).val ∧ (i 0).val < win1_6.index _ (0 : Fin 2) * 256 + 256; rw [g0]; show (i 0).val / 256 * 256 ≤ (i 0).val ∧ (i 0).val < (i 0).val / 256 * 256 + 256; omega
    | ⟨1, _⟩ => show win1_6.index _ (1 : Fin 2) * 2048 ≤ (i 1).val ∧ (i 1).val < win1_6.index _ (1 : Fin 2) * 2048 + 2048; rw [g1]; omega

/-- Entry `(r, e)` of the output array after the region. -/
theorem R1 (c : Dev nD) (r : Fin 8192) (e : Fin 2048) :
    ((dat1 V c).arrAt 6 cfg1.N : S8192x2048.Idx → EReal) (ix2 r e)
      = Ideal.logistic (Cert.Spec.raccK (Spec.W 0x45000000#32) (fun d => (V c main_v10 : S1x2048.Idx → EReal) (ix2 0 d))
          (fun d => (V c main_v11 : S1x2048.Idx → EReal) (ix2 0 d)) (fun e d => (V c main_v35 : S2048x2048.Idx → EReal) (ix2 e d))
          (Cert.Spec.mix (fun d => (V c main_v7 : S1x2048.Idx → EReal) (ix2 0 d)) (fun d => (V c main_v4 : S8192x2048.Idx → EReal) (ix2 r d))
            (fun d => (V c main_v5 : S8192x2048.Idx → EReal) (ix2 r d))) e) := by
  rw [final1]
  rfl

end Cert.KernelIdeal.Val

end
-- ==== Proof.PayK2.lean ====
/-
  The third kernel body (blocks of 64 token rows, row length 8192) read at an entry.

  The body normalises its 64 rows of the first map's output (no mixing here), takes each row's scale, divides,
  clips and rounds, but does NOT re-scale the integers: it multiplies the integer block by the transpose of a
  2048×8192 block of the weights and only then multiplies each row of the product by that row's scale, and last by
  the gate block. Read at (p, e) the stored block is the specification's third map (scale after the sum) of row p
  at e, times the gate entry.
-/
import proofs.«156918_j26774826123920_2_alg».proof.Proof.Gen.KernelIdeal.Skeleton
import proofs.«156918_j26774826123920_2_alg».proof.Proof.PayChain
import proofs.«156918_j26774826123920_2_alg».proof.Proof.PayInv

open scoped BigOperators

noncomputable section

namespace Cert.KernelIdeal.Pay

open Idealize.ShloMosaic Idealize.ShloMosaic.ValueIdx Cert.KernelIdeal Cert.KernelIdeal.Gen Cert.Lib.BlockReads
  Cert.Lib.RowReductions

/-- The shape facts of the 64×8192 blocks. -/
theorem w2 : Wit 64 8192 :=
  ⟨shapeCasts_S64x8192_S64x8192, shapeCasts_S1x8192_S1x8192, broadcasts_S1x8192_S64x8192, reduces_S64x8192_S64,
    shapeCasts_S64_S64x1, broadcasts_S64x1_S64x8192⟩

/-- The body's normalised block is the generic chain's, on the widened input block. -/
theorem k2_pay2_eq (kb : FVec Ideal S64x8192 .bf16) (gb bb : FVec Ideal S1x8192 .f32) :
    k2_pay2 (F := Ideal) kb gb bb
      = lnBlk w2 0x46000000#32 (extf .f32 (shapeCast S64x8192 kb shapeCasts_S64x8192_S64x8192) bitsLt_bf16_f32) gb bb :=
  rfl

/-- Its scale column: the clip column of the normalised block times 2.5 times the named reciprocal of 127. -/
theorem k2_pay3_eq (kb : FVec Ideal S64x8192 .bf16) (gb bb : FVec Ideal S1x8192 .f32) :
    k2_pay3 (F := Ideal) kb gb bb
      = scaleCol (clipCol w2 0x46000000#32 (k2_pay2 (F := Ideal) kb gb bb))
          (Scalar.ofBits (F := Ideal) .f32 0x40200000#32)
          (Named.named (F := Ideal) κ "inv_127" (φ := .f32) 0x3C010204#32) := rfl

/-- The normalised block over its rows' scales. -/
theorem k2_pay4_eq (kb : FVec Ideal S64x8192 .bf16) (gb bb : FVec Ideal S1x8192 .f32) :
    k2_pay4 (F := Ideal) kb gb bb
      = divf (k2_pay2 (F := Ideal) kb gb bb)
          (broadcastTo S64x8192 (k2_pay3 (F := Ideal) kb gb bb) broadcasts_S64x1_S64x8192) := rfl

/-- What the body stores: the integer block times the transposed weights, each row times its scale, times the gate. -/
theorem k2_pay1_eq (S : FVec Ideal S64x1 .f32) (L : FVec Ideal S64x8192 .f32) (wb : FVec Ideal S2048x8192 .bf16)
    (gateb : FVec Ideal S64x2048 .bf16) :
    k2_pay1 (F := Ideal) S (divf L (broadcastTo S64x8192 S broadcasts_S64x1_S64x8192))
        (Scalar.ofBits (F := Ideal) .f32 0x42FE0000#32) k2_pay5 wb gateb
      = mulf
          (mulf
            (matmul dot_S64x8192_S2048x8192_S64x2048_1_1_0_0_n_n none
              (truncf .bf16 (quantBlk w2 L S) bitsLt_bf16_f32)
              (shapeCast S2048x8192 wb shapeCasts_S2048x8192_S2048x8192)
              (constant (F := Ideal) S64x2048 .f32 0x00000000#32))
            (broadcastTo S64x2048 S broadcasts_S64x1_S64x2048))
          (extf .f32 (shapeCast S64x2048 gateb shapeCasts_S64x2048_S64x2048) bitsLt_bf16_f32) := rfl

/-- The stored block at (p, e): (the sum over h of the quantised integer of row p at h times the weight entry (e, h)),
    times row p's scale, times the gate entry (p, e). -/
theorem k2_out (kb : FVec Ideal S64x8192 .bf16) (gb bb : FVec Ideal S1x8192 .f32) (wb : FVec Ideal S2048x8192 .bf16)
    (gateb : FVec Ideal S64x2048 .bf16) (p : Fin 64) (e : Fin 2048) :
    k2_pay1 (F := Ideal) (k2_pay3 kb gb bb) (k2_pay4 kb gb bb) (Scalar.ofBits (F := Ideal) .f32 0x42FE0000#32)
        k2_pay5 wb gateb (ix2 p e)
      = Spec.vaccK (Spec.W 0x46000000#32) (fun h => gb (ix2 0 h)) (fun h => bb (ix2 0 h)) (fun e h => wb (ix2 e h))
          (fun h => kb (ix2 p h)) e * gateb (ix2 p e) := by
  have hk : (fun h => extf .f32 (shapeCast S64x8192 kb shapeCasts_S64x8192_S64x8192) bitsLt_bf16_f32 (ix2 p h))
      = fun h => kb (ix2 p h) := by
    funext h; rw [extf_apply, shapeCast_self]
  rw [k2_pay4_eq, k2_pay1_eq, mulf_apply, mulf_apply,
    matmul_zero_cols_apply dot_S64x8192_S2048x8192_S64x2048_1_1_0_0_n_n rfl rfl rfl rfl rfl rfl,
    broadcast_col_apply, extf_apply, shapeCast_self, shapeCast_self, k2_pay3_eq, k2_pay2_eq,
    scale_chain_apply w2 0x46000000#32 _ gb bb _ inv127 p]
  simp only [truncf_apply, quant_chain_apply w2 0x46000000#32 _ gb bb _ inv127 p, hk]
  rfl

end Cert.KernelIdeal.Pay

end
-- ==== Proof.KIValue2.lean ====
import proofs.«156918_j26774826123920_2_alg».proof.Proof.KIRegion2
import proofs.«156918_j26774826123920_2_alg».proof.Proof.PayK2
import proofs.«156918_j26774826123920_2_alg».proof.Proof.Spec

import Idealize.ShloMosaic.Lib.Pipeline.Value
import Idealize.ShloMosaic.Lib.ValueIdx

noncomputable section

namespace Cert.KernelIdeal.Val

open Cert.KernelIdeal Cert.KernelIdeal.Gen Cert.KernelIdeal.Fr Cert.KernelIdeal.Pay
open Idealize.ShloMosaic Idealize.ShloMosaic.TcCoe Idealize.SL.Sem Idealize.ShloMosaic.ValueIdx
open Idealize.ShloMosaic.Pipeline (Dat)

/-! # The third region's output array, entry by entry

Grid point `t` of 128 handles token rows `64·t … 64·t + 63`: it reads those rows of the squared activations and of
the gate, the two 1×8192 rows and the whole weight matrix, and writes the same rows of the output. So the output
array is one function of the arrays the region finds: entry `(r, e)` is the third map's sum for row `r` of the
activations, scaled after the sum, times the gate's entry `(r, e)`. -/

variable (V : (c : Dev nD) → (b : Ref sig .tc) → Buf (Elt Ideal) ((c : Thread nD τ).loc b))

theorem hz2 : (![0, 0] : Fin 2 → Nat) = fun _ => 0 := funext fun a => by fin_cases a <;> rfl

/-! The printed index maps over the 128 points: the row windows and the output sit at block `(t, 0)`, the others at `(0, 0)`. -/
theorem idx_rows2_0 : ∀ t : Fin cfg2.N, win2_0.index t (0 : Fin 2) = t.val ∧ win2_0.index t (1 : Fin 2) = 0 :=
  (by decide +kernel : ∀ t : Fin grid2.N, _)
theorem idx_whole2_1 : ∀ t : Fin cfg2.N, win2_1.index t (0 : Fin 2) = 0 ∧ win2_1.index t (1 : Fin 2) = 0 :=
  (by decide +kernel : ∀ t : Fin grid2.N, _)
theorem idx_whole2_2 : ∀ t : Fin cfg2.N, win2_2.index t (0 : Fin 2) = 0 ∧ win2_2.index t (1 : Fin 2) = 0 :=
  (by decide +kernel : ∀ t : Fin grid2.N, _)
theorem idx_whole2_3 : ∀ t : Fin cfg2.N, win2_3.index t (0 : Fin 2) = 0 ∧ win2_3.index t (1 : Fin 2) = 0 :=
  (by decide +kernel : ∀ t : Fin grid2.N, _)
theorem idx_rows2_4 : ∀ t : Fin cfg2.N, win2_4.index t (0 : Fin 2) = t.val ∧ win2_4.index t (1 : Fin 2) = 0 :=
  (by decide +kernel : ∀ t : Fin grid2.N, _)
theorem idx_rows2_5 : ∀ t : Fin cfg2.N, win2_5.index t (0 : Fin 2) = t.val ∧ win2_5.index t (1 : Fin 2) = 0 :=
  (by decide +kernel : ∀ t : Fin grid2.N, _)

/-- The array row that row `p` of point `t`'s block is. -/
def row2 (t : Fin cfg2.N) (p : Fin 64) : Fin 8192 :=
  ⟨64 * t.val + p.val, by have h : t.val < 128 := Nat.lt_of_lt_of_eq t.isLt N_2; have := p.isLt; omega⟩

/-! Each input block read at an entry is the array at the entry the block's rectangle puts there. -/

theorem blk2_0 (c : Dev nD) (t : Fin cfg2.N) (p : Fin 64) (d : Fin 8192) :
    (iblk2 V c 0 t : Vec Ideal S64x8192 .bf16) (ix2 p d) = (V c main_v47 : S8192x8192.Idx → EReal) (ix2 (row2 t p) d) := by
  obtain ⟨q0, q1⟩ := idx_rows2_0 t
  unfold iblk2
  rw [View.read_apply]
  show (V c main_v47 : S8192x8192.Idx → EReal) _ = _
  refine congrArg (V c main_v47 : S8192x8192.Idx → EReal) (funext fun a => Fin.ext ?_)
  match a with
  | ⟨0, _⟩ => show win2_0.index t (0 : Fin 2) * 64 + 1 * p.val = 64 * t.val + p.val; rw [q0]; omega
  | ⟨1, _⟩ => show win2_0.index t (1 : Fin 2) * 8192 + 1 * d.val = d.val; rw [q1]; omega

theorem blk2_1 (c : Dev nD) (t : Fin cfg2.N) (d : Fin 8192) :
    (iblk2 V c 1 t : Vec Ideal S1x8192 .f32) (ix2 0 d) = (V c main_v12 : S1x8192.Idx → EReal) (ix2 0 d) := by
  obtain ⟨q0, q1⟩ := idx_whole2_1 t
  unfold iblk2
  rw [View.read_apply]
  show (V c main_v12 : S1x8192.Idx → EReal) _ = _
  refine congrArg (V c main_v12 : S1x8192.Idx → EReal) (funext fun a => Fin.ext ?_)
  match a with
  | ⟨0, _⟩ => show win2_1.index t (0 : Fin 2) * 1 + 1 * 0 = 0; rw [q0]
  | ⟨1, _⟩ => show win2_1.index t (1 : Fin 2) * 8192 + 1 * d.val = d.val; rw [q1]; omega

theorem blk2_2 (c : Dev nD) (t : Fin cfg2.N) (d : Fin 8192) :
    (iblk2 V c 2 t : Vec Ideal S1x8192 .f32) (ix2 0 d) = (V c main_v13 : S1x8192.Idx → EReal) (ix2 0 d) := by
  obtain ⟨q0, q1⟩ := idx_whole2_2 t
  unfold iblk2
  rw [View.read_apply]
  show (V c main_v13 : S1x8192.Idx → EReal) _ = _
  refine congrArg (V c main_v13 : S1x8192.Idx → EReal) (funext fun a => Fin.ext ?_)
  match a with
  | ⟨0, _⟩ => show win2_2.index t (0 : Fin 2) * 1 + 1 * 0 = 0; rw [q0]
  | ⟨1, _⟩ => show win2_2.index t (1 : Fin 2) * 8192 + 1 * d.val = d.val; rw [q1]; omega

theorem blk2_3 (c : Dev nD) (t : Fin cfg2.N) (e : Fin 2048) (d : Fin 8192) :
    (iblk2 V c 3 t : Vec Ideal S2048x8192 .bf16) (ix2 e d) = (V c main_v46 : S2048x8192.Idx → EReal) (ix2 e d) := by
  obtain ⟨q0, q1⟩ := idx_whole2_3 t
  unfold iblk2
  rw [View.read_apply]
  show (V c main_v46 : S2048x8192.Idx → EReal) _ = _
  refine congrArg (V c main_v46 : S2048x8192.Idx → EReal) (funext fun a => Fin.ext ?_)
  match a with
  | ⟨0, _⟩ => show win2_3.index t (0 : Fin 2) * 2048 + 1 * e.val = e.val; rw [q0]; omega
  | ⟨1, _⟩ => show win2_3.index t (1 : Fin 2) * 8192 + 1 * d.val = d.val; rw [q1]; omega

theorem blk2_4 (c : Dev nD) (t : Fin cfg2.N) (p : Fin 64) (d : Fin 2048) :
    (iblk2 V c 4 t : Vec Ideal S64x2048 .bf16) (ix2 p d) = (V c main_v48 : S8192x2048.Idx → EReal) (ix2 (row2 t p) d) := by
  obtain ⟨q0, q1⟩ := idx_rows2_4 t
  unfold iblk2
  rw [View.read_apply]
  show (V c main_v48 : S8192x2048.Idx → EReal) _ = _
  refine congrArg (V c main_v48 : S8192x2048.Idx → EReal) (funext fun a => Fin.ext ?_)
  match a with
  | ⟨0, _⟩ => show win2_4.index t (0 : Fin 2) * 64 + 1 * p.val = 64 * t.val + p.val; rw [q0]; omega
  | ⟨1, _⟩ => show win2_4.index t (1 : Fin 2) * 2048 + 1 * d.val = d.val; rw [q1]; omega

/-- The entry `(r, e)` the output array ends holding. -/
def G2 (c : Dev nD) : S8192x2048.Idx → EReal := fun i =>
  Spec.vaccK (Spec.W 0x46000000#32) (fun h => (V c main_v12 : S1x8192.Idx → EReal) (ix2 0 h)) (fun h => (V c main_v13 : S1x8192.Idx → EReal) (ix2 0 h))
      (fun e h => (V c main_v46 : S2048x8192.Idx → EReal) (ix2 e h)) (fun h => (V c main_v47 : S8192x8192.Idx → EReal) (ix2 (i 0) h)) (i 1)
    * (V c main_v48 : S8192x2048.Idx → EReal) (ix2 (i 0) (i 1))

/-- One point's store at `(p, e)`, over arbitrary blocks whose rows are rows of arbitrary arrays. -/
theorem point2 (x0 : Vec Ideal S64x8192 .bf16) (x1 x2 : Vec Ideal S1x8192 .f32) (x3 : Vec Ideal S2048x8192 .bf16)
    (x4 : Vec Ideal S64x2048 .bf16)
    (A0 : S8192x8192.Idx → EReal) (A1 A2 : S1x8192.Idx → EReal) (A3 : S2048x8192.Idx → EReal) (A4 : S8192x2048.Idx → EReal)
    (r : Fin 8192) (p : Fin 64) (e : Fin 2048)
    (h0 : ∀ h, x0 (ix2 p h) = A0 (ix2 r h)) (h1 : ∀ h, x1 (ix2 0 h) = A1 (ix2 0 h)) (h2 : ∀ h, x2 (ix2 0 h) = A2 (ix2 0 h))
    (h3 : ∀ e h, x3 (ix2 e h) = A3 (ix2 e h)) (h4 : ∀ e, x4 (ix2 p e) = A4 (ix2 r e)) :
    out2_5 x0 x1 x2 x3 x4 (ix2 p e)
      = Spec.vaccK (Spec.W 0x46000000#32) (fun h => A1 (ix2 0 h)) (fun h => A2 (ix2 0 h)) (fun e h => A3 (ix2 e h)) (fun h => A0 (ix2 r h)) e
          * A4 (ix2 r e) := by
  unfold out2_5
  rw [View.canon_unit_zero hz2]
  simp only [View.ld_unit_zero (S := S64x8192) hz2, View.ld_unit_zero (S := S1x8192) hz2, View.ld_unit_zero (S := S2048x8192) hz2,
    View.ld_unit_zero (S := S64x2048) hz2]
  rw [k2_out]
  simp only [h0, h1, h2, h3, h4]

/-- What point `t` writes back is block `t` of that function. -/
theorem flushed2_eq (c : Dev nD) (t : Fin cfg2.N) :
    (dat2 V c).flushed 5 t = ((cfg2.win 5).blk t).view.read (Elt Ideal) (G2 V c) := by
  show (cfg2.win 5).cut (grid2.coords t) ((dat2 V c).after 5 t) = _
  rw [after2_5]
  obtain ⟨g0, g1⟩ := idx_rows2_5 t
  funext j
  obtain ⟨p, e, rfl⟩ : ∃ (p : Fin 64) (e : Fin 2048), j = (ix2 p e : S64x2048.Idx) := ⟨j 0, j 1, eq_ix2 (n0 := 64) (n1 := 2048) j⟩
  rw [View.read_apply]
  have hj : ((cfg2.win 5).blk t).view.emb (ix2 p e : S64x2048.Idx) = (ix2 (row2 t p) e : S8192x2048.Idx) := by
    funext a; apply Fin.ext
    match a with
    | ⟨0, _⟩ => show win2_5.index t (0 : Fin 2) * 64 + 1 * p.val = 64 * t.val + p.val; rw [g0]; omega
    | ⟨1, _⟩ => show win2_5.index t (1 : Fin 2) * 2048 + 1 * e.val = e.val; rw [g1]; omega
  rw [hj]
  exact point2 (iblk2 V c 0 t) (iblk2 V c 1 t) (iblk2 V c 2 t) (iblk2 V c 3 t) (iblk2 V c 4 t)
    (V c main_v47) (V c main_v12) (V c main_v13) (V c main_v46) (V c main_v48) (row2 t p) p e
    (blk2_0 V c t p) (blk2_1 V c t) (blk2_2 V c t) (blk2_3 V c t) (blk2_4 V c t p)

/-- An index of the output array is in point `t`'s block iff each coordinate is in the block's range on its axis. -/
theorem mem_blk2 (t : Fin cfg2.N) (i : S8192x2048.Idx) :
    i ∈ ((cfg2.win 5).blk t).view.set ↔ ∀ a : Fin 2, win2_5.index t a * S64x2048.size a ≤ (i a).val ∧ (i a).val < win2_5.index t a * S64x2048.size a + S64x2048.size a := by
  show i ∈ ((View.whole main_v49).slice (win2_5.rect t)).set ↔ _
  rw [View.set_slice_whole, Rect.mem_set_unit]
  exact Iff.rfl

/-- The output array after the region. -/
theorem final2 (c : Dev nD) : (dat2 V c).arrAt 5 cfg2.N = G2 V c :=
  (dat2 V c).arrAt_eq_of_cover 5 (G2 V c) (fun t _ => flushed2_eq V c t) fun i => by
    have hi0 : (i 0).val < 8192 := (i 0).isLt
    have hi1 : (i 1).val < 2048 := (i 1).isLt
    have hN : cfg2.N = 128 := N_2
    refine ⟨⟨(i 0).val / 64, by rw [hN]; omega⟩, flush2_5 _, ?_⟩
    rw [mem_blk2]
    obtain ⟨g0, g1⟩ := idx_rows2_5 ⟨(i 0).val / 64, by rw [hN]; omega⟩
    intro a
    match a with
    | ⟨0, _⟩ => show win2_5.index _ (0 : Fin 2) * 64 ≤ (i 0).val ∧ (i 0).val < win2_5.index _ (0 : Fin 2) * 64 + 64; rw [g0]; show (i 0).val / 64 * 64 ≤ (i 0).val ∧ (i 0).val < (i 0).val / 64 * 64 + 64; omega
    | ⟨1, _⟩ => show win2_5.index _ (1 : Fin 2) * 2048 ≤ (i 1).val ∧ (i 1).val < win2_5.index _ (1 : Fin 2) * 2048 + 2048; rw [g1]; omega

/-- Entry `(r, e)` of the output array after the region. -/
theorem R2 (c : Dev nD) (r : Fin 8192) (e : Fin 2048) :
    ((dat2 V c).arrAt 5 cfg2.N : S8192x2048.Idx → EReal) (ix2 r e)
      = Cert.Spec.vaccK (Spec.W 0x46000000#32) (fun h => (V c main_v12 : S1x8192.Idx → EReal) (ix2 0 h)) (fun h => (V c main_v13 : S1x8192.Idx → EReal) (ix2 0 h))
          (fun e h => (V c main_v46 : S2048x8192.Idx → EReal) (ix2 e h)) (fun h => (V c main_v47 : S8192x8192.Idx → EReal) (ix2 r h)) e
        * (V c main_v48 : S8192x2048.Idx → EReal) (ix2 r e) := by
  rw [final2]
  rfl

end Cert.KernelIdeal.Val

end
-- ==== Proof.HostKOps.lean ====
/-
  The host-side array operations around the three kernels, read at an entry, on the extended reals.

  * The tokens (batch b, position t) of a 4×2048×2048 array laid out as the rows 2048·b + t of an 8192×2048 matrix,
    and back: row-major order is unchanged by the re-shaping, so entry (2048·b + t, d) is entry (b, t, d).
  * The shift difference: a row of zeros put in front of positions 0 … 2046, minus the array itself. At position 0 it
    reads the zero word, elsewhere the previous position.
  * A weight matrix quantised to {−1, 0, 1} times one scale: the scale is the mean absolute value of the whole
    matrix (a sum over both axes started from the zero word, over the entry count) kept above a tiny word; an
    entry is divided by it, clipped to [−1, 1], rounded to even and multiplied by the scale again.
  Nothing here mentions a program.
-/
import proofs.«156918_j26774826123920_2_alg».proof.Proof.Spec
import proofs.«156918_j26774826123920_2_alg».proof.Proof.LibRowReductions
import Idealize.ShloMosaic.PureOps.Ideal.Laws
import Idealize.ShloMosaic.Lib.Pipeline.Value
import Idealize.ShloMosaic.Lib.ValueLayout

open scoped BigOperators

noncomputable section

namespace Cert.KernelIdeal.HostK

open Idealize.ShloMosaic Idealize.ShloMosaic.ValueIdx Cert.Lib.RowReductions

/-- The shape of a scalar array. -/
abbrev S0 : Shape := ⟨0, ![]⟩

/-! ## The host's pointwise operations at an index -/

section Pointwise
variable {s : Shape} {φ : FTy}

theorem hdivf_apply (x y : FVec Ideal s φ) (i : s.Idx) : Host.divf x y i = Ideal.div (x i) (y i) := rfl
theorem habsf_apply (x : FVec Ideal s φ) (i : s.Idx) : Host.absf x i = Spec.ab (x i) := rfl
theorem hroundeven_apply (x : FVec Ideal s φ) (i : s.Idx) : Host.roundeven x i = Spec.rnd (x i) := rfl

end Pointwise

/-! ## Tokens as rows -/

section Rows
variable {α : Type}

/-- Row 2048·b + t of the 8192×2048 re-shaping is token (b, t). -/
theorem rows_apply (X : (⟨3, ![4, 2048, 2048]⟩ : Shape).Idx → α)
    (h : (⟨3, ![4, 2048, 2048]⟩ : Shape).ShapeCasts ⟨2, ![8192, 2048]⟩) (b : Fin 4) (t d : Fin 2048) (r : Fin 8192)
    (hr : r.val = 2048 * b.val + t.val) :
    shapeCast ⟨2, ![8192, 2048]⟩ X h (ix2 r d) = X (ix3 b t d) :=
  shapeCast_apply X h _ _ (by
    rw [Shape.rowMajor_val_three, Shape.rowMajor_val_two]
    show (b.val * 2048 + t.val) * 2048 + d.val = r.val * 2048 + d.val
    omega)

/-- Token (b, t) of the 4×2048×2048 re-shaping is row 2048·b + t. -/
theorem tokens_apply (Y : (⟨2, ![8192, 2048]⟩ : Shape).Idx → α)
    (h : (⟨2, ![8192, 2048]⟩ : Shape).ShapeCasts ⟨3, ![4, 2048, 2048]⟩) (b : Fin 4) (t e : Fin 2048) (r : Fin 8192)
    (hr : r.val = 2048 * b.val + t.val) :
    shapeCast ⟨3, ![4, 2048, 2048]⟩ Y h (ix3 b t e) = Y (ix2 r e) :=
  shapeCast_apply Y h _ _ (by
    rw [Shape.rowMajor_val_three, Shape.rowMajor_val_two]
    show r.val * 2048 + e.val = (b.val * 2048 + t.val) * 2048 + e.val
    omega)

/-- The last position of every batch, cut out as a 4×1×2048 array. -/
theorem last_apply (X : (⟨3, ![4, 2048, 2048]⟩ : Shape).Idx → α)
    (h : (⟨3, ![4, 2048, 2048]⟩ : Shape).Slices ![0, 2047, 0] ⟨3, ![4, 1, 2048]⟩) (b : Fin 4) (d : Fin 2048) :
    extractStridedSlice ⟨3, ![4, 1, 2048]⟩ ![0, 2047, 0] X h (ix3 b (0 : Fin 1) d) = X (ix3 b (⟨2047, by omega⟩ : Fin 2048) d) :=
  slice3_axis1_apply 2047 X h b 0 d ⟨2047, by omega⟩ rfl

end Rows

/-! ## The shift difference -/

/-- Zeros in front of positions 0 … 2046, minus the array. -/
def shiftBlk (X : FVec Ideal ⟨3, ![4, 2048, 2048]⟩ .f32)
    (hb : S0.BroadcastsInDim ⟨3, ![4, 1, 2048]⟩ (![] : Fin 0 → Fin 3))
    (hs : (⟨3, ![4, 2048, 2048]⟩ : Shape).Slices ![0, 0, 0] ⟨3, ![4, 2047, 2048]⟩)
    (hc : Shape.Concatenates [⟨3, ![4, 1, 2048]⟩, ⟨3, ![4, 2047, 2048]⟩] ⟨3, ![4, 2048, 2048]⟩ 1) :
    FVec Ideal ⟨3, ![4, 2048, 2048]⟩ .f32 :=
  subf
    (concatenate ⟨3, ![4, 2048, 2048]⟩ 1
      [⟨⟨3, ![4, 1, 2048]⟩, broadcastInDim ⟨3, ![4, 1, 2048]⟩ ![] hb (constant (F := Ideal) S0 .f32 0x00000000#32)⟩,
        ⟨⟨3, ![4, 2047, 2048]⟩, extractStridedSlice ⟨3, ![4, 2047, 2048]⟩ ![0, 0, 0] X hs⟩] hc)
    X

/-- At token (b, t) the shift difference is the previous position's row (the zero word at t = 0) minus the token's. -/
theorem shiftBlk_apply (X : FVec Ideal ⟨3, ![4, 2048, 2048]⟩ .f32)
    (hb : S0.BroadcastsInDim ⟨3, ![4, 1, 2048]⟩ (![] : Fin 0 → Fin 3))
    (hs : (⟨3, ![4, 2048, 2048]⟩ : Shape).Slices ![0, 0, 0] ⟨3, ![4, 2047, 2048]⟩)
    (hc : Shape.Concatenates [⟨3, ![4, 1, 2048]⟩, ⟨3, ![4, 2047, 2048]⟩] ⟨3, ![4, 2048, 2048]⟩ 1)
    (b : Fin 4) (t d : Fin 2048) : shiftBlk X hb hs hc (ix3 b t d) = Spec.dxrow X b t d := by
  unfold shiftBlk Spec.dxrow
  rw [subf_apply]
  refine congrArg (fun z => z - X (ix3 b t d)) ?_
  split_ifs with ht
  · refine (concatenate_pair_apply_left (t := ⟨3, ![4, 2048, 2048]⟩) (s₁ := ⟨3, ![4, 1, 2048]⟩) (s₂ := ⟨3, ![4, 2047, 2048]⟩)
      (1 : Fin 3) _ _ hc (ix3 b t d) rfl (ix3 b (0 : Fin 1) d) (fun ax => ?_)).trans ?_
    · match ax with
      | ⟨0, _⟩ => rfl
      | ⟨1, _⟩ => exact ht.symm
      | ⟨2, _⟩ => rfl
    · exact (broadcastInDim_apply _ hb _ _ ix0 (fun a => a.elim0)).trans rfl
  · have ht1 : t.val - 1 < 2047 := by have := t.isLt; omega
    refine (concatenate_pair_apply_right (t := ⟨3, ![4, 2048, 2048]⟩) (s₁ := ⟨3, ![4, 1, 2048]⟩) (s₂ := ⟨3, ![4, 2047, 2048]⟩)
      (1 : Fin 3) _ _ hc (ix3 b t d) rfl rfl
      (ix3 b (⟨t.val - 1, ht1⟩ : Fin 2047) d) (fun ax hne => ?_) ?_).trans ?_
    · match ax with
      | ⟨0, _⟩ => rfl
      | ⟨1, _⟩ => exact absurd (Fin.ext rfl) hne
      | ⟨2, _⟩ => rfl
    · show (t.val - 1) + 1 = t.val
      omega
    · exact slice3_axis1_apply 0 X hs b ⟨t.val - 1, ht1⟩ d ⟨t.val - 1, by omega⟩ (Nat.zero_add _).symm

/-! ## A quantised weight matrix -/

section Weights
variable {a c : Nat}

/-- The matrix's scale as a scalar array: the total of absolute values from the zero word, over the count word,
    kept above the tiny word. -/
def wscaleH (Nw : BitVec 32) (w : FVec Ideal ⟨2, ![a, c]⟩ .f32)
    (hr : (⟨2, ![a, c]⟩ : Shape).ReducesTo [0, 1] S0) (h0 : 0 < S0.numel) : FVec Ideal S0 .f32 :=
  maximumf (constant (F := Ideal) S0 .f32 0x322BCC77#32)
    (Host.divf (Host.reduceAdd (Host.absf w) (constant (F := Ideal) S0 .f32 0x00000000#32) hr h0)
      (constant (F := Ideal) S0 .f32 Nw))

theorem wscaleH_apply (Nw : BitVec 32) (w : FVec Ideal ⟨2, ![a, c]⟩ .f32)
    (hr : (⟨2, ![a, c]⟩ : Shape).ReducesTo [0, 1] S0) (h0 : 0 < S0.numel) (j : S0.Idx) :
    wscaleH Nw w hr h0 j = Spec.wscale (Spec.W Nw) (Spec.total w) := by
  unfold wscaleH Spec.wscale Spec.total
  rw [maximumf_apply, hdivf_apply, constant_apply, constant_apply]
  show max _ (Ideal.div (Ideal.hostReduceAdd hr (Host.absf w) (Spec.W 0x00000000#32) j) _) = _
  rw [Ideal.hostReduceAdd_total hr (fun b => b.elim0)]
  rfl

/-- The quantised matrix: round(clip(w / s)) · s, narrowed. -/
def wqH (Nw : BitVec 32) (w : FVec Ideal ⟨2, ![a, c]⟩ .f32)
    (hr : (⟨2, ![a, c]⟩ : Shape).ReducesTo [0, 1] S0) (h0 : 0 < S0.numel)
    (hb : S0.BroadcastsInDim ⟨2, ![a, c]⟩ (![] : Fin 0 → Fin 2)) (hbits : FTy.bits .bf16 < FTy.bits .f32) :
    FVec Ideal ⟨2, ![a, c]⟩ .bf16 :=
  truncf .bf16
    (mulf
      (Host.roundeven
        (minimumf (broadcastInDim ⟨2, ![a, c]⟩ ![] hb (constant (F := Ideal) S0 .f32 0x3F800000#32))
          (maximumf (broadcastInDim ⟨2, ![a, c]⟩ ![] hb (constant (F := Ideal) S0 .f32 0xBF800000#32))
            (Host.divf w (broadcastInDim ⟨2, ![a, c]⟩ ![] hb (wscaleH Nw w hr h0))))))
      (broadcastInDim ⟨2, ![a, c]⟩ ![] hb (wscaleH Nw w hr h0)))
    hbits

/-- Entry (i, j) of the quantised matrix is the specification's quantised weight. -/
theorem wqH_apply (Nw : BitVec 32) (w : FVec Ideal ⟨2, ![a, c]⟩ .f32)
    (hr : (⟨2, ![a, c]⟩ : Shape).ReducesTo [0, 1] S0) (h0 : 0 < S0.numel)
    (hb : S0.BroadcastsInDim ⟨2, ![a, c]⟩ (![] : Fin 0 → Fin 2)) (hbits : FTy.bits .bf16 < FTy.bits .f32)
    (i : Fin a) (j : Fin c) : wqH Nw w hr h0 hb hbits (ix2 i j) = Spec.wK (Spec.W Nw) w i j := by
  unfold wqH
  rw [truncf_apply, mulf_apply, hroundeven_apply, minimumf_apply, maximumf_apply, hdivf_apply,
    bcastInDim_scalar_apply, bcastInDim_scalar_apply, bcastInDim_scalar_apply, constant_apply, constant_apply,
    wscaleH_apply]
  rfl

end Weights

end Cert.KernelIdeal.HostK

end
-- ==== Proof.HostKArgs.lean ====
/-
  What the first kernel finds in the buffers the host prepared from the arguments alone: the tokens of x as rows, their
  shift differences as rows, and the mixing, gain and bias vectors as single rows. All of these are written by the
  first stretch of host operations and by nothing after it, so the kernel finds them as that stretch left them.
-/
import proofs.«156918_j26774826123920_2_alg».proof.Proof.Gen.KernelIdeal.Regions
import proofs.«156918_j26774826123920_2_alg».proof.Proof.HostKOps

open scoped BigOperators

noncomputable section

namespace Cert.KernelIdeal.HostK

open Idealize.ShloMosaic Idealize.ShloMosaic.TcCoe Idealize.ShloMosaic.ValueIdx Idealize.SL.Sem
open Cert.KernelIdeal Cert.KernelIdeal.Gen Cert.Lib.RowReductions

variable (m : (ℓ : Loc nD τ sig) → Buf (Elt Ideal) ℓ) (c : Dev nD)

/-- A buffer no later stretch writes reaches the first kernel as the first stretch left it. -/
theorem V16_eq_V1 (r : Ref sig .tc)
    (h : r ∉ hostOps0_1_W ∧ r ∉ hostOps0_2_W ∧ r ∉ hostOps0_3_W ∧ r ∉ hostOps0_4_W ∧ r ∉ hostOps0_5_W ∧ r ∉ hostOps0_6_W ∧ r ∉ hostOps0_7_W ∧ r ∉ hostOps0_8_W ∧ r ∉ hostOps0_9_W ∧ r ∉ hostOps0_10_W ∧ r ∉ hostOps0_11_W ∧ r ∉ hostOps0_12_W ∧ r ∉ hostOps0_13_W ∧ r ∉ hostOps0_14_W ∧ r ∉ hostOps0_15_W) :
    V16 m c r = V1 m c r := by
  obtain ⟨h1, h2, h3, h4, h5, h6, h7, h8, h9, h10, h11, h12, h13, h14, h15⟩ := h
  exact (V16_of m c r h15).trans <| (V15_of m c r h14).trans <| (V14_of m c r h13).trans <| (V13_of m c r h12).trans <| (V12_of m c r h11).trans <| (V11_of m c r h10).trans <| (V10_of m c r h9).trans <| (V9_of m c r h8).trans <| (V8_of m c r h7).trans <| (V7_of m c r h6).trans <| (V6_of m c r h5).trans <| (V5_of m c r h4).trans <| (V4_of m c r h3).trans <| (V3_of m c r h2).trans <| (V2_of m c r h1)

/-! ## The first stretch's results, as functions of the arguments -/

theorem V1_v4 : (V1 m c main_v4 : S8192x2048.Idx → EReal)
    = shapeCast S8192x2048 (m ((c : Thread nD τ).loc main_arg0) : S4x2048x2048.Idx → EReal)
        shapeCasts_S4x2048x2048_S8192x2048 := by
  show StableHlo.after hostOps0 (fun b => m (c, b)) (Proc.devRef .tc main_v4) = _
  after_results
  rfl

theorem V1_v5 : (V1 m c main_v5 : S8192x2048.Idx → EReal)
    = shapeCast S8192x2048
        (shiftBlk (m ((c : Thread nD τ).loc main_arg0)) bcast_S_S4x1x2048 slices_S4x2048x2048_S4x2047x2048_0_0_0
          concatenates_S4x1x2048_S4x2047x2048_S4x2048x2048_d1)
        shapeCasts_S4x2048x2048_S8192x2048 := by
  show StableHlo.after hostOps0 (fun b => m (c, b)) (Proc.devRef .tc main_v5) = _
  after_results
  rfl

theorem V1_v6 : (V1 m c main_v6 : S1x2048.Idx → EReal)
    = shapeCast S1x2048 (m ((c : Thread nD τ).loc main_arg1) : S1x1x2048.Idx → EReal) shapeCasts_S1x1x2048_S1x2048 := by
  show StableHlo.after hostOps0 (fun b => m (c, b)) (Proc.devRef .tc main_v6) = _
  after_results
  rfl

theorem V1_v7 : (V1 m c main_v7 : S1x2048.Idx → EReal)
    = shapeCast S1x2048 (m ((c : Thread nD τ).loc main_arg2) : S1x1x2048.Idx → EReal) shapeCasts_S1x1x2048_S1x2048 := by
  show StableHlo.after hostOps0 (fun b => m (c, b)) (Proc.devRef .tc main_v7) = _
  after_results
  rfl

theorem V1_v8 : (V1 m c main_v8 : S1x2048.Idx → EReal)
    = shapeCast S1x2048 (m ((c : Thread nD τ).loc main_arg4) : S2048.Idx → EReal) shapeCasts_S2048_S1x2048 := by
  show StableHlo.after hostOps0 (fun b => m (c, b)) (Proc.devRef .tc main_v8) = _
  after_results
  rfl

theorem V1_v9 : (V1 m c main_v9 : S1x2048.Idx → EReal)
    = shapeCast S1x2048 (m ((c : Thread nD τ).loc main_arg5) : S2048.Idx → EReal) shapeCasts_S2048_S1x2048 := by
  show StableHlo.after hostOps0 (fun b => m (c, b)) (Proc.devRef .tc main_v9) = _
  after_results
  rfl

theorem V1_v10 : (V1 m c main_v10 : S1x2048.Idx → EReal)
    = shapeCast S1x2048 (m ((c : Thread nD τ).loc main_arg7) : S2048.Idx → EReal) shapeCasts_S2048_S1x2048 := by
  show StableHlo.after hostOps0 (fun b => m (c, b)) (Proc.devRef .tc main_v10) = _
  after_results
  rfl

theorem V1_v11 : (V1 m c main_v11 : S1x2048.Idx → EReal)
    = shapeCast S1x2048 (m ((c : Thread nD τ).loc main_arg8) : S2048.Idx → EReal) shapeCasts_S2048_S1x2048 := by
  show StableHlo.after hostOps0 (fun b => m (c, b)) (Proc.devRef .tc main_v11) = _
  after_results
  rfl

theorem V1_v12 : (V1 m c main_v12 : S1x8192.Idx → EReal)
    = shapeCast S1x8192 (m ((c : Thread nD τ).loc main_arg10) : S8192.Idx → EReal) shapeCasts_S8192_S1x8192 := by
  show StableHlo.after hostOps0 (fun b => m (c, b)) (Proc.devRef .tc main_v12) = _
  after_results
  rfl

theorem V1_v13 : (V1 m c main_v13 : S1x8192.Idx → EReal)
    = shapeCast S1x8192 (m ((c : Thread nD τ).loc main_arg11) : S8192.Idx → EReal) shapeCasts_S8192_S1x8192 := by
  show StableHlo.after hostOps0 (fun b => m (c, b)) (Proc.devRef .tc main_v13) = _
  after_results
  rfl

/-! ## Read at an entry -/

/-- Row 2048·b + t of the token matrix is token (b, t) of x. -/
theorem v4_apply (b : Fin 4) (t d : Fin 2048) (r : Fin 8192) (hr : r.val = 2048 * b.val + t.val) :
    (V16 m c main_v4 : S8192x2048.Idx → EReal) (ix2 r d)
      = Spec.xrow (m ((c : Thread nD τ).loc main_arg0)) b t d := by
  rw [V16_eq_V1 m c main_v4 (by decide), V1_v4]
  exact rows_apply _ _ b t d r hr

/-- Row 2048·b + t of the shift-difference matrix is the shift difference of token (b, t). -/
theorem v5_apply (b : Fin 4) (t d : Fin 2048) (r : Fin 8192) (hr : r.val = 2048 * b.val + t.val) :
    (V16 m c main_v5 : S8192x2048.Idx → EReal) (ix2 r d)
      = Spec.dxrow (m ((c : Thread nD τ).loc main_arg0)) b t d := by
  rw [V16_eq_V1 m c main_v5 (by decide), V1_v5, rows_apply _ _ b t d r hr, shiftBlk_apply]

/-- The first mixing row. -/
theorem v6_apply (d : Fin 2048) :
    (V16 m c main_v6 : S1x2048.Idx → EReal) (ix2 0 d)
      = (m ((c : Thread nD τ).loc main_arg1) : S1x1x2048.Idx → EReal) (ix3 0 0 d) := by
  rw [V16_eq_V1 m c main_v6 (by decide), V1_v6]
  exact shapeCast_1ab_ab_apply _ _ 0 d

/-- The second mixing row. -/
theorem v7_apply (d : Fin 2048) :
    (V16 m c main_v7 : S1x2048.Idx → EReal) (ix2 0 d)
      = (m ((c : Thread nD τ).loc main_arg2) : S1x1x2048.Idx → EReal) (ix3 0 0 d) := by
  rw [V16_eq_V1 m c main_v7 (by decide), V1_v7]
  exact shapeCast_1ab_ab_apply _ _ 0 d

/-- The first map's gain row. -/
theorem v8_apply (d : Fin 2048) :
    (V16 m c main_v8 : S1x2048.Idx → EReal) (ix2 0 d) = (m ((c : Thread nD τ).loc main_arg4) : S2048.Idx → EReal) (ix1 d) := by
  rw [V16_eq_V1 m c main_v8 (by decide), V1_v8]
  exact shapeCast_rowvec_apply _ _ d

/-- The first map's bias row. -/
theorem v9_apply (d : Fin 2048) :
    (V16 m c main_v9 : S1x2048.Idx → EReal) (ix2 0 d) = (m ((c : Thread nD τ).loc main_arg5) : S2048.Idx → EReal) (ix1 d) := by
  rw [V16_eq_V1 m c main_v9 (by decide), V1_v9]
  exact shapeCast_rowvec_apply _ _ d

/-- The second map's gain row. -/
theorem v10_apply (d : Fin 2048) :
    (V16 m c main_v10 : S1x2048.Idx → EReal) (ix2 0 d) = (m ((c : Thread nD τ).loc main_arg7) : S2048.Idx → EReal) (ix1 d) := by
  rw [V16_eq_V1 m c main_v10 (by decide), V1_v10]
  exact shapeCast_rowvec_apply _ _ d

/-- The second map's bias row. -/
theorem v11_apply (d : Fin 2048) :
    (V16 m c main_v11 : S1x2048.Idx → EReal) (ix2 0 d) = (m ((c : Thread nD τ).loc main_arg8) : S2048.Idx → EReal) (ix1 d) := by
  rw [V16_eq_V1 m c main_v11 (by decide), V1_v11]
  exact shapeCast_rowvec_apply _ _ d

/-- The third map's gain row. -/
theorem v12_apply (h : Fin 8192) :
    (V16 m c main_v12 : S1x8192.Idx → EReal) (ix2 0 h) = (m ((c : Thread nD τ).loc main_arg10) : S8192.Idx → EReal) (ix1 h) := by
  rw [V16_eq_V1 m c main_v12 (by decide), V1_v12]
  exact shapeCast_rowvec_apply _ _ h

/-- The third map's bias row. -/
theorem v13_apply (h : Fin 8192) :
    (V16 m c main_v13 : S1x8192.Idx → EReal) (ix2 0 h) = (m ((c : Thread nD τ).loc main_arg11) : S8192.Idx → EReal) (ix1 h) := by
  rw [V16_eq_V1 m c main_v13 (by decide), V1_v13]
  exact shapeCast_rowvec_apply _ _ h

end Cert.KernelIdeal.HostK

end
-- ==== Proof.HostKWk.lean ====
/-
  The first map's weight matrix (8192×2048) as the host quantises it before the first kernel: six stretches of host
  operations, cut where the outlined maximum, clip and rounding functions are called. Each stretch is read by itself,
  from an arbitrary state of the buffers; chained on the launched memory they compose to the specification's quantised
  matrix: one scale for the whole matrix, every entry round(clip(w / s)) · s.
-/
import proofs.«156918_j26774826123920_2_alg».proof.Proof.Gen.KernelIdeal.Regions
import proofs.«156918_j26774826123920_2_alg».proof.Proof.HostKOps

open scoped BigOperators

noncomputable section

namespace Cert.KernelIdeal.HostK

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-! ## The first map's weights (8192×2048) -/

section Wk
variable (W : Valuation τ sig (Elt Ideal))

/-- The stretch that totals the absolute values and divides by the entry count. -/
theorem wk_mean : @Eq (FVec Ideal S_ .f32) (StableHlo.after hostOps0 W main_v16)
    (Host.divf (Host.reduceAdd (Host.absf (W main_arg3 : FVec Ideal S8192x2048 .f32)) (constant (F := Ideal) S_ .f32 0x00000000#32)
        reducesTo_S8192x2048_S_d0_1 h_S_) (constant (F := Ideal) S_ .f32 0x4B800000#32)) := by
  after_results
  all_goals rfl

/-- It also sets the tiny word. -/
theorem wk_tiny : @Eq (FVec Ideal S_ .f32) (StableHlo.after hostOps0 W main_cst_2) (constant (F := Ideal) S_ .f32 0x322BCC77#32) := by
  after_results
  all_goals rfl

/-- The outlined maximum with the tiny word. -/
theorem wk_scale : @Eq (FVec Ideal S_ .f32) (StableHlo.after hostOps0_1 W main_v17)
    (maximumf (W main_cst_2 : FVec Ideal S_ .f32) (W main_v16)) := by
  after_results
  all_goals rfl

/-- The stretch that divides every entry by the scale … -/
theorem wk_quot : @Eq (FVec Ideal S8192x2048 .f32) (StableHlo.after hostOps0_2 W main_v19)
    (Host.divf (W main_arg3 : FVec Ideal S8192x2048 .f32) (broadcastInDim S8192x2048 ![] bcast_S_S8192x2048 (W main_v17))) := by
  after_results
  all_goals rfl

/-- … and sets the words −1 and 1. -/
theorem wk_neg1 : @Eq (FVec Ideal S_ .f32) (StableHlo.after hostOps0_2 W main_cst_3) (constant (F := Ideal) S_ .f32 0xBF800000#32) := by
  after_results
  all_goals rfl
theorem wk_pos1 : @Eq (FVec Ideal S_ .f32) (StableHlo.after hostOps0_2 W main_cst_4) (constant (F := Ideal) S_ .f32 0x3F800000#32) := by
  after_results
  all_goals rfl

/-- The outlined clip to [−1, 1]. -/
theorem wk_clip : @Eq (FVec Ideal S8192x2048 .f32) (StableHlo.after hostOps0_3 W main_v20)
    (minimumf (broadcastInDim S8192x2048 ![] bcast_S_S8192x2048 (W main_cst_4) : FVec Ideal S8192x2048 .f32)
        (maximumf (broadcastInDim S8192x2048 ![] bcast_S_S8192x2048 (W main_cst_3) : FVec Ideal S8192x2048 .f32) (W main_v19))) := by
  after_results
  all_goals rfl

/-- The outlined rounding. -/
theorem wk_round : @Eq (FVec Ideal S8192x2048 .f32) (StableHlo.after hostOps0_4 W main_v21)
    (Host.roundeven (W main_v20 : FVec Ideal S8192x2048 .f32)) := by
  after_results
  all_goals rfl

/-- The stretch that multiplies by the scale again and narrows. -/
theorem wk_out : @Eq (FVec Ideal S8192x2048 .bf16) (StableHlo.after hostOps0_5 W main_v24)
    (truncf .bf16 (mulf (W main_v21 : FVec Ideal S8192x2048 .f32) (broadcastInDim S8192x2048 ![] bcast_S_S8192x2048 (W main_v17)))
        bitsLt_bf16_f32) := by
  after_results
  all_goals rfl

end Wk

/-- The matrix reaches the stretch that totals it as launched. -/
theorem wk_arg_a : V0 m c main_arg3 = m ((c : Thread nD τ).loc main_arg3) :=
  rfl
/-- And the stretch that divides it. -/
theorem wk_arg_b : V2 m c main_arg3 = m ((c : Thread nD τ).loc main_arg3) :=
  (V2_of m c main_arg3 (by decide)).trans <| (V1_of m c main_arg3 (by decide)).trans <| rfl

/-- The scale, once set, is the specification's scale of the launched matrix, as a scalar array. -/
theorem wk_scale_eq : (V2 m c main_v17 : S_.Idx → EReal)
    = wscaleH 0x4B800000#32 (m ((c : Thread nD τ).loc main_arg3) : FVec Ideal S8192x2048 .f32) reducesTo_S8192x2048_S_d0_1 h_S_ := by
  refine (wk_scale (V1 m c)).trans ?_
  rw [show V1 m c main_cst_2 = _ from wk_tiny (V0 m c), show V1 m c main_v16 = _ from wk_mean (V0 m c),
    wk_arg_a]
  rfl

/-- It is still there when the product with it is taken. -/
theorem wk_scale_late : V5 m c main_v17 = V2 m c main_v17 :=
  (V5_of m c main_v17 (by decide)).trans <| (V4_of m c main_v17 (by decide)).trans <| (V3_of m c main_v17 (by decide))

/-- The quantised matrix as the last of these stretches leaves it. -/
theorem wk_out_eq : (V6 m c main_v24 : S8192x2048.Idx → EReal)
    = wqH 0x4B800000#32 (m ((c : Thread nD τ).loc main_arg3) : FVec Ideal S8192x2048 .f32) reducesTo_S8192x2048_S_d0_1 h_S_ bcast_S_S8192x2048 bitsLt_bf16_f32 := by
  refine (wk_out (V5 m c)).trans ?_
  rw [wk_scale_late, wk_scale_eq,
    show V5 m c main_v21 = _ from wk_round (V4 m c),
    show V4 m c main_v20 = _ from wk_clip (V3 m c),
    show V3 m c main_cst_4 = _ from wk_pos1 (V2 m c),
    show V3 m c main_cst_3 = _ from wk_neg1 (V2 m c),
    show V3 m c main_v19 = _ from wk_quot (V2 m c),
    wk_arg_b, wk_scale_eq]
  rfl

/-- Entry (i, j) of what the first kernel region finds there. -/
theorem wk_apply (i : Fin 8192) (j : Fin 2048) :
    (V16 m c main_v24 : S8192x2048.Idx → EReal) (ix2 i j)
      = Spec.wK (Spec.W 0x4B800000#32) (m ((c : Thread nD τ).loc main_arg3)) i j := by
  rw [show V16 m c main_v24 = V6 m c main_v24 from (V16_of m c main_v24 (by decide)).trans <| (V15_of m c main_v24 (by decide)).trans <| (V14_of m c main_v24 (by decide)).trans <| (V13_of m c main_v24 (by decide)).trans <| (V12_of m c main_v24 (by decide)).trans <| (V11_of m c main_v24 (by decide)).trans <| (V10_of m c main_v24 (by decide)).trans <| (V9_of m c main_v24 (by decide)).trans <| (V8_of m c main_v24 (by decide)).trans <| (V7_of m c main_v24 (by decide)), wk_out_eq]
  exact wqH_apply _ _ _ _ _ _ i j

end Cert.KernelIdeal.HostK

end
-- ==== Proof.HostKWr.lean ====
/-
  The second map's weight matrix (2048×2048) as the host quantises it before the first kernel: six stretches of host
  operations, cut where the outlined maximum, clip and rounding functions are called. Each stretch is read by itself,
  from an arbitrary state of the buffers; chained on the launched memory they compose to the specification's quantised
  matrix: one scale for the whole matrix, every entry round(clip(w / s)) · s.
-/
import proofs.«156918_j26774826123920_2_alg».proof.Proof.Gen.KernelIdeal.Regions
import proofs.«156918_j26774826123920_2_alg».proof.Proof.HostKOps

open scoped BigOperators

noncomputable section

namespace Cert.KernelIdeal.HostK

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-! ## The second map's weights (2048×2048) -/

section Wr
variable (W : Valuation τ sig (Elt Ideal))

/-- The stretch that totals the absolute values and divides by the entry count. -/
theorem wr_mean : @Eq (FVec Ideal S_ .f32) (StableHlo.after hostOps0_5 W main_v27)
    (Host.divf (Host.reduceAdd (Host.absf (W main_arg6 : FVec Ideal S2048x2048 .f32)) (constant (F := Ideal) S_ .f32 0x00000000#32)
        reducesTo_S2048x2048_S_d0_1 h_S_) (constant (F := Ideal) S_ .f32 0x4A800000#32)) := by
  after_results
  all_goals rfl

/-- It also sets the tiny word. -/
theorem wr_tiny : @Eq (FVec Ideal S_ .f32) (StableHlo.after hostOps0_5 W main_cst_7) (constant (F := Ideal) S_ .f32 0x322BCC77#32) := by
  after_results
  all_goals rfl

/-- The outlined maximum with the tiny word. -/
theorem wr_scale : @Eq (FVec Ideal S_ .f32) (StableHlo.after hostOps0_6 W main_v28)
    (maximumf (W main_cst_7 : FVec Ideal S_ .f32) (W main_v27)) := by
  after_results
  all_goals rfl

/-- The stretch that divides every entry by the scale … -/
theorem wr_quot : @Eq (FVec Ideal S2048x2048 .f32) (StableHlo.after hostOps0_7 W main_v30)
    (Host.divf (W main_arg6 : FVec Ideal S2048x2048 .f32) (broadcastInDim S2048x2048 ![] bcast_S_S2048x2048 (W main_v28))) := by
  after_results
  all_goals rfl

/-- … and sets the words −1 and 1. -/
theorem wr_neg1 : @Eq (FVec Ideal S_ .f32) (StableHlo.after hostOps0_7 W main_cst_8) (constant (F := Ideal) S_ .f32 0xBF800000#32) := by
  after_results
  all_goals rfl
theorem wr_pos1 : @Eq (FVec Ideal S_ .f32) (StableHlo.after hostOps0_7 W main_cst_9) (constant (F := Ideal) S_ .f32 0x3F800000#32) := by
  after_results
  all_goals rfl

/-- The outlined clip to [−1, 1]. -/
theorem wr_clip : @Eq (FVec Ideal S2048x2048 .f32) (StableHlo.after hostOps0_8 W main_v31)
    (minimumf (broadcastInDim S2048x2048 ![] bcast_S_S2048x2048 (W main_cst_9) : FVec Ideal S2048x2048 .f32)
        (maximumf (broadcastInDim S2048x2048 ![] bcast_S_S2048x2048 (W main_cst_8) : FVec Ideal S2048x2048 .f32) (W main_v30))) := by
  after_results
  all_goals rfl

/-- The outlined rounding. -/
theorem wr_round : @Eq (FVec Ideal S2048x2048 .f32) (StableHlo.after hostOps0_9 W main_v32)
    (Host.roundeven (W main_v31 : FVec Ideal S2048x2048 .f32)) := by
  after_results
  all_goals rfl

/-- The stretch that multiplies by the scale again and narrows. -/
theorem wr_out : @Eq (FVec Ideal S2048x2048 .bf16) (StableHlo.after hostOps0_10 W main_v35)
    (truncf .bf16 (mulf (W main_v32 : FVec Ideal S2048x2048 .f32) (broadcastInDim S2048x2048 ![] bcast_S_S2048x2048 (W main_v28)))
        bitsLt_bf16_f32) := by
  after_results
  all_goals rfl

end Wr

/-- The matrix reaches the stretch that totals it as launched. -/
theorem wr_arg_a : V5 m c main_arg6 = m ((c : Thread nD τ).loc main_arg6) :=
  (V5_of m c main_arg6 (by decide)).trans <| (V4_of m c main_arg6 (by decide)).trans <| (V3_of m c main_arg6 (by decide)).trans <| (V2_of m c main_arg6 (by decide)).trans <| (V1_of m c main_arg6 (by decide)).trans <| rfl
/-- And the stretch that divides it. -/
theorem wr_arg_b : V7 m c main_arg6 = m ((c : Thread nD τ).loc main_arg6) :=
  (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl

/-- The scale, once set, is the specification's scale of the launched matrix, as a scalar array. -/
theorem wr_scale_eq : (V7 m c main_v28 : S_.Idx → EReal)
    = wscaleH 0x4A800000#32 (m ((c : Thread nD τ).loc main_arg6) : FVec Ideal S2048x2048 .f32) reducesTo_S2048x2048_S_d0_1 h_S_ := by
  refine (wr_scale (V6 m c)).trans ?_
  rw [show V6 m c main_cst_7 = _ from wr_tiny (V5 m c), show V6 m c main_v27 = _ from wr_mean (V5 m c),
    wr_arg_a]
  rfl

/-- It is still there when the product with it is taken. -/
theorem wr_scale_late : V10 m c main_v28 = V7 m c main_v28 :=
  (V10_of m c main_v28 (by decide)).trans <| (V9_of m c main_v28 (by decide)).trans <| (V8_of m c main_v28 (by decide))

/-- The quantised matrix as the last of these stretches leaves it. -/
theorem wr_out_eq : (V11 m c main_v35 : S2048x2048.Idx → EReal)
    = wqH 0x4A800000#32 (m ((c : Thread nD τ).loc main_arg6) : FVec Ideal S2048x2048 .f32) reducesTo_S2048x2048_S_d0_1 h_S_ bcast_S_S2048x2048 bitsLt_bf16_f32 := by
  refine (wr_out (V10 m c)).trans ?_
  rw [wr_scale_late, wr_scale_eq,
    show V10 m c main_v32 = _ from wr_round (V9 m c),
    show V9 m c main_v31 = _ from wr_clip (V8 m c),
    show V8 m c main_cst_9 = _ from wr_pos1 (V7 m c),
    show V8 m c main_cst_8 = _ from wr_neg1 (V7 m c),
    show V8 m c main_v30 = _ from wr_quot (V7 m c),
    wr_arg_b, wr_scale_eq]
  rfl

/-- Entry (i, j) of what the first kernel region finds there. -/
theorem wr_apply (i : Fin 2048) (j : Fin 2048) :
    (V16 m c main_v35 : S2048x2048.Idx → EReal) (ix2 i j)
      = Spec.wK (Spec.W 0x4A800000#32) (m ((c : Thread nD τ).loc main_arg6)) i j := by
  rw [show V16 m c main_v35 = V11 m c main_v35 from (V16_of m c main_v35 (by decide)).trans <| (V15_of m c main_v35 (by decide)).trans <| (V14_of m c main_v35 (by decide)).trans <| (V13_of m c main_v35 (by decide)).trans <| (V12_of m c main_v35 (by decide)), wr_out_eq]
  exact wqH_apply _ _ _ _ _ _ i j

end Cert.KernelIdeal.HostK

end
-- ==== Proof.HostKWv.lean ====
/-
  The third map's weight matrix (2048×8192) as the host quantises it before the first kernel: six stretches of host
  operations, cut where the outlined maximum, clip and rounding functions are called. Each stretch is read by itself,
  from an arbitrary state of the buffers; chained on the launched memory they compose to the specification's quantised
  matrix: one scale for the whole matrix, every entry round(clip(w / s)) · s.
-/
import proofs.«156918_j26774826123920_2_alg».proof.Proof.Gen.KernelIdeal.Regions
import proofs.«156918_j26774826123920_2_alg».proof.Proof.HostKOps

open scoped BigOperators

noncomputable section

namespace Cert.KernelIdeal.HostK

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-! ## The third map's weights (2048×8192) -/

section Wv
variable (W : Valuation τ sig (Elt Ideal))

/-- The stretch that totals the absolute values and divides by the entry count. -/
theorem wv_mean : @Eq (FVec Ideal S_ .f32) (StableHlo.after hostOps0_10 W main_v38)
    (Host.divf (Host.reduceAdd (Host.absf (W main_arg9 : FVec Ideal S2048x8192 .f32)) (constant (F := Ideal) S_ .f32 0x00000000#32)
        reducesTo_S2048x8192_S_d0_1 h_S_) (constant (F := Ideal) S_ .f32 0x4B800000#32)) := by
  after_results
  all_goals rfl

/-- It also sets the tiny word. -/
theorem wv_tiny : @Eq (FVec Ideal S_ .f32) (StableHlo.after hostOps0_10 W main_cst_12) (constant (F := Ideal) S_ .f32 0x322BCC77#32) := by
  after_results
  all_goals rfl

/-- The outlined maximum with the tiny word. -/
theorem wv_scale : @Eq (FVec Ideal S_ .f32) (StableHlo.after hostOps0_11 W main_v39)
    (maximumf (W main_cst_12 : FVec Ideal S_ .f32) (W main_v38)) := by
  after_results
  all_goals rfl

/-- The stretch that divides every entry by the scale … -/
theorem wv_quot : @Eq (FVec Ideal S2048x8192 .f32) (StableHlo.after hostOps0_12 W main_v41)
    (Host.divf (W main_arg9 : FVec Ideal S2048x8192 .f32) (broadcastInDim S2048x8192 ![] bcast_S_S2048x8192 (W main_v39))) := by
  after_results
  all_goals rfl

/-- … and sets the words −1 and 1. -/
theorem wv_neg1 : @Eq (FVec Ideal S_ .f32) (StableHlo.after hostOps0_12 W main_cst_13) (constant (F := Ideal) S_ .f32 0xBF800000#32) := by
  after_results
  all_goals rfl
theorem wv_pos1 : @Eq (FVec Ideal S_ .f32) (StableHlo.after hostOps0_12 W main_cst_14) (constant (F := Ideal) S_ .f32 0x3F800000#32) := by
  after_results
  all_goals rfl

/-- The outlined clip to [−1, 1]. -/
theorem wv_clip : @Eq (FVec Ideal S2048x8192 .f32) (StableHlo.after hostOps0_13 W main_v42)
    (minimumf (broadcastInDim S2048x8192 ![] bcast_S_S2048x8192 (W main_cst_14) : FVec Ideal S2048x8192 .f32)
        (maximumf (broadcastInDim S2048x8192 ![] bcast_S_S2048x8192 (W main_cst_13) : FVec Ideal S2048x8192 .f32) (W main_v41))) := by
  after_results
  all_goals rfl

/-- The outlined rounding. -/
theorem wv_round : @Eq (FVec Ideal S2048x8192 .f32) (StableHlo.after hostOps0_14 W main_v43)
    (Host.roundeven (W main_v42 : FVec Ideal S2048x8192 .f32)) := by
  after_results
  all_goals rfl

/-- The stretch that multiplies by the scale again and narrows. -/
theorem wv_out : @Eq (FVec Ideal S2048x8192 .bf16) (StableHlo.after hostOps0_15 W main_v46)
    (truncf .bf16 (mulf (W main_v43 : FVec Ideal S2048x8192 .f32) (broadcastInDim S2048x8192 ![] bcast_S_S2048x8192 (W main_v39)))
        bitsLt_bf16_f32) := by
  after_results
  all_goals rfl

end Wv

/-- The matrix reaches the stretch that totals it as launched. -/
theorem wv_arg_a : V10 m c main_arg9 = m ((c : Thread nD τ).loc main_arg9) :=
  (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans <| rfl
/-- And the stretch that divides it. -/
theorem wv_arg_b : V12 m c main_arg9 = m ((c : Thread nD τ).loc main_arg9) :=
  (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans <| rfl

/-- The scale, once set, is the specification's scale of the launched matrix, as a scalar array. -/
theorem wv_scale_eq : (V12 m c main_v39 : S_.Idx → EReal)
    = wscaleH 0x4B800000#32 (m ((c : Thread nD τ).loc main_arg9) : FVec Ideal S2048x8192 .f32) reducesTo_S2048x8192_S_d0_1 h_S_ := by
  refine (wv_scale (V11 m c)).trans ?_
  rw [show V11 m c main_cst_12 = _ from wv_tiny (V10 m c), show V11 m c main_v38 = _ from wv_mean (V10 m c),
    wv_arg_a]
  rfl

/-- It is still there when the product with it is taken. -/
theorem wv_scale_late : V15 m c main_v39 = V12 m c main_v39 :=
  (V15_of m c main_v39 (by decide)).trans <| (V14_of m c main_v39 (by decide)).trans <| (V13_of m c main_v39 (by decide))

/-- The quantised matrix as the last of these stretches leaves it. -/
theorem wv_out_eq : (V16 m c main_v46 : S2048x8192.Idx → EReal)
    = wqH 0x4B800000#32 (m ((c : Thread nD τ).loc main_arg9) : FVec Ideal S2048x8192 .f32) reducesTo_S2048x8192_S_d0_1 h_S_ bcast_S_S2048x8192 bitsLt_bf16_f32 := by
  refine (wv_out (V15 m c)).trans ?_
  rw [wv_scale_late, wv_scale_eq,
    show V15 m c main_v43 = _ from wv_round (V14 m c),
    show V14 m c main_v42 = _ from wv_clip (V13 m c),
    show V13 m c main_cst_14 = _ from wv_pos1 (V12 m c),
    show V13 m c main_cst_13 = _ from wv_neg1 (V12 m c),
    show V13 m c main_v41 = _ from wv_quot (V12 m c),
    wv_arg_b, wv_scale_eq]
  rfl

/-- Entry (i, j) of what the first kernel region finds there. -/
theorem wv_apply (i : Fin 2048) (j : Fin 8192) :
    (V16 m c main_v46 : S2048x8192.Idx → EReal) (ix2 i j)
      = Spec.wK (Spec.W 0x4B800000#32) (m ((c : Thread nD τ).loc main_arg9)) i j := by
  rw [wv_out_eq]
  exact wqH_apply _ _ _ _ _ _ i j

end Cert.KernelIdeal.HostK

end
-- ==== Proof.HostKTail.lean ====
/-
  The two host operations after the last kernel, read at an entry from an arbitrary state of the buffers: the 8192 result
  rows taken back to tokens (batch, position), and the last position of x cut out as the second result.
-/
import proofs.«156918_j26774826123920_2_alg».proof.Proof.Gen.KernelIdeal.Regions
import proofs.«156918_j26774826123920_2_alg».proof.Proof.HostKOps

open scoped BigOperators

noncomputable section

namespace Cert.KernelIdeal.HostK

open Idealize.ShloMosaic Idealize.ShloMosaic.TcCoe Idealize.ShloMosaic.ValueIdx Idealize.SL.Sem
open Cert.KernelIdeal Cert.KernelIdeal.Gen

variable (Wv : Valuation τ sig (Elt Ideal))

/-- The first result is the result rows re-shaped to tokens. -/
theorem tail_v50 : (StableHlo.after hostOps3 Wv main_v50 : S4x2048x2048.Idx → EReal)
    = shapeCast S4x2048x2048 (Wv main_v49 : S8192x2048.Idx → EReal) shapeCasts_S8192x2048_S4x2048x2048 := by
  after_results
  all_goals rfl

/-- The second result is the last position of x. -/
theorem tail_v51 : (StableHlo.after hostOps3 Wv main_v51 : S4x1x2048.Idx → EReal)
    = extractStridedSlice S4x1x2048 ![0, 2047, 0] (Wv main_arg0 : S4x2048x2048.Idx → EReal)
        slices_S4x2048x2048_S4x1x2048_0_2047_0 := by
  after_results
  all_goals rfl

/-- Token (b, t) of the first result is row 2048·b + t of the last kernel's output. -/
theorem v50_apply (b : Fin 4) (t e : Fin 2048) (r : Fin 8192) (hr : r.val = 2048 * b.val + t.val) :
    (StableHlo.after hostOps3 Wv main_v50 : S4x2048x2048.Idx → EReal) (ix3 b t e)
      = (Wv main_v49 : S8192x2048.Idx → EReal) (ix2 r e) := by
  rw [tail_v50]
  exact tokens_apply _ _ b t e r hr

/-- Entry (b, 0, d) of the second result is x at the last position of batch b. -/
theorem v51_apply (b : Fin 4) (d : Fin 2048) :
    (StableHlo.after hostOps3 Wv main_v51 : S4x1x2048.Idx → EReal) (ix3 b (0 : Fin 1) d)
      = (Wv main_arg0 : S4x2048x2048.Idx → EReal) (ix3 b (⟨2047, by omega⟩ : Fin 2048) d) := by
  rw [tail_v51]
  exact last_apply _ _ b d

end Cert.KernelIdeal.HostK

end
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.LibRealSums.lean ====
/-
  A real factor and a finite sum, in the extended reals. Multiplication does not distribute over sums of extended reals
  in general (an infinity of each sign spoils it), but it does over reals: a real factor distributes over a sum of two
  reals, and moves inside a finite sum of products of reals, (Σ f·g)·c = Σ f·(g·c). Also: the larger of two reals is a
  real. Nothing here mentions a program.
-/
import Mathlib.Algebra.BigOperators.Fin
import Mathlib.Data.EReal.Inv
import proofs.«156918_j26774826123920_2_alg».proof.Proof.LibIdealSums

open scoped BigOperators

namespace Cert.Lib.RealSums

open Cert.Lib.IdealSums

/-- The larger of two reals is a real. -/
theorem isReal_max {x y : EReal} (hx : IsReal x) (hy : IsReal y) : IsReal (max x y) := by
  rcases max_choice x y with h | h <;> rw [h] <;> assumption

/-- A real factor distributes over a sum of two reals. -/
theorem add_mul_of_isReal {u v c : EReal} (hu : IsReal u) (hv : IsReal v) (hc : IsReal c) :
    (u + v) * c = u * c + v * c := by
  obtain ⟨a, rfl⟩ := hu; obtain ⟨b, rfl⟩ := hv; obtain ⟨d, rfl⟩ := hc
  rw [← EReal.coe_add, ← EReal.coe_mul, ← EReal.coe_mul, ← EReal.coe_mul, ← EReal.coe_add, add_mul]

/-- A real factor moves inside a finite sum of products of reals: (Σ f·g)·c = Σ f·(g·c). -/
theorem sum_mul_of_isReal {ι : Type*} (s : Finset ι) (f g : ι → EReal) (c : EReal)
    (hf : ∀ i ∈ s, IsReal (f i)) (hg : ∀ i ∈ s, IsReal (g i)) (hc : IsReal c) :
    (∑ i ∈ s, f i * g i) * c = ∑ i ∈ s, f i * (g i * c) := by
  classical
  induction s using Finset.induction_on with
  | empty => simp
  | insert a s ha ih =>
    have hs : IsReal (∑ i ∈ s, f i * g i) :=
      IsReal.sum s fun i hi => (hf i (Finset.mem_insert_of_mem hi)).mul (hg i (Finset.mem_insert_of_mem hi))
    have ha' : IsReal (f a * g a) := (hf a (Finset.mem_insert_self a s)).mul (hg a (Finset.mem_insert_self a s))
    rw [Finset.sum_insert ha, Finset.sum_insert ha, add_mul_of_isReal ha' hs hc, mul_assoc,
      ih (fun i hi => hf i (Finset.mem_insert_of_mem hi)) (fun i hi => hg i (Finset.mem_insert_of_mem hi))]

end Cert.Lib.RealSums
-- ==== Proof.AlgebraWords.lean ====
/-
  The float words the specification mentions, read as extended reals: each is a real number, and the ones that
  serve as divisors, row lengths, clip levels and floors are known exactly or known to be positive.
  Also the notion of a positive real among the extended reals, and its closure under the operations the
  scales of a quantisation are built from.
-/
import Mathlib.Data.EReal.Inv
import Idealize.ShloMosaic.PureOps.Ideal
import Idealize.ShloMosaic.PureOps.Ideal.Laws
import proofs.«156918_j26774826123920_2_alg».proof.Proof.Spec
import proofs.«156918_j26774826123920_2_alg».proof.Proof.LibIdealSums
import proofs.«156918_j26774826123920_2_alg».proof.Proof.LibRealSums

namespace Cert.Algebra

open Idealize.ShloMosaic Cert.Spec Cert.Lib.IdealSums Cert.Lib.RealSums

/-! ## Positive reals among the extended reals -/

/-- An extended real that is a positive real number. -/
def IsPos (x : EReal) : Prop := ∃ r : ℝ, 0 < r ∧ x = (r : EReal)

theorem IsPos.isReal {x : EReal} (h : IsPos x) : IsReal x := by
  obtain ⟨r, _, rfl⟩ := h; exact ⟨r, rfl⟩

theorem IsPos.pos {x : EReal} (h : IsPos x) : 0 < x := by
  obtain ⟨r, hr, rfl⟩ := h; exact_mod_cast hr

theorem IsPos.ne_zero {x : EReal} (h : IsPos x) : x ≠ 0 := h.pos.ne'

/-- A real that is positive as an extended real is a positive real. -/
theorem isPos_of_isReal_of_pos {x : EReal} (hx : IsReal x) (h : 0 < x) : IsPos x := by
  obtain ⟨r, rfl⟩ := hx; exact ⟨r, by exact_mod_cast h, rfl⟩

/-- The product of two positive reals is a positive real. -/
theorem IsPos.mul {x y : EReal} (hx : IsPos x) (hy : IsPos y) : IsPos (x * y) := by
  obtain ⟨a, ha, rfl⟩ := hx; obtain ⟨b, hb, rfl⟩ := hy
  exact ⟨a * b, mul_pos ha hb, (EReal.coe_mul a b).symm⟩

/-- A positive real plus a real that is not negative is a positive real. -/
theorem IsPos.nonneg_add {x y : EReal} (hx : IsReal x) (h0 : 0 ≤ x) (hy : IsPos y) : IsPos (x + y) := by
  obtain ⟨a, rfl⟩ := hx; obtain ⟨b, hb, rfl⟩ := hy
  have ha : (0 : ℝ) ≤ a := by exact_mod_cast h0
  exact ⟨a + b, by linarith, (EReal.coe_add a b).symm⟩

/-- The larger of a positive real and a real is a positive real: a floor under a quantity keeps it away from zero. -/
theorem IsPos.max_left {x y : EReal} (hx : IsPos x) (hy : IsReal y) : IsPos (max x y) :=
  isPos_of_isReal_of_pos (isReal_max hx.isReal hy) (lt_of_lt_of_le hx.pos (le_max_left x y))

/-! ## The words -/

/-- The zero word. -/
theorem w_zero : W 0x00000000#32 = 0 := Ideal.ofBits_zero_f32

/-- The word of 1.0. -/
theorem w_one : W 0x3F800000#32 = 1 := by
  rw [show (1 : EReal) = ((1 : ℝ) : EReal) by norm_cast]
  simp [W, Ideal.ofBits, Ideal.ieee, -EReal.coe_mul]; norm_num

/-- The word of −1.0. -/
theorem w_neg_one : W 0xBF800000#32 = ((-1 : ℝ) : EReal) := by
  simp [W, Ideal.ofBits, Ideal.ieee, -EReal.coe_mul, -EReal.coe_neg]; norm_num

/-- The word of 127.0, the largest quantised magnitude. -/
theorem w_127 : W 0x42FE0000#32 = ((127 : ℝ) : EReal) := by
  simp [W, Ideal.ofBits, Ideal.ieee, -EReal.coe_mul]; norm_num

/-- The word of −127.0. -/
theorem w_neg_127 : W 0xC2FE0000#32 = ((-127 : ℝ) : EReal) := by
  simp [W, Ideal.ofBits, Ideal.ieee, -EReal.coe_mul, -EReal.coe_neg]; norm_num

/-- The word of 2.5. -/
theorem w_2p5 : W 0x40200000#32 = ((2.5 : ℝ) : EReal) := by
  simp [W, Ideal.ofBits, Ideal.ieee, -EReal.coe_mul]; norm_num

/-- The word of 2048.0, a row's length. -/
theorem w_2048 : W 0x45000000#32 = ((2048 : ℝ) : EReal) := by
  simp [W, Ideal.ofBits, Ideal.ieee, -EReal.coe_mul]; norm_num

/-- The word of 8192.0, the wide row's length. -/
theorem w_8192 : W 0x46000000#32 = ((8192 : ℝ) : EReal) := by
  simp [W, Ideal.ofBits, Ideal.ieee, -EReal.coe_mul]; norm_num

/-- The word of 8192 · 2048, a wide matrix's entry count. -/
theorem w_16777216 : W 0x4B800000#32 = ((16777216 : ℝ) : EReal) := by
  simp [W, Ideal.ofBits, Ideal.ieee, -EReal.coe_mul]; norm_num

/-- The word of 2048 · 2048, the square matrix's entry count. -/
theorem w_4194304 : W 0x4A800000#32 = ((4194304 : ℝ) : EReal) := by
  simp [W, Ideal.ofBits, Ideal.ieee, -EReal.coe_mul]; norm_num

/-- The variance's ε is a positive real. -/
theorem isPos_eps : IsPos (W 0x3727C5AC#32) := by
  unfold IsPos
  simp [W, Ideal.ofBits, Ideal.ieee, -EReal.coe_mul]

/-- The floor under a mean of absolute values is a positive real. -/
theorem isPos_tiny : IsPos (W 0x322BCC77#32) := by
  unfold IsPos
  simp [W, Ideal.ofBits, Ideal.ieee, -EReal.coe_mul]

theorem isPos_2p5 : IsPos (W 0x40200000#32) := ⟨2.5, by norm_num, w_2p5⟩
theorem isPos_2048 : IsPos (W 0x45000000#32) := ⟨2048, by norm_num, w_2048⟩
theorem isPos_8192 : IsPos (W 0x46000000#32) := ⟨8192, by norm_num, w_8192⟩
theorem isPos_16777216 : IsPos (W 0x4B800000#32) := ⟨16777216, by norm_num, w_16777216⟩
theorem isPos_4194304 : IsPos (W 0x4A800000#32) := ⟨4194304, by norm_num, w_4194304⟩
theorem isPos_inv127 : IsPos (((1 / 127 : ℝ) : ℝ) : EReal) := ⟨1 / 127, by norm_num, rfl⟩

theorem isReal_w_zero : IsReal (W 0x00000000#32) := w_zero ▸ isReal_zero
theorem isReal_w_one : IsReal (W 0x3F800000#32) := w_one ▸ isReal_one
theorem isReal_w_neg_one : IsReal (W 0xBF800000#32) := ⟨-1, w_neg_one⟩
theorem isReal_w_127 : IsReal (W 0x42FE0000#32) := ⟨127, w_127⟩
theorem isReal_w_neg_127 : IsReal (W 0xC2FE0000#32) := ⟨-127, w_neg_127⟩

end Cert.Algebra
-- ==== Proof.AlgebraRow.lean ====
/-
  One row of reals under the operations of a layer normalisation and of a quantisation: every stage is a real
  number again, the variance is not negative (so the reciprocal square root is taken of a positive real), the clip
  level is at least its floor (so a row's scale is a positive real), and the two spellings of a row's scale agree.
-/
import Mathlib.Data.EReal.Inv
import Idealize.ShloMosaic.PureOps.Ideal
import Idealize.ShloMosaic.PureOps.Ideal.Laws
import proofs.«156918_j26774826123920_2_alg».proof.Proof.Spec
import proofs.«156918_j26774826123920_2_alg».proof.Proof.LibIdealSums
import proofs.«156918_j26774826123920_2_alg».proof.Proof.LibRealSums
import proofs.«156918_j26774826123920_2_alg».proof.Proof.AlgebraWords

open scoped BigOperators

namespace Cert.Algebra

open Idealize.ShloMosaic Cert.Spec Cert.Lib.IdealSums Cert.Lib.RealSums

/-! ## Pointwise operations keep reals real -/

/-- The smaller of two reals is a real. -/
theorem isReal_min {x y : EReal} (hx : IsReal x) (hy : IsReal y) : IsReal (min x y) := by
  rcases min_choice x y with h | h <;> rw [h] <;> assumption

/-- Rounding a real gives an integer, which is a real. -/
theorem isReal_rnd {x : EReal} (hx : IsReal x) : IsReal (rnd x) := by
  obtain ⟨r, rfl⟩ := hx; exact ⟨(Ideal.roundHalfEven r : ℝ), rfl⟩

/-- The absolute value of a real is a real. -/
theorem isReal_ab {x : EReal} (hx : IsReal x) : IsReal (ab x) := isReal_max hx hx.neg

/-- The reciprocal square root of a positive real is a real. -/
theorem isReal_rsqrt {x : EReal} (hx : IsPos x) : IsReal (Ideal.rsqrt x) := by
  obtain ⟨r, hr, rfl⟩ := hx
  rw [Ideal.rsqrt_coe, if_neg (not_lt.2 hr.le), if_neg hr.ne']
  exact ⟨_, rfl⟩

/-- The square of a real is not negative. -/
theorem mul_self_nonneg_of_isReal {x : EReal} (hx : IsReal x) : 0 ≤ x * x := by
  obtain ⟨r, rfl⟩ := hx; exact_mod_cast mul_self_nonneg r

/-- For a real `y` and a real `z`, `y + (z − y) = z`: the straight-through spelling of a rounded value is the
    rounded value. (Among infinities the difference would not cancel.) -/
theorem add_sub_cancel_of_isReal {y z : EReal} (hy : IsReal y) (hz : IsReal z) : y + (z - y) = z := by
  obtain ⟨a, rfl⟩ := hy; obtain ⟨b, rfl⟩ := hz
  have h : a + (b - a) = b := by ring
  exact_mod_cast h

/-! ## The mean of a row -/

section Row
variable {n : ℕ}

/-- The mean of a row of reals with a non-zero real length is the real mean. -/
theorem mean_coe {N : ℝ} (hN : N ≠ 0) (r : Fin n → ℝ) :
    mean (N : EReal) (fun k => (r k : EReal)) = (((∑ k, r k) / N : ℝ) : EReal) := by
  unfold mean
  rw [w_zero, zero_add, ← coe_sum_univ, div_coe_coe _ hN]

/-- The mean of a row of reals is a real. -/
theorem isReal_mean {Nw : EReal} (hN : IsPos Nw) {v : Fin n → EReal} (hv : ∀ k, IsReal (v k)) :
    IsReal (mean Nw v) := by
  unfold mean
  exact (isReal_w_zero.add (IsReal.sum _ fun k _ => hv k)).div hN.isReal hN.ne_zero

/-- The mean of a row of reals none of which is negative is not negative. -/
theorem mean_nonneg {Nw : EReal} (hN : IsPos Nw) {v : Fin n → EReal} (hv : ∀ k, IsReal (v k))
    (h0 : ∀ k, 0 ≤ v k) : 0 ≤ mean Nw v := by
  obtain ⟨N, hN0, rfl⟩ := hN
  choose r hr using hv
  obtain rfl : v = fun k => (r k : EReal) := funext hr
  rw [mean_coe hN0.ne']
  have h : ∀ k, 0 ≤ r k := fun k => EReal.coe_nonneg.1 (h0 k)
  exact_mod_cast div_nonneg (Finset.sum_nonneg fun k _ => h k) hN0.le

/-- A centred entry is a real. -/
theorem isReal_cen {Nw : EReal} (hN : IsPos Nw) {v : Fin n → EReal} (hv : ∀ k, IsReal (v k)) (k : Fin n) :
    IsReal (cen Nw v k) := (hv k).sub (isReal_mean hN hv)

/-- The variance of a row of reals is a mean of squares, so not negative; with the positive ε added it is a
    positive real. -/
theorem isPos_var_eps {Nw : EReal} (hN : IsPos Nw) {v : Fin n → EReal} (hv : ∀ k, IsReal (v k)) :
    IsPos (mean Nw (fun j => cen Nw v j * cen Nw v j) + W 0x3727C5AC#32) :=
  IsPos.nonneg_add (isReal_mean hN fun j => (isReal_cen hN hv j).mul (isReal_cen hN hv j))
    (mean_nonneg hN (fun j => (isReal_cen hN hv j).mul (isReal_cen hN hv j))
      fun j => mul_self_nonneg_of_isReal (isReal_cen hN hv j)) isPos_eps

/-- A layer-normalised entry of a row of reals, with real gains and biases, is a real. -/
theorem isReal_lnorm {Nw : EReal} (hN : IsPos Nw) {g b v : Fin n → EReal} (hg : ∀ k, IsReal (g k))
    (hb : ∀ k, IsReal (b k)) (hv : ∀ k, IsReal (v k)) (k : Fin n) : IsReal (lnorm Nw g b v k) := by
  unfold lnorm
  exact (((isReal_cen hN hv k).mul (isReal_rsqrt (isPos_var_eps hN hv))).mul (hg k)).add (hb k)

/-! ## The scale of a row -/

/-- The clip level of a row of reals is a positive real: it is at least its floor. -/
theorem isPos_clipv {Nw : EReal} (hN : IsPos Nw) {l : Fin n → EReal} (hl : ∀ k, IsReal (l k)) :
    IsPos (clipv Nw l) :=
  isPos_tiny.max_left (isReal_mean hN fun k => isReal_ab (hl k))

/-- The scale of a row of reals is a positive real. -/
theorem isPos_scK {Nw : EReal} (hN : IsPos Nw) {l : Fin n → EReal} (hl : ∀ k, IsReal (l k)) :
    IsPos (scK Nw l) :=
  ((isPos_clipv hN hl).mul isPos_2p5).mul isPos_inv127

/-- Dividing by 127 is multiplying by the rational 1/127, at every extended real: the two spellings of a row's
    scale agree. -/
theorem scR_eq_scK (Nw : EReal) (l : Fin n → EReal) : scR Nw l = scK Nw l := by
  unfold scR scK
  rw [w_127, Ideal.div_coe (by norm_num)]

end Row

/-! ## The quantised integers -/

/-- The quantised integer of a real under a positive real scale is a real. -/
theorem isReal_qi {s x : EReal} (hs : IsPos s) (hx : IsReal x) : IsReal (qi s x) := by
  unfold qi
  exact isReal_rnd (isReal_min isReal_w_127 (isReal_max isReal_w_neg_127 (hx.div hs.isReal hs.ne_zero)))

/-- The straight-through spelling of the quantised integer is the quantised integer. -/
theorem ste_eq_qi {s x : EReal} (hs : IsPos s) (hx : IsReal x) : ste s x = qi s x := by
  unfold ste
  exact add_sub_cancel_of_isReal (hx.div hs.isReal hs.ne_zero) (isReal_qi hs hx)

/-- A ternary weight entry of a real under a positive real scale is a real. -/
theorem isReal_wi {s w : EReal} (hs : IsPos s) (hw : IsReal w) : IsReal (wi s w) := by
  unfold wi
  exact isReal_rnd (isReal_min isReal_w_one (isReal_max isReal_w_neg_one (hw.div hs.isReal hs.ne_zero)))

/-- The kernel's quantised weight entry is a real. -/
theorem isReal_wqK {s w : EReal} (hs : IsPos s) (hw : IsReal w) : IsReal (wqK s w) :=
  (isReal_wi hs hw).mul hs.isReal

/-- The reference's straight-through spelling of a quantised weight entry is the kernel's. -/
theorem wqR_eq_wqK {s w : EReal} (hs : IsPos s) (hw : IsReal w) : wqR s w = wqK s w := by
  unfold wqR wqK
  rw [add_sub_cancel_of_isReal (hw.div hs.isReal hs.ne_zero) (isReal_wi hs hw)]

/-- A matrix's scale from a real total and a positive real entry count is a positive real: it is at least its floor. -/
theorem isPos_wscale {Nw T : EReal} (hN : IsPos Nw) (hT : IsReal T) : IsPos (wscale Nw T) :=
  isPos_tiny.max_left (hT.div hN.isReal hN.ne_zero)

/-- The total of the absolute values of a finite array of reals is a real. -/
theorem isReal_total {ι : Type} [Fintype ι] {w : ι → EReal} (hw : ∀ i, IsReal (w i)) : IsReal (total w) := by
  unfold total
  exact isReal_w_zero.add (IsReal.sum _ fun i _ => isReal_ab (hw i))

/-- The logistic function in the host's expansion with the word 1.0 is the logistic function. -/
theorem sigR_eq_logistic (a : EReal) : sigR a = Ideal.logistic a := by
  unfold sigR
  rw [w_one]
  rfl

end Cert.Algebra
-- ==== Proof.AlgebraStages.lean ====
/-
  The three quantised linear maps over rows of reals, in the kernel's arrangement and in the reference's: each stage
  is a real again, and the two arrangements give the same row. The straight-through spelling drops out because the
  quotient it is written around is a real; the scale of the last map moves inside its sum because every factor is a
  real; the product of the logistic factor and the value sum is commuted.
-/
import Mathlib.Data.EReal.Inv
import Idealize.ShloMosaic.PureOps.Ideal
import Idealize.ShloMosaic.PureOps.Ideal.Laws
import proofs.«156918_j26774826123920_2_alg».proof.Proof.Spec
import proofs.«156918_j26774826123920_2_alg».proof.Proof.LibIdealSums
import proofs.«156918_j26774826123920_2_alg».proof.Proof.LibRealSums
import proofs.«156918_j26774826123920_2_alg».proof.Proof.AlgebraWords
import proofs.«156918_j26774826123920_2_alg».proof.Proof.AlgebraRow

open scoped BigOperators

namespace Cert.Algebra

open Idealize.ShloMosaic Cert.Spec Cert.Lib.IdealSums Cert.Lib.RealSums

section Stages
variable {D H : ℕ}

/-- The token-shift mix of rows of reals is a row of reals. -/
theorem isReal_mix {μ x dx : Fin D → EReal} (hμ : ∀ d, IsReal (μ d)) (hx : ∀ d, IsReal (x d))
    (hdx : ∀ d, IsReal (dx d)) (d : Fin D) : IsReal (mix μ x dx d) :=
  (hx d).add ((hdx d).mul (hμ d))

/-! ### The input of a map: normalised, quantised, re-scaled -/

/-- A quantised, re-scaled entry of a row of reals is a real. -/
theorem isReal_xqK {Nw : EReal} (hN : IsPos Nw) {g b v : Fin D → EReal} (hg : ∀ d, IsReal (g d))
    (hb : ∀ d, IsReal (b d)) (hv : ∀ d, IsReal (v d)) (d : Fin D) : IsReal (xqK Nw g b v d) := by
  unfold xqK
  have hl := isReal_lnorm hN hg hb hv
  exact (isReal_qi (isPos_scK hN hl) (hl d)).mul (isPos_scK hN hl).isReal

/-- On a row of reals the reference's quantised row (straight-through spelling, division by 127) is the kernel's. -/
theorem xqR_eq_xqK {Nw : EReal} (hN : IsPos Nw) {g b v : Fin D → EReal} (hg : ∀ d, IsReal (g d))
    (hb : ∀ d, IsReal (b d)) (hv : ∀ d, IsReal (v d)) : xqR Nw g b v = xqK Nw g b v := by
  funext d
  unfold xqR xqK
  have hl := isReal_lnorm hN hg hb hv
  rw [scR_eq_scK, ste_eq_qi (isPos_scK hN hl) (hl d)]

/-! ### The first map -/

theorem kactR_eq_kactK {Nw : EReal} (hN : IsPos Nw) {g b v : Fin D → EReal} (hg : ∀ d, IsReal (g d))
    (hb : ∀ d, IsReal (b d)) (hv : ∀ d, IsReal (v d)) (Wk : Fin H → Fin D → EReal) :
    kactR Nw g b Wk v = kactK Nw g b Wk v := by
  funext h
  unfold kactR kactK
  rw [xqR_eq_xqK hN hg hb hv]

/-- The squared rectified sum of a row of reals against real weights is a real. -/
theorem isReal_kactK {Nw : EReal} (hN : IsPos Nw) {g b v : Fin D → EReal} (hg : ∀ d, IsReal (g d))
    (hb : ∀ d, IsReal (b d)) (hv : ∀ d, IsReal (v d)) {Wk : Fin H → Fin D → EReal}
    (hWk : ∀ h d, IsReal (Wk h d)) (h : Fin H) : IsReal (kactK Nw g b Wk v h) := by
  unfold kactK
  have hs : IsReal (∑ d, xqK Nw g b v d * Wk h d) :=
    IsReal.sum _ fun d _ => (isReal_xqK hN hg hb hv d).mul (hWk h d)
  exact (isReal_max hs isReal_w_zero).mul (isReal_max hs isReal_w_zero)

/-! ### The second map -/

theorem raccR_eq_raccK {Nw : EReal} (hN : IsPos Nw) {g b v : Fin D → EReal} (hg : ∀ d, IsReal (g d))
    (hb : ∀ d, IsReal (b d)) (hv : ∀ d, IsReal (v d)) (Wr : Fin D → Fin D → EReal) :
    raccR Nw g b Wr v = raccK Nw g b Wr v := by
  funext e
  unfold raccR raccK
  rw [xqR_eq_xqK hN hg hb hv]

/-! ### The third map: the row's scale before or after the sum -/

/-- For a row of reals and real weights, scaling each quantised integer before the sum is scaling the integer
    product after it: `Σ_h (q h · s) · w h = (Σ_h q h · w h) · s`, every factor being a real. -/
theorem vaccR_eq_vaccK {Nw : EReal} (hN : IsPos Nw) {g b k : Fin H → EReal} (hg : ∀ h, IsReal (g h))
    (hb : ∀ h, IsReal (b h)) (hk : ∀ h, IsReal (k h)) {Wv : Fin D → Fin H → EReal}
    (hWv : ∀ e h, IsReal (Wv e h)) (e : Fin D) : vaccR Nw g b Wv k e = vaccK Nw g b Wv k e := by
  unfold vaccR vaccK
  have hl := isReal_lnorm hN hg hb hk
  have hs := isPos_scK hN hl
  rw [xqR_eq_xqK hN hg hb hk]
  refine Eq.trans ?_ (sum_mul_of_isReal Finset.univ
    (fun h => qi (scK Nw (lnorm Nw g b k)) (lnorm Nw g b k h)) (fun h => Wv e h) (scK Nw (lnorm Nw g b k))
    (fun h _ => isReal_qi hs (hl h)) (fun h _ => hWv e h) hs.isReal).symm
  refine Finset.sum_congr rfl fun h _ => ?_
  show xqK Nw g b k h * Wv e h
    = qi (scK Nw (lnorm Nw g b k)) (lnorm Nw g b k h) * (Wv e h * scK Nw (lnorm Nw g b k))
  unfold xqK
  rw [mul_right_comm, mul_assoc]

/-! ### One output row -/

/-- On rows of reals with real weights the kernel's output entry is the reference's. -/
theorem outK_eq_outR {μk μr gk bk gr br : Fin D → EReal} {gv bv : Fin H → EReal}
    {Wk : Fin H → Fin D → EReal} {Wr : Fin D → Fin D → EReal} {Wv : Fin D → Fin H → EReal}
    {x dx : Fin D → EReal}
    (hμk : ∀ d, IsReal (μk d)) (hμr : ∀ d, IsReal (μr d)) (hgk : ∀ d, IsReal (gk d)) (hbk : ∀ d, IsReal (bk d))
    (hgr : ∀ d, IsReal (gr d)) (hbr : ∀ d, IsReal (br d)) (hgv : ∀ h, IsReal (gv h)) (hbv : ∀ h, IsReal (bv h))
    (hWk : ∀ h d, IsReal (Wk h d)) (hWv : ∀ e h, IsReal (Wv e h))
    (hx : ∀ d, IsReal (x d)) (hdx : ∀ d, IsReal (dx d)) (e : Fin D) :
    outK μk μr gk bk gr br gv bv Wk Wr Wv x dx e = outR μk μr gk bk gr br gv bv Wk Wr Wv x dx e := by
  unfold outK outR
  have hmk := isReal_mix hμk hx hdx
  have hmr := isReal_mix hμr hx hdx
  rw [sigR_eq_logistic, raccR_eq_raccK isPos_2048 hgr hbr hmr, kactR_eq_kactK isPos_2048 hgk hbk hmk,
    vaccR_eq_vaccK isPos_8192 hgv hbv (isReal_kactK isPos_2048 hgk hbk hmk hWk) hWv, mul_comm]

end Stages

end Cert.Algebra
-- ==== Proof.AlgebraWhole.lean ====
/-
  The whole results: when every entry of the twelve argument arrays is a real, the kernel's arrangement of the
  specification and the reference's give the same entry at every token and column. The quantised weight matrices
  agree entry by entry (one positive real scale per matrix), every row handed to the maps is a row of reals, and
  the row-wise agreement of the arrangements finishes it.
-/
import Mathlib.Data.EReal.Inv
import Idealize.ShloMosaic.PureOps.Ideal
import Idealize.ShloMosaic.PureOps.Ideal.Laws
import proofs.«156918_j26774826123920_2_alg».proof.Proof.Spec
import proofs.«156918_j26774826123920_2_alg».proof.Proof.LibIdealSums
import proofs.«156918_j26774826123920_2_alg».proof.Proof.LibRealSums
import proofs.«156918_j26774826123920_2_alg».proof.Proof.AlgebraWords
import proofs.«156918_j26774826123920_2_alg».proof.Proof.AlgebraRow
import proofs.«156918_j26774826123920_2_alg».proof.Proof.AlgebraStages

open scoped BigOperators

namespace Cert.Algebra

open Idealize.ShloMosaic Idealize.ShloMosaic.ValueIdx Cert.Spec Cert.Lib.IdealSums Cert.Lib.RealSums

/-! ## A quantised weight matrix -/

section Weights
variable {a c : ℕ}

/-- Every entry of the quantised matrix of a real matrix is a real. -/
theorem isReal_wK {Nw : EReal} (hN : IsPos Nw) {w : (⟨2, ![a, c]⟩ : Shape).Idx → EReal}
    (hw : ∀ i, IsReal (w i)) (i : Fin a) (j : Fin c) : IsReal (wK Nw w i j) :=
  isReal_wqK (isPos_wscale hN (isReal_total hw)) (hw _)

/-- On a real matrix the reference's quantised matrix is the kernel's. -/
theorem wR_eq_wK {Nw : EReal} (hN : IsPos Nw) {w : (⟨2, ![a, c]⟩ : Shape).Idx → EReal}
    (hw : ∀ i, IsReal (w i)) : wR Nw w = wK Nw w := by
  funext i j
  exact wqR_eq_wqK (isPos_wscale hN (isReal_total hw)) (hw _)

end Weights

/-! ## A token's row and its shift difference -/

theorem isReal_xrow {x : (⟨3, ![4, 2048, 2048]⟩ : Shape).Idx → EReal} (hx : ∀ i, IsReal (x i))
    (b : Fin 4) (t : Fin 2048) (d : Fin 2048) : IsReal (xrow x b t d) := hx _

/-- The shift difference is the zero word or an entry, minus an entry. -/
theorem isReal_dxrow {x : (⟨3, ![4, 2048, 2048]⟩ : Shape).Idx → EReal} (hx : ∀ i, IsReal (x i))
    (b : Fin 4) (t : Fin 2048) (d : Fin 2048) : IsReal (dxrow x b t d) := by
  unfold dxrow
  split_ifs
  · exact isReal_w_zero.sub (hx _)
  · exact (hx _).sub (hx _)

/-! ## The whole results agree -/

/-- When every entry of every argument array is a real, the two arrangements of the specification give the same
    entry of the result at every token `(b, t)` and column `e`. -/
theorem res_eq (x : (⟨3, ![4, 2048, 2048]⟩ : Shape).Idx → EReal) (μk μr : (⟨3, ![1, 1, 2048]⟩ : Shape).Idx → EReal)
    (wk : (⟨2, ![8192, 2048]⟩ : Shape).Idx → EReal) (gk bk : (⟨1, ![2048]⟩ : Shape).Idx → EReal)
    (wr : (⟨2, ![2048, 2048]⟩ : Shape).Idx → EReal) (gr br : (⟨1, ![2048]⟩ : Shape).Idx → EReal)
    (wv : (⟨2, ![2048, 8192]⟩ : Shape).Idx → EReal) (gv bv : (⟨1, ![8192]⟩ : Shape).Idx → EReal)
    (hx : ∀ i, IsReal (x i)) (hμk : ∀ i, IsReal (μk i)) (hμr : ∀ i, IsReal (μr i))
    (hwk : ∀ i, IsReal (wk i)) (hgk : ∀ i, IsReal (gk i)) (hbk : ∀ i, IsReal (bk i))
    (hwr : ∀ i, IsReal (wr i)) (hgr : ∀ i, IsReal (gr i)) (hbr : ∀ i, IsReal (br i))
    (hwv : ∀ i, IsReal (wv i)) (hgv : ∀ i, IsReal (gv i)) (hbv : ∀ i, IsReal (bv i))
    (b : Fin 4) (t : Fin 2048) (e : Fin 2048) :
    Cert.Spec.resK x μk μr wk gk bk wr gr br wv gv bv b t e
      = Cert.Spec.resR x μk μr wk gk bk wr gr br wv gv bv b t e := by
  unfold resK resR
  rw [wR_eq_wK isPos_16777216 hwk, wR_eq_wK isPos_4194304 hwr, wR_eq_wK isPos_16777216 hwv]
  exact outK_eq_outR (fun d => hμk _) (fun d => hμr _) (fun d => hgk _) (fun d => hbk _)
    (fun d => hgr _) (fun d => hbr _) (fun h => hgv _) (fun h => hbv _)
    (isReal_wK isPos_16777216 hwk) (isReal_wK isPos_16777216 hwv)
    (isReal_xrow hx b t) (isReal_dxrow hx b t) e

end Cert.Algebra
-- ==== Proof.LibFiniteInputs.lean ====
/-
  Reading a printed precondition "every entry is finite" / "every entry is ≥ 0" back on the extended reals.

  jnp.all(|x| < +inf) prints as a reduce by `and` (from the word 1) of the entrywise comparison of |x| with a
  broadcast of the word 0x7F800000 (+∞). If that reduce is 1 then every entry x i has |x i| = max (x i) (−x i) < ⊤,
  so x i is neither ⊤ nor ⊥: a real. jnp.all(x ≥ 0) prints the same way with the comparison x ≥ (the word 0); if it
  is 1 then every entry is ≥ 0. Nothing here mentions a program.
-/
import Idealize.ShloMosaic.PureOps.Ideal
import Idealize.ShloMosaic.PureOps.Ideal.Laws
import Idealize.ShloMosaic.Lib.ValueIdx
import Idealize.ShloMosaic.Lib.ReduceAll

noncomputable section

namespace Cert.Lib.FiniteInputs

open Idealize.ShloMosaic Idealize.ShloMosaic.ValueIdx

instance : Subsingleton (⟨0, ![]⟩ : Shape).Idx := ⟨fun a b => funext fun d => d.elim0⟩

/-- The single-precision word 7F800000 is +∞. -/
theorem ofBits_inf_f32 : Ideal.ofBits .f32 0x7F800000#32 = (⊤ : EReal) := by
  simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- A comparison word that is 1 says the comparison holds: "less than". -/
theorem lt_of_cmp_olt (x y : EReal) (h : Ideal.cmp .olt x y = 1#1) : x < y := by
  unfold Ideal.cmp at h
  by_contra hn
  simp [hn] at h

/-- A comparison word that is 1 says the comparison holds: "at least". -/
theorem le_of_cmp_oge (x y : EReal) (h : Ideal.cmp .oge x y = 1#1) : y ≤ x := by
  unfold Ideal.cmp at h
  by_contra hn
  simp [hn] at h

variable {s u : Shape} {axes : List (Fin s.rank)}

/-- jnp.all(|x| < +inf) = true: every entry of x is a real. -/
theorem real_of_all_finite (x : s.Idx → EReal) (hb : (⟨0, ![]⟩ : Shape).BroadcastsInDim s ![])
    (init : u.Idx → BitVec 1) (hr : s.ReducesTo axes ⟨0, ![]⟩) (hu : 0 < u.numel)
    (e : Host.reduce IntOp.andi
        (cmpf .olt (Host.absf (F := Ideal) (φ := .f32) x)
          (broadcastInDim s ![] hb (constant (F := Ideal) ⟨0, ![]⟩ .f32 0x7F800000#32))) init hr hu ix0 = 1#1)
    (i : s.Idx) : ∃ r : ℝ, x i = (r : EReal) := by
  have hi := Host.reduce_andi_all _ init hr hu ix0 e i
  refine real_of_abs_lt_top (x i) ?_
  have := lt_of_cmp_olt _ _ hi
  rw [← ofBits_inf_f32]
  exact this

/-- jnp.all(x ≥ 0) = true: every entry of x is at least 0. -/
theorem nonneg_of_all_ge (x : s.Idx → EReal) (hb : (⟨0, ![]⟩ : Shape).BroadcastsInDim s ![])
    (init : u.Idx → BitVec 1) (hr : s.ReducesTo axes ⟨0, ![]⟩) (hu : 0 < u.numel)
    (e : Host.reduce IntOp.andi
        (cmpf .oge x (broadcastInDim s ![] hb (constant (F := Ideal) ⟨0, ![]⟩ .f32 0x00000000#32))) init hr hu ix0 = 1#1)
    (i : s.Idx) : 0 ≤ x i := by
  have hi := Host.reduce_andi_all _ init hr hu ix0 e i
  have := le_of_cmp_oge _ _ hi
  rw [← Ideal.ofBits_zero_f32]
  exact this

end Cert.Lib.FiniteInputs

end
-- ==== Proof.FinitePre.lean ====
/-
  The input check read back. The predicate is twelve conjuncts, one per argument array, each saying that every
  entry's absolute value is below +∞; the conjunction is 1 exactly when each conjunct is, and a conjunct that is 1
  says every entry of its array is a real number (neither infinity).
-/
import Idealize.ShloMosaic.PureOps.Ideal
import Idealize.ShloMosaic.PureOps.Ideal.Laws
import Idealize.ShloMosaic.Lib.ValueIdx
import Idealize.ShloMosaic.Lib.ReduceAll
import proofs.«156918_j26774826123920_2_alg».proof.Pre_finite_inputs
import proofs.«156918_j26774826123920_2_alg».proof.Proof.LibIdealSums
import proofs.«156918_j26774826123920_2_alg».proof.Proof.LibFiniteInputs

namespace Cert.FinitePre

open Idealize.ShloMosaic Idealize.ShloMosaic.ValueIdx Cert.Pre_finite_inputs Cert.Lib.IdealSums
  Cert.Lib.FiniteInputs

/-- If the input check holds of the twelve argument arrays, every entry of every one of them is a real.
    The check is a chain of eleven `and`s of twelve "all entries finite" reductions: peel the chain from its last
    conjunct to its first, then read each reduction entry by entry. -/
theorem real_of_fn [Cert.Pre_finite_inputs.Facts]
    (a0 : FVec Ideal S4x2048x2048 .f32) (a1 a2 : FVec Ideal S1x1x2048 .f32) (a3 : FVec Ideal S8192x2048 .f32)
    (a4 a5 : FVec Ideal S2048 .f32) (a6 : FVec Ideal S2048x2048 .f32) (a7 a8 : FVec Ideal S2048 .f32)
    (a9 : FVec Ideal S2048x8192 .f32) (a10 a11 : FVec Ideal S8192 .f32)
    (h : Cert.Pre_finite_inputs.fn (F := Ideal) a0 a1 a2 a3 a4 a5 a6 a7 a8 a9 a10 a11 = fun _ => 1#1) :
    (∀ i, IsReal (a0 i)) ∧ (∀ i, IsReal (a1 i)) ∧ (∀ i, IsReal (a2 i)) ∧ (∀ i, IsReal (a3 i))
      ∧ (∀ i, IsReal (a4 i)) ∧ (∀ i, IsReal (a5 i)) ∧ (∀ i, IsReal (a6 i)) ∧ (∀ i, IsReal (a7 i))
      ∧ (∀ i, IsReal (a8 i)) ∧ (∀ i, IsReal (a9 i)) ∧ (∀ i, IsReal (a10 i)) ∧ (∀ i, IsReal (a11 i)) := by
  have h0 := congrFun h ix0
  dsimp only [fn, fn_part1, fn_part2, fn_part3] at h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_all_finite a0 _ _ _ _ e0, real_of_all_finite a1 _ _ _ _ e1, real_of_all_finite a2 _ _ _ _ e2,
    real_of_all_finite a3 _ _ _ _ e3, real_of_all_finite a4 _ _ _ _ e4, real_of_all_finite a5 _ _ _ _ e5,
    real_of_all_finite a6 _ _ _ _ e6, real_of_all_finite a7 _ _ _ _ e7, real_of_all_finite a8 _ _ _ _ e8,
    real_of_all_finite a9 _ _ _ _ e9, real_of_all_finite a10 _ _ _ _ e10, real_of_all_finite a11 _ _ _ _ e11⟩

end Cert.FinitePre
-- ==== Proof.KIBridge.lean ====
import proofs.«156918_j26774826123920_2_alg».proof.Proof.KIRun
import proofs.«156918_j26774826123920_2_alg».proof.Proof.KIValue0
import proofs.«156918_j26774826123920_2_alg».proof.Proof.KIValue1
import proofs.«156918_j26774826123920_2_alg».proof.Proof.KIValue2
import proofs.«156918_j26774826123920_2_alg».proof.Proof.HostKArgs
import proofs.«156918_j26774826123920_2_alg».proof.Proof.HostKWk
import proofs.«156918_j26774826123920_2_alg».proof.Proof.HostKWr
import proofs.«156918_j26774826123920_2_alg».proof.Proof.HostKWv
import proofs.«156918_j26774826123920_2_alg».proof.Proof.HostKTail
import proofs.«156918_j26774826123920_2_alg».proof.Proof.AlgebraWhole
import proofs.«156918_j26774826123920_2_alg».proof.Proof.FinitePre
import Idealize.ShloMosaic.Lib.ValueIdx

set_option maxRecDepth 16384

/-!
# The idealized kernel's results as functions of its arguments

The run ends with the first result at the last host operation's re-shaping of the third region's output array. Read back:
the third region's rows are the value map of the first region's rows (the key map's squared rectified output) times the second
region's rows (the gate); each region's inputs are the host's re-shapings of the arguments and the quantised weights, which no
later region changes. Entry by entry this is the specification's result in the kernel's arrangement; with every input entry a
real it is the reference's arrangement.
-/

noncomputable section

namespace Cert.KernelIdeal.Bridge

open Cert.KernelIdeal Cert.KernelIdeal.Gen Cert.KernelIdeal.Fr Cert.KernelIdeal.Val Cert.KernelIdeal.HostK
open Idealize.ShloMosaic Idealize.ShloMosaic.TcCoe Idealize.SL.Sem Idealize.ShloMosaic.ValueIdx
open Cert.Lib.IdealSums (IsReal)

variable (m : (ℓ : Loc nD τ sig) → Buf (Elt Ideal) ℓ) (c : Dev nD)

/-- A buffer neither of the first two regions writes is, when the third region runs, what the first region found. -/
theorem back18 (r : Ref sig .tc) (h1 : r ≠ main_v48) (h0 : r ≠ main_v47) : U18 m c r = V16 m c r :=
  (U18_of m c r h1).trans (U17_of m c r h0)

/-- The first region's output rows: the key map of token row `(b, t)`. -/
theorem keys_at (b : Fin 4) (t : Fin 2048) (r : Fin 8192) (hr : r.val = 2048 * b.val + t.val) (h : Fin 8192) :
    (U17 m c main_v47 : S8192x8192.Idx → EReal) (ix2 r h)
      = Cert.Spec.kactK (Cert.Spec.W 0x45000000#32) (fun d => (m ((c : Thread nD τ).loc main_arg4) : S2048.Idx → EReal) (ix1 d))
          (fun d => (m ((c : Thread nD τ).loc main_arg5) : S2048.Idx → EReal) (ix1 d))
          (Cert.Spec.wK (Cert.Spec.W 0x4B800000#32) (m ((c : Thread nD τ).loc main_arg3)))
          (Cert.Spec.mix (fun d => (m ((c : Thread nD τ).loc main_arg1) : S1x1x2048.Idx → EReal) (ix3 0 0 d))
            (Cert.Spec.xrow (m ((c : Thread nD τ).loc main_arg0)) b t) (Cert.Spec.dxrow (m ((c : Thread nD τ).loc main_arg0)) b t)) h := by
  rw [U17_self]; unfold o17
  rw [R0 (E16 m) c r h]
  simp only [v8_apply m c, v9_apply m c, v6_apply m c, wk_apply m c, fun d => v4_apply m c b t d r hr, fun d => v5_apply m c b t d r hr]

/-- The second region's output rows: the gate of token row `(b, t)`. -/
theorem gate_at (b : Fin 4) (t : Fin 2048) (r : Fin 8192) (hr : r.val = 2048 * b.val + t.val) (e : Fin 2048) :
    (U18 m c main_v48 : S8192x2048.Idx → EReal) (ix2 r e)
      = Ideal.logistic (Cert.Spec.raccK (Cert.Spec.W 0x45000000#32) (fun d => (m ((c : Thread nD τ).loc main_arg7) : S2048.Idx → EReal) (ix1 d))
          (fun d => (m ((c : Thread nD τ).loc main_arg8) : S2048.Idx → EReal) (ix1 d))
          (Cert.Spec.wK (Cert.Spec.W 0x4A800000#32) (m ((c : Thread nD τ).loc main_arg6)))
          (Cert.Spec.mix (fun d => (m ((c : Thread nD τ).loc main_arg2) : S1x1x2048.Idx → EReal) (ix3 0 0 d))
            (Cert.Spec.xrow (m ((c : Thread nD τ).loc main_arg0)) b t) (Cert.Spec.dxrow (m ((c : Thread nD τ).loc main_arg0)) b t)) e) := by
  rw [U18_self]; unfold o18
  rw [R1 (E17 m) c r e]
  simp only [E17, U17_of m c main_v10 (by decide), U17_of m c main_v11 (by decide), U17_of m c main_v35 (by decide),
    U17_of m c main_v7 (by decide), U17_of m c main_v4 (by decide), U17_of m c main_v5 (by decide)]
  simp only [v10_apply m c, v11_apply m c, v7_apply m c, wr_apply m c, fun d => v4_apply m c b t d r hr, fun d => v5_apply m c b t d r hr]

/-- The first result, entry by entry, in the kernel's arrangement. -/
theorem res_kernel (b : Fin 4) (t e : Fin 2048) :
    (U20 m c main_v50 : S4x2048x2048.Idx → EReal) (ix3 b t e)
      = Cert.Spec.resK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) b t e := by
  have hr : (⟨2048 * b.val + t.val, by omega⟩ : Fin 8192).val = 2048 * b.val + t.val := rfl
  unfold U20
  rw [v50_apply (Wv := U19 m c) b t e _ hr, U19_self]; unfold o19
  rw [R2 (E18 m) c _ e]
  simp only [E18, back18 m c main_v12 (by decide) (by decide), back18 m c main_v13 (by decide) (by decide),
    back18 m c main_v46 (by decide) (by decide), U18_of m c main_v47 (by decide)]
  simp only [v12_apply m c, v13_apply m c, wv_apply m c, fun h => keys_at m c b t _ hr h, gate_at m c b t _ hr e]
  rfl

/-- The second result: the last token's row of every batch. -/
theorem last_kernel (b : Fin 4) (d : Fin 2048) :
    (U20 m c main_v51 : S4x1x2048.Idx → EReal) (ix3 b (0 : Fin 1) d)
      = (m ((c : Thread nD τ).loc main_arg0) : S4x2048x2048.Idx → EReal) (ix3 b (⟨2047, by omega⟩ : Fin 2048) d) := by
  unfold U20
  rw [v51_apply (Wv := U19 m c) b d]
  exact congrFun (((U19_of m c main_arg0 (by decide)).trans ((U18_of m c main_arg0 (by decide)).trans
    ((U17_of m c main_arg0 (by decide)).trans ((V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl)))) : (U19 m c main_arg0 : S4x2048x2048.Idx → EReal) = _) _

end Cert.KernelIdeal.Bridge

end
-- ==== Proof.RefSideReads.lean ====
import proofs.«156918_j26774826123920_2_alg».proof.Proof.RefReadP
import proofs.«156918_j26774826123920_2_alg».proof.Proof.Spec

noncomputable section

namespace Cert.RefSide

open Cert.ReferenceIdeal Cert.ReferenceIdeal.Gen Cert.ReferenceIdeal.ReadP Idealize.ShloMosaic Idealize.ShloMosaic.ValueIdx

/-! Every layout step, row sum and matrix product of the reference, read at coordinates.

A broadcast, a re-shaping with a unit axis, a sum along the last axis and a contraction each read their operand at an
index computed from the result's index. Here each is stated at an index given by its coordinates `(p, q, r)`, so
that the operand's index is again a tuple of coordinates: a per-row scalar broadcast to a row reads `(p, q, 0)`, a
per-column vector reads its column, a sum along the last axis runs over `(p, q, k)`, a product contracts
`(p, q, k)` against `(h, k)`. -/

theorem r_v0 (i : S4x1x2048.Idx) :
    val_main_v0 (F := Ideal) i = val_main_cst (F := Ideal) ix0 := val_main_v0_apply i

theorem r_v4 (x1 : (⟨S1x1x2048, .f32⟩ : BufTy).Contents (Elt Ideal)) (c0 : Fin 4) (c1 : Fin 2048) (c2 : Fin 2048) :
    val_main_v4 (F := Ideal) x1 (ix3 c0 c1 c2) = x1 (ix3 (0 : Fin 1) (0 : Fin 1) c2) := by
  rw [val_main_v4_apply, (show idx_main_v4 (ix3 c0 c1 c2) = ix3 (0 : Fin 1) (0 : Fin 1) c2 from funext fun a => by match a with | ⟨0, _⟩ => rfl | ⟨1, _⟩ => rfl | ⟨2, _⟩ => rfl)]

theorem r_v7 (x0 : (⟨S4x2048x2048, .f32⟩ : BufTy).Contents (Elt Ideal)) (x1 : (⟨S1x1x2048, .f32⟩ : BufTy).Contents (Elt Ideal)) (c0 : Fin 4) (c1 : Fin 2048) :
    val_main_v7 (F := Ideal) x0 x1 (ix2 c0 c1) = (val_main_cst_0 (F := Ideal)) (Shape.Idx.first h_S_) + ∑ k : Fin 2048, (val_main_v6 (F := Ideal) x0 x1) (ix3 c0 c1 k) := by
  rw [val_main_v7_apply, (show idx_main_v7 (ix2 c0 c1) = ix3 c0 c1 from funext fun k => funext fun a => by match a with | ⟨0, _⟩ => rfl | ⟨1, _⟩ => rfl | ⟨2, _⟩ => rfl)]

theorem r_v8 (x0 : (⟨S4x2048x2048, .f32⟩ : BufTy).Contents (Elt Ideal)) (x1 : (⟨S1x1x2048, .f32⟩ : BufTy).Contents (Elt Ideal)) (c0 : Fin 4) (c1 : Fin 2048) (c2 : Fin 1) :
    val_main_v8 (F := Ideal) x0 x1 (ix3 c0 c1 c2) = val_main_v7 (F := Ideal) x0 x1 (ix2 c0 c1) := by
  rw [val_main_v8_apply, (show idx_main_v8 (ix3 c0 c1 c2) = ix2 c0 c1 from funext fun a => by match a with | ⟨0, _⟩ => rfl | ⟨1, _⟩ => rfl)]

theorem r_v9 (i : S4x2048x1.Idx) :
    val_main_v9 (F := Ideal) i = val_main_cst_1 (F := Ideal) ix0 := val_main_v9_apply i

theorem r_v11 (x0 : (⟨S4x2048x2048, .f32⟩ : BufTy).Contents (Elt Ideal)) (x1 : (⟨S1x1x2048, .f32⟩ : BufTy).Contents (Elt Ideal)) (c0 : Fin 4) (c1 : Fin 2048) (c2 : Fin 2048) :
    val_main_v11 (F := Ideal) x0 x1 (ix3 c0 c1 c2) = val_main_v10 (F := Ideal) x0 x1 (ix3 c0 c1 (0 : Fin 1)) := by
  rw [val_main_v11_apply, (show idx_main_v11 (ix3 c0 c1 c2) = ix3 c0 c1 (0 : Fin 1) from funext fun a => by match a with | ⟨0, _⟩ => rfl | ⟨1, _⟩ => rfl | ⟨2, _⟩ => rfl)]

theorem r_v14 (x0 : (⟨S4x2048x2048, .f32⟩ : BufTy).Contents (Elt Ideal)) (x1 : (⟨S1x1x2048, .f32⟩ : BufTy).Contents (Elt Ideal)) (c0 : Fin 4) (c1 : Fin 2048) :
    val_main_v14 (F := Ideal) x0 x1 (ix2 c0 c1) = (val_main_cst_2 (F := Ideal)) (Shape.Idx.first h_S_) + ∑ k : Fin 2048, (val_main_v13 (F := Ideal) x0 x1) (ix3 c0 c1 k) := by
  rw [val_main_v14_apply, (show idx_main_v14 (ix2 c0 c1) = ix3 c0 c1 from funext fun k => funext fun a => by match a with | ⟨0, _⟩ => rfl | ⟨1, _⟩ => rfl | ⟨2, _⟩ => rfl)]

theorem r_v15 (x0 : (⟨S4x2048x2048, .f32⟩ : BufTy).Contents (Elt Ideal)) (x1 : (⟨S1x1x2048, .f32⟩ : BufTy).Contents (Elt Ideal)) (c0 : Fin 4) (c1 : Fin 2048) (c2 : Fin 1) :
    val_main_v15 (F := Ideal) x0 x1 (ix3 c0 c1 c2) = val_main_v14 (F := Ideal) x0 x1 (ix2 c0 c1) := by
  rw [val_main_v15_apply, (show idx_main_v15 (ix3 c0 c1 c2) = ix2 c0 c1 from funext fun a => by match a with | ⟨0, _⟩ => rfl | ⟨1, _⟩ => rfl)]

theorem r_v16 (i : S4x2048x1.Idx) :
    val_main_v16 (F := Ideal) i = val_main_cst_3 (F := Ideal) ix0 := val_main_v16_apply i

theorem r_v18 (x0 : (⟨S4x2048x2048, .f32⟩ : BufTy).Contents (Elt Ideal)) (x1 : (⟨S1x1x2048, .f32⟩ : BufTy).Contents (Elt Ideal)) (c0 : Fin 4) (c1 : Fin 2048) (c2 : Fin 2048) :
    val_main_v18 (F := Ideal) x0 x1 (ix3 c0 c1 c2) = val_main_v10 (F := Ideal) x0 x1 (ix3 c0 c1 (0 : Fin 1)) := by
  rw [val_main_v18_apply, (show idx_main_v18 (ix3 c0 c1 c2) = ix3 c0 c1 (0 : Fin 1) from funext fun a => by match a with | ⟨0, _⟩ => rfl | ⟨1, _⟩ => rfl | ⟨2, _⟩ => rfl)]

theorem r_v20 (i : S4x2048x1.Idx) :
    val_main_v20 (F := Ideal) i = val_main_cst_4 (F := Ideal) ix0 := val_main_v20_apply i

theorem r_v23 (x0 : (⟨S4x2048x2048, .f32⟩ : BufTy).Contents (Elt Ideal)) (x1 : (⟨S1x1x2048, .f32⟩ : BufTy).Contents (Elt Ideal)) (c0 : Fin 4) (c1 : Fin 2048) (c2 : Fin 2048) :
    val_main_v23 (F := Ideal) x0 x1 (ix3 c0 c1 c2) = val_main_v22 (F := Ideal) x0 x1 (ix3 c0 c1 (0 : Fin 1)) := by
  rw [val_main_v23_apply, (show idx_main_v23 (ix3 c0 c1 c2) = ix3 c0 c1 (0 : Fin 1) from funext fun a => by match a with | ⟨0, _⟩ => rfl | ⟨1, _⟩ => rfl | ⟨2, _⟩ => rfl)]

theorem r_v25 (x4 : (⟨S2048, .f32⟩ : BufTy).Contents (Elt Ideal)) (c0 : Fin 1) (c1 : Fin 1) (c2 : Fin 2048) :
    val_main_v25 (F := Ideal) x4 (ix3 c0 c1 c2) = x4 (ix1 c2) := by
  rw [val_main_v25_apply, (show idx_main_v25 (ix3 c0 c1 c2) = ix1 c2 from funext fun a => by match a with | ⟨0, _⟩ => rfl)]

theorem r_v26 (x4 : (⟨S2048, .f32⟩ : BufTy).Contents (Elt Ideal)) (c0 : Fin 4) (c1 : Fin 2048) (c2 : Fin 2048) :
    val_main_v26 (F := Ideal) x4 (ix3 c0 c1 c2) = val_main_v25 (F := Ideal) x4 (ix3 (0 : Fin 1) (0 : Fin 1) c2) := by
  rw [val_main_v26_apply, (show idx_main_v26 (ix3 c0 c1 c2) = ix3 (0 : Fin 1) (0 : Fin 1) c2 from funext fun a => by match a with | ⟨0, _⟩ => rfl | ⟨1, _⟩ => rfl | ⟨2, _⟩ => rfl)]

theorem r_v28 (x5 : (⟨S2048, .f32⟩ : BufTy).Contents (Elt Ideal)) (c0 : Fin 1) (c1 : Fin 1) (c2 : Fin 2048) :
    val_main_v28 (F := Ideal) x5 (ix3 c0 c1 c2) = x5 (ix1 c2) := by
  rw [val_main_v28_apply, (show idx_main_v28 (ix3 c0 c1 c2) = ix1 c2 from funext fun a => by match a with | ⟨0, _⟩ => rfl)]

theorem r_v29 (x5 : (⟨S2048, .f32⟩ : BufTy).Contents (Elt Ideal)) (c0 : Fin 4) (c1 : Fin 2048) (c2 : Fin 2048) :
    val_main_v29 (F := Ideal) x5 (ix3 c0 c1 c2) = val_main_v28 (F := Ideal) x5 (ix3 (0 : Fin 1) (0 : Fin 1) c2) := by
  rw [val_main_v29_apply, (show idx_main_v29 (ix3 c0 c1 c2) = ix3 (0 : Fin 1) (0 : Fin 1) c2 from funext fun a => by match a with | ⟨0, _⟩ => rfl | ⟨1, _⟩ => rfl | ⟨2, _⟩ => rfl)]

theorem r_v32 (x0 : (⟨S4x2048x2048, .f32⟩ : BufTy).Contents (Elt Ideal)) (x1 : (⟨S1x1x2048, .f32⟩ : BufTy).Contents (Elt Ideal)) (x4 x5 : (⟨S2048, .f32⟩ : BufTy).Contents (Elt Ideal)) (c0 : Fin 4) (c1 : Fin 2048) :
    val_main_v32 (F := Ideal) x0 x1 x4 x5 (ix2 c0 c1) = (val_main_cst_5 (F := Ideal)) (Shape.Idx.first h_S_) + ∑ k : Fin 2048, (val_main_v31 (F := Ideal) x0 x1 x4 x5) (ix3 c0 c1 k) := by
  rw [val_main_v32_apply, (show idx_main_v32 (ix2 c0 c1) = ix3 c0 c1 from funext fun k => funext fun a => by match a with | ⟨0, _⟩ => rfl | ⟨1, _⟩ => rfl | ⟨2, _⟩ => rfl)]

theorem r_v33 (x0 : (⟨S4x2048x2048, .f32⟩ : BufTy).Contents (Elt Ideal)) (x1 : (⟨S1x1x2048, .f32⟩ : BufTy).Contents (Elt Ideal)) (x4 x5 : (⟨S2048, .f32⟩ : BufTy).Contents (Elt Ideal)) (c0 : Fin 4) (c1 : Fin 2048) (c2 : Fin 1) :
    val_main_v33 (F := Ideal) x0 x1 x4 x5 (ix3 c0 c1 c2) = val_main_v32 (F := Ideal) x0 x1 x4 x5 (ix2 c0 c1) := by
  rw [val_main_v33_apply, (show idx_main_v33 (ix3 c0 c1 c2) = ix2 c0 c1 from funext fun a => by match a with | ⟨0, _⟩ => rfl | ⟨1, _⟩ => rfl)]

theorem r_v34 (i : S4x2048x1.Idx) :
    val_main_v34 (F := Ideal) i = val_main_cst_6 (F := Ideal) ix0 := val_main_v34_apply i

theorem r_call0_v1 (i : S4x2048x1.Idx) :
    val_main_call0_v1 (F := Ideal) i = val_main_call0_v0 (F := Ideal) ix0 := val_main_call0_v1_apply i

theorem r_v37 (i : S4x2048x1.Idx) :
    val_main_v37 (F := Ideal) i = val_main_cst_8 (F := Ideal) ix0 := val_main_v37_apply i

theorem r_v39 (i : S4x2048x1.Idx) :
    val_main_v39 (F := Ideal) i = val_main_cst_9 (F := Ideal) ix0 := val_main_v39_apply i

theorem r_v41 (x0 : (⟨S4x2048x2048, .f32⟩ : BufTy).Contents (Elt Ideal)) (x1 : (⟨S1x1x2048, .f32⟩ : BufTy).Contents (Elt Ideal)) (x4 x5 : (⟨S2048, .f32⟩ : BufTy).Contents (Elt Ideal)) (c0 : Fin 4) (c1 : Fin 2048) (c2 : Fin 2048) :
    val_main_v41 (F := Ideal) x0 x1 x4 x5 (ix3 c0 c1 c2) = val_main_v40 (F := Ideal) x0 x1 x4 x5 (ix3 c0 c1 (0 : Fin 1)) := by
  rw [val_main_v41_apply, (show idx_main_v41 (ix3 c0 c1 c2) = ix3 c0 c1 (0 : Fin 1) from funext fun a => by match a with | ⟨0, _⟩ => rfl | ⟨1, _⟩ => rfl | ⟨2, _⟩ => rfl)]

theorem r_call1_v1 (i : S4x2048x2048.Idx) :
    val_main_call1_v1 (F := Ideal) i = val_main_call1_v0 (F := Ideal) ix0 := val_main_call1_v1_apply i

theorem r_call1_v4 (i : S4x2048x2048.Idx) :
    val_main_call1_v4 (F := Ideal) i = val_main_call1_v3 (F := Ideal) ix0 := val_main_call1_v4_apply i

theorem r_v47 (x0 : (⟨S4x2048x2048, .f32⟩ : BufTy).Contents (Elt Ideal)) (x1 : (⟨S1x1x2048, .f32⟩ : BufTy).Contents (Elt Ideal)) (x4 x5 : (⟨S2048, .f32⟩ : BufTy).Contents (Elt Ideal)) (c0 : Fin 4) (c1 : Fin 2048) (c2 : Fin 2048) :
    val_main_v47 (F := Ideal) x0 x1 x4 x5 (ix3 c0 c1 c2) = val_main_v40 (F := Ideal) x0 x1 x4 x5 (ix3 c0 c1 (0 : Fin 1)) := by
  rw [val_main_v47_apply, (show idx_main_v47 (ix3 c0 c1 c2) = ix3 c0 c1 (0 : Fin 1) from funext fun a => by match a with | ⟨0, _⟩ => rfl | ⟨1, _⟩ => rfl | ⟨2, _⟩ => rfl)]

theorem r_v53 (x3 : (⟨S8192x2048, .f32⟩ : BufTy).Contents (Elt Ideal)) (i : S8192x2048.Idx) :
    val_main_v53 (F := Ideal) x3 i = val_main_v52 (F := Ideal) x3 ix0 := val_main_v53_apply x3 i

theorem r_call4_v1 (i : S8192x2048.Idx) :
    val_main_call4_v1 (F := Ideal) i = val_main_call4_v0 (F := Ideal) ix0 := val_main_call4_v1_apply i

theorem r_call4_v4 (i : S8192x2048.Idx) :
    val_main_call4_v4 (F := Ideal) i = val_main_call4_v3 (F := Ideal) ix0 := val_main_call4_v4_apply i

theorem r_v59 (x3 : (⟨S8192x2048, .f32⟩ : BufTy).Contents (Elt Ideal)) (i : S8192x2048.Idx) :
    val_main_v59 (F := Ideal) x3 i = val_main_v52 (F := Ideal) x3 ix0 := val_main_v59_apply x3 i

theorem r_v61 (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 x5 : (⟨S2048, .f32⟩ : BufTy).Contents (Elt Ideal)) (c0 : Fin 4) (c1 : Fin 2048) (c2 : Fin 8192) :
    val_main_v61 (F := Ideal) x0 x1 x3 x4 x5 (ix3 c0 c1 c2) = ∑ k : Fin 2048, (val_main_v48 (F := Ideal) x0 x1 x4 x5) (ix3 c0 c1 k) * (val_main_v60 (F := Ideal) x3) (ix2 c2 k) := by
  rw [val_main_v61_apply, (show lidx_main_v61 (ix3 c0 c1 c2) = ix3 c0 c1 from funext fun k => funext fun a => by match a with | ⟨0, _⟩ => rfl | ⟨1, _⟩ => rfl | ⟨2, _⟩ => rfl),
    (show ridx_main_v61 (ix3 c0 c1 c2) = ix2 c2 from funext fun k => funext fun a => by match a with | ⟨0, _⟩ => rfl | ⟨1, _⟩ => rfl)]

theorem r_call6_v0 (i : S4x2048x8192.Idx) :
    val_main_call6_v0 (F := Ideal) i = val_main_call6_cst (F := Ideal) ix0 := val_main_call6_v0_apply i

theorem r_v64 (x2 : (⟨S1x1x2048, .f32⟩ : BufTy).Contents (Elt Ideal)) (c0 : Fin 4) (c1 : Fin 2048) (c2 : Fin 2048) :
    val_main_v64 (F := Ideal) x2 (ix3 c0 c1 c2) = x2 (ix3 (0 : Fin 1) (0 : Fin 1) c2) := by
  rw [val_main_v64_apply, (show idx_main_v64 (ix3 c0 c1 c2) = ix3 (0 : Fin 1) (0 : Fin 1) c2 from funext fun a => by match a with | ⟨0, _⟩ => rfl | ⟨1, _⟩ => rfl | ⟨2, _⟩ => rfl)]

theorem r_v67 (x0 : (⟨S4x2048x2048, .f32⟩ : BufTy).Contents (Elt Ideal)) (x2 : (⟨S1x1x2048, .f32⟩ : BufTy).Contents (Elt Ideal)) (c0 : Fin 4) (c1 : Fin 2048) :
    val_main_v67 (F := Ideal) x0 x2 (ix2 c0 c1) = (val_main_cst_17 (F := Ideal)) (Shape.Idx.first h_S_) + ∑ k : Fin 2048, (val_main_v66 (F := Ideal) x0 x2) (ix3 c0 c1 k) := by
  rw [val_main_v67_apply, (show idx_main_v67 (ix2 c0 c1) = ix3 c0 c1 from funext fun k => funext fun a => by match a with | ⟨0, _⟩ => rfl | ⟨1, _⟩ => rfl | ⟨2, _⟩ => rfl)]

theorem r_v68 (x0 : (⟨S4x2048x2048, .f32⟩ : BufTy).Contents (Elt Ideal)) (x2 : (⟨S1x1x2048, .f32⟩ : BufTy).Contents (Elt Ideal)) (c0 : Fin 4) (c1 : Fin 2048) (c2 : Fin 1) :
    val_main_v68 (F := Ideal) x0 x2 (ix3 c0 c1 c2) = val_main_v67 (F := Ideal) x0 x2 (ix2 c0 c1) := by
  rw [val_main_v68_apply, (show idx_main_v68 (ix3 c0 c1 c2) = ix2 c0 c1 from funext fun a => by match a with | ⟨0, _⟩ => rfl | ⟨1, _⟩ => rfl)]

theorem r_v69 (i : S4x2048x1.Idx) :
    val_main_v69 (F := Ideal) i = val_main_cst_18 (F := Ideal) ix0 := val_main_v69_apply i

theorem r_v71 (x0 : (⟨S4x2048x2048, .f32⟩ : BufTy).Contents (Elt Ideal)) (x2 : (⟨S1x1x2048, .f32⟩ : BufTy).Contents (Elt Ideal)) (c0 : Fin 4) (c1 : Fin 2048) (c2 : Fin 2048) :
    val_main_v71 (F := Ideal) x0 x2 (ix3 c0 c1 c2) = val_main_v70 (F := Ideal) x0 x2 (ix3 c0 c1 (0 : Fin 1)) := by
  rw [val_main_v71_apply, (show idx_main_v71 (ix3 c0 c1 c2) = ix3 c0 c1 (0 : Fin 1) from funext fun a => by match a with | ⟨0, _⟩ => rfl | ⟨1, _⟩ => rfl | ⟨2, _⟩ => rfl)]

theorem r_v74 (x0 : (⟨S4x2048x2048, .f32⟩ : BufTy).Contents (Elt Ideal)) (x2 : (⟨S1x1x2048, .f32⟩ : BufTy).Contents (Elt Ideal)) (c0 : Fin 4) (c1 : Fin 2048) :
    val_main_v74 (F := Ideal) x0 x2 (ix2 c0 c1) = (val_main_cst_19 (F := Ideal)) (Shape.Idx.first h_S_) + ∑ k : Fin 2048, (val_main_v73 (F := Ideal) x0 x2) (ix3 c0 c1 k) := by
  rw [val_main_v74_apply, (show idx_main_v74 (ix2 c0 c1) = ix3 c0 c1 from funext fun k => funext fun a => by match a with | ⟨0, _⟩ => rfl | ⟨1, _⟩ => rfl | ⟨2, _⟩ => rfl)]

theorem r_v75 (x0 : (⟨S4x2048x2048, .f32⟩ : BufTy).Contents (Elt Ideal)) (x2 : (⟨S1x1x2048, .f32⟩ : BufTy).Contents (Elt Ideal)) (c0 : Fin 4) (c1 : Fin 2048) (c2 : Fin 1) :
    val_main_v75 (F := Ideal) x0 x2 (ix3 c0 c1 c2) = val_main_v74 (F := Ideal) x0 x2 (ix2 c0 c1) := by
  rw [val_main_v75_apply, (show idx_main_v75 (ix3 c0 c1 c2) = ix2 c0 c1 from funext fun a => by match a with | ⟨0, _⟩ => rfl | ⟨1, _⟩ => rfl)]

theorem r_v76 (i : S4x2048x1.Idx) :
    val_main_v76 (F := Ideal) i = val_main_cst_20 (F := Ideal) ix0 := val_main_v76_apply i

theorem r_v78 (x0 : (⟨S4x2048x2048, .f32⟩ : BufTy).Contents (Elt Ideal)) (x2 : (⟨S1x1x2048, .f32⟩ : BufTy).Contents (Elt Ideal)) (c0 : Fin 4) (c1 : Fin 2048) (c2 : Fin 2048) :
    val_main_v78 (F := Ideal) x0 x2 (ix3 c0 c1 c2) = val_main_v70 (F := Ideal) x0 x2 (ix3 c0 c1 (0 : Fin 1)) := by
  rw [val_main_v78_apply, (show idx_main_v78 (ix3 c0 c1 c2) = ix3 c0 c1 (0 : Fin 1) from funext fun a => by match a with | ⟨0, _⟩ => rfl | ⟨1, _⟩ => rfl | ⟨2, _⟩ => rfl)]

theorem r_v80 (i : S4x2048x1.Idx) :
    val_main_v80 (F := Ideal) i = val_main_cst_21 (F := Ideal) ix0 := val_main_v80_apply i

theorem r_v83 (x0 : (⟨S4x2048x2048, .f32⟩ : BufTy).Contents (Elt Ideal)) (x2 : (⟨S1x1x2048, .f32⟩ : BufTy).Contents (Elt Ideal)) (c0 : Fin 4) (c1 : Fin 2048) (c2 : Fin 2048) :
    val_main_v83 (F := Ideal) x0 x2 (ix3 c0 c1 c2) = val_main_v82 (F := Ideal) x0 x2 (ix3 c0 c1 (0 : Fin 1)) := by
  rw [val_main_v83_apply, (show idx_main_v83 (ix3 c0 c1 c2) = ix3 c0 c1 (0 : Fin 1) from funext fun a => by match a with | ⟨0, _⟩ => rfl | ⟨1, _⟩ => rfl | ⟨2, _⟩ => rfl)]

theorem r_v85 (x7 : (⟨S2048, .f32⟩ : BufTy).Contents (Elt Ideal)) (c0 : Fin 1) (c1 : Fin 1) (c2 : Fin 2048) :
    val_main_v85 (F := Ideal) x7 (ix3 c0 c1 c2) = x7 (ix1 c2) := by
  rw [val_main_v85_apply, (show idx_main_v85 (ix3 c0 c1 c2) = ix1 c2 from funext fun a => by match a with | ⟨0, _⟩ => rfl)]

theorem r_v86 (x7 : (⟨S2048, .f32⟩ : BufTy).Contents (Elt Ideal)) (c0 : Fin 4) (c1 : Fin 2048) (c2 : Fin 2048) :
    val_main_v86 (F := Ideal) x7 (ix3 c0 c1 c2) = val_main_v85 (F := Ideal) x7 (ix3 (0 : Fin 1) (0 : Fin 1) c2) := by
  rw [val_main_v86_apply, (show idx_main_v86 (ix3 c0 c1 c2) = ix3 (0 : Fin 1) (0 : Fin 1) c2 from funext fun a => by match a with | ⟨0, _⟩ => rfl | ⟨1, _⟩ => rfl | ⟨2, _⟩ => rfl)]

theorem r_v88 (x8 : (⟨S2048, .f32⟩ : BufTy).Contents (Elt Ideal)) (c0 : Fin 1) (c1 : Fin 1) (c2 : Fin 2048) :
    val_main_v88 (F := Ideal) x8 (ix3 c0 c1 c2) = x8 (ix1 c2) := by
  rw [val_main_v88_apply, (show idx_main_v88 (ix3 c0 c1 c2) = ix1 c2 from funext fun a => by match a with | ⟨0, _⟩ => rfl)]

theorem r_v89 (x8 : (⟨S2048, .f32⟩ : BufTy).Contents (Elt Ideal)) (c0 : Fin 4) (c1 : Fin 2048) (c2 : Fin 2048) :
    val_main_v89 (F := Ideal) x8 (ix3 c0 c1 c2) = val_main_v88 (F := Ideal) x8 (ix3 (0 : Fin 1) (0 : Fin 1) c2) := by
  rw [val_main_v89_apply, (show idx_main_v89 (ix3 c0 c1 c2) = ix3 (0 : Fin 1) (0 : Fin 1) c2 from funext fun a => by match a with | ⟨0, _⟩ => rfl | ⟨1, _⟩ => rfl | ⟨2, _⟩ => rfl)]

theorem r_v92 (x0 : (⟨S4x2048x2048, .f32⟩ : BufTy).Contents (Elt Ideal)) (x2 : (⟨S1x1x2048, .f32⟩ : BufTy).Contents (Elt Ideal)) (x7 x8 : (⟨S2048, .f32⟩ : BufTy).Contents (Elt Ideal)) (c0 : Fin 4) (c1 : Fin 2048) :
    val_main_v92 (F := Ideal) x0 x2 x7 x8 (ix2 c0 c1) = (val_main_cst_22 (F := Ideal)) (Shape.Idx.first h_S_) + ∑ k : Fin 2048, (val_main_v91 (F := Ideal) x0 x2 x7 x8) (ix3 c0 c1 k) := by
  rw [val_main_v92_apply, (show idx_main_v92 (ix2 c0 c1) = ix3 c0 c1 from funext fun k => funext fun a => by match a with | ⟨0, _⟩ => rfl | ⟨1, _⟩ => rfl | ⟨2, _⟩ => rfl)]

theorem r_v93 (x0 : (⟨S4x2048x2048, .f32⟩ : BufTy).Contents (Elt Ideal)) (x2 : (⟨S1x1x2048, .f32⟩ : BufTy).Contents (Elt Ideal)) (x7 x8 : (⟨S2048, .f32⟩ : BufTy).Contents (Elt Ideal)) (c0 : Fin 4) (c1 : Fin 2048) (c2 : Fin 1) :
    val_main_v93 (F := Ideal) x0 x2 x7 x8 (ix3 c0 c1 c2) = val_main_v92 (F := Ideal) x0 x2 x7 x8 (ix2 c0 c1) := by
  rw [val_main_v93_apply, (show idx_main_v93 (ix3 c0 c1 c2) = ix2 c0 c1 from funext fun a => by match a with | ⟨0, _⟩ => rfl | ⟨1, _⟩ => rfl)]

theorem r_v94 (i : S4x2048x1.Idx) :
    val_main_v94 (F := Ideal) i = val_main_cst_23 (F := Ideal) ix0 := val_main_v94_apply i

theorem r_call7_v1 (i : S4x2048x1.Idx) :
    val_main_call7_v1 (F := Ideal) i = val_main_call7_v0 (F := Ideal) ix0 := val_main_call7_v1_apply i

theorem r_v97 (i : S4x2048x1.Idx) :
    val_main_v97 (F := Ideal) i = val_main_cst_25 (F := Ideal) ix0 := val_main_v97_apply i

theorem r_v99 (i : S4x2048x1.Idx) :
    val_main_v99 (F := Ideal) i = val_main_cst_26 (F := Ideal) ix0 := val_main_v99_apply i

theorem r_v101 (x0 : (⟨S4x2048x2048, .f32⟩ : BufTy).Contents (Elt Ideal)) (x2 : (⟨S1x1x2048, .f32⟩ : BufTy).Contents (Elt Ideal)) (x7 x8 : (⟨S2048, .f32⟩ : BufTy).Contents (Elt Ideal)) (c0 : Fin 4) (c1 : Fin 2048) (c2 : Fin 2048) :
    val_main_v101 (F := Ideal) x0 x2 x7 x8 (ix3 c0 c1 c2) = val_main_v100 (F := Ideal) x0 x2 x7 x8 (ix3 c0 c1 (0 : Fin 1)) := by
  rw [val_main_v101_apply, (show idx_main_v101 (ix3 c0 c1 c2) = ix3 c0 c1 (0 : Fin 1) from funext fun a => by match a with | ⟨0, _⟩ => rfl | ⟨1, _⟩ => rfl | ⟨2, _⟩ => rfl)]

theorem r_call8_v1 (i : S4x2048x2048.Idx) :
    val_main_call8_v1 (F := Ideal) i = val_main_call8_v0 (F := Ideal) ix0 := val_main_call8_v1_apply i

theorem r_call8_v4 (i : S4x2048x2048.Idx) :
    val_main_call8_v4 (F := Ideal) i = val_main_call8_v3 (F := Ideal) ix0 := val_main_call8_v4_apply i

theorem r_v107 (x0 : (⟨S4x2048x2048, .f32⟩ : BufTy).Contents (Elt Ideal)) (x2 : (⟨S1x1x2048, .f32⟩ : BufTy).Contents (Elt Ideal)) (x7 x8 : (⟨S2048, .f32⟩ : BufTy).Contents (Elt Ideal)) (c0 : Fin 4) (c1 : Fin 2048) (c2 : Fin 2048) :
    val_main_v107 (F := Ideal) x0 x2 x7 x8 (ix3 c0 c1 c2) = val_main_v100 (F := Ideal) x0 x2 x7 x8 (ix3 c0 c1 (0 : Fin 1)) := by
  rw [val_main_v107_apply, (show idx_main_v107 (ix3 c0 c1 c2) = ix3 c0 c1 (0 : Fin 1) from funext fun a => by match a with | ⟨0, _⟩ => rfl | ⟨1, _⟩ => rfl | ⟨2, _⟩ => rfl)]

theorem r_v113 (x6 : (⟨S2048x2048, .f32⟩ : BufTy).Contents (Elt Ideal)) (i : S2048x2048.Idx) :
    val_main_v113 (F := Ideal) x6 i = val_main_v112 (F := Ideal) x6 ix0 := val_main_v113_apply x6 i

theorem r_call11_v1 (i : S2048x2048.Idx) :
    val_main_call11_v1 (F := Ideal) i = val_main_call11_v0 (F := Ideal) ix0 := val_main_call11_v1_apply i

theorem r_call11_v4 (i : S2048x2048.Idx) :
    val_main_call11_v4 (F := Ideal) i = val_main_call11_v3 (F := Ideal) ix0 := val_main_call11_v4_apply i

theorem r_v119 (x6 : (⟨S2048x2048, .f32⟩ : BufTy).Contents (Elt Ideal)) (i : S2048x2048.Idx) :
    val_main_v119 (F := Ideal) x6 i = val_main_v112 (F := Ideal) x6 ix0 := val_main_v119_apply x6 i

theorem r_v121 (x0 : (⟨S4x2048x2048, .f32⟩ : BufTy).Contents (Elt Ideal)) (x2 : (⟨S1x1x2048, .f32⟩ : BufTy).Contents (Elt Ideal)) (x6 : (⟨S2048x2048, .f32⟩ : BufTy).Contents (Elt Ideal)) (x7 x8 : (⟨S2048, .f32⟩ : BufTy).Contents (Elt Ideal)) (c0 : Fin 4) (c1 : Fin 2048) (c2 : Fin 2048) :
    val_main_v121 (F := Ideal) x0 x2 x6 x7 x8 (ix3 c0 c1 c2) = ∑ k : Fin 2048, (val_main_v108 (F := Ideal) x0 x2 x7 x8) (ix3 c0 c1 k) * (val_main_v120 (F := Ideal) x6) (ix2 c2 k) := by
  rw [val_main_v121_apply, (show lidx_main_v121 (ix3 c0 c1 c2) = ix3 c0 c1 from funext fun k => funext fun a => by match a with | ⟨0, _⟩ => rfl | ⟨1, _⟩ => rfl | ⟨2, _⟩ => rfl),
    (show ridx_main_v121 (ix3 c0 c1 c2) = ix2 c2 from funext fun k => funext fun a => by match a with | ⟨0, _⟩ => rfl | ⟨1, _⟩ => rfl)]

theorem r_v124 (i : S4x2048x2048.Idx) :
    val_main_v124 (F := Ideal) i = val_main_cst_34 (F := Ideal) ix0 := val_main_v124_apply i

theorem r_v126 (i : S4x2048x2048.Idx) :
    val_main_v126 (F := Ideal) i = val_main_cst_35 (F := Ideal) ix0 := val_main_v126_apply i

theorem r_v128 (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 x5 : (⟨S2048, .f32⟩ : BufTy).Contents (Elt Ideal)) (c0 : Fin 4) (c1 : Fin 2048) :
    val_main_v128 (F := Ideal) x0 x1 x3 x4 x5 (ix2 c0 c1) = (val_main_cst_36 (F := Ideal)) (Shape.Idx.first h_S_) + ∑ k : Fin 8192, (val_main_v63 (F := Ideal) x0 x1 x3 x4 x5) (ix3 c0 c1 k) := by
  rw [val_main_v128_apply, (show idx_main_v128 (ix2 c0 c1) = ix3 c0 c1 from funext fun k => funext fun a => by match a with | ⟨0, _⟩ => rfl | ⟨1, _⟩ => rfl | ⟨2, _⟩ => rfl)]

theorem r_v129 (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 x5 : (⟨S2048, .f32⟩ : BufTy).Contents (Elt Ideal)) (c0 : Fin 4) (c1 : Fin 2048) (c2 : Fin 1) :
    val_main_v129 (F := Ideal) x0 x1 x3 x4 x5 (ix3 c0 c1 c2) = val_main_v128 (F := Ideal) x0 x1 x3 x4 x5 (ix2 c0 c1) := by
  rw [val_main_v129_apply, (show idx_main_v129 (ix3 c0 c1 c2) = ix2 c0 c1 from funext fun a => by match a with | ⟨0, _⟩ => rfl | ⟨1, _⟩ => rfl)]

theorem r_v130 (i : S4x2048x1.Idx) :
    val_main_v130 (F := Ideal) i = val_main_cst_37 (F := Ideal) ix0 := val_main_v130_apply i

theorem r_v132 (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 x5 : (⟨S2048, .f32⟩ : BufTy).Contents (Elt Ideal)) (c0 : Fin 4) (c1 : Fin 2048) (c2 : Fin 8192) :
    val_main_v132 (F := Ideal) x0 x1 x3 x4 x5 (ix3 c0 c1 c2) = val_main_v131 (F := Ideal) x0 x1 x3 x4 x5 (ix3 c0 c1 (0 : Fin 1)) := by
  rw [val_main_v132_apply, (show idx_main_v132 (ix3 c0 c1 c2) = ix3 c0 c1 (0 : Fin 1) from funext fun a => by match a with | ⟨0, _⟩ => rfl | ⟨1, _⟩ => rfl | ⟨2, _⟩ => rfl)]

theorem r_v135 (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 x5 : (⟨S2048, .f32⟩ : BufTy).Contents (Elt Ideal)) (c0 : Fin 4) (c1 : Fin 2048) :
    val_main_v135 (F := Ideal) x0 x1 x3 x4 x5 (ix2 c0 c1) = (val_main_cst_38 (F := Ideal)) (Shape.Idx.first h_S_) + ∑ k : Fin 8192, (val_main_v134 (F := Ideal) x0 x1 x3 x4 x5) (ix3 c0 c1 k) := by
  rw [val_main_v135_apply, (show idx_main_v135 (ix2 c0 c1) = ix3 c0 c1 from funext fun k => funext fun a => by match a with | ⟨0, _⟩ => rfl | ⟨1, _⟩ => rfl | ⟨2, _⟩ => rfl)]

theorem r_v136 (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 x5 : (⟨S2048, .f32⟩ : BufTy).Contents (Elt Ideal)) (c0 : Fin 4) (c1 : Fin 2048) (c2 : Fin 1) :
    val_main_v136 (F := Ideal) x0 x1 x3 x4 x5 (ix3 c0 c1 c2) = val_main_v135 (F := Ideal) x0 x1 x3 x4 x5 (ix2 c0 c1) := by
  rw [val_main_v136_apply, (show idx_main_v136 (ix3 c0 c1 c2) = ix2 c0 c1 from funext fun a => by match a with | ⟨0, _⟩ => rfl | ⟨1, _⟩ => rfl)]

theorem r_v137 (i : S4x2048x1.Idx) :
    val_main_v137 (F := Ideal) i = val_main_cst_39 (F := Ideal) ix0 := val_main_v137_apply i

theorem r_v139 (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 x5 : (⟨S2048, .f32⟩ : BufTy).Contents (Elt Ideal)) (c0 : Fin 4) (c1 : Fin 2048) (c2 : Fin 8192) :
    val_main_v139 (F := Ideal) x0 x1 x3 x4 x5 (ix3 c0 c1 c2) = val_main_v131 (F := Ideal) x0 x1 x3 x4 x5 (ix3 c0 c1 (0 : Fin 1)) := by
  rw [val_main_v139_apply, (show idx_main_v139 (ix3 c0 c1 c2) = ix3 c0 c1 (0 : Fin 1) from funext fun a => by match a with | ⟨0, _⟩ => rfl | ⟨1, _⟩ => rfl | ⟨2, _⟩ => rfl)]

theorem r_v141 (i : S4x2048x1.Idx) :
    val_main_v141 (F := Ideal) i = val_main_cst_40 (F := Ideal) ix0 := val_main_v141_apply i

theorem r_v144 (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 x5 : (⟨S2048, .f32⟩ : BufTy).Contents (Elt Ideal)) (c0 : Fin 4) (c1 : Fin 2048) (c2 : Fin 8192) :
    val_main_v144 (F := Ideal) x0 x1 x3 x4 x5 (ix3 c0 c1 c2) = val_main_v143 (F := Ideal) x0 x1 x3 x4 x5 (ix3 c0 c1 (0 : Fin 1)) := by
  rw [val_main_v144_apply, (show idx_main_v144 (ix3 c0 c1 c2) = ix3 c0 c1 (0 : Fin 1) from funext fun a => by match a with | ⟨0, _⟩ => rfl | ⟨1, _⟩ => rfl | ⟨2, _⟩ => rfl)]

theorem r_v146 (x10 : (⟨S8192, .f32⟩ : BufTy).Contents (Elt Ideal)) (c0 : Fin 1) (c1 : Fin 1) (c2 : Fin 8192) :
    val_main_v146 (F := Ideal) x10 (ix3 c0 c1 c2) = x10 (ix1 c2) := by
  rw [val_main_v146_apply, (show idx_main_v146 (ix3 c0 c1 c2) = ix1 c2 from funext fun a => by match a with | ⟨0, _⟩ => rfl)]

theorem r_v147 (x10 : (⟨S8192, .f32⟩ : BufTy).Contents (Elt Ideal)) (c0 : Fin 4) (c1 : Fin 2048) (c2 : Fin 8192) :
    val_main_v147 (F := Ideal) x10 (ix3 c0 c1 c2) = val_main_v146 (F := Ideal) x10 (ix3 (0 : Fin 1) (0 : Fin 1) c2) := by
  rw [val_main_v147_apply, (show idx_main_v147 (ix3 c0 c1 c2) = ix3 (0 : Fin 1) (0 : Fin 1) c2 from funext fun a => by match a with | ⟨0, _⟩ => rfl | ⟨1, _⟩ => rfl | ⟨2, _⟩ => rfl)]

theorem r_v149 (x11 : (⟨S8192, .f32⟩ : BufTy).Contents (Elt Ideal)) (c0 : Fin 1) (c1 : Fin 1) (c2 : Fin 8192) :
    val_main_v149 (F := Ideal) x11 (ix3 c0 c1 c2) = x11 (ix1 c2) := by
  rw [val_main_v149_apply, (show idx_main_v149 (ix3 c0 c1 c2) = ix1 c2 from funext fun a => by match a with | ⟨0, _⟩ => rfl)]

theorem r_v150 (x11 : (⟨S8192, .f32⟩ : BufTy).Contents (Elt Ideal)) (c0 : Fin 4) (c1 : Fin 2048) (c2 : Fin 8192) :
    val_main_v150 (F := Ideal) x11 (ix3 c0 c1 c2) = val_main_v149 (F := Ideal) x11 (ix3 (0 : Fin 1) (0 : Fin 1) c2) := by
  rw [val_main_v150_apply, (show idx_main_v150 (ix3 c0 c1 c2) = ix3 (0 : Fin 1) (0 : Fin 1) c2 from funext fun a => by match a with | ⟨0, _⟩ => rfl | ⟨1, _⟩ => rfl | ⟨2, _⟩ => rfl)]

theorem r_v153 (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 x5 : (⟨S2048, .f32⟩ : BufTy).Contents (Elt Ideal)) (x10 x11 : (⟨S8192, .f32⟩ : BufTy).Contents (Elt Ideal)) (c0 : Fin 4) (c1 : Fin 2048) :
    val_main_v153 (F := Ideal) x0 x1 x3 x4 x5 x10 x11 (ix2 c0 c1) = (val_main_cst_41 (F := Ideal)) (Shape.Idx.first h_S_) + ∑ k : Fin 8192, (val_main_v152 (F := Ideal) x0 x1 x3 x4 x5 x10 x11) (ix3 c0 c1 k) := by
  rw [val_main_v153_apply, (show idx_main_v153 (ix2 c0 c1) = ix3 c0 c1 from funext fun k => funext fun a => by match a with | ⟨0, _⟩ => rfl | ⟨1, _⟩ => rfl | ⟨2, _⟩ => rfl)]

theorem r_v154 (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 x5 : (⟨S2048, .f32⟩ : BufTy).Contents (Elt Ideal)) (x10 x11 : (⟨S8192, .f32⟩ : BufTy).Contents (Elt Ideal)) (c0 : Fin 4) (c1 : Fin 2048) (c2 : Fin 1) :
    val_main_v154 (F := Ideal) x0 x1 x3 x4 x5 x10 x11 (ix3 c0 c1 c2) = val_main_v153 (F := Ideal) x0 x1 x3 x4 x5 x10 x11 (ix2 c0 c1) := by
  rw [val_main_v154_apply, (show idx_main_v154 (ix3 c0 c1 c2) = ix2 c0 c1 from funext fun a => by match a with | ⟨0, _⟩ => rfl | ⟨1, _⟩ => rfl)]

theorem r_v155 (i : S4x2048x1.Idx) :
    val_main_v155 (F := Ideal) i = val_main_cst_42 (F := Ideal) ix0 := val_main_v155_apply i

theorem r_call13_v1 (i : S4x2048x1.Idx) :
    val_main_call13_v1 (F := Ideal) i = val_main_call13_v0 (F := Ideal) ix0 := val_main_call13_v1_apply i

theorem r_v158 (i : S4x2048x1.Idx) :
    val_main_v158 (F := Ideal) i = val_main_cst_44 (F := Ideal) ix0 := val_main_v158_apply i

theorem r_v160 (i : S4x2048x1.Idx) :
    val_main_v160 (F := Ideal) i = val_main_cst_45 (F := Ideal) ix0 := val_main_v160_apply i

theorem r_v162 (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 x5 : (⟨S2048, .f32⟩ : BufTy).Contents (Elt Ideal)) (x10 x11 : (⟨S8192, .f32⟩ : BufTy).Contents (Elt Ideal)) (c0 : Fin 4) (c1 : Fin 2048) (c2 : Fin 8192) :
    val_main_v162 (F := Ideal) x0 x1 x3 x4 x5 x10 x11 (ix3 c0 c1 c2) = val_main_v161 (F := Ideal) x0 x1 x3 x4 x5 x10 x11 (ix3 c0 c1 (0 : Fin 1)) := by
  rw [val_main_v162_apply, (show idx_main_v162 (ix3 c0 c1 c2) = ix3 c0 c1 (0 : Fin 1) from funext fun a => by match a with | ⟨0, _⟩ => rfl | ⟨1, _⟩ => rfl | ⟨2, _⟩ => rfl)]

theorem r_call14_v1 (i : S4x2048x8192.Idx) :
    val_main_call14_v1 (F := Ideal) i = val_main_call14_v0 (F := Ideal) ix0 := val_main_call14_v1_apply i

theorem r_call14_v4 (i : S4x2048x8192.Idx) :
    val_main_call14_v4 (F := Ideal) i = val_main_call14_v3 (F := Ideal) ix0 := val_main_call14_v4_apply i

theorem r_v168 (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 x5 : (⟨S2048, .f32⟩ : BufTy).Contents (Elt Ideal)) (x10 x11 : (⟨S8192, .f32⟩ : BufTy).Contents (Elt Ideal)) (c0 : Fin 4) (c1 : Fin 2048) (c2 : Fin 8192) :
    val_main_v168 (F := Ideal) x0 x1 x3 x4 x5 x10 x11 (ix3 c0 c1 c2) = val_main_v161 (F := Ideal) x0 x1 x3 x4 x5 x10 x11 (ix3 c0 c1 (0 : Fin 1)) := by
  rw [val_main_v168_apply, (show idx_main_v168 (ix3 c0 c1 c2) = ix3 c0 c1 (0 : Fin 1) from funext fun a => by match a with | ⟨0, _⟩ => rfl | ⟨1, _⟩ => rfl | ⟨2, _⟩ => rfl)]

theorem r_v174 (x9 : (⟨S2048x8192, .f32⟩ : BufTy).Contents (Elt Ideal)) (i : S2048x8192.Idx) :
    val_main_v174 (F := Ideal) x9 i = val_main_v173 (F := Ideal) x9 ix0 := val_main_v174_apply x9 i

theorem r_call17_v1 (i : S2048x8192.Idx) :
    val_main_call17_v1 (F := Ideal) i = val_main_call17_v0 (F := Ideal) ix0 := val_main_call17_v1_apply i

theorem r_call17_v4 (i : S2048x8192.Idx) :
    val_main_call17_v4 (F := Ideal) i = val_main_call17_v3 (F := Ideal) ix0 := val_main_call17_v4_apply i

theorem r_v180 (x9 : (⟨S2048x8192, .f32⟩ : BufTy).Contents (Elt Ideal)) (i : S2048x8192.Idx) :
    val_main_v180 (F := Ideal) x9 i = val_main_v173 (F := Ideal) x9 ix0 := val_main_v180_apply x9 i

theorem r_v182 (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 x5 : (⟨S2048, .f32⟩ : BufTy).Contents (Elt Ideal)) (x9 : (⟨S2048x8192, .f32⟩ : BufTy).Contents (Elt Ideal)) (x10 x11 : (⟨S8192, .f32⟩ : BufTy).Contents (Elt Ideal)) (c0 : Fin 4) (c1 : Fin 2048) (c2 : Fin 2048) :
    val_main_v182 (F := Ideal) x0 x1 x3 x4 x5 x9 x10 x11 (ix3 c0 c1 c2) = ∑ k : Fin 8192, (val_main_v169 (F := Ideal) x0 x1 x3 x4 x5 x10 x11) (ix3 c0 c1 k) * (val_main_v181 (F := Ideal) x9) (ix2 c2 k) := by
  rw [val_main_v182_apply, (show lidx_main_v182 (ix3 c0 c1 c2) = ix3 c0 c1 from funext fun k => funext fun a => by match a with | ⟨0, _⟩ => rfl | ⟨1, _⟩ => rfl | ⟨2, _⟩ => rfl),
    (show ridx_main_v182 (ix3 c0 c1 c2) = ix2 c2 from funext fun k => funext fun a => by match a with | ⟨0, _⟩ => rfl | ⟨1, _⟩ => rfl)]

end Cert.RefSide

end
-- ==== Proof.RefSideMix.lean ====
import proofs.«156918_j26774826123920_2_alg».proof.Proof.RefReadP
import proofs.«156918_j26774826123920_2_alg».proof.Proof.Spec
import proofs.«156918_j26774826123920_2_alg».proof.Proof.RefSideReads

noncomputable section

namespace Cert.RefSide

open Cert.ReferenceIdeal Cert.ReferenceIdeal.Gen Cert.ReferenceIdeal.ReadP Idealize.ShloMosaic Idealize.ShloMosaic.ValueIdx

/-! The token shift: the row before (the zero word before the first row), and the mixed rows `x + dx · μ`. -/

/-- The shifted array at `(b, t, d)`: the zero word for the first token, the previous token's entry otherwise. -/
theorem shifted_at (x0 : (⟨S4x2048x2048, .f32⟩ : BufTy).Contents (Elt Ideal)) (b : Fin 4) (t : Fin 2048) (d : Fin 2048) :
    val_main_v2 (F := Ideal) x0 (ix3 b t d)
      = if t.val = 0 then Spec.W 0x00000000#32 else x0 (ix3 b (⟨t.val - 1, by omega⟩ : Fin 2048) d) := by
  unfold val_main_v2
  by_cases ht : t.val = 0
  · rw [if_pos ht]
    refine (concatenate_pair_apply_left (t := S4x2048x2048) (s₁ := S4x1x2048) (s₂ := S4x2047x2048) _ _ _ _ (ix3 b t d) rfl (ix3 b (0 : Fin 1) d) (fun a => ?_)).trans ?_
    · match a with
      | ⟨0, _⟩ => rfl
      | ⟨1, _⟩ => exact ht.symm
      | ⟨2, _⟩ => rfl
    · rw [val_main_v0_apply]; rfl
  · rw [if_neg ht]
    have h1 : t.val - 1 < 2047 := by omega
    refine (concatenate_pair_apply_right (t := S4x2048x2048) (s₁ := S4x1x2048) (s₂ := S4x2047x2048) _ _ _ _ (ix3 b t d) rfl rfl (ix3 b (⟨t.val - 1, h1⟩ : Fin 2047) d) (fun a ha => ?_) ?_).trans ?_
    · match a with
      | ⟨0, _⟩ => rfl
      | ⟨1, _⟩ => exact absurd rfl ha
      | ⟨2, _⟩ => rfl
    · show t.val - 1 + 1 = t.val
      omega
    · rw [val_main_v1_apply]
      exact congrArg x0 (funext fun a => by match a with | ⟨0, _⟩ => rfl | ⟨1, _⟩ => rfl | ⟨2, _⟩ => rfl)

/-- The first map's input row: the token's row plus its shift difference times the mixing row. -/
theorem mix_k (x0 : (⟨S4x2048x2048, .f32⟩ : BufTy).Contents (Elt Ideal)) (x1 : (⟨S1x1x2048, .f32⟩ : BufTy).Contents (Elt Ideal)) (b : Fin 4) (t : Fin 2048) (d : Fin 2048) :
    val_main_v6 (F := Ideal) x0 x1 (ix3 b t d) = Spec.mix (fun d => x1 (ix3 0 0 d)) (Spec.xrow x0 b t) (Spec.dxrow x0 b t) d := by
  simp only [val_main_v6_apply, val_main_v5_apply, val_main_v3_apply, r_v4, shifted_at]
  rfl

/-- The second map's input row, with its own mixing row. -/
theorem mix_r (x0 : (⟨S4x2048x2048, .f32⟩ : BufTy).Contents (Elt Ideal)) (x2 : (⟨S1x1x2048, .f32⟩ : BufTy).Contents (Elt Ideal)) (b : Fin 4) (t : Fin 2048) (d : Fin 2048) :
    val_main_v66 (F := Ideal) x0 x2 (ix3 b t d) = Spec.mix (fun d => x2 (ix3 0 0 d)) (Spec.xrow x0 b t) (Spec.dxrow x0 b t) d := by
  simp only [val_main_v66_apply, val_main_v65_apply, val_main_v3_apply, r_v64, shifted_at]
  rfl

/-- The second result: the last token's row of every batch. -/
theorem last_at (x0 : (⟨S4x2048x2048, .f32⟩ : BufTy).Contents (Elt Ideal)) (b : Fin 4) (u : Fin 1) (d : Fin 2048) :
    val_main_v184 (F := Ideal) x0 (ix3 b u d) = x0 (ix3 b (⟨2047, by omega⟩ : Fin 2048) d) := by
  rw [val_main_v184_apply]
  refine congrArg x0 (funext fun a => ?_)
  match a with
  | ⟨0, _⟩ => rfl
  | ⟨1, _⟩ => exact Fin.ext (by show 2047 + u.val = 2047; omega)
  | ⟨2, _⟩ => rfl

end Cert.RefSide

end
-- ==== Proof.RefSideWeights.lean ====
import proofs.«156918_j26774826123920_2_alg».proof.Proof.RefReadP
import proofs.«156918_j26774826123920_2_alg».proof.Proof.Spec
import proofs.«156918_j26774826123920_2_alg».proof.Proof.RefSideReads

noncomputable section

namespace Cert.RefSide

open Cert.ReferenceIdeal Cert.ReferenceIdeal.Gen Cert.ReferenceIdeal.ReadP Idealize.ShloMosaic Idealize.ShloMosaic.ValueIdx

/-! The reference's weight quantisation, read entry by entry.

A weight matrix has one scale, the mean of its absolute values over both axes clipped below by a tiny word; every
entry is divided by it, clipped to [-1, 1], rounded in the straight-through spelling and multiplied back. -/

/-! ### The 8192×2048 weight matrix of the k map -/

/-- The matrix's one scale: the mean absolute value over the whole matrix, clipped below. -/
theorem wscale_k (x3 : (⟨S8192x2048, .f32⟩ : BufTy).Contents (Elt Ideal)) :
    val_main_v52 (F := Ideal) x3 ix0 = Spec.wscale (Spec.W 0x4B800000#32) (Spec.total x3) := by
  simp only [val_main_v52_apply, val_main_call3_v0_apply, val_main_cst_14_apply, val_main_v51_apply, val_main_v50_apply, val_main_cst_12_apply, val_main_cst_13_apply, val_main_v49_apply]
  rfl

/-- An entry quantised to a sign or zero in the straight-through spelling, re-scaled. -/
theorem wq_k (x3 : (⟨S8192x2048, .f32⟩ : BufTy).Contents (Elt Ideal)) (i : Fin 8192) (j : Fin 2048) :
    val_main_v60 (F := Ideal) x3 (ix2 i j) = Spec.wR (Spec.W 0x4B800000#32) x3 i j := by
  simp only [val_main_v60_apply, r_v59, val_main_v58_apply, val_main_v57_apply, val_main_v56_apply, val_main_v55_apply, val_main_call4_v2_apply, r_call4_v4, r_call4_v1, val_main_call4_v3_apply, val_main_call4_v0_apply,
    val_main_cst_15_apply, val_main_cst_16_apply, val_main_v54_apply, r_v53, wscale_k]
  rfl

/-! ### The 2048×2048 weight matrix of the r map -/

/-- The matrix's one scale: the mean absolute value over the whole matrix, clipped below. -/
theorem wscale_r (x6 : (⟨S2048x2048, .f32⟩ : BufTy).Contents (Elt Ideal)) :
    val_main_v112 (F := Ideal) x6 ix0 = Spec.wscale (Spec.W 0x4A800000#32) (Spec.total x6) := by
  simp only [val_main_v112_apply, val_main_call10_v0_apply, val_main_cst_31_apply, val_main_v111_apply, val_main_v110_apply, val_main_cst_29_apply, val_main_cst_30_apply, val_main_v109_apply]
  rfl

/-- An entry quantised to a sign or zero in the straight-through spelling, re-scaled. -/
theorem wq_r (x6 : (⟨S2048x2048, .f32⟩ : BufTy).Contents (Elt Ideal)) (i : Fin 2048) (j : Fin 2048) :
    val_main_v120 (F := Ideal) x6 (ix2 i j) = Spec.wR (Spec.W 0x4A800000#32) x6 i j := by
  simp only [val_main_v120_apply, r_v119, val_main_v118_apply, val_main_v117_apply, val_main_v116_apply, val_main_v115_apply, val_main_call11_v2_apply, r_call11_v4, r_call11_v1, val_main_call11_v3_apply, val_main_call11_v0_apply,
    val_main_cst_32_apply, val_main_cst_33_apply, val_main_v114_apply, r_v113, wscale_r]
  rfl

/-! ### The 2048×8192 weight matrix of the v map -/

/-- The matrix's one scale: the mean absolute value over the whole matrix, clipped below. -/
theorem wscale_v (x9 : (⟨S2048x8192, .f32⟩ : BufTy).Contents (Elt Ideal)) :
    val_main_v173 (F := Ideal) x9 ix0 = Spec.wscale (Spec.W 0x4B800000#32) (Spec.total x9) := by
  simp only [val_main_v173_apply, val_main_call16_v0_apply, val_main_cst_50_apply, val_main_v172_apply, val_main_v171_apply, val_main_cst_48_apply, val_main_cst_49_apply, val_main_v170_apply]
  rfl

/-- An entry quantised to a sign or zero in the straight-through spelling, re-scaled. -/
theorem wq_v (x9 : (⟨S2048x8192, .f32⟩ : BufTy).Contents (Elt Ideal)) (i : Fin 2048) (j : Fin 8192) :
    val_main_v181 (F := Ideal) x9 (ix2 i j) = Spec.wR (Spec.W 0x4B800000#32) x9 i j := by
  simp only [val_main_v181_apply, r_v180, val_main_v179_apply, val_main_v178_apply, val_main_v177_apply, val_main_v176_apply, val_main_call17_v2_apply, r_call17_v4, r_call17_v1, val_main_call17_v3_apply, val_main_call17_v0_apply,
    val_main_cst_51_apply, val_main_cst_52_apply, val_main_v175_apply, r_v174, wscale_v]
  rfl

end Cert.RefSide

end
-- ==== Proof.RefSideActK.lean ====
import proofs.«156918_j26774826123920_2_alg».proof.Proof.RefReadP
import proofs.«156918_j26774826123920_2_alg».proof.Proof.Spec
import proofs.«156918_j26774826123920_2_alg».proof.Proof.RefSideReads

noncomputable section

namespace Cert.RefSide

open Cert.ReferenceIdeal Cert.ReferenceIdeal.Gen Cert.ReferenceIdeal.ReadP Idealize.ShloMosaic Idealize.ShloMosaic.ValueIdx

/-! The reference's normalise-and-quantise chain, read row by row.

Each of the three quantised linear maps first normalises every token row of its input (mean and variance over the
row, a gain and a bias per column) and then quantises it in the straight-through spelling with one scale per row.
Read at `(p, q, r)` every stage depends only on row `(p, q)` of the chain's input array, so each stage is stated
as the specification's row function of that row. -/

/-! ### The k chain: rows of length 2048 -/

/-- The row's mean, held with a trailing unit axis. -/
theorem mean_k (x0 : (⟨S4x2048x2048, .f32⟩ : BufTy).Contents (Elt Ideal)) (x1 : (⟨S1x1x2048, .f32⟩ : BufTy).Contents (Elt Ideal)) (p : Fin 4) (q : Fin 2048) (u : Fin 1) :
    val_main_v10 (F := Ideal) x0 x1 (ix3 p q u) = Spec.mean (Spec.W 0x45000000#32) (fun k => val_main_v6 (F := Ideal) x0 x1 (ix3 p q k)) := by
  simp only [val_main_v10_apply, r_v8, r_v7, r_v9, val_main_cst_0_apply, val_main_cst_1_apply]
  rfl

/-- An entry less its row's mean (the copy the variance squares). -/
theorem cen_k (x0 : (⟨S4x2048x2048, .f32⟩ : BufTy).Contents (Elt Ideal)) (x1 : (⟨S1x1x2048, .f32⟩ : BufTy).Contents (Elt Ideal)) (p : Fin 4) (q : Fin 2048) (r : Fin 2048) :
    val_main_v12 (F := Ideal) x0 x1 (ix3 p q r) = Spec.cen (Spec.W 0x45000000#32) (fun k => val_main_v6 (F := Ideal) x0 x1 (ix3 p q k)) r := by
  simp only [val_main_v12_apply, r_v11, mean_k]
  rfl

/-- An entry less its row's mean (the copy the normalisation scales). -/
theorem cen'_k (x0 : (⟨S4x2048x2048, .f32⟩ : BufTy).Contents (Elt Ideal)) (x1 : (⟨S1x1x2048, .f32⟩ : BufTy).Contents (Elt Ideal)) (p : Fin 4) (q : Fin 2048) (r : Fin 2048) :
    val_main_v19 (F := Ideal) x0 x1 (ix3 p q r) = Spec.cen (Spec.W 0x45000000#32) (fun k => val_main_v6 (F := Ideal) x0 x1 (ix3 p q k)) r := by
  simp only [val_main_v19_apply, r_v18, mean_k]
  rfl

/-- The normalised row: centred, scaled by the inverse root of the variance plus ε, gain and bias per column. -/
theorem lnorm_k (x0 : (⟨S4x2048x2048, .f32⟩ : BufTy).Contents (Elt Ideal)) (x1 : (⟨S1x1x2048, .f32⟩ : BufTy).Contents (Elt Ideal)) (x4 : (⟨S2048, .f32⟩ : BufTy).Contents (Elt Ideal)) (x5 : (⟨S2048, .f32⟩ : BufTy).Contents (Elt Ideal)) (p : Fin 4) (q : Fin 2048) (r : Fin 2048) :
    val_main_v30 (F := Ideal) x0 x1 x4 x5 (ix3 p q r) = Spec.lnorm (Spec.W 0x45000000#32) (fun k => x4 (ix1 k)) (fun k => x5 (ix1 k)) (fun k => val_main_v6 (F := Ideal) x0 x1 (ix3 p q k)) r := by
  simp only [val_main_v30_apply, val_main_v27_apply, val_main_v24_apply, r_v29, r_v28, r_v26, r_v25, r_v23, val_main_v22_apply, val_main_v21_apply, r_v20, val_main_cst_4_apply,
    val_main_v17_apply, r_v15, r_v14, val_main_cst_2_apply, r_v16, val_main_cst_3_apply, val_main_v13_apply, cen_k, cen'_k]
  rfl

/-- The row's quantisation scale: the clipped mean absolute value times 2.5, divided by 127. -/
theorem scale_k (x0 : (⟨S4x2048x2048, .f32⟩ : BufTy).Contents (Elt Ideal)) (x1 : (⟨S1x1x2048, .f32⟩ : BufTy).Contents (Elt Ideal)) (x4 : (⟨S2048, .f32⟩ : BufTy).Contents (Elt Ideal)) (x5 : (⟨S2048, .f32⟩ : BufTy).Contents (Elt Ideal)) (p : Fin 4) (q : Fin 2048) (u : Fin 1) :
    val_main_v40 (F := Ideal) x0 x1 x4 x5 (ix3 p q u) = Spec.scR (Spec.W 0x45000000#32) (Spec.lnorm (Spec.W 0x45000000#32) (fun k => x4 (ix1 k)) (fun k => x5 (ix1 k)) (fun k => val_main_v6 (F := Ideal) x0 x1 (ix3 p q k))) := by
  simp only [val_main_v40_apply, val_main_v38_apply, val_main_v36_apply, r_call0_v1, val_main_call0_v0_apply, val_main_cst_7_apply, val_main_v35_apply, r_v33, r_v32, val_main_cst_5_apply, r_v34, val_main_cst_6_apply,
    val_main_v31_apply, r_v37, val_main_cst_8_apply, r_v39, val_main_cst_9_apply, lnorm_k]
  rfl

/-- The quantised row in the straight-through spelling, re-scaled. -/
theorem xq_k (x0 : (⟨S4x2048x2048, .f32⟩ : BufTy).Contents (Elt Ideal)) (x1 : (⟨S1x1x2048, .f32⟩ : BufTy).Contents (Elt Ideal)) (x4 : (⟨S2048, .f32⟩ : BufTy).Contents (Elt Ideal)) (x5 : (⟨S2048, .f32⟩ : BufTy).Contents (Elt Ideal)) (p : Fin 4) (q : Fin 2048) (r : Fin 2048) :
    val_main_v48 (F := Ideal) x0 x1 x4 x5 (ix3 p q r) = Spec.xqR (Spec.W 0x45000000#32) (fun k => x4 (ix1 k)) (fun k => x5 (ix1 k)) (fun k => val_main_v6 (F := Ideal) x0 x1 (ix3 p q k)) r := by
  simp only [val_main_v48_apply, r_v47, val_main_v46_apply, val_main_v45_apply, val_main_v44_apply, val_main_v43_apply, val_main_call1_v2_apply, r_call1_v4, r_call1_v1, val_main_call1_v3_apply, val_main_call1_v0_apply,
    val_main_cst_10_apply, val_main_cst_11_apply, val_main_v42_apply, r_v41, scale_k, lnorm_k]
  rfl

end Cert.RefSide

end
-- ==== Proof.RefSideActR.lean ====
import proofs.«156918_j26774826123920_2_alg».proof.Proof.RefReadP
import proofs.«156918_j26774826123920_2_alg».proof.Proof.Spec
import proofs.«156918_j26774826123920_2_alg».proof.Proof.RefSideReads

noncomputable section

namespace Cert.RefSide

open Cert.ReferenceIdeal Cert.ReferenceIdeal.Gen Cert.ReferenceIdeal.ReadP Idealize.ShloMosaic Idealize.ShloMosaic.ValueIdx

/-! The reference's normalise-and-quantise chain, read row by row.

Each of the three quantised linear maps first normalises every token row of its input (mean and variance over the
row, a gain and a bias per column) and then quantises it in the straight-through spelling with one scale per row.
Read at `(p, q, r)` every stage depends only on row `(p, q)` of the chain's input array, so each stage is stated
as the specification's row function of that row. -/

/-! ### The r chain: rows of length 2048 -/

/-- The row's mean, held with a trailing unit axis. -/
theorem mean_r (x0 : (⟨S4x2048x2048, .f32⟩ : BufTy).Contents (Elt Ideal)) (x2 : (⟨S1x1x2048, .f32⟩ : BufTy).Contents (Elt Ideal)) (p : Fin 4) (q : Fin 2048) (u : Fin 1) :
    val_main_v70 (F := Ideal) x0 x2 (ix3 p q u) = Spec.mean (Spec.W 0x45000000#32) (fun k => val_main_v66 (F := Ideal) x0 x2 (ix3 p q k)) := by
  simp only [val_main_v70_apply, r_v68, r_v67, r_v69, val_main_cst_17_apply, val_main_cst_18_apply]
  rfl

/-- An entry less its row's mean (the copy the variance squares). -/
theorem cen_r (x0 : (⟨S4x2048x2048, .f32⟩ : BufTy).Contents (Elt Ideal)) (x2 : (⟨S1x1x2048, .f32⟩ : BufTy).Contents (Elt Ideal)) (p : Fin 4) (q : Fin 2048) (r : Fin 2048) :
    val_main_v72 (F := Ideal) x0 x2 (ix3 p q r) = Spec.cen (Spec.W 0x45000000#32) (fun k => val_main_v66 (F := Ideal) x0 x2 (ix3 p q k)) r := by
  simp only [val_main_v72_apply, r_v71, mean_r]
  rfl

/-- An entry less its row's mean (the copy the normalisation scales). -/
theorem cen'_r (x0 : (⟨S4x2048x2048, .f32⟩ : BufTy).Contents (Elt Ideal)) (x2 : (⟨S1x1x2048, .f32⟩ : BufTy).Contents (Elt Ideal)) (p : Fin 4) (q : Fin 2048) (r : Fin 2048) :
    val_main_v79 (F := Ideal) x0 x2 (ix3 p q r) = Spec.cen (Spec.W 0x45000000#32) (fun k => val_main_v66 (F := Ideal) x0 x2 (ix3 p q k)) r := by
  simp only [val_main_v79_apply, r_v78, mean_r]
  rfl

/-- The normalised row: centred, scaled by the inverse root of the variance plus ε, gain and bias per column. -/
theorem lnorm_r (x0 : (⟨S4x2048x2048, .f32⟩ : BufTy).Contents (Elt Ideal)) (x2 : (⟨S1x1x2048, .f32⟩ : BufTy).Contents (Elt Ideal)) (x7 : (⟨S2048, .f32⟩ : BufTy).Contents (Elt Ideal)) (x8 : (⟨S2048, .f32⟩ : BufTy).Contents (Elt Ideal)) (p : Fin 4) (q : Fin 2048) (r : Fin 2048) :
    val_main_v90 (F := Ideal) x0 x2 x7 x8 (ix3 p q r) = Spec.lnorm (Spec.W 0x45000000#32) (fun k => x7 (ix1 k)) (fun k => x8 (ix1 k)) (fun k => val_main_v66 (F := Ideal) x0 x2 (ix3 p q k)) r := by
  simp only [val_main_v90_apply, val_main_v87_apply, val_main_v84_apply, r_v89, r_v88, r_v86, r_v85, r_v83, val_main_v82_apply, val_main_v81_apply, r_v80, val_main_cst_21_apply,
    val_main_v77_apply, r_v75, r_v74, val_main_cst_19_apply, r_v76, val_main_cst_20_apply, val_main_v73_apply, cen_r, cen'_r]
  rfl

/-- The row's quantisation scale: the clipped mean absolute value times 2.5, divided by 127. -/
theorem scale_r (x0 : (⟨S4x2048x2048, .f32⟩ : BufTy).Contents (Elt Ideal)) (x2 : (⟨S1x1x2048, .f32⟩ : BufTy).Contents (Elt Ideal)) (x7 : (⟨S2048, .f32⟩ : BufTy).Contents (Elt Ideal)) (x8 : (⟨S2048, .f32⟩ : BufTy).Contents (Elt Ideal)) (p : Fin 4) (q : Fin 2048) (u : Fin 1) :
    val_main_v100 (F := Ideal) x0 x2 x7 x8 (ix3 p q u) = Spec.scR (Spec.W 0x45000000#32) (Spec.lnorm (Spec.W 0x45000000#32) (fun k => x7 (ix1 k)) (fun k => x8 (ix1 k)) (fun k => val_main_v66 (F := Ideal) x0 x2 (ix3 p q k))) := by
  simp only [val_main_v100_apply, val_main_v98_apply, val_main_v96_apply, r_call7_v1, val_main_call7_v0_apply, val_main_cst_24_apply, val_main_v95_apply, r_v93, r_v92, val_main_cst_22_apply, r_v94, val_main_cst_23_apply,
    val_main_v91_apply, r_v97, val_main_cst_25_apply, r_v99, val_main_cst_26_apply, lnorm_r]
  rfl

/-- The quantised row in the straight-through spelling, re-scaled. -/
theorem xq_r (x0 : (⟨S4x2048x2048, .f32⟩ : BufTy).Contents (Elt Ideal)) (x2 : (⟨S1x1x2048, .f32⟩ : BufTy).Contents (Elt Ideal)) (x7 : (⟨S2048, .f32⟩ : BufTy).Contents (Elt Ideal)) (x8 : (⟨S2048, .f32⟩ : BufTy).Contents (Elt Ideal)) (p : Fin 4) (q : Fin 2048) (r : Fin 2048) :
    val_main_v108 (F := Ideal) x0 x2 x7 x8 (ix3 p q r) = Spec.xqR (Spec.W 0x45000000#32) (fun k => x7 (ix1 k)) (fun k => x8 (ix1 k)) (fun k => val_main_v66 (F := Ideal) x0 x2 (ix3 p q k)) r := by
  simp only [val_main_v108_apply, r_v107, val_main_v106_apply, val_main_v105_apply, val_main_v104_apply, val_main_v103_apply, val_main_call8_v2_apply, r_call8_v4, r_call8_v1, val_main_call8_v3_apply, val_main_call8_v0_apply,
    val_main_cst_27_apply, val_main_cst_28_apply, val_main_v102_apply, r_v101, scale_r, lnorm_r]
  rfl

end Cert.RefSide

end
-- ==== Proof.RefSideActV.lean ====
import proofs.«156918_j26774826123920_2_alg».proof.Proof.RefReadP
import proofs.«156918_j26774826123920_2_alg».proof.Proof.Spec
import proofs.«156918_j26774826123920_2_alg».proof.Proof.RefSideReads

noncomputable section

namespace Cert.RefSide

open Cert.ReferenceIdeal Cert.ReferenceIdeal.Gen Cert.ReferenceIdeal.ReadP Idealize.ShloMosaic Idealize.ShloMosaic.ValueIdx

/-! The reference's normalise-and-quantise chain, read row by row.

Each of the three quantised linear maps first normalises every token row of its input (mean and variance over the
row, a gain and a bias per column) and then quantises it in the straight-through spelling with one scale per row.
Read at `(p, q, r)` every stage depends only on row `(p, q)` of the chain's input array, so each stage is stated
as the specification's row function of that row. -/

/-! ### The v chain: rows of length 8192 -/

/-- The row's mean, held with a trailing unit axis. -/
theorem mean_v (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 : (⟨S2048, .f32⟩ : BufTy).Contents (Elt Ideal)) (x5 : (⟨S2048, .f32⟩ : BufTy).Contents (Elt Ideal)) (p : Fin 4) (q : Fin 2048) (u : Fin 1) :
    val_main_v131 (F := Ideal) x0 x1 x3 x4 x5 (ix3 p q u) = Spec.mean (Spec.W 0x46000000#32) (fun k => val_main_v63 (F := Ideal) x0 x1 x3 x4 x5 (ix3 p q k)) := by
  simp only [val_main_v131_apply, r_v129, r_v128, r_v130, val_main_cst_36_apply, val_main_cst_37_apply]
  rfl

/-- An entry less its row's mean (the copy the variance squares). -/
theorem cen_v (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 : (⟨S2048, .f32⟩ : BufTy).Contents (Elt Ideal)) (x5 : (⟨S2048, .f32⟩ : BufTy).Contents (Elt Ideal)) (p : Fin 4) (q : Fin 2048) (r : Fin 8192) :
    val_main_v133 (F := Ideal) x0 x1 x3 x4 x5 (ix3 p q r) = Spec.cen (Spec.W 0x46000000#32) (fun k => val_main_v63 (F := Ideal) x0 x1 x3 x4 x5 (ix3 p q k)) r := by
  simp only [val_main_v133_apply, r_v132, mean_v]
  rfl

/-- An entry less its row's mean (the copy the normalisation scales). -/
theorem cen'_v (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 : (⟨S2048, .f32⟩ : BufTy).Contents (Elt Ideal)) (x5 : (⟨S2048, .f32⟩ : BufTy).Contents (Elt Ideal)) (p : Fin 4) (q : Fin 2048) (r : Fin 8192) :
    val_main_v140 (F := Ideal) x0 x1 x3 x4 x5 (ix3 p q r) = Spec.cen (Spec.W 0x46000000#32) (fun k => val_main_v63 (F := Ideal) x0 x1 x3 x4 x5 (ix3 p q k)) r := by
  simp only [val_main_v140_apply, r_v139, mean_v]
  rfl

/-- The normalised row: centred, scaled by the inverse root of the variance plus ε, gain and bias per column. -/
theorem lnorm_v (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 : (⟨S2048, .f32⟩ : BufTy).Contents (Elt Ideal)) (x5 : (⟨S2048, .f32⟩ : BufTy).Contents (Elt Ideal)) (x10 : (⟨S8192, .f32⟩ : BufTy).Contents (Elt Ideal)) (x11 : (⟨S8192, .f32⟩ : BufTy).Contents (Elt Ideal)) (p : Fin 4) (q : Fin 2048) (r : Fin 8192) :
    val_main_v151 (F := Ideal) x0 x1 x3 x4 x5 x10 x11 (ix3 p q r) = Spec.lnorm (Spec.W 0x46000000#32) (fun k => x10 (ix1 k)) (fun k => x11 (ix1 k)) (fun k => val_main_v63 (F := Ideal) x0 x1 x3 x4 x5 (ix3 p q k)) r := by
  simp only [val_main_v151_apply, val_main_v148_apply, val_main_v145_apply, r_v150, r_v149, r_v147, r_v146, r_v144, val_main_v143_apply, val_main_v142_apply, r_v141, val_main_cst_40_apply,
    val_main_v138_apply, r_v136, r_v135, val_main_cst_38_apply, r_v137, val_main_cst_39_apply, val_main_v134_apply, cen_v, cen'_v]
  rfl

/-- The row's quantisation scale: the clipped mean absolute value times 2.5, divided by 127. -/
theorem scale_v (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 : (⟨S2048, .f32⟩ : BufTy).Contents (Elt Ideal)) (x5 : (⟨S2048, .f32⟩ : BufTy).Contents (Elt Ideal)) (x10 : (⟨S8192, .f32⟩ : BufTy).Contents (Elt Ideal)) (x11 : (⟨S8192, .f32⟩ : BufTy).Contents (Elt Ideal)) (p : Fin 4) (q : Fin 2048) (u : Fin 1) :
    val_main_v161 (F := Ideal) x0 x1 x3 x4 x5 x10 x11 (ix3 p q u) = Spec.scR (Spec.W 0x46000000#32) (Spec.lnorm (Spec.W 0x46000000#32) (fun k => x10 (ix1 k)) (fun k => x11 (ix1 k)) (fun k => val_main_v63 (F := Ideal) x0 x1 x3 x4 x5 (ix3 p q k))) := by
  simp only [val_main_v161_apply, val_main_v159_apply, val_main_v157_apply, r_call13_v1, val_main_call13_v0_apply, val_main_cst_43_apply, val_main_v156_apply, r_v154, r_v153, val_main_cst_41_apply, r_v155, val_main_cst_42_apply,
    val_main_v152_apply, r_v158, val_main_cst_44_apply, r_v160, val_main_cst_45_apply, lnorm_v]
  rfl

/-- The quantised row in the straight-through spelling, re-scaled. -/
theorem xq_v (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 : (⟨S2048, .f32⟩ : BufTy).Contents (Elt Ideal)) (x5 : (⟨S2048, .f32⟩ : BufTy).Contents (Elt Ideal)) (x10 : (⟨S8192, .f32⟩ : BufTy).Contents (Elt Ideal)) (x11 : (⟨S8192, .f32⟩ : BufTy).Contents (Elt Ideal)) (p : Fin 4) (q : Fin 2048) (r : Fin 8192) :
    val_main_v169 (F := Ideal) x0 x1 x3 x4 x5 x10 x11 (ix3 p q r) = Spec.xqR (Spec.W 0x46000000#32) (fun k => x10 (ix1 k)) (fun k => x11 (ix1 k)) (fun k => val_main_v63 (F := Ideal) x0 x1 x3 x4 x5 (ix3 p q k)) r := by
  simp only [val_main_v169_apply, r_v168, val_main_v167_apply, val_main_v166_apply, val_main_v165_apply, val_main_v164_apply, val_main_call14_v2_apply, r_call14_v4, r_call14_v1, val_main_call14_v3_apply, val_main_call14_v0_apply,
    val_main_cst_46_apply, val_main_cst_47_apply, val_main_v163_apply, r_v162, scale_v, lnorm_v]
  rfl

end Cert.RefSide

end
-- ==== Proof.RefSide.lean ====
import proofs.«156918_j26774826123920_2_alg».proof.Proof.RefReadP
import proofs.«156918_j26774826123920_2_alg».proof.Proof.Spec
import proofs.«156918_j26774826123920_2_alg».proof.Proof.RefSideReads
import proofs.«156918_j26774826123920_2_alg».proof.Proof.RefSideMix
import proofs.«156918_j26774826123920_2_alg».proof.Proof.RefSideWeights
import proofs.«156918_j26774826123920_2_alg».proof.Proof.RefSideActK
import proofs.«156918_j26774826123920_2_alg».proof.Proof.RefSideActR
import proofs.«156918_j26774826123920_2_alg».proof.Proof.RefSideActV

noncomputable section

namespace Cert.RefSide

open Cert.ReferenceIdeal Cert.ReferenceIdeal.Gen Cert.ReferenceIdeal.ReadP Idealize.ShloMosaic Idealize.ShloMosaic.ValueIdx

/-! The reference's two results at the specification's arrangement.

The first map's sum is rectified and squared; the second's goes through the logistic function spelt with the word
1.0; the third normalises and quantises the squared activations and contracts them with its own weights; the first
result is the product of the last two. The second result is the last token's row. -/

/-- The first map's output row: the rectified sum, squared. -/
theorem kact_at (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 : (⟨S2048, .f32⟩ : BufTy).Contents (Elt Ideal)) (x5 : (⟨S2048, .f32⟩ : BufTy).Contents (Elt Ideal)) (b : Fin 4) (t : Fin 2048) (h : Fin 8192) :
    val_main_v63 (F := Ideal) x0 x1 x3 x4 x5 (ix3 b t h) = Spec.kactR (Spec.W 0x45000000#32) (fun d => x4 (ix1 d)) (fun d => x5 (ix1 d)) (Spec.wR (Spec.W 0x4B800000#32) x3) (Spec.mix (fun d => x1 (ix3 0 0 d)) (Spec.xrow x0 b t) (Spec.dxrow x0 b t)) h := by
  simp only [val_main_v63_apply, val_main_v62_apply, r_call6_v0, val_main_call6_cst_apply, r_v61, xq_k, wq_k, mix_k]
  rfl

/-- The second map's sum. -/
theorem racc_at (x0 : (⟨S4x2048x2048, .f32⟩ : BufTy).Contents (Elt Ideal)) (x2 : (⟨S1x1x2048, .f32⟩ : BufTy).Contents (Elt Ideal)) (x6 : (⟨S2048x2048, .f32⟩ : BufTy).Contents (Elt Ideal)) (x7 : (⟨S2048, .f32⟩ : BufTy).Contents (Elt Ideal)) (x8 : (⟨S2048, .f32⟩ : BufTy).Contents (Elt Ideal)) (b : Fin 4) (t : Fin 2048) (e : Fin 2048) :
    val_main_v121 (F := Ideal) x0 x2 x6 x7 x8 (ix3 b t e) = Spec.raccR (Spec.W 0x45000000#32) (fun d => x7 (ix1 d)) (fun d => x8 (ix1 d)) (Spec.wR (Spec.W 0x4A800000#32) x6) (Spec.mix (fun d => x2 (ix3 0 0 d)) (Spec.xrow x0 b t) (Spec.dxrow x0 b t)) e := by
  simp only [r_v121, xq_r, wq_r, mix_r]
  rfl

/-- The logistic factor: one over one plus the exponential of the negated sum. -/
theorem sig_at (x0 : (⟨S4x2048x2048, .f32⟩ : BufTy).Contents (Elt Ideal)) (x2 : (⟨S1x1x2048, .f32⟩ : BufTy).Contents (Elt Ideal)) (x6 : (⟨S2048x2048, .f32⟩ : BufTy).Contents (Elt Ideal)) (x7 : (⟨S2048, .f32⟩ : BufTy).Contents (Elt Ideal)) (x8 : (⟨S2048, .f32⟩ : BufTy).Contents (Elt Ideal)) (b : Fin 4) (t : Fin 2048) (e : Fin 2048) :
    val_main_v127 (F := Ideal) x0 x2 x6 x7 x8 (ix3 b t e) = Spec.sigR (Spec.raccR (Spec.W 0x45000000#32) (fun d => x7 (ix1 d)) (fun d => x8 (ix1 d)) (Spec.wR (Spec.W 0x4A800000#32) x6) (Spec.mix (fun d => x2 (ix3 0 0 d)) (Spec.xrow x0 b t) (Spec.dxrow x0 b t)) e) := by
  simp only [val_main_v127_apply, r_v126, val_main_cst_35_apply, val_main_v125_apply, r_v124, val_main_cst_34_apply,
    val_main_v123_apply, val_main_v122_apply, racc_at]
  rfl

/-- The third map's sum, every entry scaled before it is summed. -/
theorem vacc_at (x0 : (⟨S4x2048x2048, .f32⟩ : BufTy).Contents (Elt Ideal)) (x1 : (⟨S1x1x2048, .f32⟩ : BufTy).Contents (Elt Ideal)) (x3 : (⟨S8192x2048, .f32⟩ : BufTy).Contents (Elt Ideal)) (x4 : (⟨S2048, .f32⟩ : BufTy).Contents (Elt Ideal)) (x5 : (⟨S2048, .f32⟩ : BufTy).Contents (Elt Ideal)) (x9 : (⟨S2048x8192, .f32⟩ : BufTy).Contents (Elt Ideal)) (x10 : (⟨S8192, .f32⟩ : BufTy).Contents (Elt Ideal)) (x11 : (⟨S8192, .f32⟩ : BufTy).Contents (Elt Ideal)) (b : Fin 4) (t : Fin 2048) (e : Fin 2048) :
    val_main_v182 (F := Ideal) x0 x1 x3 x4 x5 x9 x10 x11 (ix3 b t e) = Spec.vaccR (Spec.W 0x46000000#32) (fun d => x10 (ix1 d)) (fun d => x11 (ix1 d)) (Spec.wR (Spec.W 0x4B800000#32) x9) (Spec.kactR (Spec.W 0x45000000#32) (fun d => x4 (ix1 d)) (fun d => x5 (ix1 d)) (Spec.wR (Spec.W 0x4B800000#32) x3) (Spec.mix (fun d => x1 (ix3 0 0 d)) (Spec.xrow x0 b t) (Spec.dxrow x0 b t))) e := by
  simp only [r_v182, xq_v, wq_v, kact_at]
  rfl

/-- The first result at `(b, t, e)` is the specification's reference arrangement of the twelve arrays. -/
theorem ref_res (x0 : (⟨S4x2048x2048, .f32⟩ : BufTy).Contents (Elt Ideal)) (x1 : (⟨S1x1x2048, .f32⟩ : BufTy).Contents (Elt Ideal)) (x2 : (⟨S1x1x2048, .f32⟩ : BufTy).Contents (Elt Ideal)) (x3 : (⟨S8192x2048, .f32⟩ : BufTy).Contents (Elt Ideal)) (x4 : (⟨S2048, .f32⟩ : BufTy).Contents (Elt Ideal)) (x5 : (⟨S2048, .f32⟩ : BufTy).Contents (Elt Ideal)) (x6 : (⟨S2048x2048, .f32⟩ : BufTy).Contents (Elt Ideal)) (x7 : (⟨S2048, .f32⟩ : BufTy).Contents (Elt Ideal)) (x8 : (⟨S2048, .f32⟩ : BufTy).Contents (Elt Ideal)) (x9 : (⟨S2048x8192, .f32⟩ : BufTy).Contents (Elt Ideal)) (x10 : (⟨S8192, .f32⟩ : BufTy).Contents (Elt Ideal)) (x11 : (⟨S8192, .f32⟩ : BufTy).Contents (Elt Ideal)) (b : Fin 4) (t : Fin 2048) (e : Fin 2048) :
    val_main_v183 (F := Ideal) x0 x1 x2 x3 x4 x5 x6 x7 x8 x9 x10 x11 (ix3 b t e) = Cert.Spec.resR x0 x1 x2 x3 x4 x5 x6 x7 x8 x9 x10 x11 b t e := by
  simp only [val_main_v183_apply, sig_at, vacc_at]
  rfl

/-- The same as an equation of arrays. -/
theorem ref_res_fun (x0 : (⟨S4x2048x2048, .f32⟩ : BufTy).Contents (Elt Ideal)) (x1 : (⟨S1x1x2048, .f32⟩ : BufTy).Contents (Elt Ideal)) (x2 : (⟨S1x1x2048, .f32⟩ : BufTy).Contents (Elt Ideal)) (x3 : (⟨S8192x2048, .f32⟩ : BufTy).Contents (Elt Ideal)) (x4 : (⟨S2048, .f32⟩ : BufTy).Contents (Elt Ideal)) (x5 : (⟨S2048, .f32⟩ : BufTy).Contents (Elt Ideal)) (x6 : (⟨S2048x2048, .f32⟩ : BufTy).Contents (Elt Ideal)) (x7 : (⟨S2048, .f32⟩ : BufTy).Contents (Elt Ideal)) (x8 : (⟨S2048, .f32⟩ : BufTy).Contents (Elt Ideal)) (x9 : (⟨S2048x8192, .f32⟩ : BufTy).Contents (Elt Ideal)) (x10 : (⟨S8192, .f32⟩ : BufTy).Contents (Elt Ideal)) (x11 : (⟨S8192, .f32⟩ : BufTy).Contents (Elt Ideal)) :
    val_main_v183 (F := Ideal) x0 x1 x2 x3 x4 x5 x6 x7 x8 x9 x10 x11 = fun i => Cert.Spec.resR x0 x1 x2 x3 x4 x5 x6 x7 x8 x9 x10 x11 (i 0) (i 1) (i 2) := by
  funext i
  obtain ⟨b, t, e, rfl⟩ : ∃ (b : Fin 4) (t : Fin 2048) (e : Fin 2048), i = ix3 b t e := ⟨i 0, i 1, i 2, eq_ix3 i⟩
  exact ref_res x0 x1 x2 x3 x4 x5 x6 x7 x8 x9 x10 x11 b t e

/-- The second result at `(b, 0, d)` is the last token's entry. -/
theorem ref_last (x0 : (⟨S4x2048x2048, .f32⟩ : BufTy).Contents (Elt Ideal)) (b : Fin 4) (d : Fin 2048) :
    val_main_v184 (F := Ideal) x0 (ix3 b (0 : Fin 1) d) = x0 (ix3 b (⟨2047, by omega⟩ : Fin 2048) d) :=
  last_at x0 b 0 d

/-- The same as an equation of arrays, with the slice written out as the program writes it. -/
theorem ref_last_fun (x0 : (⟨S4x2048x2048, .f32⟩ : BufTy).Contents (Elt Ideal)) :
    extractStridedSlice S4x1x2048 ![0, 2047, 0] x0 slices_S4x2048x2048_S4x1x2048_0_2047_0
      = fun i => x0 (ix3 (i 0) (⟨2047, by omega⟩ : Fin 2048) (i 2)) := by
  rw [val_main_v184_eq]
  funext i
  obtain ⟨b, u, d, rfl⟩ : ∃ (b : Fin 4) (u : Fin 1) (d : Fin 2048), i = ix3 b u d := ⟨i 0, i 1, i 2, eq_ix3 i⟩
  exact last_at x0 b u d

end Cert.RefSide

end
-- ==== Proof.lean ====
/-
  The five conjuncts of `Cert.Claim` for a channel-mix block computed by three kernel regions (layer normalisation, int8
  activation quantisation and a ternary-weight matrix product, three times over) against its jnp reference.

  Frames. Each kernel program is run item by item: sixteen stretches of host operations (the token shift, the re-shapings,
  the three weight quantisations), the three regions, two closing host operations. A region's body is run once per grid
  point on its staged blocks; the first region computes its normalised rows into a scratch buffer at the first of the
  sixteen points of a row block and reads them back at the other fifteen, which is the region's invariant. No item writes
  an argument array. The reference is a straight line of host operations.

  Values. Entry `(b, t, e)` of the first result is, in both programs, a function of token row `(b, t)` of `x`, of the row
  before it, and of the parameters: the kernel's arrangement `Spec.resK`, the reference's `Spec.resR`. They differ in three
  places — the reference's `y + (round(clip y) − y)` against `round(clip y)`, a division by 127 against a product with 1/127,
  and a row scale applied inside against outside the last sum — and agree once every input entry is a real, which is the
  precondition. The second result is the last token's row in both.
-/
import proofs.«156918_j26774826123920_2_alg».proof.Defs
import proofs.«156918_j26774826123920_2_alg».proof.Proof.Gen.Kernel
import proofs.«156918_j26774826123920_2_alg».proof.Proof.Gen.KernelIdeal
import proofs.«156918_j26774826123920_2_alg».proof.Proof.Gen.ReferenceIdeal
import proofs.«156918_j26774826123920_2_alg».proof.Proof.Gen.Pre_finite_inputs
import proofs.«156918_j26774826123920_2_alg».proof.Proof.KRun
import proofs.«156918_j26774826123920_2_alg».proof.Proof.KIRun
import proofs.«156918_j26774826123920_2_alg».proof.Proof.KIBridge
import proofs.«156918_j26774826123920_2_alg».proof.Proof.RefRunP
import proofs.«156918_j26774826123920_2_alg».proof.Proof.RefSide
import proofs.«156918_j26774826123920_2_alg».proof.Proof.AlgebraWhole
import proofs.«156918_j26774826123920_2_alg».proof.Proof.FinitePre
import Idealize.ShloMosaic.PureOps.IdealRules
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The word-level kernel program runs and leaves its arguments as launched. -/
theorem frame_kernel : Cert.frame_Kernel (hKernel := Cert.Kernel.Gen.facts) (hPre_finite_inputs := Cert.Pre_finite_inputs.Gen.facts) :=
  fun m ρ _ => Cert.Kernel.Fr.frame (F := Bits) m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Fr.frame (F := Ideal) m ρ

/-- The reference is host operations only: its run, with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.ValueP.run (F := Ideal) m ρ)

/-- The three named constants: the table gives `inv_127` the rational 1/127, which the printed constant is at the ideal instance. -/
theorem preserves : Cert.preserves_Kernel_KernelIdeal :=
  ⟨IdealRules.named_const.statement Cert.KernelIdeal.κ "inv_127" .f32 0x3C010204#32 ((1 / 127 : ℝ) : EReal) rfl,
   IdealRules.named_const.statement Cert.KernelIdeal.κ "inv_127" .f32 0x3C010204#32 ((1 / 127 : ℝ) : EReal) rfl,
   IdealRules.named_const.statement Cert.KernelIdeal.κ "inv_127" .f32 0x3C010204#32 ((1 / 127 : ℝ) : EReal) rfl⟩

/-- From memories agreeing on the arguments, both idealized programs end with the same two results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Fr.U20 m c Cert.KernelIdeal.main_v50, fun c => Cert.KernelIdeal.Fr.U20 m c Cert.KernelIdeal.main_v51,
    Cert.KernelIdeal.Fr.run_results (F := Ideal) m ρ, ?_⟩
  refine (θ_run Cert.ReferenceIdeal.defs _ _).mono (fun _ h c => ⟨(h c).1.trans ?_, (h c).2.1.trans ?_, (h c).2.2⟩)
    (Cert.ReferenceIdeal.ValueP.run (F := Ideal) m' ρ')
  · obtain ⟨h0, h1, h2, h3, h4, h5, h6, h7, h8, h9, h10, h11⟩ := Cert.FinitePre.real_of_fn _ _ _ _ _ _ _ _ _ _ _ _ (hpre c)
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    rw [Cert.RefSide.ref_res_fun]
    funext i
    obtain ⟨b, t, e, rfl⟩ : ∃ (b : Fin 4) (t e : Fin 2048), i = ix3 b t e := ⟨i 0, i 1, i 2, eq_ix3 i⟩
    exact ((Cert.KernelIdeal.Bridge.res_kernel m c b t e).trans
      (Cert.Algebra.res_eq _ _ _ _ _ _ _ _ _ _ _ _ h0 h1 h2 h3 h4 h5 h6 h7 h8 h9 h10 h11 b t e)).symm
  · rw [(hagree c).1]
    rw [Cert.RefSide.ref_last_fun]
    funext i
    obtain ⟨b, z, d, rfl⟩ : ∃ (b : Fin 4) (z : Fin 1) (d : Fin 2048), i = ix3 b z d := ⟨i 0, i 1, i 2, eq_ix3 i⟩
    obtain rfl : z = 0 := Subsingleton.elim _ _
    exact (Cert.KernelIdeal.Bridge.last_kernel m c b d).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
